-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S2x393216 : Shape := ⟨2, ![2, 393216]⟩
abbrev S393216 : Shape := ⟨1, ![393216]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S393216 : S_.BroadcastsInDim S393216 (![] : Fin 0 → Fin S393216.rank)
  reducesTo_S393216_S_d0 : S393216.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S2x393216 : S_.BroadcastsInDim S2x393216 (![] : Fin 0 → Fin S2x393216.rank)
  reducesTo_S2x393216_S_d0_1 : S2x393216.ReducesTo [0, 1] S_

variable [Facts]

def fn_part3 {F : FTy → Type} [FloatOps F] (main_arg1 : IVec S2x393216 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x393216 32 := broadcastInDim S2x393216 ![] bcast_S_S2x393216 main_c_22
  let main_v60 : IVec S2x393216 1 := cmpi .sge main_arg1 main_v59
  let main_c_23 : IVec S_ 32 := constantI S_ 32 12288#32
  let main_v61 : IVec S2x393216 32 := broadcastInDim S2x393216 ![] bcast_S_S2x393216 main_c_23
  let main_v62 : IVec S2x393216 1 := cmpi .slt main_arg1 main_v61
  let main_v63 : IVec S2x393216 1 := andi main_v60 main_v62
  let main_c_24 : IVec S_ 1 := constantI S_ 1 1#1
  let main_v64 : IVec S_ 1 := (fun x v => Host.reduce IntOp.andi x v reducesTo_S2x393216_S_d0_1 h_S_) main_v63 main_c_24
  let main_v65 : IVec S_ 1 := andi main_v58 main_v64
  main_v65

def fn_part2 {F : FTy → Type} [FloatOps F] (main_arg1 : IVec S2x393216 32) (main_arg8 : FVec F S128 .f32) (main_arg9 : FVec F S128x512 .f32) (main_arg10 : FVec F S512 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x512 .f32 := Host.absf main_arg9
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x393216 32) (main_arg5 : FVec F S128x128 .f32) (main_arg6 : FVec F S128 .f32) (main_arg7 : FVec F S128x128 .f32) (main_arg8 : FVec F S128 .f32) (main_arg9 : FVec F S128x512 .f32) (main_arg10 : FVec F S512 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S12288x512 .f32) (main_arg1 : IVec S2x393216 32) (main_arg2 : FVec F S393216 .f32) (main_arg3 : FVec F S512x128 .f32) (main_arg4 : FVec F S128 .f32) (main_arg5 : FVec F S128x128 .f32) (main_arg6 : FVec F S128 .f32) (main_arg7 : FVec F S128x128 .f32) (main_arg8 : FVec F S128 .f32) (main_arg9 : FVec F S128x512 .f32) (main_arg10 : FVec F S512 .f32) (main_arg11 : FVec F S128x128 .f32) (main_arg12 : FVec F S128 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S393216 .f32 := Host.absf main_arg2
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S12288x512 : Shape := ⟨2, ![12288, 512]⟩
abbrev S2x393216 : Shape := ⟨2, ![2, 393216]⟩
abbrev S393216 : Shape := ⟨1, ![393216]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S12288 : Shape := ⟨1, ![12288]⟩
abbrev S1x393216 : Shape := ⟨2, ![1, 393216]⟩
abbrev S405504 : Shape := ⟨1, ![405504]⟩
abbrev S_ : Shape := ⟨0, ![]⟩
abbrev S405504x1 : Shape := ⟨2, ![405504, 1]⟩
abbrev S12288x12288 : Shape := ⟨2, ![12288, 12288]⟩
abbrev S405504x2 : Shape := ⟨2, ![405504, 2]⟩
abbrev S1x128 : Shape := ⟨2, ![1, 128]⟩
abbrev S12288x128 : Shape := ⟨2, ![12288, 128]⟩
abbrev S1024x1024 : Shape := ⟨2, ![1024, 1024]⟩
abbrev S1024x512 : Shape := ⟨2, ![1024, 512]⟩
abbrev S1024x128 : Shape := ⟨2, ![1024, 128]⟩
abbrev S1x512 : Shape := ⟨2, ![1, 512]⟩

abbrev nBuf : Space → Nat
  | .hbm => 98
  | .vmem => 51
  | .smem => 0
  | _ => 0

abbrev bufTy : (tb : Table) → Fin (tcTables nBuf tb) → BufTy
  | .hbm, ⟨0, _⟩ => ⟨S12288x512, .f32⟩
  | .hbm, ⟨1, _⟩ => ⟨S2x393216, .i32⟩
  | .hbm, ⟨2, _⟩ => ⟨S393216, .f32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x512, .f32⟩
  | .hbm, ⟨10, _⟩ => ⟨S512, .f32⟩
  | .hbm, ⟨11, _⟩ => ⟨S128x128, .f32⟩
  | .hbm, ⟨12, _⟩ => ⟨S128, .f32⟩
  | .hbm, ⟨13, _⟩ => ⟨S12288, .i32⟩
  | .hbm, ⟨14, _⟩ => ⟨S1x393216, .i32⟩
  | .hbm, ⟨15, _⟩ => ⟨S393216, .i32⟩
  | .hbm, ⟨16, _⟩ => ⟨S405504, .i32⟩
  | .hbm, ⟨17, _⟩ => ⟨S1x393216, .i32⟩
  | .hbm, ⟨18, _⟩ => ⟨S393216, .i32⟩
  | .hbm, ⟨19, _⟩ => ⟨S405504, .i32⟩
  | .hbm, ⟨20, _⟩ => ⟨S_, .f32⟩
  | .hbm, ⟨21, _⟩ => ⟨S12288, .f32⟩
  | .hbm, ⟨22, _⟩ => ⟨S405504, .f32⟩
  | .hbm, ⟨23, _⟩ => ⟨S_, .f32⟩
  | .hbm, ⟨24, _⟩ => ⟨S12288, .f32⟩
  | .hbm, ⟨25, _⟩ => ⟨S405504x1, .i32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .i1⟩
  | .hbm, ⟨30, _⟩ => ⟨S12288, .f32⟩
  | .hbm, ⟨31, _⟩ => ⟨S_, .f32⟩
  | .hbm, ⟨32, _⟩ => ⟨S_, .f32⟩
  | .hbm, ⟨33, _⟩ => ⟨S12288, .f32⟩
  | .hbm, ⟨34, _⟩ => ⟨S12288, .f32⟩
  | .hbm, ⟨35, _⟩ => ⟨S_, .i32⟩
  | .hbm, ⟨36, _⟩ => ⟨S405504, .i32⟩
  | .hbm, ⟨37, _⟩ => ⟨S405504, .i1⟩
  | .hbm, ⟨38, _⟩ => ⟨S_, .i32⟩
  | .hbm, ⟨39, _⟩ => ⟨S405504, .i32⟩
  | .hbm, ⟨40, _⟩ => ⟨S405504, .i32⟩
  | .hbm, ⟨41, _⟩ => ⟨S405504, .i32⟩
  | .hbm, ⟨42, _⟩ => ⟨S405504x1, .i32⟩
  | .hbm, ⟨43, _⟩ => ⟨S405504, .f32⟩
  | .hbm, ⟨44, _⟩ => ⟨S405504, .f32⟩
  | .hbm, ⟨45, _⟩ => ⟨S_, .i32⟩
  | .hbm, ⟨46, _⟩ => ⟨S405504, .i32⟩
  | .hbm, ⟨47, _⟩ => ⟨S405504, .i1⟩
  | .hbm, ⟨48, _⟩ => ⟨S_, .i32⟩
  | .hbm, ⟨49, _⟩ => ⟨S405504, .i32⟩
  | .hbm, ⟨50, _⟩ => ⟨S405504, .i32⟩
  | .hbm, ⟨51, _⟩ => ⟨S405504, .i32⟩
  | .hbm, ⟨52, _⟩ => ⟨S405504x1, .i32⟩
  | .hbm, ⟨53, _⟩ => ⟨S405504, .f32⟩
  | .hbm, ⟨54, _⟩ => ⟨S405504, .f32⟩
  | .hbm, ⟨55, _⟩ => ⟨S_, .f32⟩
  | .hbm, ⟨56, _⟩ => ⟨S12288x12288, .f32⟩
  | .hbm, ⟨57, _⟩ => ⟨S_, .i32⟩
  | .hbm, ⟨58, _⟩ => ⟨S405504, .i32⟩
  | .hbm, ⟨59, _⟩ => ⟨S405504, .i1⟩
  | .hbm, ⟨60, _⟩ => ⟨S_, .i32⟩
  | .hbm, ⟨61, _⟩ => ⟨S405504, .i32⟩
  | .hbm, ⟨62, _⟩ => ⟨S405504, .i32⟩
  | .hbm, ⟨63, _⟩ => ⟨S405504, .i32⟩
  | .hbm, ⟨64, _⟩ => ⟨S_, .i32⟩
  | .hbm, ⟨65, _⟩ => ⟨S405504, .i32⟩
  | .hbm, ⟨66, _⟩ => ⟨S405504, .i1⟩
  | .hbm, ⟨67, _⟩ => ⟨S_, .i32⟩
  | .hbm, ⟨68, _⟩ => ⟨S405504, .i32⟩
  | .hbm, ⟨69, _⟩ => ⟨S405504, .i32⟩
  | .hbm, ⟨70, _⟩ => ⟨S405504, .i32⟩
  | .hbm, ⟨71, _⟩ => ⟨S405504x1, .i32⟩
  | .hbm, ⟨72, _⟩ => ⟨S405504x1, .i32⟩
  | .hbm, ⟨73, _⟩ => ⟨S405504x2, .i32⟩
  | .hbm, ⟨74, _⟩ => ⟨S12288x12288, .f32⟩
  | .hbm, ⟨75, _⟩ => ⟨S12288x12288, .bf16⟩
  | .hbm, ⟨76, _⟩ => ⟨S12288x512, .bf16⟩
  | .hbm, ⟨77, _⟩ => ⟨S512x128, .bf16⟩
  | .hbm, ⟨78, _⟩ => ⟨S1x128, .f32⟩
  | .hbm, ⟨79, _⟩ => ⟨S12288x128, .f32⟩
  | .hbm, ⟨80, _⟩ => ⟨S12288x128, .bf16⟩
  | .hbm, ⟨81, _⟩ => ⟨S128x128, .bf16⟩
  | .hbm, ⟨82, _⟩ => ⟨S1x128, .f32⟩
  | .hbm, ⟨83, _⟩ => ⟨S12288x128, .f32⟩
  | .hbm, ⟨84, _⟩ => ⟨S12288x128, .bf16⟩
  | .hbm, ⟨85, _⟩ => ⟨S128x128, .bf16⟩
  | .hbm, ⟨86, _⟩ => ⟨S1x128, .f32⟩
  | .hbm, ⟨87, _⟩ => ⟨S12288x128, .f32⟩
  | .hbm, ⟨88, _⟩ => ⟨S12288x128, .bf16⟩
  | .hbm, ⟨89, _⟩ => ⟨S128x512, .bf16⟩
  | .hbm, ⟨90, _⟩ => ⟨S1x512, .f32⟩
  | .hbm, ⟨91, _⟩ => ⟨S12288x512, .f32⟩
  | .hbm, ⟨92, _⟩ => ⟨S12288x128, .bf16⟩
  | .hbm, ⟨93, _⟩ => ⟨S128x128, .bf16⟩
  | .hbm, ⟨94, _⟩ => ⟨S1x128, .f32⟩
  | .hbm, ⟨95, _⟩ => ⟨S12288x128, .f32⟩
  | .hbm, ⟨96, _⟩ => ⟨S12288x128, .bf16⟩
  | .hbm, ⟨97, _⟩ => ⟨S12288x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S512x128, .bf16⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .bf16⟩
  | .local _ .vmem, ⟨12, _⟩ => ⟨S1024x128, .bf16⟩
  | .local _ .vmem, ⟨13, _⟩ => ⟨S128x128, .bf16⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x1024, .bf16⟩
  | .local _ .vmem, ⟨19, _⟩ => ⟨S1024x1024, .bf16⟩
  | .local _ .vmem, ⟨20, _⟩ => ⟨S1024x128, .bf16⟩
  | .local _ .vmem, ⟨21, _⟩ => ⟨S1024x128, .bf16⟩
  | .local _ .vmem, ⟨22, _⟩ => ⟨S128x128, .bf16⟩
  | .local _ .vmem, ⟨23, _⟩ => ⟨S1x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x1024, .bf16⟩
  | .local _ .vmem, ⟨28, _⟩ => ⟨S1024x1024, .bf16⟩
  | .local _ .vmem, ⟨29, _⟩ => ⟨S1024x128, .bf16⟩
  | .local _ .vmem, ⟨30, _⟩ => ⟨S1024x128, .bf16⟩
  | .local _ .vmem, ⟨31, _⟩ => ⟨S128x512, .bf16⟩
  | .local _ .vmem, ⟨32, _⟩ => ⟨S1x512, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x1024, .bf16⟩
  | .local _ .vmem, ⟨37, _⟩ => ⟨S1024x1024, .bf16⟩
  | .local _ .vmem, ⟨38, _⟩ => ⟨S1024x128, .bf16⟩
  | .local _ .vmem, ⟨39, _⟩ => ⟨S1024x128, .bf16⟩
  | .local _ .vmem, ⟨40, _⟩ => ⟨S128x128, .bf16⟩
  | .local _ .vmem, ⟨41, _⟩ => ⟨S1x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x128, .bf16⟩
  | .local _ .vmem, ⟨46, _⟩ => ⟨S1024x128, .bf16⟩
  | .local _ .vmem, ⟨47, _⟩ => ⟨S1024x128, .bf16⟩
  | .local _ .vmem, ⟨48, _⟩ => ⟨S1024x128, .bf16⟩
  | .local _ .vmem, ⟨49, _⟩ => ⟨S1024x1024, .f32⟩
  | .local _ .vmem, ⟨50, _⟩ => ⟨S1024x1024, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45

abbrev nD : Nat := 1
abbrev τ : Topo := Topo.v7x

variable {F : FTy → Type} [FloatOps F]

abbrev grid0 : Pipeline.Grid := ⟨2, ![12, 12], ![false, false]⟩

def k0_cond2 (i : grid0.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![12, 12], ![false, false]⟩

def k1_cond2 (i : grid1.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_11 : BitVec 32 := 0#32
  let v19 : BitVec 1 := Scalar.cmpi .ne v18 c0_i32_11
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![12, 12], ![false, false]⟩

def k2_cond2 (i : grid2.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_11 : BitVec 32 := 0#32
  let v19 : BitVec 1 := Scalar.cmpi .ne v18 c0_i32_11
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![12, 12], ![false, false]⟩

def k3_cond2 (i : grid3.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_11 : BitVec 32 := 0#32
  let v19 : BitVec 1 := Scalar.cmpi .ne v18 c0_i32_11
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S128x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![12, 12], ![false, false]⟩

def k4_cond2 (i : grid4.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_11 : BitVec 32 := 0#32
  let v19 : BitVec 1 := Scalar.cmpi .ne v18 c0_i32_11
  v19

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1024x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![12, 12], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S12288 : S_.BroadcastsInDim S12288 (![] : Fin 0 → Fin S12288.rank)
  bcast_S405504_S405504x1_0 : S405504.BroadcastsInDim S405504x1 (![0] : Fin 1 → Fin S405504x1.rank)
  bcast_S_S405504 : S_.BroadcastsInDim S405504 (![] : Fin 0 → Fin S405504.rank)
  bcast_S_S12288x12288 : S_.BroadcastsInDim S12288x12288 (![] : Fin 0 → Fin S12288x12288.rank)
  concatenates_S405504x1_S405504x1_S405504x2_d1 : Shape.Concatenates [S405504x1, S405504x1] S405504x2 1
  bitsLt_bf16_f32 : FTy.bits .bf16 < FTy.bits .f32
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S512_S1x512 : S512.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  scatter_S12288x12288_S405504x2_S405504_n_01_01_1_wf : ScatterDims.WF S12288x12288 S405504x2 S405504 [] [0, 1] [0, 1] 1
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x512_S1024x512_1_0_0_1_n_n_wf : DotDims.WF S1024x128 S128x512 S1024x512 [1] [0] [0] [1] [] []
  dot_S1024x1024_S1024x512_S1024x512_1_0_0_1_n_n_wf : DotDims.WF S1024x1024 S1024x512 S1024x512 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S12288x12288.size a
  hwx0_0 : ∀ i : grid0.Coords, EltTy.bits .bf16 = 32 ∨ (Rect.block (s := S12288x12288) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S12288x512.size a
  hwx0_1 : ∀ i : grid0.Coords, EltTy.bits .bf16 = 32 ∨ (Rect.block (s := S12288x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S12288x128.size a
  hwx0_4 : ∀ i : grid0.Coords, EltTy.bits .f32 = 32 ∨ (Rect.block (s := S12288x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S12288x12288.size a
  hwx1_0 : ∀ i : grid1.Coords, EltTy.bits .bf16 = 32 ∨ (Rect.block (s := S12288x12288) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S12288x128.size a
  hwx1_1 : ∀ i : grid1.Coords, EltTy.bits .bf16 = 32 ∨ (Rect.block (s := S12288x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S12288x128.size a
  hwx1_4 : ∀ i : grid1.Coords, EltTy.bits .f32 = 32 ∨ (Rect.block (s := S12288x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S12288x12288.size a
  hwx2_0 : ∀ i : grid2.Coords, EltTy.bits .bf16 = 32 ∨ (Rect.block (s := S12288x12288) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S12288x128.size a
  hwx2_1 : ∀ i : grid2.Coords, EltTy.bits .bf16 = 32 ∨ (Rect.block (s := S12288x128) S1024x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S12288x128.size a
  hwx2_4 : ∀ i : grid2.Coords, EltTy.bits .f32 = 32 ∨ (Rect.block (s := S12288x128) S1024x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S12288x12288.size a
  hwx3_0 : ∀ i : grid3.Coords, EltTy.bits .bf16 = 32 ∨ (Rect.block (s := S12288x12288) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S12288x128.size a
  hwx3_1 : ∀ i : grid3.Coords, EltTy.bits .bf16 = 32 ∨ (Rect.block (s := S12288x128) S1024x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x512.size a ≤ S128x512.size a
  hwx3_2 : ∀ i : grid3.Coords, EltTy.bits .bf16 = 32 ∨ (Rect.block (s := S128x512) S128x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S12288x512.size a
  hwx3_4 : ∀ i : grid3.Coords, EltTy.bits .f32 = 32 ∨ (Rect.block (s := S12288x512) S1024x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S12288x12288.size a
  hwx4_0 : ∀ i : grid4.Coords, EltTy.bits .bf16 = 32 ∨ (Rect.block (s := S12288x12288) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S12288x128.size a
  hwx4_1 : ∀ i : grid4.Coords, EltTy.bits .bf16 = 32 ∨ (Rect.block (s := S12288x128) S1024x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x128.size a ≤ S12288x128.size a
  hwx4_4 : ∀ i : grid4.Coords, EltTy.bits .f32 = 32 ∨ (Rect.block (s := S12288x128) S1024x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S12288x128.size a
  hwx5_0 : ∀ i : grid5.Coords, EltTy.bits .bf16 = 32 ∨ (Rect.block (s := S12288x128) S1024x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S12288x128.size a
  hwx5_1 : ∀ i : grid5.Coords, EltTy.bits .bf16 = 32 ∨ (Rect.block (s := S12288x128) S1024x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S12288x12288.size a
  hwx5_2 : ∀ i : grid5.Coords, EltTy.bits .f32 = 32 ∨ (Rect.block (s := S12288x12288) S1024x1024.size (cc5_transform_2 i) (hinb5_2 i)).WholeWords (EltTy.packing .f32)

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def scatter_S12288x12288_S405504x2_S405504_n_01_01_1 : ScatterDims S12288x12288 S405504x2 S405504 where
  updateWindowDims := []
  insertedWindowDims := [0, 1]
  scatterDimsToOperandDims := [0, 1]
  indexVectorDim := 1
  wf := scatter_S12288x12288_S405504x2_S405504_n_01_01_1_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v47) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v47) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v47) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v47) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S128x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1024x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v47) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1024x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v68) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S12288x512 : Shape := ⟨2, ![12288, 512]⟩
abbrev S2x393216 : Shape := ⟨2, ![2, 393216]⟩
abbrev S393216 : Shape := ⟨1, ![393216]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S12288 : Shape := ⟨1, ![12288]⟩
abbrev S1x393216 : Shape := ⟨2, ![1, 393216]⟩
abbrev S405504 : Shape := ⟨1, ![405504]⟩
abbrev S_ : Shape := ⟨0, ![]⟩
abbrev S405504x1 : Shape := ⟨2, ![405504, 1]⟩
abbrev S12288x128 : Shape := ⟨2, ![12288, 128]⟩
abbrev S405504x128 : Shape := ⟨2, ![405504, 128]⟩
abbrev S1x128 : Shape := ⟨2, ![1, 128]⟩
abbrev S405504x512 : Shape := ⟨2, ![405504, 512]⟩
abbrev S1x512 : Shape := ⟨2, ![1, 512]⟩
abbrev S128x12288 : Shape := ⟨2, ![128, 12288]⟩
abbrev S12288x12288 : Shape := ⟨2, ![12288, 12288]⟩

abbrev nBuf : Space → Nat
  | .hbm => 172
  | .vmem => 0
  | .smem => 0
  | _ => 0

abbrev hbmTy0_0 (i : Nat) : BufTy := match i % 128 with
  | 0 => ⟨S12288x512, .f32⟩
  | 1 => ⟨S2x393216, .i32⟩
  | 2 => ⟨S393216, .f32⟩
  | 3 => ⟨S512x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x512, .f32⟩
  | 10 => ⟨S512, .f32⟩
  | 11 => ⟨S128x128, .f32⟩
  | 12 => ⟨S128, .f32⟩
  | 13 => ⟨S12288, .i32⟩
  | 14 => ⟨S1x393216, .i32⟩
  | 15 => ⟨S393216, .i32⟩
  | 16 => ⟨S405504, .i32⟩
  | 17 => ⟨S1x393216, .i32⟩
  | 18 => ⟨S393216, .i32⟩
  | 19 => ⟨S405504, .i32⟩
  | 20 => ⟨S_, .f32⟩
  | 21 => ⟨S12288, .f32⟩
  | 22 => ⟨S405504, .f32⟩
  | 23 => ⟨S_, .f32⟩
  | 24 => ⟨S12288, .f32⟩
  | 25 => ⟨S405504x1, .i32⟩
  | 26 => ⟨S12288, .f32⟩
  | 27 => ⟨S_, .f32⟩
  | 28 => ⟨S12288, .f32⟩
  | 29 => ⟨S12288, .i1⟩
  | 30 => ⟨S12288, .f32⟩
  | 31 => ⟨S_, .f32⟩
  | 32 => ⟨S_, .f32⟩
  | 33 => ⟨S12288, .f32⟩
  | 34 => ⟨S12288, .f32⟩
  | 35 => ⟨S_, .i32⟩
  | 36 => ⟨S405504, .i32⟩
  | 37 => ⟨S405504, .i1⟩
  | 38 => ⟨S_, .i32⟩
  | 39 => ⟨S405504, .i32⟩
  | 40 => ⟨S405504, .i32⟩
  | 41 => ⟨S405504, .i32⟩
  | 42 => ⟨S405504x1, .i32⟩
  | 43 => ⟨S405504, .f32⟩
  | 44 => ⟨S405504, .f32⟩
  | 45 => ⟨S_, .i32⟩
  | 46 => ⟨S405504, .i32⟩
  | 47 => ⟨S405504, .i1⟩
  | 48 => ⟨S_, .i32⟩
  | 49 => ⟨S405504, .i32⟩
  | 50 => ⟨S405504, .i32⟩
  | 51 => ⟨S405504, .i32⟩
  | 52 => ⟨S405504x1, .i32⟩
  | 53 => ⟨S405504, .f32⟩
  | 54 => ⟨S405504, .f32⟩
  | 55 => ⟨S12288x128, .f32⟩
  | 56 => ⟨S405504x1, .f32⟩
  | 57 => ⟨S_, .i32⟩
  | 58 => ⟨S405504, .i32⟩
  | 59 => ⟨S405504, .i1⟩
  | 60 => ⟨S_, .i32⟩
  | 61 => ⟨S405504, .i32⟩
  | 62 => ⟨S405504, .i32⟩
  | 63 => ⟨S405504, .i32⟩
  | 64 => ⟨S405504x1, .i32⟩
  | 65 => ⟨S405504x128, .f32⟩
  | 66 => ⟨S405504x128, .f32⟩
  | 67 => ⟨S405504x128, .f32⟩
  | 68 => ⟨S_, .f32⟩
  | 69 => ⟨S12288x128, .f32⟩
  | 70 => ⟨S405504x1, .i32⟩
  | 71 => ⟨S12288x128, .f32⟩
  | 72 => ⟨S1x128, .f32⟩
  | 73 => ⟨S12288x128, .f32⟩
  | 74 => ⟨S12288x128, .f32⟩
  | 75 => ⟨S_, .f32⟩
  | 76 => ⟨S12288x128, .f32⟩
  | 77 => ⟨S12288x128, .f32⟩
  | 78 => ⟨S12288x128, .f32⟩
  | 79 => ⟨S405504x1, .f32⟩
  | 80 => ⟨S_, .i32⟩
  | 81 => ⟨S405504, .i32⟩
  | 82 => ⟨S405504, .i1⟩
  | 83 => ⟨S_, .i32⟩
  | 84 => ⟨S405504, .i32⟩
  | 85 => ⟨S405504, .i32⟩
  | 86 => ⟨S405504, .i32⟩
  | 87 => ⟨S405504x1, .i32⟩
  | 88 => ⟨S405504x128, .f32⟩
  | 89 => ⟨S405504x128, .f32⟩
  | 90 => ⟨S405504x128, .f32⟩
  | 91 => ⟨S_, .f32⟩
  | 92 => ⟨S12288x128, .f32⟩
  | 93 => ⟨S405504x1, .i32⟩
  | 94 => ⟨S12288x128, .f32⟩
  | 95 => ⟨S1x128, .f32⟩
  | 96 => ⟨S12288x128, .f32⟩
  | 97 => ⟨S12288x128, .f32⟩
  | 98 => ⟨S_, .f32⟩
  | 99 => ⟨S12288x128, .f32⟩
  | 100 => ⟨S12288x128, .f32⟩
  | 101 => ⟨S12288x128, .f32⟩
  | 102 => ⟨S405504x1, .f32⟩
  | 103 => ⟨S_, .i32⟩
  | 104 => ⟨S405504, .i32⟩
  | 105 => ⟨S405504, .i1⟩
  | 106 => ⟨S_, .i32⟩
  | 107 => ⟨S405504, .i32⟩
  | 108 => ⟨S405504, .i32⟩
  | 109 => ⟨S405504, .i32⟩
  | 110 => ⟨S405504x1, .i32⟩
  | 111 => ⟨S405504x128, .f32⟩
  | 112 => ⟨S405504x128, .f32⟩
  | 113 => ⟨S405504x128, .f32⟩
  | 114 => ⟨S_, .f32⟩
  | 115 => ⟨S12288x128, .f32⟩
  | 116 => ⟨S405504x1, .i32⟩
  | 117 => ⟨S12288x128, .f32⟩
  | 118 => ⟨S1x128, .f32⟩
  | 119 => ⟨S12288x128, .f32⟩
  | 120 => ⟨S12288x128, .f32⟩
  | 121 => ⟨S_, .f32⟩
  | 122 => ⟨S12288x128, .f32⟩
  | 123 => ⟨S12288x128, .f32⟩
  | 124 => ⟨S12288x512, .f32⟩
  | 125 => ⟨S405504x1, .f32⟩
  | 126 => ⟨S_, .i32⟩
  | 127 => ⟨S405504, .i32⟩
  | _ => ⟨S12288x512, .f32⟩

abbrev hbmTy0_1 (i : Nat) : BufTy := match i % 128 with
  | 0 => ⟨S405504, .i1⟩
  | 1 => ⟨S_, .i32⟩
  | 2 => ⟨S405504, .i32⟩
  | 3 => ⟨S405504, .i32⟩
  | 4 => ⟨S405504, .i32⟩
  | 5 => ⟨S405504x1, .i32⟩
  | 6 => ⟨S405504x512, .f32⟩
  | 7 => ⟨S405504x512, .f32⟩
  | 8 => ⟨S405504x512, .f32⟩
  | 9 => ⟨S_, .f32⟩
  | 10 => ⟨S12288x512, .f32⟩
  | 11 => ⟨S405504x1, .i32⟩
  | 12 => ⟨S12288x512, .f32⟩
  | 13 => ⟨S1x512, .f32⟩
  | 14 => ⟨S12288x512, .f32⟩
  | 15 => ⟨S12288x512, .f32⟩
  | 16 => ⟨S_, .f32⟩
  | 17 => ⟨S12288x512, .f32⟩
  | 18 => ⟨S12288x512, .f32⟩
  | 19 => ⟨S12288x128, .f32⟩
  | 20 => ⟨S405504x1, .f32⟩
  | 21 => ⟨S_, .i32⟩
  | 22 => ⟨S405504, .i32⟩
  | 23 => ⟨S405504, .i1⟩
  | 24 => ⟨S_, .i32⟩
  | 25 => ⟨S405504, .i32⟩
  | 26 => ⟨S405504, .i32⟩
  | 27 => ⟨S405504, .i32⟩
  | 28 => ⟨S405504x1, .i32⟩
  | 29 => ⟨S405504x128, .f32⟩
  | 30 => ⟨S405504x128, .f32⟩
  | 31 => ⟨S405504x128, .f32⟩
  | 32 => ⟨S_, .f32⟩
  | 33 => ⟨S12288x128, .f32⟩
  | 34 => ⟨S405504x1, .i32⟩
  | 35 => ⟨S12288x128, .f32⟩
  | 36 => ⟨S1x128, .f32⟩
  | 37 => ⟨S12288x128, .f32⟩
  | 38 => ⟨S12288x128, .f32⟩
  | 39 => ⟨S_, .f32⟩
  | 40 => ⟨S12288x128, .f32⟩
  | 41 => ⟨S12288x128, .f32⟩
  | 42 => ⟨S128x12288, .f32⟩
  | 43 => ⟨S12288x12288, .f32⟩
  | _ => ⟨S12288x512, .f32⟩

abbrev hbmTy (i : Nat) : BufTy := match i / 128 with
  | 0 => hbmTy0_0 i
  | 1 => hbmTy0_1 i
  | _ => ⟨S12288x512, .f32⟩

abbrev bufTy : (tb : Table) → Fin (tcTables nBuf tb) → BufTy
  | .hbm, ⟨i, _⟩ => hbmTy i
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_12 : Ref sig .tc := ⟨.hbm, 103, rfl⟩
abbrev main_v70 : Ref sig .tc := ⟨.hbm, 104, rfl⟩
abbrev main_v71 : Ref sig .tc := ⟨.hbm, 105, rfl⟩
abbrev main_c_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_15 : Ref sig .tc := ⟨.hbm, 126, rfl⟩
abbrev main_v88 : Ref sig .tc := ⟨.hbm, 127, rfl⟩
abbrev main_v89 : Ref sig .tc := ⟨.hbm, 128, rfl⟩
abbrev main_c_16 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call4_cst : Ref sig .tc := ⟨.hbm, 144, rfl⟩
abbrev main_call4_v0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_18 : Ref sig .tc := ⟨.hbm, 149, rfl⟩
abbrev main_v106 : Ref sig .tc := ⟨.hbm, 150, rfl⟩
abbrev main_v107 : Ref sig .tc := ⟨.hbm, 151, rfl⟩
abbrev main_c_19 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_20 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_call5_cst : Ref sig .tc := ⟨.hbm, 167, rfl⟩
abbrev main_call5_v0 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S12288 : S_.BroadcastsInDim S12288 (![] : Fin 0 → Fin S12288.rank)
  bcast_S405504_S405504x1_0 : S405504.BroadcastsInDim S405504x1 (![0] : Fin 1 → Fin S405504x1.rank)
  bcast_S_S405504 : S_.BroadcastsInDim S405504 (![] : Fin 0 → Fin S405504.rank)
  bcast_S405504x1_S405504x128_0_1 : S405504x1.BroadcastsInDim S405504x128 (![0, 1] : Fin 2 → Fin S405504x128.rank)
  bcast_S_S12288x128 : S_.BroadcastsInDim S12288x128 (![] : Fin 0 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  bcast_S405504x1_S405504x512_0_1 : S405504x1.BroadcastsInDim S405504x512 (![0, 1] : Fin 2 → Fin S405504x512.rank)
  bcast_S_S12288x512 : S_.BroadcastsInDim S12288x512 (![] : Fin 0 → Fin S12288x512.rank)
  bcast_S512_S1x512_1 : S512.BroadcastsInDim S1x512 (![1] : Fin 1 → Fin S1x512.rank)
  bcast_S1x512_S12288x512_0_1 : S1x512.BroadcastsInDim S12288x512 (![0, 1] : Fin 2 → Fin S12288x512.rank)
  transposes_S12288x128_S128x12288_1_0 : S12288x128.Transposes [1, 0] S128x12288
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  dot_S12288x512_S512x128_S12288x128_1_0_0_1_n_n_wf : DotDims.WF S12288x512 S512x128 S12288x128 [1] [0] [0] [1] [] []
  gather_S12288x128_S405504x1_S405504x128_1_0_n_n_0_1_1128_wf : GatherDims.WF S12288x128 S405504x1 S405504x128 [1] [0] [] [0] [] 1 ![1, 128]
  scatter_S12288x128_S405504x1_S405504x128_1_0_0_1_wf : ScatterDims.WF S12288x128 S405504x1 S405504x128 [1] [0] [0] 1
  dot_S12288x128_S128x128_S12288x128_1_0_0_1_n_n_wf : DotDims.WF S12288x128 S128x128 S12288x128 [1] [0] [0] [1] [] []
  dot_S12288x128_S128x512_S12288x512_1_0_0_1_n_n_wf : DotDims.WF S12288x128 S128x512 S12288x512 [1] [0] [0] [1] [] []
  gather_S12288x512_S405504x1_S405504x512_1_0_n_n_0_1_1512_wf : GatherDims.WF S12288x512 S405504x1 S405504x512 [1] [0] [] [0] [] 1 ![1, 512]
  scatter_S12288x512_S405504x1_S405504x512_1_0_0_1_wf : ScatterDims.WF S12288x512 S405504x1 S405504x512 [1] [0] [0] 1
  dot_S12288x128_S128x12288_S12288x12288_1_0_0_1_n_n_wf : DotDims.WF S12288x128 S128x12288 S12288x12288 [1] [0] [0] [1] [] []

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def dot_S12288x512_S512x128_S12288x128_1_0_0_1_n_n : DotDims S12288x512 S512x128 S12288x128 where
  lhsContracting := [1]
  rhsContracting := [0]
  lhsNonContracting := [0]
  rhsNonContracting := [1]
  lhsBatch := []
  rhsBatch := []
  wf := dot_S12288x512_S512x128_S12288x128_1_0_0_1_n_n_wf
def gather_S12288x128_S405504x1_S405504x128_1_0_n_n_0_1_1128 : GatherDims S12288x128 S405504x1 S405504x128 where
  offsetDims := [1]
  collapsedSliceDims := [0]
  operandBatchingDims := []
  startIndicesBatchingDims := []
  startIndexMap := [0]
  indexVectorDim := 1
  sliceSizes := ![1, 128]
  wf := gather_S12288x128_S405504x1_S405504x128_1_0_n_n_0_1_1128_wf
def scatter_S12288x128_S405504x1_S405504x128_1_0_0_1 : ScatterDims S12288x128 S405504x1 S405504x128 where
  updateWindowDims := [1]
  insertedWindowDims := [0]
  scatterDimsToOperandDims := [0]
  indexVectorDim := 1
  wf := scatter_S12288x128_S405504x1_S405504x128_1_0_0_1_wf
def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def dot_S12288x128_S128x512_S12288x512_1_0_0_1_n_n : DotDims S12288x128 S128x512 S12288x512 where
  lhsContracting := [1]
  rhsContracting := [0]
  lhsNonContracting := [0]
  rhsNonContracting := [1]
  lhsBatch := []
  rhsBatch := []
  wf := dot_S12288x128_S128x512_S12288x512_1_0_0_1_n_n_wf
def gather_S12288x512_S405504x1_S405504x512_1_0_n_n_0_1_1512 : GatherDims S12288x512 S405504x1 S405504x512 where
  offsetDims := [1]
  collapsedSliceDims := [0]
  operandBatchingDims := []
  startIndicesBatchingDims := []
  startIndexMap := [0]
  indexVectorDim := 1
  sliceSizes := ![1, 512]
  wf := gather_S12288x512_S405504x1_S405504x512_1_0_n_n_0_1_1512_wf
def scatter_S12288x512_S405504x1_S405504x512_1_0_0_1 : ScatterDims S12288x512 S405504x1 S405504x512 where
  updateWindowDims := [1]
  insertedWindowDims := [0]
  scatterDimsToOperandDims := [0]
  indexVectorDim := 1
  wf := scatter_S12288x512_S405504x1_S405504x512_1_0_0_1_wf
def dot_S12288x128_S128x12288_S12288x12288_1_0_0_1_n_n : DotDims S12288x128 S128x12288 S12288x12288 where
  lhsContracting := [1]
  rhsContracting := [0]
  lhsNonContracting := [0]
  rhsNonContracting := [1]
  lhsBatch := []
  rhsBatch := []
  wf := dot_S12288x128_S128x12288_S12288x12288_1_0_0_1_n_n_wf

class Facts : Prop extends Facts₀ where

variable [Facts]
-- ==== Proof.KW.ChainIn.lean ====
import proofs.«164907_j26860725469614_1_alg».proof.Proof.Gen.Kernel.Launch
import proofs.«164907_j26860725469614_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, read at the TensorCore's references: what a region's proof data
    are stated at (the contents the region is entered from). -/
abbrev TcVal (F : FTy → Type) [FloatOps F] : Type :=
  (c : Dev nD) → (b : Ref sig .tc) → Buf (Elt F) ((c : Thread nD τ).loc b)

/-- A valuation of every device buffer, per core, read at the TensorCore's references. -/
abbrev tcOf (W : Dev nD → Valuation τ sig (Elt F)) : TcVal F := fun c b => W c b

/-! # What each region's proof hands the run

Per region, at any entry contents `V`: the proof data, its entry arrays read off `V`, full shares of the inputs,
nothing owed and no bound on the recorded pairs, the body obligation, and the two entailments between the class invariant `ΦA` (every scratch buffer at
some contents, the generator register at some state) and the proof data's invariant at the first and the last point:
a layer's accumulator is carried from point to point, so the invariant in between names its contents. -/

/-- Region 0's ingredients (a layer: windows 0–3 inputs, window 4 the output, one carried accumulator). -/
structure Reg0 where
  dat : TcVal F → (c : Dev nD) → Dat τ (Elt F) Unit ℕ (UR sig nD τ) ℕ cfg0 c
  A_eq : ∀ (V : TcVal F) (c : Dev nD) (w : Fin cfg0.W), (dat V c).A w = V c (Pipeline.arrRef spec0 w)
  q_full : ∀ (V : TcVal F) (c : Dev nD) (w : Fin cfg0.W), (dat V c).q w = fullShare
  owed_zero : ∀ (V : TcVal F) (c : Dev nD) (t : Fin (cfg0.N + 1)), (dat V c).owed t = 0
  recorded_univ : ∀ (V : TcVal F) (c : Dev nD) (t : Fin (cfg0.N + 1)), (dat V c).recorded t = Set.univ
  body : ∀ (V : TcVal F) (c : Dev nD), BodyObligation (dat V c) (defs₀ (F := F)) Variants.none () Set.univ
  hin : ∀ (V : TcVal F) (c : Dev nD), (Pipeline.ΦA spec0 c : sProp 𝕄) ⊢ (dat V c).Φ 0
  hout : ∀ (V : TcVal F) (c : Dev nD), (dat V c).Φ (Fin.last cfg0.N) ⊢ (Pipeline.ΦA spec0 c : sProp 𝕄)

/-- Region 1's ingredients (a layer: windows 0–3 inputs, window 4 the output, one carried accumulator). -/
structure Reg1 where
  dat : TcVal F → (c : Dev nD) → Dat τ (Elt F) Unit ℕ (UR sig nD τ) ℕ cfg1 c
  A_eq : ∀ (V : TcVal F) (c : Dev nD) (w : Fin cfg1.W), (dat V c).A w = V c (Pipeline.arrRef spec1 w)
  q_full : ∀ (V : TcVal F) (c : Dev nD) (w : Fin cfg1.W), (dat V c).q w = fullShare
  owed_zero : ∀ (V : TcVal F) (c : Dev nD) (t : Fin (cfg1.N + 1)), (dat V c).owed t = 0
  recorded_univ : ∀ (V : TcVal F) (c : Dev nD) (t : Fin (cfg1.N + 1)), (dat V c).recorded t = Set.univ
  body : ∀ (V : TcVal F) (c : Dev nD), BodyObligation (dat V c) (defs₀ (F := F)) Variants.none () Set.univ
  hin : ∀ (V : TcVal F) (c : Dev nD), (Pipeline.ΦA spec1 c : sProp 𝕄) ⊢ (dat V c).Φ 0
  hout : ∀ (V : TcVal F) (c : Dev nD), (dat V c).Φ (Fin.last cfg1.N) ⊢ (Pipeline.ΦA spec1 c : sProp 𝕄)

/-- Region 2's ingredients (a layer: windows 0–3 inputs, window 4 the output, one carried accumulator). -/
structure Reg2 where
  dat : TcVal F → (c : Dev nD) → Dat τ (Elt F) Unit ℕ (UR sig nD τ) ℕ cfg2 c
  A_eq : ∀ (V : TcVal F) (c : Dev nD) (w : Fin cfg2.W), (dat V c).A w = V c (Pipeline.arrRef spec2 w)
  q_full : ∀ (V : TcVal F) (c : Dev nD) (w : Fin cfg2.W), (dat V c).q w = fullShare
  owed_zero : ∀ (V : TcVal F) (c : Dev nD) (t : Fin (cfg2.N + 1)), (dat V c).owed t = 0
  recorded_univ : ∀ (V : TcVal F) (c : Dev nD) (t : Fin (cfg2.N + 1)), (dat V c).recorded t = Set.univ
  body : ∀ (V : TcVal F) (c : Dev nD), BodyObligation (dat V c) (defs₀ (F := F)) Variants.none () Set.univ
  hin : ∀ (V : TcVal F) (c : Dev nD), (Pipeline.ΦA spec2 c : sProp 𝕄) ⊢ (dat V c).Φ 0
  hout : ∀ (V : TcVal F) (c : Dev nD), (dat V c).Φ (Fin.last cfg2.N) ⊢ (Pipeline.ΦA spec2 c : sProp 𝕄)

/-- Region 3's ingredients (a layer: windows 0–3 inputs, window 4 the output, one carried accumulator). -/
structure Reg3 where
  dat : TcVal F → (c : Dev nD) → Dat τ (Elt F) Unit ℕ (UR sig nD τ) ℕ cfg3 c
  A_eq : ∀ (V : TcVal F) (c : Dev nD) (w : Fin cfg3.W), (dat V c).A w = V c (Pipeline.arrRef spec3 w)
  q_full : ∀ (V : TcVal F) (c : Dev nD) (w : Fin cfg3.W), (dat V c).q w = fullShare
  owed_zero : ∀ (V : TcVal F) (c : Dev nD) (t : Fin (cfg3.N + 1)), (dat V c).owed t = 0
  recorded_univ : ∀ (V : TcVal F) (c : Dev nD) (t : Fin (cfg3.N + 1)), (dat V c).recorded t = Set.univ
  body : ∀ (V : TcVal F) (c : Dev nD), BodyObligation (dat V c) (defs₀ (F := F)) Variants.none () Set.univ
  hin : ∀ (V : TcVal F) (c : Dev nD), (Pipeline.ΦA spec3 c : sProp 𝕄) ⊢ (dat V c).Φ 0
  hout : ∀ (V : TcVal F) (c : Dev nD), (dat V c).Φ (Fin.last cfg3.N) ⊢ (Pipeline.ΦA spec3 c : sProp 𝕄)

/-- Region 4's ingredients (a layer: windows 0–3 inputs, window 4 the output, one carried accumulator). -/
structure Reg4 where
  dat : TcVal F → (c : Dev nD) → Dat τ (Elt F) Unit ℕ (UR sig nD τ) ℕ cfg4 c
  A_eq : ∀ (V : TcVal F) (c : Dev nD) (w : Fin cfg4.W), (dat V c).A w = V c (Pipeline.arrRef spec4 w)
  q_full : ∀ (V : TcVal F) (c : Dev nD) (w : Fin cfg4.W), (dat V c).q w = fullShare
  owed_zero : ∀ (V : TcVal F) (c : Dev nD) (t : Fin (cfg4.N + 1)), (dat V c).owed t = 0
  recorded_univ : ∀ (V : TcVal F) (c : Dev nD) (t : Fin (cfg4.N + 1)), (dat V c).recorded t = Set.univ
  body : ∀ (V : TcVal F) (c : Dev nD), BodyObligation (dat V c) (defs₀ (F := F)) Variants.none () Set.univ
  hin : ∀ (V : TcVal F) (c : Dev nD), (Pipeline.ΦA spec4 c : sProp 𝕄) ⊢ (dat V c).Φ 0
  hout : ∀ (V : TcVal F) (c : Dev nD), (dat V c).Φ (Fin.last cfg4.N) ⊢ (Pipeline.ΦA spec4 c : sProp 𝕄)

/-- Region 5's ingredients (the product of the last layer's result with its own transpose: windows 0 and 1 both read
    the same array, each at a share of its own, window 2 is the output). Two windows on one array: the arrays are
    split out of the core's unscoped buffers, and put back, by entailments of the region's own (`hsplit`, `hjoin`),
    stated at any contents `W` the region is entered from; `Z W c` is what bypasses the region. At the exit the
    output array holds what the write-backs leave and every other buffer what it held. -/
structure Reg5 where
  dat : TcVal F → (c : Dev nD) → Dat τ (Elt F) Unit ℕ (UR sig nD τ) ℕ cfg5 c
  A_eq : ∀ (V : TcVal F) (c : Dev nD) (w : Fin cfg5.W), (dat V c).A w = V c (Pipeline.arrRef spec5 w)
  owed_zero : ∀ (V : TcVal F) (c : Dev nD) (t : Fin (cfg5.N + 1)), (dat V c).owed t = 0
  recorded_univ : ∀ (V : TcVal F) (c : Dev nD) (t : Fin (cfg5.N + 1)), (dat V c).recorded t = Set.univ
  body : ∀ (V : TcVal F) (c : Dev nD), BodyObligation (dat V c) (defs₀ (F := F)) Variants.none () Set.univ
  hin : ∀ (V : TcVal F) (c : Dev nD), (Pipeline.ΦA spec5 c : sProp 𝕄) ⊢ (dat V c).Φ 0
  hout : ∀ (V : TcVal F) (c : Dev nD), (dat V c).Φ (Fin.last cfg5.N) ⊢ (Pipeline.ΦA spec5 c : sProp 𝕄)
  Z : (Dev nD → Valuation τ sig (Elt F)) → Dev nD → sProp 𝕄
  hsplit : ∀ (W : Dev nD → Valuation τ sig (Elt F)) (c : Dev nD),
    (StableHlo.held (c : Thread nD τ) (Pipeline.ucRefs τ sig) (W c) : sProp 𝕄)
      ⊢ |={Set.univ}=> iprop((dat (tcOf W) c).arrays ((dat (tcOf W) c).arrAt · 0) ∗ Z W c)
  hjoin : ∀ (W : Dev nD → Valuation τ sig (Elt F)) (c : Dev nD),
    iprop((dat (tcOf W) c).arrays ((dat (tcOf W) c).arrAt · cfg5.N) ∗ Z W c)
      ⊢ |={Set.univ}=> (StableHlo.held (c : Thread nD τ) (Pipeline.ucRefs τ sig)
          (Function.update (W c) main_v69 ((dat (tcOf W) c).arrAt 2 cfg5.N)) : sProp 𝕄)

end Cert.Kernel.Hand

end
-- ==== Proof.KW.ChainFold.lean ====
import proofs.«164907_j26860725469614_1_alg».proof.Proof.KW.ChainIn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Reg0 (F := F)) (R1 : Reg1 (F := F)) (R2 : Reg2 (F := F)) (R3 : Reg3 (F := F)) (R4 : Reg4 (F := F)) (R5 : Reg5 (F := F))

/-! # The buffer contents at each segment boundary: a fold through @main

@main is three stretches of host operations, then five layers each preceded by a short stretch (the casts of the
layer's operands), then a last cast and the product. `W0` is the launch memory; a stretch's boundary is
`StableHlo.after` of its operations; a layer's exit has the layer's arrays at what its write-backs leave and every other
buffer as entered. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : TcVal F := tcOf (W3 m ρ)

/-- At region 0's exit: its arrays at what the pipeline leaves, every other buffer as entered. -/
def W4 (c : Dev nD) : Valuation τ sig (Elt F) :=
  Pipeline.withArrays spec0 c (W3 m ρ c) fun w => (R0.dat (V3 m ρ) c).arrAt w cfg0.N
theorem W4_arr (c : Dev nD) (w : Fin cfg0.W) :
    W4 m ρ R0 c (Proc.devRef .tc (Pipeline.arrRef spec0 w)) = (R0.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ R0 c (Proc.devRef .tc b) = W3 m ρ c (Proc.devRef .tc b) := by
  unfold W4; exact Pipeline.withArrays_of_ne spec0 c _ _ b hb
/-- The same read at the TensorCore's references (region 0's exit contents). -/
abbrev V4 : TcVal F := tcOf (W4 m ρ R0)
theorem hF0 (c : Dev nD) (w : Fin cfg0.W) : (R0.dat (V3 m ρ) c).arrAt w cfg0.N = V4 m ρ R0 c (Pipeline.arrRef spec0 w) :=
  (W4_arr m ρ R0 c w).symm
theorem hrest0 (c : Dev nD) : ∀ b, b ∉ Finset.univ.image (Pipeline.arrRef spec0) → V4 m ρ R0 c b = V3 m ρ c b :=
  fun b hb => W4_of_ne m ρ R0 c b fun w e => hb (Finset.mem_image.mpr ⟨w, Finset.mem_univ _, e⟩)

/-- After `hostOps1` (region 1's entry). -/
abbrev W5 : Dev nD → Valuation τ sig (Elt F) := fun c => StableHlo.after hostOps1 (W4 m ρ R0 c)
/-- The same read at the TensorCore's references (what region 1's proof data take). -/
abbrev V5 : TcVal F := tcOf (W5 m ρ R0)

/-- At region 1's exit: its arrays at what the pipeline leaves, every other buffer as entered. -/
def W6 (c : Dev nD) : Valuation τ sig (Elt F) :=
  Pipeline.withArrays spec1 c (W5 m ρ R0 c) fun w => (R1.dat (V5 m ρ R0) c).arrAt w cfg1.N
theorem W6_arr (c : Dev nD) (w : Fin cfg1.W) :
    W6 m ρ R0 R1 c (Proc.devRef .tc (Pipeline.arrRef spec1 w)) = (R1.dat (V5 m ρ R0) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ R0 R1 c (Proc.devRef .tc b) = W5 m ρ R0 c (Proc.devRef .tc b) := by
  unfold W6; exact Pipeline.withArrays_of_ne spec1 c _ _ b hb
/-- The same read at the TensorCore's references (region 1's exit contents). -/
abbrev V6 : TcVal F := tcOf (W6 m ρ R0 R1)
theorem hF1 (c : Dev nD) (w : Fin cfg1.W) : (R1.dat (V5 m ρ R0) c).arrAt w cfg1.N = V6 m ρ R0 R1 c (Pipeline.arrRef spec1 w) :=
  (W6_arr m ρ R0 R1 c w).symm
theorem hrest1 (c : Dev nD) : ∀ b, b ∉ Finset.univ.image (Pipeline.arrRef spec1) → V6 m ρ R0 R1 c b = V5 m ρ R0 c b :=
  fun b hb => W6_of_ne m ρ R0 R1 c b fun w e => hb (Finset.mem_image.mpr ⟨w, Finset.mem_univ _, e⟩)

/-- After `hostOps2` (region 2's entry). -/
abbrev W7 : Dev nD → Valuation τ sig (Elt F) := fun c => StableHlo.after hostOps2 (W6 m ρ R0 R1 c)
/-- The same read at the TensorCore's references (what region 2's proof data take). -/
abbrev V7 : TcVal F := tcOf (W7 m ρ R0 R1)

/-- At region 2's exit: its arrays at what the pipeline leaves, every other buffer as entered. -/
def W8 (c : Dev nD) : Valuation τ sig (Elt F) :=
  Pipeline.withArrays spec2 c (W7 m ρ R0 R1 c) fun w => (R2.dat (V7 m ρ R0 R1) c).arrAt w cfg2.N
theorem W8_arr (c : Dev nD) (w : Fin cfg2.W) :
    W8 m ρ R0 R1 R2 c (Proc.devRef .tc (Pipeline.arrRef spec2 w)) = (R2.dat (V7 m ρ R0 R1) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ R0 R1 R2 c (Proc.devRef .tc b) = W7 m ρ R0 R1 c (Proc.devRef .tc b) := by
  unfold W8; exact Pipeline.withArrays_of_ne spec2 c _ _ b hb
/-- The same read at the TensorCore's references (region 2's exit contents). -/
abbrev V8 : TcVal F := tcOf (W8 m ρ R0 R1 R2)
theorem hF2 (c : Dev nD) (w : Fin cfg2.W) : (R2.dat (V7 m ρ R0 R1) c).arrAt w cfg2.N = V8 m ρ R0 R1 R2 c (Pipeline.arrRef spec2 w) :=
  (W8_arr m ρ R0 R1 R2 c w).symm
theorem hrest2 (c : Dev nD) : ∀ b, b ∉ Finset.univ.image (Pipeline.arrRef spec2) → V8 m ρ R0 R1 R2 c b = V7 m ρ R0 R1 c b :=
  fun b hb => W8_of_ne m ρ R0 R1 R2 c b fun w e => hb (Finset.mem_image.mpr ⟨w, Finset.mem_univ _, e⟩)

/-- After `hostOps3` (region 3's entry). -/
abbrev W9 : Dev nD → Valuation τ sig (Elt F) := fun c => StableHlo.after hostOps3 (W8 m ρ R0 R1 R2 c)
/-- The same read at the TensorCore's references (what region 3's proof data take). -/
abbrev V9 : TcVal F := tcOf (W9 m ρ R0 R1 R2)

/-- At region 3's exit: its arrays at what the pipeline leaves, every other buffer as entered. -/
def W10 (c : Dev nD) : Valuation τ sig (Elt F) :=
  Pipeline.withArrays spec3 c (W9 m ρ R0 R1 R2 c) fun w => (R3.dat (V9 m ρ R0 R1 R2) c).arrAt w cfg3.N
theorem W10_arr (c : Dev nD) (w : Fin cfg3.W) :
    W10 m ρ R0 R1 R2 R3 c (Proc.devRef .tc (Pipeline.arrRef spec3 w)) = (R3.dat (V9 m ρ R0 R1 R2) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ R0 R1 R2 R3 c (Proc.devRef .tc b) = W9 m ρ R0 R1 R2 c (Proc.devRef .tc b) := by
  unfold W10; exact Pipeline.withArrays_of_ne spec3 c _ _ b hb
/-- The same read at the TensorCore's references (region 3's exit contents). -/
abbrev V10 : TcVal F := tcOf (W10 m ρ R0 R1 R2 R3)
theorem hF3 (c : Dev nD) (w : Fin cfg3.W) : (R3.dat (V9 m ρ R0 R1 R2) c).arrAt w cfg3.N = V10 m ρ R0 R1 R2 R3 c (Pipeline.arrRef spec3 w) :=
  (W10_arr m ρ R0 R1 R2 R3 c w).symm
theorem hrest3 (c : Dev nD) : ∀ b, b ∉ Finset.univ.image (Pipeline.arrRef spec3) → V10 m ρ R0 R1 R2 R3 c b = V9 m ρ R0 R1 R2 c b :=
  fun b hb => W10_of_ne m ρ R0 R1 R2 R3 c b fun w e => hb (Finset.mem_image.mpr ⟨w, Finset.mem_univ _, e⟩)

/-- After `hostOps4` (region 4's entry). -/
abbrev W11 : Dev nD → Valuation τ sig (Elt F) := fun c => StableHlo.after hostOps4 (W10 m ρ R0 R1 R2 R3 c)
/-- The same read at the TensorCore's references (what region 4's proof data take). -/
abbrev V11 : TcVal F := tcOf (W11 m ρ R0 R1 R2 R3)

/-- At region 4's exit: its arrays at what the pipeline leaves, every other buffer as entered. -/
def W12 (c : Dev nD) : Valuation τ sig (Elt F) :=
  Pipeline.withArrays spec4 c (W11 m ρ R0 R1 R2 R3 c) fun w => (R4.dat (V11 m ρ R0 R1 R2 R3) c).arrAt w cfg4.N
theorem W12_arr (c : Dev nD) (w : Fin cfg4.W) :
    W12 m ρ R0 R1 R2 R3 R4 c (Proc.devRef .tc (Pipeline.arrRef spec4 w)) = (R4.dat (V11 m ρ R0 R1 R2 R3) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ R0 R1 R2 R3 R4 c (Proc.devRef .tc b) = W11 m ρ R0 R1 R2 R3 c (Proc.devRef .tc b) := by
  unfold W12; exact Pipeline.withArrays_of_ne spec4 c _ _ b hb
/-- The same read at the TensorCore's references (region 4's exit contents). -/
abbrev V12 : TcVal F := tcOf (W12 m ρ R0 R1 R2 R3 R4)
theorem hF4 (c : Dev nD) (w : Fin cfg4.W) : (R4.dat (V11 m ρ R0 R1 R2 R3) c).arrAt w cfg4.N = V12 m ρ R0 R1 R2 R3 R4 c (Pipeline.arrRef spec4 w) :=
  (W12_arr m ρ R0 R1 R2 R3 R4 c w).symm
theorem hrest4 (c : Dev nD) : ∀ b, b ∉ Finset.univ.image (Pipeline.arrRef spec4) → V12 m ρ R0 R1 R2 R3 R4 c b = V11 m ρ R0 R1 R2 R3 c b :=
  fun b hb => W12_of_ne m ρ R0 R1 R2 R3 R4 c b fun w e => hb (Finset.mem_image.mpr ⟨w, Finset.mem_univ _, e⟩)

/-- After `hostOps5` (region 5's entry). -/
abbrev W13 : Dev nD → Valuation τ sig (Elt F) := fun c => StableHlo.after hostOps5 (W12 m ρ R0 R1 R2 R3 R4 c)
/-- The same read at the TensorCore's references (what region 5's proof data take). -/
abbrev V13 : TcVal F := tcOf (W13 m ρ R0 R1 R2 R3 R4)

/-- At region 5's exit: the product's array at what the write-backs leave, every other buffer as entered (the region's two
    input windows read one array, which no write-back touches). -/
def W14 (c : Dev nD) : Valuation τ sig (Elt F) :=
  Function.update (W13 m ρ R0 R1 R2 R3 R4 c) main_v69 ((R5.dat (V13 m ρ R0 R1 R2 R3 R4) c).arrAt 2 cfg5.N)
theorem W14_out (c : Dev nD) : W14 m ρ R0 R1 R2 R3 R4 R5 c main_v69 = (R5.dat (V13 m ρ R0 R1 R2 R3 R4) c).arrAt 2 cfg5.N := by
  unfold W14; exact Function.update_self ..
theorem W14_of (c : Dev nD) (r : Ref sig .tc) (h : r ∉ ([main_v69] : List (Ref sig .tc))) : W14 m ρ R0 R1 R2 R3 R4 R5 c r = W13 m ρ R0 R1 R2 R3 R4 c r := by
  unfold W14
  exact Function.update_of_ne (StableHlo.devRef_ne_of_ne (List.ne_of_not_mem_cons h) : (Proc.devRef .tc r : DevRef τ sig) ≠ Proc.devRef .tc main_v69) _ _

/-! ## What each stretch leaves unchanged -/
theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ R0 c r = W4 m ρ R0 c r :=
  StableHlo.after_of_writes_sub hostOps1 _ hostOps1_writes h
theorem W7_of (c : Dev nD) (r : Ref sig .tc) (h : r ∉ hostOps2_W) : W7 m ρ R0 R1 c r = W6 m ρ R0 R1 c r :=
  StableHlo.after_of_writes_sub hostOps2 _ hostOps2_writes h
theorem W9_of (c : Dev nD) (r : Ref sig .tc) (h : r ∉ hostOps3_W) : W9 m ρ R0 R1 R2 c r = W8 m ρ R0 R1 R2 c r :=
  StableHlo.after_of_writes_sub hostOps3 _ hostOps3_writes h
theorem W11_of (c : Dev nD) (r : Ref sig .tc) (h : r ∉ hostOps4_W) : W11 m ρ R0 R1 R2 R3 c r = W10 m ρ R0 R1 R2 R3 c r :=
  StableHlo.after_of_writes_sub hostOps4 _ hostOps4_writes h
theorem W13_of (c : Dev nD) (r : Ref sig .tc) (h : r ∉ hostOps5_W) : W13 m ρ R0 R1 R2 R3 R4 c r = W12 m ρ R0 R1 R2 R3 R4 c r :=
  StableHlo.after_of_writes_sub hostOps5 _ hostOps5_writes h

/-! ## The arguments end as launched: no host operation and no region writes one -/
theorem W14_main_arg0 (c : Dev nD) : W14 m ρ R0 R1 R2 R3 R4 R5 c main_arg0 = m ((c : Thread nD τ).loc main_arg0) :=
  (W14_of m ρ R0 R1 R2 R3 R4 R5 c main_arg0 (by decide)).trans <| (W13_of m ρ R0 R1 R2 R3 R4 c main_arg0 (by decide)).trans <| (W12_of_ne m ρ R0 R1 R2 R3 R4 c main_arg0 (by decide)).trans <| (W11_of m ρ R0 R1 R2 R3 c main_arg0 (by decide)).trans <| (W10_of_ne m ρ R0 R1 R2 R3 c main_arg0 (by decide)).trans <| (W9_of m ρ R0 R1 R2 c main_arg0 (by decide)).trans <| (W8_of_ne m ρ R0 R1 R2 c main_arg0 (by decide)).trans <| (W7_of m ρ R0 R1 c main_arg0 (by decide)).trans <| (W6_of_ne m ρ R0 R1 c main_arg0 (by decide)).trans <| (W5_of m ρ R0 c main_arg0 (by decide)).trans <| (W4_of_ne m ρ R0 c main_arg0 (by decide)).trans <| (W3_of m ρ c main_arg0 (by decide)).trans <| (W2_of m ρ c main_arg0 (by decide)).trans <| (W1_of m ρ c main_arg0 (by decide)).trans rfl
theorem W14_main_arg1 (c : Dev nD) : W14 m ρ R0 R1 R2 R3 R4 R5 c main_arg1 = m ((c : Thread nD τ).loc main_arg1) :=
  (W14_of m ρ R0 R1 R2 R3 R4 R5 c main_arg1 (by decide)).trans <| (W13_of m ρ R0 R1 R2 R3 R4 c main_arg1 (by decide)).trans <| (W12_of_ne m ρ R0 R1 R2 R3 R4 c main_arg1 (by decide)).trans <| (W11_of m ρ R0 R1 R2 R3 c main_arg1 (by decide)).trans <| (W10_of_ne m ρ R0 R1 R2 R3 c main_arg1 (by decide)).trans <| (W9_of m ρ R0 R1 R2 c main_arg1 (by decide)).trans <| (W8_of_ne m ρ R0 R1 R2 c main_arg1 (by decide)).trans <| (W7_of m ρ R0 R1 c main_arg1 (by decide)).trans <| (W6_of_ne m ρ R0 R1 c main_arg1 (by decide)).trans <| (W5_of m ρ R0 c main_arg1 (by decide)).trans <| (W4_of_ne m ρ R0 c main_arg1 (by decide)).trans <| (W3_of m ρ c main_arg1 (by decide)).trans <| (W2_of m ρ c main_arg1 (by decide)).trans <| (W1_of m ρ c main_arg1 (by decide)).trans rfl
theorem W14_main_arg2 (c : Dev nD) : W14 m ρ R0 R1 R2 R3 R4 R5 c main_arg2 = m ((c : Thread nD τ).loc main_arg2) :=
  (W14_of m ρ R0 R1 R2 R3 R4 R5 c main_arg2 (by decide)).trans <| (W13_of m ρ R0 R1 R2 R3 R4 c main_arg2 (by decide)).trans <| (W12_of_ne m ρ R0 R1 R2 R3 R4 c main_arg2 (by decide)).trans <| (W11_of m ρ R0 R1 R2 R3 c main_arg2 (by decide)).trans <| (W10_of_ne m ρ R0 R1 R2 R3 c main_arg2 (by decide)).trans <| (W9_of m ρ R0 R1 R2 c main_arg2 (by decide)).trans <| (W8_of_ne m ρ R0 R1 R2 c main_arg2 (by decide)).trans <| (W7_of m ρ R0 R1 c main_arg2 (by decide)).trans <| (W6_of_ne m ρ R0 R1 c main_arg2 (by decide)).trans <| (W5_of m ρ R0 c main_arg2 (by decide)).trans <| (W4_of_ne m ρ R0 c main_arg2 (by decide)).trans <| (W3_of m ρ c main_arg2 (by decide)).trans <| (W2_of m ρ c main_arg2 (by decide)).trans <| (W1_of m ρ c main_arg2 (by decide)).trans rfl
theorem W14_main_arg3 (c : Dev nD) : W14 m ρ R0 R1 R2 R3 R4 R5 c main_arg3 = m ((c : Thread nD τ).loc main_arg3) :=
  (W14_of m ρ R0 R1 R2 R3 R4 R5 c main_arg3 (by decide)).trans <| (W13_of m ρ R0 R1 R2 R3 R4 c main_arg3 (by decide)).trans <| (W12_of_ne m ρ R0 R1 R2 R3 R4 c main_arg3 (by decide)).trans <| (W11_of m ρ R0 R1 R2 R3 c main_arg3 (by decide)).trans <| (W10_of_ne m ρ R0 R1 R2 R3 c main_arg3 (by decide)).trans <| (W9_of m ρ R0 R1 R2 c main_arg3 (by decide)).trans <| (W8_of_ne m ρ R0 R1 R2 c main_arg3 (by decide)).trans <| (W7_of m ρ R0 R1 c main_arg3 (by decide)).trans <| (W6_of_ne m ρ R0 R1 c main_arg3 (by decide)).trans <| (W5_of m ρ R0 c main_arg3 (by decide)).trans <| (W4_of_ne m ρ R0 c main_arg3 (by decide)).trans <| (W3_of m ρ c main_arg3 (by decide)).trans <| (W2_of m ρ c main_arg3 (by decide)).trans <| (W1_of m ρ c main_arg3 (by decide)).trans rfl
theorem W14_main_arg4 (c : Dev nD) : W14 m ρ R0 R1 R2 R3 R4 R5 c main_arg4 = m ((c : Thread nD τ).loc main_arg4) :=
  (W14_of m ρ R0 R1 R2 R3 R4 R5 c main_arg4 (by decide)).trans <| (W13_of m ρ R0 R1 R2 R3 R4 c main_arg4 (by decide)).trans <| (W12_of_ne m ρ R0 R1 R2 R3 R4 c main_arg4 (by decide)).trans <| (W11_of m ρ R0 R1 R2 R3 c main_arg4 (by decide)).trans <| (W10_of_ne m ρ R0 R1 R2 R3 c main_arg4 (by decide)).trans <| (W9_of m ρ R0 R1 R2 c main_arg4 (by decide)).trans <| (W8_of_ne m ρ R0 R1 R2 c main_arg4 (by decide)).trans <| (W7_of m ρ R0 R1 c main_arg4 (by decide)).trans <| (W6_of_ne m ρ R0 R1 c main_arg4 (by decide)).trans <| (W5_of m ρ R0 c main_arg4 (by decide)).trans <| (W4_of_ne m ρ R0 c main_arg4 (by decide)).trans <| (W3_of m ρ c main_arg4 (by decide)).trans <| (W2_of m ρ c main_arg4 (by decide)).trans <| (W1_of m ρ c main_arg4 (by decide)).trans rfl
theorem W14_main_arg5 (c : Dev nD) : W14 m ρ R0 R1 R2 R3 R4 R5 c main_arg5 = m ((c : Thread nD τ).loc main_arg5) :=
  (W14_of m ρ R0 R1 R2 R3 R4 R5 c main_arg5 (by decide)).trans <| (W13_of m ρ R0 R1 R2 R3 R4 c main_arg5 (by decide)).trans <| (W12_of_ne m ρ R0 R1 R2 R3 R4 c main_arg5 (by decide)).trans <| (W11_of m ρ R0 R1 R2 R3 c main_arg5 (by decide)).trans <| (W10_of_ne m ρ R0 R1 R2 R3 c main_arg5 (by decide)).trans <| (W9_of m ρ R0 R1 R2 c main_arg5 (by decide)).trans <| (W8_of_ne m ρ R0 R1 R2 c main_arg5 (by decide)).trans <| (W7_of m ρ R0 R1 c main_arg5 (by decide)).trans <| (W6_of_ne m ρ R0 R1 c main_arg5 (by decide)).trans <| (W5_of m ρ R0 c main_arg5 (by decide)).trans <| (W4_of_ne m ρ R0 c main_arg5 (by decide)).trans <| (W3_of m ρ c main_arg5 (by decide)).trans <| (W2_of m ρ c main_arg5 (by decide)).trans <| (W1_of m ρ c main_arg5 (by decide)).trans rfl
theorem W14_main_arg6 (c : Dev nD) : W14 m ρ R0 R1 R2 R3 R4 R5 c main_arg6 = m ((c : Thread nD τ).loc main_arg6) :=
  (W14_of m ρ R0 R1 R2 R3 R4 R5 c main_arg6 (by decide)).trans <| (W13_of m ρ R0 R1 R2 R3 R4 c main_arg6 (by decide)).trans <| (W12_of_ne m ρ R0 R1 R2 R3 R4 c main_arg6 (by decide)).trans <| (W11_of m ρ R0 R1 R2 R3 c main_arg6 (by decide)).trans <| (W10_of_ne m ρ R0 R1 R2 R3 c main_arg6 (by decide)).trans <| (W9_of m ρ R0 R1 R2 c main_arg6 (by decide)).trans <| (W8_of_ne m ρ R0 R1 R2 c main_arg6 (by decide)).trans <| (W7_of m ρ R0 R1 c main_arg6 (by decide)).trans <| (W6_of_ne m ρ R0 R1 c main_arg6 (by decide)).trans <| (W5_of m ρ R0 c main_arg6 (by decide)).trans <| (W4_of_ne m ρ R0 c main_arg6 (by decide)).trans <| (W3_of m ρ c main_arg6 (by decide)).trans <| (W2_of m ρ c main_arg6 (by decide)).trans <| (W1_of m ρ c main_arg6 (by decide)).trans rfl
theorem W14_main_arg7 (c : Dev nD) : W14 m ρ R0 R1 R2 R3 R4 R5 c main_arg7 = m ((c : Thread nD τ).loc main_arg7) :=
  (W14_of m ρ R0 R1 R2 R3 R4 R5 c main_arg7 (by decide)).trans <| (W13_of m ρ R0 R1 R2 R3 R4 c main_arg7 (by decide)).trans <| (W12_of_ne m ρ R0 R1 R2 R3 R4 c main_arg7 (by decide)).trans <| (W11_of m ρ R0 R1 R2 R3 c main_arg7 (by decide)).trans <| (W10_of_ne m ρ R0 R1 R2 R3 c main_arg7 (by decide)).trans <| (W9_of m ρ R0 R1 R2 c main_arg7 (by decide)).trans <| (W8_of_ne m ρ R0 R1 R2 c main_arg7 (by decide)).trans <| (W7_of m ρ R0 R1 c main_arg7 (by decide)).trans <| (W6_of_ne m ρ R0 R1 c main_arg7 (by decide)).trans <| (W5_of m ρ R0 c main_arg7 (by decide)).trans <| (W4_of_ne m ρ R0 c main_arg7 (by decide)).trans <| (W3_of m ρ c main_arg7 (by decide)).trans <| (W2_of m ρ c main_arg7 (by decide)).trans <| (W1_of m ρ c main_arg7 (by decide)).trans rfl
theorem W14_main_arg8 (c : Dev nD) : W14 m ρ R0 R1 R2 R3 R4 R5 c main_arg8 = m ((c : Thread nD τ).loc main_arg8) :=
  (W14_of m ρ R0 R1 R2 R3 R4 R5 c main_arg8 (by decide)).trans <| (W13_of m ρ R0 R1 R2 R3 R4 c main_arg8 (by decide)).trans <| (W12_of_ne m ρ R0 R1 R2 R3 R4 c main_arg8 (by decide)).trans <| (W11_of m ρ R0 R1 R2 R3 c main_arg8 (by decide)).trans <| (W10_of_ne m ρ R0 R1 R2 R3 c main_arg8 (by decide)).trans <| (W9_of m ρ R0 R1 R2 c main_arg8 (by decide)).trans <| (W8_of_ne m ρ R0 R1 R2 c main_arg8 (by decide)).trans <| (W7_of m ρ R0 R1 c main_arg8 (by decide)).trans <| (W6_of_ne m ρ R0 R1 c main_arg8 (by decide)).trans <| (W5_of m ρ R0 c main_arg8 (by decide)).trans <| (W4_of_ne m ρ R0 c main_arg8 (by decide)).trans <| (W3_of m ρ c main_arg8 (by decide)).trans <| (W2_of m ρ c main_arg8 (by decide)).trans <| (W1_of m ρ c main_arg8 (by decide)).trans rfl
theorem W14_main_arg9 (c : Dev nD) : W14 m ρ R0 R1 R2 R3 R4 R5 c main_arg9 = m ((c : Thread nD τ).loc main_arg9) :=
  (W14_of m ρ R0 R1 R2 R3 R4 R5 c main_arg9 (by decide)).trans <| (W13_of m ρ R0 R1 R2 R3 R4 c main_arg9 (by decide)).trans <| (W12_of_ne m ρ R0 R1 R2 R3 R4 c main_arg9 (by decide)).trans <| (W11_of m ρ R0 R1 R2 R3 c main_arg9 (by decide)).trans <| (W10_of_ne m ρ R0 R1 R2 R3 c main_arg9 (by decide)).trans <| (W9_of m ρ R0 R1 R2 c main_arg9 (by decide)).trans <| (W8_of_ne m ρ R0 R1 R2 c main_arg9 (by decide)).trans <| (W7_of m ρ R0 R1 c main_arg9 (by decide)).trans <| (W6_of_ne m ρ R0 R1 c main_arg9 (by decide)).trans <| (W5_of m ρ R0 c main_arg9 (by decide)).trans <| (W4_of_ne m ρ R0 c main_arg9 (by decide)).trans <| (W3_of m ρ c main_arg9 (by decide)).trans <| (W2_of m ρ c main_arg9 (by decide)).trans <| (W1_of m ρ c main_arg9 (by decide)).trans rfl
theorem W14_main_arg10 (c : Dev nD) : W14 m ρ R0 R1 R2 R3 R4 R5 c main_arg10 = m ((c : Thread nD τ).loc main_arg10) :=
  (W14_of m ρ R0 R1 R2 R3 R4 R5 c main_arg10 (by decide)).trans <| (W13_of m ρ R0 R1 R2 R3 R4 c main_arg10 (by decide)).trans <| (W12_of_ne m ρ R0 R1 R2 R3 R4 c main_arg10 (by decide)).trans <| (W11_of m ρ R0 R1 R2 R3 c main_arg10 (by decide)).trans <| (W10_of_ne m ρ R0 R1 R2 R3 c main_arg10 (by decide)).trans <| (W9_of m ρ R0 R1 R2 c main_arg10 (by decide)).trans <| (W8_of_ne m ρ R0 R1 R2 c main_arg10 (by decide)).trans <| (W7_of m ρ R0 R1 c main_arg10 (by decide)).trans <| (W6_of_ne m ρ R0 R1 c main_arg10 (by decide)).trans <| (W5_of m ρ R0 c main_arg10 (by decide)).trans <| (W4_of_ne m ρ R0 c main_arg10 (by decide)).trans <| (W3_of m ρ c main_arg10 (by decide)).trans <| (W2_of m ρ c main_arg10 (by decide)).trans <| (W1_of m ρ c main_arg10 (by decide)).trans rfl
theorem W14_main_arg11 (c : Dev nD) : W14 m ρ R0 R1 R2 R3 R4 R5 c main_arg11 = m ((c : Thread nD τ).loc main_arg11) :=
  (W14_of m ρ R0 R1 R2 R3 R4 R5 c main_arg11 (by decide)).trans <| (W13_of m ρ R0 R1 R2 R3 R4 c main_arg11 (by decide)).trans <| (W12_of_ne m ρ R0 R1 R2 R3 R4 c main_arg11 (by decide)).trans <| (W11_of m ρ R0 R1 R2 R3 c main_arg11 (by decide)).trans <| (W10_of_ne m ρ R0 R1 R2 R3 c main_arg11 (by decide)).trans <| (W9_of m ρ R0 R1 R2 c main_arg11 (by decide)).trans <| (W8_of_ne m ρ R0 R1 R2 c main_arg11 (by decide)).trans <| (W7_of m ρ R0 R1 c main_arg11 (by decide)).trans <| (W6_of_ne m ρ R0 R1 c main_arg11 (by decide)).trans <| (W5_of m ρ R0 c main_arg11 (by decide)).trans <| (W4_of_ne m ρ R0 c main_arg11 (by decide)).trans <| (W3_of m ρ c main_arg11 (by decide)).trans <| (W2_of m ρ c main_arg11 (by decide)).trans <| (W1_of m ρ c main_arg11 (by decide)).trans rfl
theorem W14_main_arg12 (c : Dev nD) : W14 m ρ R0 R1 R2 R3 R4 R5 c main_arg12 = m ((c : Thread nD τ).loc main_arg12) :=
  (W14_of m ρ R0 R1 R2 R3 R4 R5 c main_arg12 (by decide)).trans <| (W13_of m ρ R0 R1 R2 R3 R4 c main_arg12 (by decide)).trans <| (W12_of_ne m ρ R0 R1 R2 R3 R4 c main_arg12 (by decide)).trans <| (W11_of m ρ R0 R1 R2 R3 c main_arg12 (by decide)).trans <| (W10_of_ne m ρ R0 R1 R2 R3 c main_arg12 (by decide)).trans <| (W9_of m ρ R0 R1 R2 c main_arg12 (by decide)).trans <| (W8_of_ne m ρ R0 R1 R2 c main_arg12 (by decide)).trans <| (W7_of m ρ R0 R1 c main_arg12 (by decide)).trans <| (W6_of_ne m ρ R0 R1 c main_arg12 (by decide)).trans <| (W5_of m ρ R0 c main_arg12 (by decide)).trans <| (W4_of_ne m ρ R0 c main_arg12 (by decide)).trans <| (W3_of m ρ c main_arg12 (by decide)).trans <| (W2_of m ρ c main_arg12 (by decide)).trans <| (W1_of m ρ c main_arg12 (by decide)).trans rfl

end Cert.Kernel.Hand

end
-- ==== Proof.KW.ChainRegs.lean ====
import proofs.«164907_j26860725469614_1_alg».proof.Proof.KW.ChainFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Reg0 (F := F)) (R1 : Reg1 (F := F)) (R2 : Reg2 (F := F)) (R3 : Reg3 (F := F)) (R4 : Reg4 (F := F)) (R5 : Reg5 (F := F))

/-! # The proof data family and the thread state -/

/-- Every pipeline's proof data, each at its region's entry contents: a literal `match`, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => R0.dat (V3 m ρ) c
  | ⟨1, _⟩ => fun c => R1.dat (V5 m ρ R0) c
  | ⟨2, _⟩ => fun c => R2.dat (V7 m ρ R0 R1) c
  | ⟨3, _⟩ => fun c => R3.dat (V9 m ρ R0 R1 R2) c
  | ⟨4, _⟩ => fun c => R4.dat (V11 m ρ R0 R1 R2 R3) c
  | ⟨5, _⟩ => fun c => R5.dat (V13 m ρ R0 R1 R2 R3 R4) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W14 m ρ R0 R1 R2 R3 R4 R5 c) ∗ ∃ r, prngReg c r)

/-! ## Nothing owed, no bound on the recorded pairs: the proof data family at a numeral -/
theorem owed_eq0 (c : Dev nD) (t : Fin ((Pipeline.pin (pcfgs (F := F)) adm 0).N + 1)) : (pdats m ρ R0 R1 R2 R3 R4 R5 0 c).owed t = 0 :=
  R0.owed_zero (V3 m ρ) c t
theorem recorded_eq0 (c : Dev nD) (t : Fin ((Pipeline.pin (pcfgs (F := F)) adm 0).N + 1)) : (pdats m ρ R0 R1 R2 R3 R4 R5 0 c).recorded t = Set.univ :=
  R0.recorded_univ (V3 m ρ) c t
theorem owed_eq1 (c : Dev nD) (t : Fin ((Pipeline.pin (pcfgs (F := F)) adm 1).N + 1)) : (pdats m ρ R0 R1 R2 R3 R4 R5 1 c).owed t = 0 :=
  R1.owed_zero (V5 m ρ R0) c t
theorem recorded_eq1 (c : Dev nD) (t : Fin ((Pipeline.pin (pcfgs (F := F)) adm 1).N + 1)) : (pdats m ρ R0 R1 R2 R3 R4 R5 1 c).recorded t = Set.univ :=
  R1.recorded_univ (V5 m ρ R0) c t
theorem owed_eq2 (c : Dev nD) (t : Fin ((Pipeline.pin (pcfgs (F := F)) adm 2).N + 1)) : (pdats m ρ R0 R1 R2 R3 R4 R5 2 c).owed t = 0 :=
  R2.owed_zero (V7 m ρ R0 R1) c t
theorem recorded_eq2 (c : Dev nD) (t : Fin ((Pipeline.pin (pcfgs (F := F)) adm 2).N + 1)) : (pdats m ρ R0 R1 R2 R3 R4 R5 2 c).recorded t = Set.univ :=
  R2.recorded_univ (V7 m ρ R0 R1) c t
theorem owed_eq3 (c : Dev nD) (t : Fin ((Pipeline.pin (pcfgs (F := F)) adm 3).N + 1)) : (pdats m ρ R0 R1 R2 R3 R4 R5 3 c).owed t = 0 :=
  R3.owed_zero (V9 m ρ R0 R1 R2) c t
theorem recorded_eq3 (c : Dev nD) (t : Fin ((Pipeline.pin (pcfgs (F := F)) adm 3).N + 1)) : (pdats m ρ R0 R1 R2 R3 R4 R5 3 c).recorded t = Set.univ :=
  R3.recorded_univ (V9 m ρ R0 R1 R2) c t
theorem owed_eq4 (c : Dev nD) (t : Fin ((Pipeline.pin (pcfgs (F := F)) adm 4).N + 1)) : (pdats m ρ R0 R1 R2 R3 R4 R5 4 c).owed t = 0 :=
  R4.owed_zero (V11 m ρ R0 R1 R2 R3) c t
theorem recorded_eq4 (c : Dev nD) (t : Fin ((Pipeline.pin (pcfgs (F := F)) adm 4).N + 1)) : (pdats m ρ R0 R1 R2 R3 R4 R5 4 c).recorded t = Set.univ :=
  R4.recorded_univ (V11 m ρ R0 R1 R2 R3) c t
theorem owed_eq5 (c : Dev nD) (t : Fin ((Pipeline.pin (pcfgs (F := F)) adm 5).N + 1)) : (pdats m ρ R0 R1 R2 R3 R4 R5 5 c).owed t = 0 :=
  R5.owed_zero (V13 m ρ R0 R1 R2 R3 R4) c t
theorem recorded_eq5 (c : Dev nD) (t : Fin ((Pipeline.pin (pcfgs (F := F)) adm 5).N + 1)) : (pdats m ρ R0 R1 R2 R3 R4 R5 5 c).recorded t = Set.univ :=
  R5.recorded_univ (V13 m ρ R0 R1 R2 R3 R4) c t

/-! # The regions as segments -/

set_option backward.isDefEq.respectTransparency.types false in
/-- REGION 0 over the thread state: entered from every unscoped buffer at `W3`, left at `W4`. Its arrays are
    split out of the unscoped buffers and put back at the exit contents; the generator register and the scratch go
    into the invariant at the first point (`hin`) and come back from the one at the last (`hout`); nothing owed. -/
def reg0 : Pipeline.RegionSeg (pcfgs (F := F)) adm (pdats m ρ R0 R1 R2 R3 R4 R5) () defs₀ 𝒱₀ L lv 0 where
  win := launch0.win.to₀
  block_pos := launch0.block_pos
  stage_whole := launch0.stage_whole
  K := PEmpty
  osem k := k.elim
  ho := Pipeline.OwnSemFacts.none _
  hbody c := (R0.body (V3 m ρ) c).loose
  hwaits := Pipeline.hwaits_of_owed_zero _ _ _ _ L lv 0 fun c t => R0.owed_zero (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ R0 c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ R0 R1 R2 R3 R4 R5) launch0.win launch0.arr_whole c
      ((pdats m ρ R0 R1 R2 R3 R4 R5 0 c).share_full fun w => R0.q_full (V3 m ρ) c w) (V3 m ρ c) fun w => R0.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq0 m ρ R0 R1 R2 R3 R4 R5 c 0]
      icases HO with ⟨%W, HO⟩; iexists W; isplitr
      · ipureintro; exact fun x _ => Or.inl (by rw [recorded_eq0 m ρ R0 R1 R2 R3 R4 R5 c 0]; exact Set.mem_univ x)
      iexact HO
    isplitl [Hp]; · iexact Hp
    iexact Hrest
  hin c := by
    refine .trans ?_ (R0.hin (V3 m ρ) c)
    unfold Pipeline.ΦA
    iintro ⟨Hp, -, Hr⟩
    isplitl [Hr]; · iexact Hr
    iexact Hp
  hout c := by
    rw [Pipeline.ownSems0_none]
    refine .trans (R0.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ R0 R1 R2 R3 R4 R5) ((pdats m ρ R0 R1 R2 R3 R4 R5 0 c).share_full fun w => R0.q_full (V3 m ρ) c w)
      (V3 m ρ c) (V4 m ρ R0 c) ((pdats m ρ R0 R1 R2 R3 R4 R5 0 c).arrAt · cfg0.N) (hF0 m ρ R0 c) (hrest0 m ρ R0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq0 m ρ R0 R1 R2 R3 R4 R5 c (Fin.last _)]
    icases HO with ⟨%W, -, HO⟩; iexists W; iexact HO

set_option backward.isDefEq.respectTransparency.types false in
/-- REGION 1 over the thread state: entered from every unscoped buffer at `W5`, left at `W6`. Its arrays are
    split out of the unscoped buffers and put back at the exit contents; the generator register and the scratch go
    into the invariant at the first point (`hin`) and come back from the one at the last (`hout`); nothing owed. -/
def reg1 : Pipeline.RegionSeg (pcfgs (F := F)) adm (pdats m ρ R0 R1 R2 R3 R4 R5) () defs₀ 𝒱₀ L lv 1 where
  win := launch1.win.to₀
  block_pos := launch1.block_pos
  stage_whole := launch1.stage_whole
  K := PEmpty
  osem k := k.elim
  ho := Pipeline.OwnSemFacts.none _
  hbody c := (R1.body (V5 m ρ R0) c).loose
  hwaits := Pipeline.hwaits_of_owed_zero _ _ _ _ L lv 1 fun c t => R1.owed_zero (V5 m ρ R0) c t
  pre c := iprop(StableHlo.held (c : Thread nD τ) (Pipeline.ucRefs τ sig) (W5 m ρ R0 c) ∗ R c)
  post c := iprop(StableHlo.held (c : Thread nD τ) (Pipeline.ucRefs τ sig) (W6 m ρ R0 R1 c) ∗ R c)
  X c := iprop(∃ r, prngReg c r)
  Y c := iprop(∃ r, prngReg c r)
  Z c := Pipeline.unscopedRest (Ix := Unit) (Name := ℕ) (U := UR sig nD τ) (Lvl := ℕ) spec1 c (V5 m ρ R0 c)
  hentry c := by
    rw [Pipeline.ownSems0_none]
    have hsplit := Pipeline.arrays_of_unscopedBufs (p := 1) (pcfgs (F := F)) adm (pdats m ρ R0 R1 R2 R3 R4 R5) launch1.win launch1.arr_whole c
      ((pdats m ρ R0 R1 R2 R3 R4 R5 1 c).share_full fun w => R1.q_full (V5 m ρ R0) c w) (V5 m ρ R0 c) fun w => R1.A_eq (V5 m ρ R0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq1 m ρ R0 R1 R2 R3 R4 R5 c 0]
      icases HO with ⟨%W, HO⟩; iexists W; isplitr
      · ipureintro; exact fun x _ => Or.inl (by rw [recorded_eq1 m ρ R0 R1 R2 R3 R4 R5 c 0]; exact Set.mem_univ x)
      iexact HO
    isplitl [Hp]; · iexact Hp
    iexact Hrest
  hin c := by
    refine .trans ?_ (R1.hin (V5 m ρ R0) c)
    unfold Pipeline.ΦA
    iintro ⟨Hp, -, Hr⟩
    isplitl [Hr]; · iexact Hr
    iexact Hp
  hout c := by
    rw [Pipeline.ownSems0_none]
    refine .trans (R1.hout (V5 m ρ R0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ R0 R1 R2 R3 R4 R5) ((pdats m ρ R0 R1 R2 R3 R4 R5 1 c).share_full fun w => R1.q_full (V5 m ρ R0) c w)
      (V5 m ρ R0 c) (V6 m ρ R0 R1 c) ((pdats m ρ R0 R1 R2 R3 R4 R5 1 c).arrAt · cfg1.N) (hF1 m ρ R0 R1 c) (hrest1 m ρ R0 R1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq1 m ρ R0 R1 R2 R3 R4 R5 c (Fin.last _)]
    icases HO with ⟨%W, -, HO⟩; iexists W; iexact HO

set_option backward.isDefEq.respectTransparency.types false in
/-- REGION 2 over the thread state: entered from every unscoped buffer at `W7`, left at `W8`. Its arrays are
    split out of the unscoped buffers and put back at the exit contents; the generator register and the scratch go
    into the invariant at the first point (`hin`) and come back from the one at the last (`hout`); nothing owed. -/
def reg2 : Pipeline.RegionSeg (pcfgs (F := F)) adm (pdats m ρ R0 R1 R2 R3 R4 R5) () defs₀ 𝒱₀ L lv 2 where
  win := launch2.win.to₀
  block_pos := launch2.block_pos
  stage_whole := launch2.stage_whole
  K := PEmpty
  osem k := k.elim
  ho := Pipeline.OwnSemFacts.none _
  hbody c := (R2.body (V7 m ρ R0 R1) c).loose
  hwaits := Pipeline.hwaits_of_owed_zero _ _ _ _ L lv 2 fun c t => R2.owed_zero (V7 m ρ R0 R1) c t
  pre c := iprop(StableHlo.held (c : Thread nD τ) (Pipeline.ucRefs τ sig) (W7 m ρ R0 R1 c) ∗ R c)
  post c := iprop(StableHlo.held (c : Thread nD τ) (Pipeline.ucRefs τ sig) (W8 m ρ R0 R1 R2 c) ∗ R c)
  X c := iprop(∃ r, prngReg c r)
  Y c := iprop(∃ r, prngReg c r)
  Z c := Pipeline.unscopedRest (Ix := Unit) (Name := ℕ) (U := UR sig nD τ) (Lvl := ℕ) spec2 c (V7 m ρ R0 R1 c)
  hentry c := by
    rw [Pipeline.ownSems0_none]
    have hsplit := Pipeline.arrays_of_unscopedBufs (p := 2) (pcfgs (F := F)) adm (pdats m ρ R0 R1 R2 R3 R4 R5) launch2.win launch2.arr_whole c
      ((pdats m ρ R0 R1 R2 R3 R4 R5 2 c).share_full fun w => R2.q_full (V7 m ρ R0 R1) c w) (V7 m ρ R0 R1 c) fun w => R2.A_eq (V7 m ρ R0 R1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq2 m ρ R0 R1 R2 R3 R4 R5 c 0]
      icases HO with ⟨%W, HO⟩; iexists W; isplitr
      · ipureintro; exact fun x _ => Or.inl (by rw [recorded_eq2 m ρ R0 R1 R2 R3 R4 R5 c 0]; exact Set.mem_univ x)
      iexact HO
    isplitl [Hp]; · iexact Hp
    iexact Hrest
  hin c := by
    refine .trans ?_ (R2.hin (V7 m ρ R0 R1) c)
    unfold Pipeline.ΦA
    iintro ⟨Hp, -, Hr⟩
    isplitl [Hr]; · iexact Hr
    iexact Hp
  hout c := by
    rw [Pipeline.ownSems0_none]
    refine .trans (R2.hout (V7 m ρ R0 R1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ R0 R1 R2 R3 R4 R5) ((pdats m ρ R0 R1 R2 R3 R4 R5 2 c).share_full fun w => R2.q_full (V7 m ρ R0 R1) c w)
      (V7 m ρ R0 R1 c) (V8 m ρ R0 R1 R2 c) ((pdats m ρ R0 R1 R2 R3 R4 R5 2 c).arrAt · cfg2.N) (hF2 m ρ R0 R1 R2 c) (hrest2 m ρ R0 R1 R2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq2 m ρ R0 R1 R2 R3 R4 R5 c (Fin.last _)]
    icases HO with ⟨%W, -, HO⟩; iexists W; iexact HO

set_option backward.isDefEq.respectTransparency.types false in
/-- REGION 3 over the thread state: entered from every unscoped buffer at `W9`, left at `W10`. Its arrays are
    split out of the unscoped buffers and put back at the exit contents; the generator register and the scratch go
    into the invariant at the first point (`hin`) and come back from the one at the last (`hout`); nothing owed. -/
def reg3 : Pipeline.RegionSeg (pcfgs (F := F)) adm (pdats m ρ R0 R1 R2 R3 R4 R5) () defs₀ 𝒱₀ L lv 3 where
  win := launch3.win.to₀
  block_pos := launch3.block_pos
  stage_whole := launch3.stage_whole
  K := PEmpty
  osem k := k.elim
  ho := Pipeline.OwnSemFacts.none _
  hbody c := (R3.body (V9 m ρ R0 R1 R2) c).loose
  hwaits := Pipeline.hwaits_of_owed_zero _ _ _ _ L lv 3 fun c t => R3.owed_zero (V9 m ρ R0 R1 R2) c t
  pre c := iprop(StableHlo.held (c : Thread nD τ) (Pipeline.ucRefs τ sig) (W9 m ρ R0 R1 R2 c) ∗ R c)
  post c := iprop(StableHlo.held (c : Thread nD τ) (Pipeline.ucRefs τ sig) (W10 m ρ R0 R1 R2 R3 c) ∗ R c)
  X c := iprop(∃ r, prngReg c r)
  Y c := iprop(∃ r, prngReg c r)
  Z c := Pipeline.unscopedRest (Ix := Unit) (Name := ℕ) (U := UR sig nD τ) (Lvl := ℕ) spec3 c (V9 m ρ R0 R1 R2 c)
  hentry c := by
    rw [Pipeline.ownSems0_none]
    have hsplit := Pipeline.arrays_of_unscopedBufs (p := 3) (pcfgs (F := F)) adm (pdats m ρ R0 R1 R2 R3 R4 R5) launch3.win launch3.arr_whole c
      ((pdats m ρ R0 R1 R2 R3 R4 R5 3 c).share_full fun w => R3.q_full (V9 m ρ R0 R1 R2) c w) (V9 m ρ R0 R1 R2 c) fun w => R3.A_eq (V9 m ρ R0 R1 R2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq3 m ρ R0 R1 R2 R3 R4 R5 c 0]
      icases HO with ⟨%W, HO⟩; iexists W; isplitr
      · ipureintro; exact fun x _ => Or.inl (by rw [recorded_eq3 m ρ R0 R1 R2 R3 R4 R5 c 0]; exact Set.mem_univ x)
      iexact HO
    isplitl [Hp]; · iexact Hp
    iexact Hrest
  hin c := by
    refine .trans ?_ (R3.hin (V9 m ρ R0 R1 R2) c)
    unfold Pipeline.ΦA
    iintro ⟨Hp, -, Hr⟩
    isplitl [Hr]; · iexact Hr
    iexact Hp
  hout c := by
    rw [Pipeline.ownSems0_none]
    refine .trans (R3.hout (V9 m ρ R0 R1 R2) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ R0 R1 R2 R3 R4 R5) ((pdats m ρ R0 R1 R2 R3 R4 R5 3 c).share_full fun w => R3.q_full (V9 m ρ R0 R1 R2) c w)
      (V9 m ρ R0 R1 R2 c) (V10 m ρ R0 R1 R2 R3 c) ((pdats m ρ R0 R1 R2 R3 R4 R5 3 c).arrAt · cfg3.N) (hF3 m ρ R0 R1 R2 R3 c) (hrest3 m ρ R0 R1 R2 R3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq3 m ρ R0 R1 R2 R3 R4 R5 c (Fin.last _)]
    icases HO with ⟨%W, -, HO⟩; iexists W; iexact HO

set_option backward.isDefEq.respectTransparency.types false in
/-- REGION 4 over the thread state: entered from every unscoped buffer at `W11`, left at `W12`. Its arrays are
    split out of the unscoped buffers and put back at the exit contents; the generator register and the scratch go
    into the invariant at the first point (`hin`) and come back from the one at the last (`hout`); nothing owed. -/
def reg4 : Pipeline.RegionSeg (pcfgs (F := F)) adm (pdats m ρ R0 R1 R2 R3 R4 R5) () defs₀ 𝒱₀ L lv 4 where
  win := launch4.win.to₀
  block_pos := launch4.block_pos
  stage_whole := launch4.stage_whole
  K := PEmpty
  osem k := k.elim
  ho := Pipeline.OwnSemFacts.none _
  hbody c := (R4.body (V11 m ρ R0 R1 R2 R3) c).loose
  hwaits := Pipeline.hwaits_of_owed_zero _ _ _ _ L lv 4 fun c t => R4.owed_zero (V11 m ρ R0 R1 R2 R3) c t
  pre c := iprop(StableHlo.held (c : Thread nD τ) (Pipeline.ucRefs τ sig) (W11 m ρ R0 R1 R2 R3 c) ∗ R c)
  post c := iprop(StableHlo.held (c : Thread nD τ) (Pipeline.ucRefs τ sig) (W12 m ρ R0 R1 R2 R3 R4 c) ∗ R c)
  X c := iprop(∃ r, prngReg c r)
  Y c := iprop(∃ r, prngReg c r)
  Z c := Pipeline.unscopedRest (Ix := Unit) (Name := ℕ) (U := UR sig nD τ) (Lvl := ℕ) spec4 c (V11 m ρ R0 R1 R2 R3 c)
  hentry c := by
    rw [Pipeline.ownSems0_none]
    have hsplit := Pipeline.arrays_of_unscopedBufs (p := 4) (pcfgs (F := F)) adm (pdats m ρ R0 R1 R2 R3 R4 R5) launch4.win launch4.arr_whole c
      ((pdats m ρ R0 R1 R2 R3 R4 R5 4 c).share_full fun w => R4.q_full (V11 m ρ R0 R1 R2 R3) c w) (V11 m ρ R0 R1 R2 R3 c) fun w => R4.A_eq (V11 m ρ R0 R1 R2 R3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq4 m ρ R0 R1 R2 R3 R4 R5 c 0]
      icases HO with ⟨%W, HO⟩; iexists W; isplitr
      · ipureintro; exact fun x _ => Or.inl (by rw [recorded_eq4 m ρ R0 R1 R2 R3 R4 R5 c 0]; exact Set.mem_univ x)
      iexact HO
    isplitl [Hp]; · iexact Hp
    iexact Hrest
  hin c := by
    refine .trans ?_ (R4.hin (V11 m ρ R0 R1 R2 R3) c)
    unfold Pipeline.ΦA
    iintro ⟨Hp, -, Hr⟩
    isplitl [Hr]; · iexact Hr
    iexact Hp
  hout c := by
    rw [Pipeline.ownSems0_none]
    refine .trans (R4.hout (V11 m ρ R0 R1 R2 R3) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ R0 R1 R2 R3 R4 R5) ((pdats m ρ R0 R1 R2 R3 R4 R5 4 c).share_full fun w => R4.q_full (V11 m ρ R0 R1 R2 R3) c w)
      (V11 m ρ R0 R1 R2 R3 c) (V12 m ρ R0 R1 R2 R3 R4 c) ((pdats m ρ R0 R1 R2 R3 R4 R5 4 c).arrAt · cfg4.N) (hF4 m ρ R0 R1 R2 R3 R4 c) (hrest4 m ρ R0 R1 R2 R3 R4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq4 m ρ R0 R1 R2 R3 R4 R5 c (Fin.last _)]
    icases HO with ⟨%W, -, HO⟩; iexists W; iexact HO

set_option backward.isDefEq.respectTransparency.types false in
/-- REGION 5 over the thread state: entered from every unscoped buffer at `W13`, left at `W14` (what the launch reads
    at the end). Two of its windows read one array, so its arrays leave and rejoin the unscoped buffers by the region's
    own entailments (`Reg5.hsplit`, `Reg5.hjoin`). -/
def reg5 : Pipeline.RegionSeg (pcfgs (F := F)) adm (pdats m ρ R0 R1 R2 R3 R4 R5) () defs₀ 𝒱₀ L lv 5 where
  win := winFacts₀5
  block_pos := block_pos5
  stage_whole := stage_whole5
  K := PEmpty
  osem k := k.elim
  ho := Pipeline.OwnSemFacts.none _
  hbody c := (R5.body (V13 m ρ R0 R1 R2 R3 R4) c).loose
  hwaits := Pipeline.hwaits_of_owed_zero _ _ _ _ L lv 5 fun c t => R5.owed_zero (V13 m ρ R0 R1 R2 R3 R4) c t
  pre c := iprop(StableHlo.held (c : Thread nD τ) (Pipeline.ucRefs τ sig) (W13 m ρ R0 R1 R2 R3 R4 c) ∗ R c)
  post c := iprop(Tₙ m ρ R0 R1 R2 R3 R4 R5 c ∗ ∃ W, owes (c : Thread nD τ) (0 : CellTallies nD τ sig Unit) W)
  X c := iprop(∃ r, prngReg c r)
  Y c := iprop(∃ r, prngReg c r)
  Z c := R5.Z (W13 m ρ R0 R1 R2 R3 R4) c
  hentry c := by
    rw [Pipeline.ownSems0_none]
    iintro ⟨⟨Hub, Hp, HO⟩, -, -⟩
    imod (R5.hsplit (W13 m ρ R0 R1 R2 R3 R4) c) $$ Hub with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq5 m ρ R0 R1 R2 R3 R4 R5 c 0]
      icases HO with ⟨%W, HO⟩; iexists W; isplitr
      · ipureintro; exact fun x _ => Or.inl (by rw [recorded_eq5 m ρ R0 R1 R2 R3 R4 R5 c 0]; exact Set.mem_univ x)
      iexact HO
    isplitl [Hp]; · iexact Hp
    iexact Hrest
  hin c := by
    refine .trans ?_ (R5.hin (V13 m ρ R0 R1 R2 R3 R4) c)
    unfold Pipeline.ΦA
    iintro ⟨Hp, -, Hr⟩
    isplitl [Hr]; · iexact Hr
    iexact Hp
  hout c := by
    rw [Pipeline.ownSems0_none]
    refine .trans (R5.hout (V13 m ρ R0 R1 R2 R3 R4) c) ?_
    unfold Pipeline.ΦA
    iintro ⟨Hr, Hp⟩
    isplitl [Hp]; · iexact Hp
    isplitr; · iempintro
    iexact Hr
  hexit c := by
    iintro ⟨Ha, HO, HY, Hrest⟩
    imod (R5.hjoin (W13 m ρ R0 R1 R2 R3 R4) c) $$ [Ha Hrest] with Hh
    · isplitl [Ha]; · iexact Ha
      iexact Hrest
    imodintro
    isplitl [Hh HY]
    · isplitl [Hh]
      · iexact Hh
      iexact HY
    unfold Pipeline.Dat.owesAt Pipeline.owesWithin
    rw [owed_eq5 m ρ R0 R1 R2 R3 R4 R5 c (Fin.last _)]
    icases HO with ⟨%W, -, HO⟩; iexists W; iexact HO

end Cert.Kernel.Hand

end
-- ==== Proof.KW.Chain.lean ====
import proofs.«164907_j26860725469614_1_alg».proof.Proof.KW.ChainRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Reg0 (F := F)) (R1 : Reg1 (F := F)) (R2 : Reg2 (F := F)) (R3 : Reg3 (F := F)) (R4 : Reg4 (F := F)) (R5 : Reg5 (F := F))

/-! # @main as segments, and the launch -/

/-- @main's 14 segments in order: a host segment per stretch from its boundary's contents, a region per pallas_call. -/
abbrev segs : List (Pipeline.Seg (pcfgs (F := F)) adm (pdats m ρ R0 R1 R2 R3 R4 R5) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ R0 R1 R2 R3 R4 R5),
    .host (hseg hostOps1 hostOps1_sub hostOps1_fresh (W4 m ρ R0)),
    .region (reg1 m ρ R0 R1 R2 R3 R4 R5),
    .host (hseg hostOps2 hostOps2_sub hostOps2_fresh (W6 m ρ R0 R1)),
    .region (reg2 m ρ R0 R1 R2 R3 R4 R5),
    .host (hseg hostOps3 hostOps3_sub hostOps3_fresh (W8 m ρ R0 R1 R2)),
    .region (reg3 m ρ R0 R1 R2 R3 R4 R5),
    .host (hseg hostOps4 hostOps4_sub hostOps4_fresh (W10 m ρ R0 R1 R2 R3)),
    .region (reg4 m ρ R0 R1 R2 R3 R4 R5),
    .host (hseg hostOps5 hostOps5_sub hostOps5_fresh (W12 m ρ R0 R1 R2 R3 R4)),
    .region (reg5 m ρ R0 R1 R2 R3 R4 R5) ]

/-- @main IS the run of the segments: the chain of its items, then the segments' run against that chain. -/
theorem main_run (c : Dev nD) : main (F := F) c = Pipeline.Seg.run (segs m ρ R0 R1 R2 R3 R4 R5) :=
  (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents `W14`: the launch over the segments, the last thread state read against the final state. -/
theorem main_run_all : θ_run defs (onTc (τ := τ) (main (F := F))) ⟨m, fun _ => 0, ρ⟩
    (fun r => ∀ c : Dev nD, ∀ b ∈ Pipeline.ucRefs τ sig, r.2.mem (((c : Thread nD τ)).1, b) = W14 m ρ R0 R1 R2 R3 R4 R5 c b) :=
  Pipeline.θ_run_regions_kit (pcfgs (F := F)) adm (pdats m ρ R0 R1 R2 R3 R4 R5) () cellOf_inj emb₁ defs₀ 𝒱₀ L lv m ρ main (segs m ρ R0 R1 R2 R3 R4 R5)
    (fun c Q => by rw [main_run m ρ R0 R1 R2 R3 R4 R5 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ R0 R1 R2 R3 R4 R5)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ R0 R1 R2 R3 R4 R5 c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ R0 R1 R2 R3 R4 R5 c) s')
      isplitl [Hh] <;> iassumption)
    (hQ := fun s h => h)

end Cert.Kernel.Hand

end
-- ==== Proof.KW.G0Runs.lean ====
/-
  Region 0 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.Kernel.Launch
import proofs.«164907_j26860725469614_1_alg».proof.Proof.Gen.Kernel.Skeleton
import proofs.«164907_j26860725469614_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (when it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions over the grid -/

/-- "this is the first reduction tile" (k = 0), as the body computes it from the grid coordinates. -/
abbrev condF0 (i : grid0.Coords) : Prop := (Scalar.cmpi .ne (Scalar.extui (Scalar.cmpi .eq (BitVec.ofNat 32 (i 1).val) 0#32)) 0#32) = 1#1
theorem hcondF0 : ∀ t : Fin cfg0.N, condF0 (grid0.coords t) ↔ t.val % 12 = 0 :=
  (by decide +kernel : ∀ t : Fin grid0.N, condF0 (grid0.coords t) ↔ t.val % 12 = 0)

/-- "this is the last reduction tile" (k = 11). -/
abbrev condL0 (i : grid0.Coords) : Prop := k0_cond2 i = 1#1
theorem hcondL0 : ∀ t : Fin cfg0.N, condL0 (grid0.coords t) ↔ t.val % 12 = 11 :=
  (by decide +kernel : ∀ t : Fin grid0.N, condL0 (grid0.coords t) ↔ t.val % 12 = 11)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last reduction tile the output window is idle and is not written back. -/
theorem idle0_4 : ∀ t : Fin cfg0.N, ¬condL0 (grid0.coords t) → cfg0.idle 4 (grid0.coords t) = true := by decide +kernel
theorem noFlush0_4 : ∀ t : Fin cfg0.N, ¬condL0 (grid0.coords t) → (cfg0.win 4).flush t = false := by decide +kernel
theorem live0_4 : ∀ t : Fin cfg0.N, condL0 (grid0.coords t) → cfg0.idle 4 (grid0.coords t) = false := by decide +kernel

/-! ## The staging memrefs and the scratch -/

abbrev VO0 : View sig .tc .vmem S1024x128 .f32 := (Memref.whole cc0_stg4_0 : Memref sig .tc .vmem S1024x128 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator scratch, a whole scoped buffer of the kernel's own, and its view. -/
abbrev scM0 : Memref sig .tc .vmem S1024x128 .f32 := Memref.whole cc0_scratch0
abbrev VS0 : View sig .tc .vmem S1024x128 .f32 := scM0.view

/-- The core's other scoped buffers (the other regions' staging buffers and scratch), which this region never opens. -/
abbrev Rest0 (c : Dev nD) : sProp 𝕄 := Pipeline.scopedRestBut (Ix := Unit) (Name := ℕ) (U := UR sig nD τ) (Lvl := ℕ) (Val := Elt F) spec0 c [cc0_scratch0]

/-- The region's resting invariant with the scratch as a memref owned at some contents. -/
theorem PhiA0_eq (c : Dev nD) :
    (Pipeline.ΦA spec0 c : sProp 𝕄)
      = iprop(iprop((∃ d, owns (c : Thread nD τ) scM0 fullShare d) ∗ Rest0 (F := F) c) ∗ (∃ r, prngReg c r)) := by
  unfold Pipeline.ΦA; rw [scopedRest0_split]; simp only [scM0, owns_whole]; try rfl

end Cert.Kernel.Hand

end
-- ==== Proof.KW.G0RunA.lean ====
/-
  Region 0, the first reduction tile (k = 0): the scratch is cleared, then the tile's product is added; the output is left alone.
  The body run on whole staging memrefs: the pieces each written buffer ends with are found by the run.
-/
import proofs.«164907_j26860725469614_1_alg».proof.Proof.KW.G0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G0RunB.lean ====
/-
  Region 0, a middle reduction tile (0 < k < 11): the tile's product is added to the scratch; the output is left alone.
  The body run on whole staging memrefs: the pieces each written buffer ends with are found by the run.
-/
import proofs.«164907_j26860725469614_1_alg».proof.Proof.KW.G0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G0RunC.lean ====
/-
  Region 0, the last reduction tile (k = 11): the tile's product is added to the scratch, then the output tile is stored from it.
  The body run on whole staging memrefs: the pieces each written buffer ends with are found by the run.
-/
import proofs.«164907_j26860725469614_1_alg».proof.Proof.KW.G0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KW.G0Frame.lean ====
/-
  Region 0: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KW.G0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out0_A_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) : Vec F S1024x128 .f32 :=
  VO0.read (Elt F) (VO0.writes (Elt F) VO0.junk (kernelRun0_A c i arg2 harg2 arg3 harg3 arg4 harg4 arg5 harg5 arg6 harg6 arg7 harg7 hc0 hc1 x0 x1 x2 x3).1)

/-- The case's stores into the accumulator scratch cover it. -/
theorem scover0_A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What the case leaves in the accumulator scratch. -/
def sout0_A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) : Vec F S1024x128 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out0_B_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VO0.read (Elt F) (VO0.writes (Elt F) VO0.junk (kernelRun0_B c i arg2 harg2 arg3 harg3 arg4 harg4 arg5 harg5 arg6 harg6 arg7 harg7 hc0 hc1 x0 x1 x2 x3 xs0).1)

/-- The case's stores into the accumulator scratch cover it. -/
theorem scover0_B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout0_B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- At the last reduction tile the one store into the output tile covers it. -/
theorem cover0_C_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out0_C_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VO0.read (Elt F) (VO0.writes (Elt F) VO0.junk (kernelRun0_C c i arg2 harg2 arg3 harg3 arg4 harg4 arg5 harg5 arg6 harg6 arg7 harg7 hc0 hc1 x0 x1 x2 x3 xs0).1)

/-- The case's stores into the accumulator scratch cover it. -/
theorem scover0_C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout0_C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt0 (c : Dev nD) : (n : ℕ) → n < cfg0.N → Vec F S1024x128 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcondF0 ⟨0, hn⟩).mpr (Nat.zero_mod _)) (fun h => (fun h => by (try dsimp only at h); omega) ((hcondL0 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcondF0 ⟨0, hn⟩).mpr (Nat.zero_mod _)) (fun h => (fun h => by (try dsimp only at h); omega) ((hcondL0 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 12 = 0 then
      if h1 : (n + 1) % 12 = 11 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcondF0 ⟨n + 1, hn⟩).mpr h0) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcondF0 ⟨n + 1, hn⟩).mpr h0) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 12 = 11 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 12 = 0) (h1 : ¬t.val % 12 = 11) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 12 = 0) (h1 : ¬t.val % 12 = 11) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 12 = 0) (h1 : t.val % 12 = 11) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 144 := lt_of_lt_of_eq t.isLt (show cfg0.N = 144 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases h0 : t.val % 12 = 0
  · by_cases h1 : t.val % 12 = 11
    · exfalso; omega
    ·
      rw [Dat.leavesExact_idle (dat0 V c) 4 t (idle0_4 t ((fun h => h1 ((hcondL0 t).mp h)))) (noFlush0_4 t ((fun h => h1 ((hcondL0 t).mp h))))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat0 V c).leavesExact 4 t = owns (c : Thread nD τ) (ms0_4 t) fullShare ((dat0 V c).after 4 t) from by
        unfold Dat.leavesExact; rw [live0_4 t (((hcondL0 t).mpr h1))], after0_4]
      rw [outsAt0_C V c t h0 h1]
      unfold out0_C_4 sout0_C; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2)
    ·
      rw [Dat.leavesExact_idle (dat0 V c) 4 t (idle0_4 t ((fun h => h1 ((hcondL0 t).mp h)))) (noFlush0_4 t ((fun h => h1 ((hcondL0 t).mp h))))]
      rw [outsAt0_B V c t h0 h1]
      unfold sout0_B; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 144 := N_0; omega)

end Cert.Kernel.Hand

end
-- ==== Proof.KW.G1Runs.lean ====
/-
  Region 1 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.Kernel.Launch
import proofs.«164907_j26860725469614_1_alg».proof.Proof.Gen.Kernel.Skeleton
import proofs.«164907_j26860725469614_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (when it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions over the grid -/

/-- "this is the first reduction tile" (k = 0), as the body computes it from the grid coordinates. -/
abbrev condF1 (i : grid1.Coords) : Prop := (Scalar.cmpi .ne (Scalar.extui (Scalar.cmpi .eq (BitVec.ofNat 32 (i 1).val) 0#32)) 0#32) = 1#1
theorem hcondF1 : ∀ t : Fin cfg1.N, condF1 (grid1.coords t) ↔ t.val % 12 = 0 :=
  (by decide +kernel : ∀ t : Fin grid1.N, condF1 (grid1.coords t) ↔ t.val % 12 = 0)

/-- "this is the last reduction tile" (k = 11). -/
abbrev condL1 (i : grid1.Coords) : Prop := k1_cond2 i = 1#1
theorem hcondL1 : ∀ t : Fin cfg1.N, condL1 (grid1.coords t) ↔ t.val % 12 = 11 :=
  (by decide +kernel : ∀ t : Fin grid1.N, condL1 (grid1.coords t) ↔ t.val % 12 = 11)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last reduction tile the output window is idle and is not written back. -/
theorem idle1_4 : ∀ t : Fin cfg1.N, ¬condL1 (grid1.coords t) → cfg1.idle 4 (grid1.coords t) = true := by decide +kernel
theorem noFlush1_4 : ∀ t : Fin cfg1.N, ¬condL1 (grid1.coords t) → (cfg1.win 4).flush t = false := by decide +kernel
theorem live1_4 : ∀ t : Fin cfg1.N, condL1 (grid1.coords t) → cfg1.idle 4 (grid1.coords t) = false := by decide +kernel

/-! ## The staging memrefs and the scratch -/

abbrev VO1 : View sig .tc .vmem S1024x128 .f32 := (Memref.whole cc1_stg4_0 : Memref sig .tc .vmem S1024x128 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator scratch, a whole scoped buffer of the kernel's own, and its view. -/
abbrev scM1 : Memref sig .tc .vmem S1024x128 .f32 := Memref.whole cc1_scratch0
abbrev VS1 : View sig .tc .vmem S1024x128 .f32 := scM1.view

/-- The core's other scoped buffers (the other regions' staging buffers and scratch), which this region never opens. -/
abbrev Rest1 (c : Dev nD) : sProp 𝕄 := Pipeline.scopedRestBut (Ix := Unit) (Name := ℕ) (U := UR sig nD τ) (Lvl := ℕ) (Val := Elt F) spec1 c [cc1_scratch0]

/-- The region's resting invariant with the scratch as a memref owned at some contents. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA; rw [scopedRest1_split]; simp only [scM1, owns_whole]; try rfl

end Cert.Kernel.Hand

end
-- ==== Proof.KW.G1RunA.lean ====
/-
  Region 1, the first reduction tile (k = 0): the scratch is cleared, then the tile's product is added; the output is left alone.
  The body run on whole staging memrefs: the pieces each written buffer ends with are found by the run.
-/
import proofs.«164907_j26860725469614_1_alg».proof.Proof.KW.G1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G1RunB.lean ====
/-
  Region 1, a middle reduction tile (0 < k < 11): the tile's product is added to the scratch; the output is left alone.
  The body run on whole staging memrefs: the pieces each written buffer ends with are found by the run.
-/
import proofs.«164907_j26860725469614_1_alg».proof.Proof.KW.G1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G1RunC.lean ====
/-
  Region 1, the last reduction tile (k = 11): the tile's product is added to the scratch, then the output tile is stored from it.
  The body run on whole staging memrefs: the pieces each written buffer ends with are found by the run.
-/
import proofs.«164907_j26860725469614_1_alg».proof.Proof.KW.G1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KW.G1Frame.lean ====
/-
  Region 1: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KW.G1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out1_A_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) : Vec F S1024x128 .f32 :=
  VO1.read (Elt F) (VO1.writes (Elt F) VO1.junk (kernelRun1_A c i arg2 harg2 arg3 harg3 arg4 harg4 arg5 harg5 arg6 harg6 arg7 harg7 hc0 hc1 x0 x1 x2 x3).1)

/-- The case's stores into the accumulator scratch cover it. -/
theorem scover1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What the case leaves in the accumulator scratch. -/
def sout1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) : Vec F S1024x128 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out1_B_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VO1.read (Elt F) (VO1.writes (Elt F) VO1.junk (kernelRun1_B c i arg2 harg2 arg3 harg3 arg4 harg4 arg5 harg5 arg6 harg6 arg7 harg7 hc0 hc1 x0 x1 x2 x3 xs0).1)

/-- The case's stores into the accumulator scratch cover it. -/
theorem scover1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-- At the last reduction tile the one store into the output tile covers it. -/
theorem cover1_C_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out1_C_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-- The case's stores into the accumulator scratch cover it. -/
theorem scover1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt1 (c : Dev nD) : (n : ℕ) → n < cfg1.N → Vec F S1024x128 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcondF1 ⟨0, hn⟩).mpr (Nat.zero_mod _)) (fun h => (fun h => by (try dsimp only at h); omega) ((hcondL1 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcondF1 ⟨0, hn⟩).mpr (Nat.zero_mod _)) (fun h => (fun h => by (try dsimp only at h); omega) ((hcondL1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 12 = 0 then
      if h1 : (n + 1) % 12 = 11 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcondF1 ⟨n + 1, hn⟩).mpr h0) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcondF1 ⟨n + 1, hn⟩).mpr h0) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 12 = 11 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 12 = 0) (h1 : ¬t.val % 12 = 11) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 12 = 0) (h1 : ¬t.val % 12 = 11) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 12 = 0) (h1 : t.val % 12 = 11) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 144 := lt_of_lt_of_eq t.isLt (show cfg1.N = 144 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases h0 : t.val % 12 = 0
  · by_cases h1 : t.val % 12 = 11
    · exfalso; omega
    ·
      rw [Dat.leavesExact_idle (dat1 V c) 4 t (idle1_4 t ((fun h => h1 ((hcondL1 t).mp h)))) (noFlush1_4 t ((fun h => h1 ((hcondL1 t).mp h))))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat1 V c).leavesExact 4 t = owns (c : Thread nD τ) (ms1_4 t) fullShare ((dat1 V c).after 4 t) from by
        unfold Dat.leavesExact; rw [live1_4 t (((hcondL1 t).mpr h1))], after1_4]
      rw [outsAt1_C V c t h0 h1]
      unfold out1_C_4 sout1_C; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2)
    ·
      rw [Dat.leavesExact_idle (dat1 V c) 4 t (idle1_4 t ((fun h => h1 ((hcondL1 t).mp h)))) (noFlush1_4 t ((fun h => h1 ((hcondL1 t).mp h))))]
      rw [outsAt1_B V c t h0 h1]
      unfold sout1_B; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 144 := N_1; omega)

end Cert.Kernel.Hand

end
-- ==== Proof.KW.G2Runs.lean ====
/-
  Region 2 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.Kernel.Launch
import proofs.«164907_j26860725469614_1_alg».proof.Proof.Gen.Kernel.Skeleton
import proofs.«164907_j26860725469614_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (when it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions over the grid -/

/-- "this is the first reduction tile" (k = 0), as the body computes it from the grid coordinates. -/
abbrev condF2 (i : grid2.Coords) : Prop := (Scalar.cmpi .ne (Scalar.extui (Scalar.cmpi .eq (BitVec.ofNat 32 (i 1).val) 0#32)) 0#32) = 1#1
theorem hcondF2 : ∀ t : Fin cfg2.N, condF2 (grid2.coords t) ↔ t.val % 12 = 0 :=
  (by decide +kernel : ∀ t : Fin grid2.N, condF2 (grid2.coords t) ↔ t.val % 12 = 0)

/-- "this is the last reduction tile" (k = 11). -/
abbrev condL2 (i : grid2.Coords) : Prop := k2_cond2 i = 1#1
theorem hcondL2 : ∀ t : Fin cfg2.N, condL2 (grid2.coords t) ↔ t.val % 12 = 11 :=
  (by decide +kernel : ∀ t : Fin grid2.N, condL2 (grid2.coords t) ↔ t.val % 12 = 11)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last reduction tile the output window is idle and is not written back. -/
theorem idle2_4 : ∀ t : Fin cfg2.N, ¬condL2 (grid2.coords t) → cfg2.idle 4 (grid2.coords t) = true := by decide +kernel
theorem noFlush2_4 : ∀ t : Fin cfg2.N, ¬condL2 (grid2.coords t) → (cfg2.win 4).flush t = false := by decide +kernel
theorem live2_4 : ∀ t : Fin cfg2.N, condL2 (grid2.coords t) → cfg2.idle 4 (grid2.coords t) = false := by decide +kernel

/-! ## The staging memrefs and the scratch -/

abbrev VO2 : View sig .tc .vmem S1024x128 .f32 := (Memref.whole cc2_stg4_0 : Memref sig .tc .vmem S1024x128 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)
/-- The accumulator scratch, a whole scoped buffer of the kernel's own, and its view. -/
abbrev scM2 : Memref sig .tc .vmem S1024x128 .f32 := Memref.whole cc2_scratch0
abbrev VS2 : View sig .tc .vmem S1024x128 .f32 := scM2.view

/-- The core's other scoped buffers (the other regions' staging buffers and scratch), which this region never opens. -/
abbrev Rest2 (c : Dev nD) : sProp 𝕄 := Pipeline.scopedRestBut (Ix := Unit) (Name := ℕ) (U := UR sig nD τ) (Lvl := ℕ) (Val := Elt F) spec2 c [cc2_scratch0]

/-- The region's resting invariant with the scratch as a memref owned at some contents. -/
theorem PhiA2_eq (c : Dev nD) :
    (Pipeline.ΦA spec2 c : sProp 𝕄)
      = iprop(iprop((∃ d, owns (c : Thread nD τ) scM2 fullShare d) ∗ Rest2 (F := F) c) ∗ (∃ r, prngReg c r)) := by
  unfold Pipeline.ΦA; rw [scopedRest2_split]; simp only [scM2, owns_whole]; try rfl

end Cert.Kernel.Hand

end
-- ==== Proof.KW.G2RunA.lean ====
/-
  Region 2, the first reduction tile (k = 0): the scratch is cleared, then the tile's product is added; the output is left alone.
  The body run on whole staging memrefs: the pieces each written buffer ends with are found by the run.
-/
import proofs.«164907_j26860725469614_1_alg».proof.Proof.KW.G2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun2_A (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G2RunB.lean ====
/-
  Region 2, a middle reduction tile (0 < k < 11): the tile's product is added to the scratch; the output is left alone.
  The body run on whole staging memrefs: the pieces each written buffer ends with are found by the run.
-/
import proofs.«164907_j26860725469614_1_alg».proof.Proof.KW.G2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun2_B (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G2RunC.lean ====
/-
  Region 2, the last reduction tile (k = 11): the tile's product is added to the scratch, then the output tile is stored from it.
  The body run on whole staging memrefs: the pieces each written buffer ends with are found by the run.
-/
import proofs.«164907_j26860725469614_1_alg».proof.Proof.KW.G2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun2_C (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KW.G2Frame.lean ====
/-
  Region 2: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KW.G2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out2_A_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) : Vec F S1024x128 .f32 :=
  VO2.read (Elt F) (VO2.writes (Elt F) VO2.junk (kernelRun2_A c i arg2 harg2 arg3 harg3 arg4 harg4 arg5 harg5 arg6 harg6 arg7 harg7 hc0 hc1 x0 x1 x2 x3).1)

/-- The case's stores into the accumulator scratch cover it. -/
theorem scover2_A (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) (y : S1024x128.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S1024x128.size (by sl_kernel_rfl) y

/-- What the case leaves in the accumulator scratch. -/
def sout2_A (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) : Vec F S1024x128 .f32 :=
  VS2.read (Elt F) (VS2.writes (Elt F) VS2.junk (kernelRun2_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out2_B_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VO2.read (Elt F) (VO2.writes (Elt F) VO2.junk (kernelRun2_B c i arg2 harg2 arg3 harg3 arg4 harg4 arg5 harg5 arg6 harg6 arg7 harg7 hc0 hc1 x0 x1 x2 x3 xs0).1)

/-- The case's stores into the accumulator scratch cover it. -/
theorem scover2_B (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout2_B (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VS2.read (Elt F) (VS2.writes (Elt F) VS2.junk (kernelRun2_B c i arg2 harg2 arg3 harg3 arg4 harg4 arg5 harg5 arg6 harg6 arg7 harg7 hc0 hc1 x0 x1 x2 x3 xs0).2.1)

/-- At the last reduction tile the one store into the output tile covers it. -/
theorem cover2_C_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out2_C_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VO2.read (Elt F) (VO2.writes (Elt F) VO2.junk (kernelRun2_C c i arg2 harg2 arg3 harg3 arg4 harg4 arg5 harg5 arg6 harg6 arg7 harg7 hc0 hc1 x0 x1 x2 x3 xs0).1)

/-- The case's stores into the accumulator scratch cover it. -/
theorem scover2_C (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout2_C (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VS2.read (Elt F) (VS2.writes (Elt F) VS2.junk (kernelRun2_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt2 (c : Dev nD) : (n : ℕ) → n < cfg2.N → Vec F S1024x128 .f32 × Vec F S1024x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcondF2 ⟨0, hn⟩).mpr (Nat.zero_mod _)) (fun h => (fun h => by (try dsimp only at h); omega) ((hcondL2 ⟨0, hn⟩).mp h)) (iblk2 V c 0 ⟨0, hn⟩) (iblk2 V c 1 ⟨0, hn⟩) (iblk2 V c 2 ⟨0, hn⟩) (iblk2 V c 3 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcondF2 ⟨0, hn⟩).mpr (Nat.zero_mod _)) (fun h => (fun h => by (try dsimp only at h); omega) ((hcondL2 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 12 = 0 then
      if h1 : (n + 1) % 12 = 11 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcondF2 ⟨n + 1, hn⟩).mpr h0) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcondF2 ⟨n + 1, hn⟩).mpr h0) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 12 = 11 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) ((hcondL2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) ((hcondL2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 12 = 0) (h1 : ¬t.val % 12 = 11) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t), sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 12 = 0) (h1 : ¬t.val % 12 = 11) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 12 = 0) (h1 : t.val % 12 = 11) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 144 := lt_of_lt_of_eq t.isLt (show cfg2.N = 144 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  by_cases h0 : t.val % 12 = 0
  · by_cases h1 : t.val % 12 = 11
    · exfalso; omega
    ·
      rw [Dat.leavesExact_idle (dat2 V c) 4 t (idle2_4 t ((fun h => h1 ((hcondL2 t).mp h)))) (noFlush2_4 t ((fun h => h1 ((hcondL2 t).mp h))))]
      rw [outsAt2_A V c t h0 h1]
      unfold sout2_A; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat2 V c).leavesExact 4 t = owns (c : Thread nD τ) (ms2_4 t) fullShare ((dat2 V c).after 4 t) from by
        unfold Dat.leavesExact; rw [live2_4 t (((hcondL2 t).mpr h1))], after2_4]
      rw [outsAt2_C V c t h0 h1]
      unfold out2_C_4 sout2_C; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2)
    ·
      rw [Dat.leavesExact_idle (dat2 V c) 4 t (idle2_4 t ((fun h => h1 ((hcondL2 t).mp h)))) (noFlush2_4 t ((fun h => h1 ((hcondL2 t).mp h))))]
      rw [outsAt2_B V c t h0 h1]
      unfold sout2_B; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting one back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 144 := N_2; omega)

end Cert.Kernel.Hand

end
-- ==== Proof.KW.G3Runs.lean ====
/-
  Region 3 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.Kernel.Launch
import proofs.«164907_j26860725469614_1_alg».proof.Proof.Gen.Kernel.Skeleton
import proofs.«164907_j26860725469614_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (when it is not
    fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions over the grid -/

/-- "this is the first reduction tile" (k = 0), as the body computes it from the grid coordinates. -/
abbrev condF3 (i : grid3.Coords) : Prop := (Scalar.cmpi .ne (Scalar.extui (Scalar.cmpi .eq (BitVec.ofNat 32 (i 1).val) 0#32)) 0#32) = 1#1
theorem hcondF3 : ∀ t : Fin cfg3.N, condF3 (grid3.coords t) ↔ t.val % 12 = 0 :=
  (by decide +kernel : ∀ t : Fin grid3.N, condF3 (grid3.coords t) ↔ t.val % 12 = 0)

/-- "this is the last reduction tile" (k = 11). -/
abbrev condL3 (i : grid3.Coords) : Prop := k3_cond2 i = 1#1
theorem hcondL3 : ∀ t : Fin cfg3.N, condL3 (grid3.coords t) ↔ t.val % 12 = 11 :=
  (by decide +kernel : ∀ t : Fin grid3.N, condL3 (grid3.coords t) ↔ t.val % 12 = 11)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Away from the last reduction tile the output window is idle and is not written back. -/
theorem idle3_4 : ∀ t : Fin cfg3.N, ¬condL3 (grid3.coords t) → cfg3.idle 4 (grid3.coords t) = true := by decide +kernel
theorem noFlush3_4 : ∀ t : Fin cfg3.N, ¬condL3 (grid3.coords t) → (cfg3.win 4).flush t = false := by decide +kernel
theorem live3_4 : ∀ t : Fin cfg3.N, condL3 (grid3.coords t) → cfg3.idle 4 (grid3.coords t) = false := by decide +kernel

/-! ## The staging memrefs and the scratch -/

abbrev VO3 : View sig .tc .vmem S1024x512 .f32 := (Memref.whole cc3_stg4_0 : Memref sig .tc .vmem S1024x512 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x512 .f32 := win3_4.stage (cfg3.slots t 4)
abbrev hs3_4 (t : Fin cfg3.N) : (ms3_4 t).IsWhole := hstage3_4 ((cfg3.slots t 4).cast nbuf3_4)
/-- The accumulator scratch, a whole scoped buffer of the kernel's own, and its view. -/
abbrev scM3 : Memref sig .tc .vmem S1024x512 .f32 := Memref.whole cc3_scratch0
abbrev VS3 : View sig .tc .vmem S1024x512 .f32 := scM3.view

/-- The core's other scoped buffers (the other regions' staging buffers and scratch), which this region never opens. -/
abbrev Rest3 (c : Dev nD) : sProp 𝕄 := Pipeline.scopedRestBut (Ix := Unit) (Name := ℕ) (U := UR sig nD τ) (Lvl := ℕ) (Val := Elt F) spec3 c [cc3_scratch0]

/-- The region's resting invariant with the scratch as a memref owned at some contents. -/
theorem PhiA3_eq (c : Dev nD) :
    (Pipeline.ΦA spec3 c : sProp 𝕄)
      = iprop(iprop((∃ d, owns (c : Thread nD τ) scM3 fullShare d) ∗ Rest3 (F := F) c) ∗ (∃ r, prngReg c r)) := by
  unfold Pipeline.ΦA; rw [scopedRest3_split]; simp only [scM3, owns_whole]; try rfl

end Cert.Kernel.Hand

end
-- ==== Proof.KW.G3RunA.lean ====
/-
  Region 3, the first reduction tile (k = 0): the scratch is cleared, then the tile's product is added; the output is left alone.
  The body run on whole staging memrefs: the pieces each written buffer ends with are found by the run.
-/
import proofs.«164907_j26860725469614_1_alg».proof.Proof.KW.G3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun3_A (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_layer_kernel i arg2 harg2 arg3 harg3 arg4 harg4 arg5 harg5 arg6 harg6 arg7 harg7) K } := by
  refine ⟨[], ?_, fun xi4 E K => ?run⟩
  case run =>
    simp only [cc3__gcn_layer_kernel_eq_skeleton]; unfold cc3__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G3RunB.lean ====
/-
  Region 3, a middle reduction tile (0 < k < 11): the tile's product is added to the scratch; the output is left alone.
  The body run on whole staging memrefs: the pieces each written buffer ends with are found by the run.
-/
import proofs.«164907_j26860725469614_1_alg».proof.Proof.KW.G3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun3_B (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_layer_kernel i arg2 harg2 arg3 harg3 arg4 harg4 arg5 harg5 arg6 harg6 arg7 harg7) K } := by
  refine ⟨[], ?_, fun xi4 E K => ?run⟩
  case run =>
    simp only [cc3__gcn_layer_kernel_eq_skeleton]; unfold cc3__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G3RunC.lean ====
/-
  Region 3, the last reduction tile (k = 11): the tile's product is added to the scratch, then the output tile is stored from it.
  The body run on whole staging memrefs: the pieces each written buffer ends with are found by the run.
-/
import proofs.«164907_j26860725469614_1_alg».proof.Proof.KW.G3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun3_C (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_layer_kernel i arg2 harg2 arg3 harg3 arg4 harg4 arg5 harg5 arg6 harg6 arg7 harg7) K } := by
  refine ⟨?_, ?_, fun E K => ?run⟩
  case run =>
    simp only [cc3__gcn_layer_kernel_eq_skeleton]; unfold cc3__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KW.G3Frame.lean ====
/-
  Region 3: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KW.G3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out3_A_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) : Vec F S1024x512 .f32 :=
  VO3.read (Elt F) (VO3.writes (Elt F) VO3.junk (kernelRun3_A c i arg2 harg2 arg3 harg3 arg4 harg4 arg5 harg5 arg6 harg6 arg7 harg7 hc0 hc1 x0 x1 x2 x3).1)

/-- The case's stores into the accumulator scratch cover it. -/
theorem scover3_A (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) (y : S1024x512.Idx) :
    ∃ pc ∈ (kernelRun3_A c i arg2 harg2 arg3 harg3 arg4 harg4 arg5 harg5 arg6 harg6 arg7 harg7 hc0 hc1 x0 x1 x2 x3).2.1, y ∈ pc.1.set :=
  View.cover_of_tiledL (kernelRun3_A c i arg2 harg2 arg3 harg3 arg4 harg4 arg5 harg5 arg6 harg6 arg7 harg7 hc0 hc1 x0 x1 x2 x3).2.1 S1024x512.size (by sl_kernel_rfl) y

/-- What the case leaves in the accumulator scratch. -/
def sout3_A (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) : Vec F S1024x512 .f32 :=
  VS3.read (Elt F) (VS3.writes (Elt F) VS3.junk (kernelRun3_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out3_B_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VO3.read (Elt F) (VO3.writes (Elt F) VO3.junk (kernelRun3_B c i arg2 harg2 arg3 harg3 arg4 harg4 arg5 harg5 arg6 harg6 arg7 harg7 hc0 hc1 x0 x1 x2 x3 xs0).1)

/-- The case's stores into the accumulator scratch cover it. -/
theorem scover3_B (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) (y : S1024x512.Idx) :
    ∃ pc ∈ (kernelRun3_B c i arg2 harg2 arg3 harg3 arg4 harg4 arg5 harg5 arg6 harg6 arg7 harg7 hc0 hc1 x0 x1 x2 x3 xs0).2.1, y ∈ pc.1.set :=
  View.cover_of_tiledL (kernelRun3_B c i arg2 harg2 arg3 harg3 arg4 harg4 arg5 harg5 arg6 harg6 arg7 harg7 hc0 hc1 x0 x1 x2 x3 xs0).2.1 S1024x512.size (by sl_kernel_rfl) y

/-- What the case leaves in the accumulator scratch. -/
def sout3_B (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VS3.read (Elt F) (VS3.writes (Elt F) VS3.junk (kernelRun3_B c i arg2 harg2 arg3 harg3 arg4 harg4 arg5 harg5 arg6 harg6 arg7 harg7 hc0 hc1 x0 x1 x2 x3 xs0).2.1)

/-- At the last reduction tile the one store into the output tile covers it. -/
theorem cover3_C_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) (y : S1024x512.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S1024x512.size (by sl_kernel_rfl) y

/-- What the case leaves in the output's staging buffer: its pieces read back. -/
def out3_C_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VO3.read (Elt F) (VO3.writes (Elt F) VO3.junk (kernelRun3_C c i arg2 harg2 arg3 harg3 arg4 harg4 arg5 harg5 arg6 harg6 arg7 harg7 hc0 hc1 x0 x1 x2 x3 xs0).1)

/-- The case's stores into the accumulator scratch cover it. -/
theorem scover3_C (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) (y : S1024x512.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S1024x512.size (by sl_kernel_rfl) y

/-- What the case leaves in the accumulator scratch. -/
def sout3_C (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VS3.read (Elt F) (VS3.writes (Elt F) VS3.junk (kernelRun3_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt3 (c : Dev nD) : (n : ℕ) → n < cfg3.N → Vec F S1024x512 .f32 × Vec F S1024x512 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcondF3 ⟨0, hn⟩).mpr (Nat.zero_mod _)) (fun h => (fun h => by (try dsimp only at h); omega) ((hcondL3 ⟨0, hn⟩).mp h)) (iblk3 V c 0 ⟨0, hn⟩) (iblk3 V c 1 ⟨0, hn⟩) (iblk3 V c 2 ⟨0, hn⟩) (iblk3 V c 3 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcondF3 ⟨0, hn⟩).mpr (Nat.zero_mod _)) (fun h => (fun h => by (try dsimp only at h); omega) ((hcondL3 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 12 = 0 then
      if h1 : (n + 1) % 12 = 11 then
        False.elim (by omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcondF3 ⟨n + 1, hn⟩).mpr h0) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcondF3 ⟨n + 1, hn⟩).mpr h0) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 12 = 11 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) ((hcondL3 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) ((hcondL3 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

theorem outsAt3_A (c : Dev nD) (t : Fin cfg3.N) (h0 : t.val % 12 = 0) (h1 : ¬t.val % 12 = 11) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t), sout3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

theorem outsAt3_B (c : Dev nD) (t : Fin cfg3.N) (h0 : ¬t.val % 12 = 0) (h1 : ¬t.val % 12 = 11) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 12 = 0) (h1 : t.val % 12 = 11) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Rest3 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 144 := lt_of_lt_of_eq t.isLt (show cfg3.N = 144 from N_3)
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rw [show (dat3 V c).leavesExact 3 t = owns (c : Thread nD τ) (ms3_3 t) fullShare ((dat3 V c).after 3 t) from by
    unfold Dat.leavesExact; rw [live3_3 t], after3_3]
  by_cases h0 : t.val % 12 = 0
  · by_cases h1 : t.val % 12 = 11
    · exfalso; omega
    ·
      rw [Dat.leavesExact_idle (dat3 V c) 4 t (idle3_4 t ((fun h => h1 ((hcondL3 t).mp h)))) (noFlush3_4 t ((fun h => h1 ((hcondL3 t).mp h))))]
      rw [outsAt3_A V c t h0 h1]
      unfold sout3_A; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat3 V c).leavesExact 4 t = owns (c : Thread nD τ) (ms3_4 t) fullShare ((dat3 V c).after 4 t) from by
        unfold Dat.leavesExact; rw [live3_4 t (((hcondL3 t).mpr h1))], after3_4]
      rw [outsAt3_C V c t h0 h1]
      unfold out3_C_4 sout3_C; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover3_C_4 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2)
    ·
      rw [Dat.leavesExact_idle (dat3 V c) 4 t (idle3_4 t ((fun h => h1 ((hcondL3 t).mp h)))) (noFlush3_4 t ((fun h => h1 ((hcondL3 t).mp h))))]
      rw [outsAt3_B V c t h0 h1]
      unfold sout3_B; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the resting one back: the scratch's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 144 := N_3; omega)

end Cert.Kernel.Hand

end
-- ==== Proof.KW.G4Runs.lean ====
/-
  Region 4 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.Kernel.Launch
import proofs.«164907_j26860725469614_1_alg».proof.Proof.Gen.Kernel.Skeleton
import proofs.«164907_j26860725469614_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (when it is not
    fetched its block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions over the grid -/

/-- "this is the first reduction tile" (k = 0), as the body computes it from the grid coordinates. -/
abbrev condF4 (i : grid4.Coords) : Prop := (Scalar.cmpi .ne (Scalar.extui (Scalar.cmpi .eq (BitVec.ofNat 32 (i 1).val) 0#32)) 0#32) = 1#1
theorem hcondF4 : ∀ t : Fin cfg4.N, condF4 (grid4.coords t) ↔ t.val % 12 = 0 :=
  (by decide +kernel : ∀ t : Fin grid4.N, condF4 (grid4.coords t) ↔ t.val % 12 = 0)

/-- "this is the last reduction tile" (k = 11). -/
abbrev condL4 (i : grid4.Coords) : Prop := k4_cond2 i = 1#1
theorem hcondL4 : ∀ t : Fin cfg4.N, condL4 (grid4.coords t) ↔ t.val % 12 = 11 :=
  (by decide +kernel : ∀ t : Fin grid4.N, condL4 (grid4.coords t) ↔ t.val % 12 = 11)

/-! ## Where the windows are idle -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- Away from the last reduction tile the output window is idle and is not written back. -/
theorem idle4_4 : ∀ t : Fin cfg4.N, ¬condL4 (grid4.coords t) → cfg4.idle 4 (grid4.coords t) = true := by decide +kernel
theorem noFlush4_4 : ∀ t : Fin cfg4.N, ¬condL4 (grid4.coords t) → (cfg4.win 4).flush t = false := by decide +kernel
theorem live4_4 : ∀ t : Fin cfg4.N, condL4 (grid4.coords t) → cfg4.idle 4 (grid4.coords t) = false := by decide +kernel

/-! ## The staging memrefs and the scratch -/

abbrev VO4 : View sig .tc .vmem S1024x128 .f32 := (Memref.whole cc4_stg4_0 : Memref sig .tc .vmem S1024x128 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x128 .f32 := win4_4.stage (cfg4.slots t 4)
abbrev hs4_4 (t : Fin cfg4.N) : (ms4_4 t).IsWhole := hstage4_4 ((cfg4.slots t 4).cast nbuf4_4)
/-- The accumulator scratch, a whole scoped buffer of the kernel's own, and its view. -/
abbrev scM4 : Memref sig .tc .vmem S1024x128 .f32 := Memref.whole cc4_scratch0
abbrev VS4 : View sig .tc .vmem S1024x128 .f32 := scM4.view

/-- The core's other scoped buffers (the other regions' staging buffers and scratch), which this region never opens. -/
abbrev Rest4 (c : Dev nD) : sProp 𝕄 := Pipeline.scopedRestBut (Ix := Unit) (Name := ℕ) (U := UR sig nD τ) (Lvl := ℕ) (Val := Elt F) spec4 c [cc4_scratch0]

/-- The region's resting invariant with the scratch as a memref owned at some contents. -/
theorem PhiA4_eq (c : Dev nD) :
    (Pipeline.ΦA spec4 c : sProp 𝕄)
      = iprop(iprop((∃ d, owns (c : Thread nD τ) scM4 fullShare d) ∗ Rest4 (F := F) c) ∗ (∃ r, prngReg c r)) := by
  unfold Pipeline.ΦA; rw [scopedRest4_split]; simp only [scM4, owns_whole]; try rfl

end Cert.Kernel.Hand

end
-- ==== Proof.KW.G4RunA.lean ====
/-
  Region 4, the first reduction tile (k = 0): the scratch is cleared, then the tile's product is added; the output is left alone.
  The body run on whole staging memrefs: the pieces each written buffer ends with are found by the run.
-/
import proofs.«164907_j26860725469614_1_alg».proof.Proof.KW.G4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun4_A (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_layer_kernel i arg2 harg2 arg3 harg3 arg4 harg4 arg5 harg5 arg6 harg6 arg7 harg7) K } := by
  refine ⟨[], ?_, fun xi4 E K => ?run⟩
  case run =>
    simp only [cc4__gcn_layer_kernel_eq_skeleton]; unfold cc4__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G4RunB.lean ====
/-
  Region 4, a middle reduction tile (0 < k < 11): the tile's product is added to the scratch; the output is left alone.
  The body run on whole staging memrefs: the pieces each written buffer ends with are found by the run.
-/
import proofs.«164907_j26860725469614_1_alg».proof.Proof.KW.G4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun4_B (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_layer_kernel i arg2 harg2 arg3 harg3 arg4 harg4 arg5 harg5 arg6 harg6 arg7 harg7) K } := by
  refine ⟨[], ?_, fun xi4 E K => ?run⟩
  case run =>
    simp only [cc4__gcn_layer_kernel_eq_skeleton]; unfold cc4__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KW.G4RunC.lean ====
/-
  Region 4, the last reduction tile (k = 11): the tile's product is added to the scratch, then the output tile is stored from it.
  The body run on whole staging memrefs: the pieces each written buffer ends with are found by the run.
-/
import proofs.«164907_j26860725469614_1_alg».proof.Proof.KW.G4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun4_C (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_layer_kernel i arg2 harg2 arg3 harg3 arg4 harg4 arg5 harg5 arg6 harg6 arg7 harg7) K } := by
  refine ⟨?_, ?_, fun E K => ?run⟩
  case run =>
    simp only [cc4__gcn_layer_kernel_eq_skeleton]; unfold cc4__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KW.G4Frame.lean ====
/-
  Region 4: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KW.G4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out4_A_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) : Vec F S1024x128 .f32 :=
  VO4.read (Elt F) (VO4.writes (Elt F) VO4.junk (kernelRun4_A c i arg2 harg2 arg3 harg3 arg4 harg4 arg5 harg5 arg6 harg6 arg7 harg7 hc0 hc1 x0 x1 x2 x3).1)

/-- The case's stores into the accumulator scratch cover it. -/
theorem scover4_A (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) (y : S1024x128.Idx) :
    ∃ pc ∈ (kernelRun4_A c i arg2 harg2 arg3 harg3 arg4 harg4 arg5 harg5 arg6 harg6 arg7 harg7 hc0 hc1 x0 x1 x2 x3).2.1, y ∈ pc.1.set :=
  View.cover_of_tiledL (kernelRun4_A c i arg2 harg2 arg3 harg3 arg4 harg4 arg5 harg5 arg6 harg6 arg7 harg7 hc0 hc1 x0 x1 x2 x3).2.1 S1024x128.size (by sl_kernel_rfl) y

/-- What the case leaves in the accumulator scratch. -/
def sout4_A (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) : Vec F S1024x128 .f32 :=
  VS4.read (Elt F) (VS4.writes (Elt F) VS4.junk (kernelRun4_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out4_B_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VO4.read (Elt F) (VO4.writes (Elt F) VO4.junk (kernelRun4_B c i arg2 harg2 arg3 harg3 arg4 harg4 arg5 harg5 arg6 harg6 arg7 harg7 hc0 hc1 x0 x1 x2 x3 xs0).1)

/-- The case's stores into the accumulator scratch cover it. -/
theorem scover4_B (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun4_B c i arg2 harg2 arg3 harg3 arg4 harg4 arg5 harg5 arg6 harg6 arg7 harg7 hc0 hc1 x0 x1 x2 x3 xs0).2.1, y ∈ pc.1.set :=
  View.cover_of_tiledL (kernelRun4_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout4_B (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VS4.read (Elt F) (VS4.writes (Elt F) VS4.junk (kernelRun4_B c i arg2 harg2 arg3 harg3 arg4 harg4 arg5 harg5 arg6 harg6 arg7 harg7 hc0 hc1 x0 x1 x2 x3 xs0).2.1)

/-- At the last reduction tile the one store into the output tile covers it. -/
theorem cover4_C_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun4_C c i arg2 harg2 arg3 harg3 arg4 harg4 arg5 harg5 arg6 harg6 arg7 harg7 hc0 hc1 x0 x1 x2 x3 xs0).1, y ∈ pc.1.set :=
  View.cover_of_tiledL (kernelRun4_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out4_C_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VO4.read (Elt F) (VO4.writes (Elt F) VO4.junk (kernelRun4_C c i arg2 harg2 arg3 harg3 arg4 harg4 arg5 harg5 arg6 harg6 arg7 harg7 hc0 hc1 x0 x1 x2 x3 xs0).1)

/-- The case's stores into the accumulator scratch cover it. -/
theorem scover4_C (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun4_C c i arg2 harg2 arg3 harg3 arg4 harg4 arg5 harg5 arg6 harg6 arg7 harg7 hc0 hc1 x0 x1 x2 x3 xs0).2.1, y ∈ pc.1.set :=
  View.cover_of_tiledL (kernelRun4_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout4_C (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VS4.read (Elt F) (VS4.writes (Elt F) VS4.junk (kernelRun4_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt4 (c : Dev nD) : (n : ℕ) → n < cfg4.N → Vec F S1024x128 .f32 × Vec F S1024x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4 (Memref.isWhole_whole _) ((hcondF4 ⟨0, hn⟩).mpr (Nat.zero_mod _)) (fun h => (fun h => by (try dsimp only at h); omega) ((hcondL4 ⟨0, hn⟩).mp h)) (iblk4 V c 0 ⟨0, hn⟩) (iblk4 V c 1 ⟨0, hn⟩) (iblk4 V c 2 ⟨0, hn⟩) (iblk4 V c 3 ⟨0, hn⟩), sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4 (Memref.isWhole_whole _) ((hcondF4 ⟨0, hn⟩).mpr (Nat.zero_mod _)) (fun h => (fun h => by (try dsimp only at h); omega) ((hcondL4 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h0 : (n + 1) % 12 = 0 then
      if h1 : (n + 1) % 12 = 11 then
        False.elim (by omega)
      else
        (out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) ((hcondF4 ⟨n + 1, hn⟩).mpr h0) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩), sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) ((hcondF4 ⟨n + 1, hn⟩).mpr h0) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩))
    else
      if h1 : (n + 1) % 12 = 11 then
        (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) ((hcondL4 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) ((hcondL4 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)
      else
        (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)

theorem outsAt4_A (c : Dev nD) (t : Fin cfg4.N) (h0 : t.val % 12 = 0) (h1 : ¬t.val % 12 = 11) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t), sout4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t)) := by
  obtain ⟨n, hn⟩ := t
  cases n with
  | zero => exact rfl
  | succ n => exact (dif_pos h0).trans ((dif_neg h1).trans rfl)

theorem outsAt4_B (c : Dev nD) (t : Fin cfg4.N) (h0 : ¬t.val % 12 = 0) (h1 : ¬t.val % 12 = 11) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2, sout4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 12 = 0) (h1 : t.val % 12 = 11) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2, sout4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Rest4 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 144 := lt_of_lt_of_eq t.isLt (show cfg4.N = 144 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  by_cases h0 : t.val % 12 = 0
  · by_cases h1 : t.val % 12 = 11
    · exfalso; omega
    ·
      rw [Dat.leavesExact_idle (dat4 V c) 4 t (idle4_4 t ((fun h => h1 ((hcondL4 t).mp h)))) (noFlush4_4 t ((fun h => h1 ((hcondL4 t).mp h))))]
      rw [outsAt4_A V c t h0 h1]
      unfold sout4_A; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat4 V c).leavesExact 4 t = owns (c : Thread nD τ) (ms4_4 t) fullShare ((dat4 V c).after 4 t) from by
        unfold Dat.leavesExact; rw [live4_4 t (((hcondL4 t).mpr h1))], after4_4]
      rw [outsAt4_C V c t h0 h1]
      unfold out4_C_4 sout4_C; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_C_4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2)
    ·
      rw [Dat.leavesExact_idle (dat4 V c) 4 t (idle4_4 t ((fun h => h1 ((hcondL4 t).mp h)))) (noFlush4_4 t ((fun h => h1 ((hcondL4 t).mp h))))]
      rw [outsAt4_B V c t h0 h1]
      unfold sout4_B; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the resting one back: the scratch's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 144 := N_4; omega)

end Cert.Kernel.Hand

end
-- ==== Proof.KW.Regs.lean ====
/-
  The five layer regions' ingredients, packed for the run of @main.
-/
import proofs.«164907_j26860725469614_1_alg».proof.Proof.KW.ChainIn
import proofs.«164907_j26860725469614_1_alg».proof.Proof.KW.G0Frame
import proofs.«164907_j26860725469614_1_alg».proof.Proof.KW.G1Frame
import proofs.«164907_j26860725469614_1_alg».proof.Proof.KW.G2Frame
import proofs.«164907_j26860725469614_1_alg».proof.Proof.KW.G3Frame
import proofs.«164907_j26860725469614_1_alg».proof.Proof.KW.G4Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def r0 : Reg0 (F := F) where
  dat := fun V c => dat0 V c
  A_eq := fun V c w => A_eq0 V c w
  q_full := fun _ _ _ => rfl
  owed_zero := fun _ _ _ => rfl
  recorded_univ := fun _ _ _ => rfl
  body := fun V c => body_obligation0 V c
  hin := fun V c => hin0 V c
  hout := fun V c => hout0 V c

def r1 : Reg1 (F := F) where
  dat := fun V c => dat1 V c
  A_eq := fun V c w => A_eq1 V c w
  q_full := fun _ _ _ => rfl
  owed_zero := fun _ _ _ => rfl
  recorded_univ := fun _ _ _ => rfl
  body := fun V c => body_obligation1 V c
  hin := fun V c => hin1 V c
  hout := fun V c => hout1 V c

def r2 : Reg2 (F := F) where
  dat := fun V c => dat2 V c
  A_eq := fun V c w => A_eq2 V c w
  q_full := fun _ _ _ => rfl
  owed_zero := fun _ _ _ => rfl
  recorded_univ := fun _ _ _ => rfl
  body := fun V c => body_obligation2 V c
  hin := fun V c => hin2 V c
  hout := fun V c => hout2 V c

def r3 : Reg3 (F := F) where
  dat := fun V c => dat3 V c
  A_eq := fun V c w => A_eq3 V c w
  q_full := fun _ _ _ => rfl
  owed_zero := fun _ _ _ => rfl
  recorded_univ := fun _ _ _ => rfl
  body := fun V c => body_obligation3 V c
  hin := fun V c => hin3 V c
  hout := fun V c => hout3 V c

def r4 : Reg4 (F := F) where
  dat := fun V c => dat4 V c
  A_eq := fun V c w => A_eq4 V c w
  q_full := fun _ _ _ => rfl
  owed_zero := fun _ _ _ => rfl
  recorded_univ := fun _ _ _ => rfl
  body := fun V c => body_obligation4 V c
  hin := fun V c => hin4 V c
  hout := fun V c => hout4 V c

end Cert.Kernel.Hand

end
-- ==== Proof.KW.Main.lean ====
import proofs.«164907_j26860725469614_1_alg».proof.Proof.KW.Chain
import proofs.«164907_j26860725469614_1_alg».proof.Proof.KW.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (R5 : Reg5 (F := F))

/-! # The run of @main at the five layers' proof data -/

/-- The last boundary's contents, at the layers' proof data. -/
abbrev Wend : Dev nD → Valuation τ sig (Elt F) := W14 m ρ r0 r1 r2 r3 r4 R5

/-- Every weakly fair execution of @main terminates, and every final state has every unscoped buffer at `Wend`. -/
theorem main_run_layers : θ_run defs (onTc (τ := τ) (main (F := F))) ⟨m, fun _ => 0, ρ⟩
    (fun r => ∀ c : Dev nD, ∀ b ∈ Pipeline.ucRefs τ sig, r.2.mem (((c : Thread nD τ)).1, b) = Wend m ρ R5 c b) :=
  main_run_all m ρ r0 r1 r2 r3 r4 R5

end Cert.Kernel.Hand

end
-- ==== Proof.KW.AHat.lean ====
/-
  The last kernel region: the product of the node embedding with its own transpose, tile by tile.

  The grid is 12 x 12; at point (i, j) the body reads the row block i and the row block j of ONE array (two input
  windows on the same buffer) and stores the 1024 x 1024 tile of their product. The body neither accumulates nor
  branches: every point loads both blocks, loads the output tile (unused), and stores the product over the whole tile.
  Everything here is stated at the region-entry contents `V`, a parameter.
-/
import proofs.«164907_j26860725469614_1_alg».proof.Proof.Gen.Kernel.Launch
import proofs.«164907_j26860725469614_1_alg».proof.Proof.Gen.Kernel.Skeleton
import proofs.«164907_j26860725469614_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (the row index has
    not moved where it is not fetched), for any proof data reading `V` whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole input tile. -/
abbrev r5_in : Rect S1024x128 := Rect.unit (s := S1024x128) ![0, 0] S1024x128.size inb_S1024x128_S1024x128_0_0
/-- The whole output tile. -/
abbrev r5_out : Rect S1024x1024 := Rect.unit (s := S1024x1024) ![0, 0] S1024x1024.size inb_S1024x1024_S1024x1024_0_0

/-! ## What the body leaves in the output window's buffer -/

/-- The output tile after the body, from the two input blocks: its one store, the product payload. -/
def out5_2 (x0 : Vec F S1024x128 .bf16) (x1 : Vec F S1024x128 .bf16) : Vec F S1024x1024 .f32 :=
  View.canon [⟨r5_out, k5_pay1 (View.ld x0 r5_in) (View.ld x1 r5_in)⟩]

/-- The one store covers the tile. -/
theorem cover5_2 (p0 : Vec F S1024x1024 .f32) (y : S1024x1024.Idx) :
    ∃ pc ∈ ([⟨r5_out, p0⟩] : List (View.Piece (Elt F) S1024x1024 .f32)), y ∈ pc.1.set :=
  View.cover_of_tiled [⟨r5_out, p0⟩] S1024x1024.size (by rfl) y

/-! ## The body's triple -/

set_option maxHeartbeats 1000000 in
/-- The body on whole staging memrefs, the inputs' at `x0`, `x1` and the output's at anything, runs to the continuation
    holding the inputs as they were and the output at `out5_2 x0 x1`. -/
theorem sound_kernel5 (c : Dev nD) (E : Set ℕ) (i : grid5.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__a_hat_kernel i arg2 harg2 arg3 harg3 arg4 harg4) K := by
  simp only [cc5__a_hat_kernel_eq_skeleton]; unfold cc5__a_hat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region on core `c`: the arrays as the region finds them; after the body at point `t` each
    input's buffer at its block and the output's at `out5_2` of the two blocks; the invariant is the scoped rest and the
    generator register, untouched; nothing owed. The two input windows read one array: each holds HALF of its share
    (the two halves make the full share); the output's array is held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem q5_0 (c : Dev nD) : (dat5 V c).q 0 = fullShare.left := by dsimp only [dat5]
theorem q5_1 (c : Dev nD) : (dat5 V c).q 1 = fullShare.right := by dsimp only [dat5]

theorem owed5 (c : Dev nD) (t : Fin (cfg5.N + 1)) : (dat5 V c).owed t = 0 := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.KW.AHatShared.lean ====
/-
  The last kernel region among the core's buffers: two windows on ONE array.

  Both input windows of the region read the same buffer (its row block i and its row block j). While the region runs
  each of the two windows holds HALF of that buffer's share, and the two halves make the whole; the output window's
  array is held whole. So at the region's entry the buffer's full share is dealt to the two windows, and at its exit
  the halves — still at the same contents, since an input array is never written — are collected back. The output
  buffer then holds what the write-backs left, and every other buffer what it held at entry.
-/
import proofs.«164907_j26860725469614_1_alg».proof.Proof.KW.AHat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared5

variable (V : (c : Dev nD) → (b : Ref sig .tc) → Buf (Elt F) ((c : Thread nD τ).loc b))

/-- The region's arrays sit in two buffers: the input both input windows read, and the output. -/
theorem arrImage5 : (Finset.univ.image (Pipeline.arrRef spec5) : Finset (Ref sig .tc)) = {main_v68, main_v69} := by decide

theorem share5_0 (c : Dev nD) : (dat5 V c).share 0 = fullShare.left := by
  unfold Dat.share; exact q5_0 V c
theorem share5_1 (c : Dev nD) : (dat5 V c).share 1 = fullShare.right := by
  unfold Dat.share; exact q5_1 V c
theorem share5_2 (c : Dev nD) : (dat5 V c).share 2 = fullShare := by
  unfold Dat.share; rfl

/-- Whole arrays, each at the share its window holds: the windowed arrays of any proof data, array by array. -/
theorem arrays_eq_shares {cfg : Cfg sig Λ₀} {c : Dev nD} (dat : Dat τ (Elt F) Unit ℕ (UR sig nD τ) ℕ cfg c)
    (harr : ∀ w, (cfg.spec w).arr.IsWhole)
    (A : (w : Fin cfg.W) → Buf (Elt F) ((cfg.win w).arr.view.loc (c : Thread nD τ))) :
    (dat.arrays A : sProp 𝕄)
      = bigSep Finset.univ fun w => (((c : Thread nD τ).loc (Pipeline.arrRef cfg.spec w)) ↦{dat.share w} A w : sProp 𝕄) := by
  unfold Dat.arrays
  exact bigSep_congr fun w _ => by rw [(harr w).set_eq_univ]

set_option maxHeartbeats 2000000 in
/-- The region's arrays one by one: the shared input at its two half shares, the output whole. -/
theorem arrays5_eq (c : Dev nD) (A : (w : Fin cfg5.W) → Buf (Elt F) ((cfg5.win w).arr.view.loc (c : Thread nD τ))) :
    ((dat5 V c).arrays A : sProp 𝕄) =
      iprop((((c : Thread nD τ).loc (Pipeline.arrRef spec5 0)) ↦{fullShare.left} A 0)
        ∗ (((c : Thread nD τ).loc (Pipeline.arrRef spec5 1)) ↦{fullShare.right} A 1)
        ∗ (((c : Thread nD τ).loc (Pipeline.arrRef spec5 2)) ↦{fullShare} A 2)) := by
  rw [arrays_eq_shares (dat5 V c) arr_whole5 A, bigSep_W5, share5_0, share5_1, share5_2]

/-- The two buffers behind the arrays, whole. -/
theorem arrBufs5_eq (c : Dev nD) (X : (b : Ref sig .tc) → Buf (Elt F) ((c : Thread nD τ).loc b)) :
    (Pipeline.arrBufs (Ix := Unit) (Name := ℕ) (U := UR sig nD τ) (Lvl := ℕ) spec5 c X : sProp 𝕄)
      = iprop((((c : Thread nD τ).loc main_v68) ↦{fullShare} X main_v68) ∗ (((c : Thread nD τ).loc main_v69) ↦{fullShare} X main_v69)) := by
  unfold Pipeline.arrBufs
  rw [arrImage5, bigSep_insert (by decide), bigSep_singleton]
  rfl

end Shared5

section Shared5b

variable (V : (c : Dev nD) → (b : Ref sig .tc) → Buf (Elt F) ((c : Thread nD τ).loc b))

/-- DEALING the buffers to the windows: the shared input's full share is its two halves, one per input window. -/
theorem arrays_of_arrBufs5 (c : Dev nD) (X : (b : Ref sig .tc) → Buf (Elt F) ((c : Thread nD τ).loc b)) :
    (Pipeline.arrBufs (Ix := Unit) (Name := ℕ) (U := UR sig nD τ) (Lvl := ℕ) spec5 c X : sProp 𝕄)
      ⊢ (dat5 V c).arrays (fun w => X (Pipeline.arrRef spec5 w)) := by
  rw [arrBufs5_eq, arrays5_eq]
  iintro ⟨H68, H69⟩
  ihave H := (pointsTo_share (PosShare.mem_left_op_right fullShare)).1 $$ H68
  icases H with ⟨Hl, Hr⟩
  isplitl [Hl]; · iexact Hl
  isplitl [Hr]; · iexact Hr
  iexact H69

/-- COLLECTING them back: the two halves, at the same contents, are the full share again. -/
theorem arrBufs_of_arrays5 (c : Dev nD) (X : (b : Ref sig .tc) → Buf (Elt F) ((c : Thread nD τ).loc b)) :
    ((dat5 V c).arrays (fun w => X (Pipeline.arrRef spec5 w)) : sProp 𝕄)
      ⊢ Pipeline.arrBufs (Ix := Unit) (Name := ℕ) (U := UR sig nD τ) (Lvl := ℕ) spec5 c X := by
  rw [arrBufs5_eq, arrays5_eq]
  iintro ⟨Hl, Hr, H69⟩
  isplitl [Hl Hr]
  · iapply (pointsTo_share (PosShare.mem_left_op_right fullShare)).2
    isplitl [Hl]; · iexact Hl
    iexact Hr
  iexact H69

end Shared5b

section Shared5c

variable (W : Dev nD → Valuation τ sig (Elt F))

/-- Every device buffer's contents, per core, read at the TensorCore's references. -/
abbrev tcv : (c : Dev nD) → (b : Ref sig .tc) → Buf (Elt F) ((c : Thread nD τ).loc b) := fun c b => W c b

/-- What bypasses the region: every unscoped buffer that is neither the shared input nor the output, as entered. -/
def Z5 (c : Dev nD) : sProp 𝕄 :=
  Pipeline.unscopedRest (Ix := Unit) (Name := ℕ) (U := UR sig nD τ) (Lvl := ℕ) spec5 c (tcv W c)

/-- An input array is never written: at every point it holds what the region found. -/
theorem arrAt5_0 (V : (c : Dev nD) → (b : Ref sig .tc) → Buf (Elt F) ((c : Thread nD τ).loc b)) (c : Dev nD) (n : ℕ) :
    (dat5 V c).arrAt 0 n = V c (Pipeline.arrRef spec5 0) :=
  ((dat5 V c).arrAt_in 0 rfl n).trans (A_eq5 V c 0)
theorem arrAt5_1 (V : (c : Dev nD) → (b : Ref sig .tc) → Buf (Elt F) ((c : Thread nD τ).loc b)) (c : Dev nD) (n : ℕ) :
    (dat5 V c).arrAt 1 n = V c (Pipeline.arrRef spec5 1) :=
  ((dat5 V c).arrAt_in 1 rfl n).trans (A_eq5 V c 1)

set_option maxHeartbeats 2000000 in
/-- ENTRY: every unscoped buffer held at `W c` is the region's arrays at their entry contents — the shared input
    dealt to its two windows — and what bypasses the region. -/
theorem entry5 (c : Dev nD) :
    (StableHlo.held (c : Thread nD τ) (Pipeline.ucRefs τ sig) (W c) : sProp 𝕄)
      ⊢ iprop((dat5 (tcv W) c).arrays ((dat5 (tcv W) c).arrAt · 0) ∗ Z5 W c) := by
  rw [← Pipeline.unscopedBufs_held (Ix := Unit) (Name := ℕ) (U := UR sig nD τ) (Lvl := ℕ) c (W c),
    Pipeline.unscopedBufs_split₀ cfgs 5 winFacts₀5.arr_unscoped c (tcv W c)]
  refine sep_mono ?_ .rfl
  have e : ((dat5 (tcv W) c).arrAt · 0) = fun w => tcv W c (Pipeline.arrRef spec5 w) :=
    funext fun w => (show (dat5 (tcv W) c).arrAt w 0 = (dat5 (tcv W) c).A w from rfl).trans (A_eq5 (tcv W) c w)
  rw [e]
  exact arrays_of_arrBufs5 (tcv W) c (tcv W c)

set_option maxHeartbeats 4000000 in
/-- EXIT: the arrays as the region leaves them — the shared input untouched, the output at what its write-backs
    left — and what bypassed the region are every unscoped buffer held at `W c` updated at the output. -/
theorem exit5 (c : Dev nD) :
    iprop((dat5 (tcv W) c).arrays ((dat5 (tcv W) c).arrAt · cfg5.N) ∗ Z5 W c)
      ⊢ (StableHlo.held (c : Thread nD τ) (Pipeline.ucRefs τ sig)
          (Function.update (W c) main_v69 ((dat5 (tcv W) c).arrAt 2 cfg5.N)) : sProp 𝕄) := by
  generalize hW' : (Function.update (W c) main_v69 ((dat5 (tcv W) c).arrAt 2 cfg5.N) : Valuation τ sig (Elt F)) = W'
  have h2 : W' main_v69 = (dat5 (tcv W) c).arrAt 2 cfg5.N := by rw [← hW']; exact Function.update_self _ _ _
  have hne : ∀ b : Ref sig .tc, b ≠ main_v69 → W' b = W c b := fun b hb => by
    rw [← hW']; exact Function.update_of_ne (StableHlo.devRef_ne_of_ne hb) _ _
  rw [← Pipeline.unscopedBufs_held (Ix := Unit) (Name := ℕ) (U := UR sig nD τ) (Lvl := ℕ) c W',
    Pipeline.unscopedBufs_split₀ cfgs 5 winFacts₀5.arr_unscoped c (fun b => W' b)]
  refine sep_mono ?_ (Entails.of_eq ?_)
  · have e : ((dat5 (tcv W) c).arrAt · cfg5.N) = fun w => (fun b : Ref sig .tc => W' b) (Pipeline.arrRef spec5 w) :=
      funext fun
        | 0 => (arrAt5_0 (tcv W) c _).trans (hne _ (by decide)).symm
        | 1 => (arrAt5_1 (tcv W) c _).trans (hne _ (by decide)).symm
        | 2 => h2.symm
        | ⟨_ + 3, h⟩ => absurd h (Nat.not_lt.2 (Nat.le_add_left _ _))
    rw [e]
    exact arrBufs_of_arrays5 (tcv W) c (fun b => W' b)
  · unfold Z5 Pipeline.unscopedRest
    refine bigSep_congr fun b hb => ?_
    have hb' : b ≠ main_v69 := fun e => (Finset.mem_sdiff.mp hb).2 (e ▸ Finset.mem_image.mpr ⟨2, Finset.mem_univ _, rfl⟩)
    beta_reduce
    rw [hne b hb']

end Shared5c

end Cert.Kernel.Hand

end
-- ==== Proof.KW.AHatReg.lean ====
/-
  The last kernel region's ingredients, bundled in the shape the run takes them.
-/
import proofs.«164907_j26860725469614_1_alg».proof.Proof.KW.ChainIn
import proofs.«164907_j26860725469614_1_alg».proof.Proof.KW.AHatShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The product region: its proof data at any entry contents, the body obligation, the class invariant in and out
    unchanged (the body keeps nothing between points), and the dealing and collecting of the shared input's share. -/
def r5 : Reg5 (F := F) where
  dat := dat5
  A_eq := A_eq5
  owed_zero := owed5
  recorded_univ _ _ _ := rfl
  body := body_obligation5
  hin V c := .rfl
  hout V c := .rfl
  Z := Z5
  hsplit W c := by
    iintro H; imodintro; iapply (entry5 W c); iexact H
  hjoin W c := by
    iintro H; imodintro; iapply (exit5 W c); iexact H

end Cert.Kernel.Hand

end
-- ==== Proof.KW.Frames.lean ====
import proofs.«164907_j26860725469614_1_alg».proof.Proof.KW.Main
import proofs.«164907_j26860725469614_1_alg».proof.Proof.KW.AHatReg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame, read off the run

The run ends with every unscoped buffer at the last boundary's contents; the arguments there are as launched. -/

/-- @main runs and its argument arrays end unchanged, at any proof data for the product. -/
theorem frame_of (R5 : Reg5 (F := F)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W14_main_arg0 m ρ r0 r1 r2 r3 r4 R5 c),
     (h c _ (mem_uc main_arg1 (by decide))).trans (W14_main_arg1 m ρ r0 r1 r2 r3 r4 R5 c),
     (h c _ (mem_uc main_arg2 (by decide))).trans (W14_main_arg2 m ρ r0 r1 r2 r3 r4 R5 c),
     (h c _ (mem_uc main_arg3 (by decide))).trans (W14_main_arg3 m ρ r0 r1 r2 r3 r4 R5 c),
     (h c _ (mem_uc main_arg4 (by decide))).trans (W14_main_arg4 m ρ r0 r1 r2 r3 r4 R5 c),
     (h c _ (mem_uc main_arg5 (by decide))).trans (W14_main_arg5 m ρ r0 r1 r2 r3 r4 R5 c),
     (h c _ (mem_uc main_arg6 (by decide))).trans (W14_main_arg6 m ρ r0 r1 r2 r3 r4 R5 c),
     (h c _ (mem_uc main_arg7 (by decide))).trans (W14_main_arg7 m ρ r0 r1 r2 r3 r4 R5 c),
     (h c _ (mem_uc main_arg8 (by decide))).trans (W14_main_arg8 m ρ r0 r1 r2 r3 r4 R5 c),
     (h c _ (mem_uc main_arg9 (by decide))).trans (W14_main_arg9 m ρ r0 r1 r2 r3 r4 R5 c),
     (h c _ (mem_uc main_arg10 (by decide))).trans (W14_main_arg10 m ρ r0 r1 r2 r3 r4 R5 c),
     (h c _ (mem_uc main_arg11 (by decide))).trans (W14_main_arg11 m ρ r0 r1 r2 r3 r4 R5 c),
     (h c _ (mem_uc main_arg12 (by decide))).trans (W14_main_arg12 m ρ r0 r1 r2 r3 r4 R5 c)⟩)
    (main_run_layers m ρ R5)

/-- Every weakly fair execution of @main terminates, and every final state has every unscoped buffer at the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wend m ρ r5 c b) :=
  main_run_layers m ρ r5

/-- THE FRAME: @main runs (terminates, no fault) and its argument arrays end unchanged. -/
theorem frame_p : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ r5

end Cert.Kernel.Hand

end
-- ==== Proof.KI.ChainIn.lean ====
import proofs.«164907_j26860725469614_1_alg».proof.Proof.Gen.KernelIdeal.Launch
import proofs.«164907_j26860725469614_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, read at the TensorCore's references: what a region's proof data
    are stated at (the contents the region is entered from). -/
abbrev TcVal (F : FTy → Type) [FloatOps F] : Type :=
  (c : Dev nD) → (b : Ref sig .tc) → Buf (Elt F) ((c : Thread nD τ).loc b)

/-- A valuation of every device buffer, per core, read at the TensorCore's references. -/
abbrev tcOf (W : Dev nD → Valuation τ sig (Elt F)) : TcVal F := fun c b => W c b

/-! # What each region's proof hands the run

Per region, at any entry contents `V`: the proof data, its entry arrays read off `V`, full shares of the inputs,
nothing owed and no bound on the recorded pairs, the body obligation, and the two entailments between the class invariant `ΦA` (every scratch buffer at
some contents, the generator register at some state) and the proof data's invariant at the first and the last point:
a layer's accumulator is carried from point to point, so the invariant in between names its contents. -/

/-- Region 0's ingredients (a layer: windows 0–3 inputs, window 4 the output, one carried accumulator). -/
structure Reg0 where
  dat : TcVal F → (c : Dev nD) → Dat τ (Elt F) Unit ℕ (UR sig nD τ) ℕ cfg0 c
  A_eq : ∀ (V : TcVal F) (c : Dev nD) (w : Fin cfg0.W), (dat V c).A w = V c (Pipeline.arrRef spec0 w)
  q_full : ∀ (V : TcVal F) (c : Dev nD) (w : Fin cfg0.W), (dat V c).q w = fullShare
  owed_zero : ∀ (V : TcVal F) (c : Dev nD) (t : Fin (cfg0.N + 1)), (dat V c).owed t = 0
  recorded_univ : ∀ (V : TcVal F) (c : Dev nD) (t : Fin (cfg0.N + 1)), (dat V c).recorded t = Set.univ
  body : ∀ (V : TcVal F) (c : Dev nD), BodyObligation (dat V c) (defs₀ (F := F)) Variants.none () Set.univ
  hin : ∀ (V : TcVal F) (c : Dev nD), (Pipeline.ΦA spec0 c : sProp 𝕄) ⊢ (dat V c).Φ 0
  hout : ∀ (V : TcVal F) (c : Dev nD), (dat V c).Φ (Fin.last cfg0.N) ⊢ (Pipeline.ΦA spec0 c : sProp 𝕄)

/-- Region 1's ingredients (a layer: windows 0–3 inputs, window 4 the output, one carried accumulator). -/
structure Reg1 where
  dat : TcVal F → (c : Dev nD) → Dat τ (Elt F) Unit ℕ (UR sig nD τ) ℕ cfg1 c
  A_eq : ∀ (V : TcVal F) (c : Dev nD) (w : Fin cfg1.W), (dat V c).A w = V c (Pipeline.arrRef spec1 w)
  q_full : ∀ (V : TcVal F) (c : Dev nD) (w : Fin cfg1.W), (dat V c).q w = fullShare
  owed_zero : ∀ (V : TcVal F) (c : Dev nD) (t : Fin (cfg1.N + 1)), (dat V c).owed t = 0
  recorded_univ : ∀ (V : TcVal F) (c : Dev nD) (t : Fin (cfg1.N + 1)), (dat V c).recorded t = Set.univ
  body : ∀ (V : TcVal F) (c : Dev nD), BodyObligation (dat V c) (defs₀ (F := F)) Variants.none () Set.univ
  hin : ∀ (V : TcVal F) (c : Dev nD), (Pipeline.ΦA spec1 c : sProp 𝕄) ⊢ (dat V c).Φ 0
  hout : ∀ (V : TcVal F) (c : Dev nD), (dat V c).Φ (Fin.last cfg1.N) ⊢ (Pipeline.ΦA spec1 c : sProp 𝕄)

/-- Region 2's ingredients (a layer: windows 0–3 inputs, window 4 the output, one carried accumulator). -/
structure Reg2 where
  dat : TcVal F → (c : Dev nD) → Dat τ (Elt F) Unit ℕ (UR sig nD τ) ℕ cfg2 c
  A_eq : ∀ (V : TcVal F) (c : Dev nD) (w : Fin cfg2.W), (dat V c).A w = V c (Pipeline.arrRef spec2 w)
  q_full : ∀ (V : TcVal F) (c : Dev nD) (w : Fin cfg2.W), (dat V c).q w = fullShare
  owed_zero : ∀ (V : TcVal F) (c : Dev nD) (t : Fin (cfg2.N + 1)), (dat V c).owed t = 0
  recorded_univ : ∀ (V : TcVal F) (c : Dev nD) (t : Fin (cfg2.N + 1)), (dat V c).recorded t = Set.univ
  body : ∀ (V : TcVal F) (c : Dev nD), BodyObligation (dat V c) (defs₀ (F := F)) Variants.none () Set.univ
  hin : ∀ (V : TcVal F) (c : Dev nD), (Pipeline.ΦA spec2 c : sProp 𝕄) ⊢ (dat V c).Φ 0
  hout : ∀ (V : TcVal F) (c : Dev nD), (dat V c).Φ (Fin.last cfg2.N) ⊢ (Pipeline.ΦA spec2 c : sProp 𝕄)

/-- Region 3's ingredients (a layer: windows 0–3 inputs, window 4 the output, one carried accumulator). -/
structure Reg3 where
  dat : TcVal F → (c : Dev nD) → Dat τ (Elt F) Unit ℕ (UR sig nD τ) ℕ cfg3 c
  A_eq : ∀ (V : TcVal F) (c : Dev nD) (w : Fin cfg3.W), (dat V c).A w = V c (Pipeline.arrRef spec3 w)
  q_full : ∀ (V : TcVal F) (c : Dev nD) (w : Fin cfg3.W), (dat V c).q w = fullShare
  owed_zero : ∀ (V : TcVal F) (c : Dev nD) (t : Fin (cfg3.N + 1)), (dat V c).owed t = 0
  recorded_univ : ∀ (V : TcVal F) (c : Dev nD) (t : Fin (cfg3.N + 1)), (dat V c).recorded t = Set.univ
  body : ∀ (V : TcVal F) (c : Dev nD), BodyObligation (dat V c) (defs₀ (F := F)) Variants.none () Set.univ
  hin : ∀ (V : TcVal F) (c : Dev nD), (Pipeline.ΦA spec3 c : sProp 𝕄) ⊢ (dat V c).Φ 0
  hout : ∀ (V : TcVal F) (c : Dev nD), (dat V c).Φ (Fin.last cfg3.N) ⊢ (Pipeline.ΦA spec3 c : sProp 𝕄)

/-- Region 4's ingredients (a layer: windows 0–3 inputs, window 4 the output, one carried accumulator). -/
structure Reg4 where
  dat : TcVal F → (c : Dev nD) → Dat τ (Elt F) Unit ℕ (UR sig nD τ) ℕ cfg4 c
  A_eq : ∀ (V : TcVal F) (c : Dev nD) (w : Fin cfg4.W), (dat V c).A w = V c (Pipeline.arrRef spec4 w)
  q_full : ∀ (V : TcVal F) (c : Dev nD) (w : Fin cfg4.W), (dat V c).q w = fullShare
  owed_zero : ∀ (V : TcVal F) (c : Dev nD) (t : Fin (cfg4.N + 1)), (dat V c).owed t = 0
  recorded_univ : ∀ (V : TcVal F) (c : Dev nD) (t : Fin (cfg4.N + 1)), (dat V c).recorded t = Set.univ
  body : ∀ (V : TcVal F) (c : Dev nD), BodyObligation (dat V c) (defs₀ (F := F)) Variants.none () Set.univ
  hin : ∀ (V : TcVal F) (c : Dev nD), (Pipeline.ΦA spec4 c : sProp 𝕄) ⊢ (dat V c).Φ 0
  hout : ∀ (V : TcVal F) (c : Dev nD), (dat V c).Φ (Fin.last cfg4.N) ⊢ (Pipeline.ΦA spec4 c : sProp 𝕄)

/-- Region 5's ingredients (the product of the last layer's result with its own transpose: windows 0 and 1 both read
    the same array, each at a share of its own, window 2 is the output). Two windows on one array: the arrays are
    split out of the core's unscoped buffers, and put back, by entailments of the region's own (`hsplit`, `hjoin`),
    stated at any contents `W` the region is entered from; `Z W c` is what bypasses the region. At the exit the
    output array holds what the write-backs leave and every other buffer what it held. -/
structure Reg5 where
  dat : TcVal F → (c : Dev nD) → Dat τ (Elt F) Unit ℕ (UR sig nD τ) ℕ cfg5 c
  A_eq : ∀ (V : TcVal F) (c : Dev nD) (w : Fin cfg5.W), (dat V c).A w = V c (Pipeline.arrRef spec5 w)
  owed_zero : ∀ (V : TcVal F) (c : Dev nD) (t : Fin (cfg5.N + 1)), (dat V c).owed t = 0
  recorded_univ : ∀ (V : TcVal F) (c : Dev nD) (t : Fin (cfg5.N + 1)), (dat V c).recorded t = Set.univ
  body : ∀ (V : TcVal F) (c : Dev nD), BodyObligation (dat V c) (defs₀ (F := F)) Variants.none () Set.univ
  hin : ∀ (V : TcVal F) (c : Dev nD), (Pipeline.ΦA spec5 c : sProp 𝕄) ⊢ (dat V c).Φ 0
  hout : ∀ (V : TcVal F) (c : Dev nD), (dat V c).Φ (Fin.last cfg5.N) ⊢ (Pipeline.ΦA spec5 c : sProp 𝕄)
  Z : (Dev nD → Valuation τ sig (Elt F)) → Dev nD → sProp 𝕄
  hsplit : ∀ (W : Dev nD → Valuation τ sig (Elt F)) (c : Dev nD),
    (StableHlo.held (c : Thread nD τ) (Pipeline.ucRefs τ sig) (W c) : sProp 𝕄)
      ⊢ |={Set.univ}=> iprop((dat (tcOf W) c).arrays ((dat (tcOf W) c).arrAt · 0) ∗ Z W c)
  hjoin : ∀ (W : Dev nD → Valuation τ sig (Elt F)) (c : Dev nD),
    iprop((dat (tcOf W) c).arrays ((dat (tcOf W) c).arrAt · cfg5.N) ∗ Z W c)
      ⊢ |={Set.univ}=> (StableHlo.held (c : Thread nD τ) (Pipeline.ucRefs τ sig)
          (Function.update (W c) main_v69 ((dat (tcOf W) c).arrAt 2 cfg5.N)) : sProp 𝕄)

end Cert.KernelIdeal.Hand

end
-- ==== Proof.KI.ChainFold.lean ====
import proofs.«164907_j26860725469614_1_alg».proof.Proof.KI.ChainIn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Reg0 (F := F)) (R1 : Reg1 (F := F)) (R2 : Reg2 (F := F)) (R3 : Reg3 (F := F)) (R4 : Reg4 (F := F)) (R5 : Reg5 (F := F))

/-! # The buffer contents at each segment boundary: a fold through @main

@main is three stretches of host operations, then five layers each preceded by a short stretch (the casts of the
layer's operands), then a last cast and the product. `W0` is the launch memory; a stretch's boundary is
`StableHlo.after` of its operations; a layer's exit has the layer's arrays at what its write-backs leave and every other
buffer as entered. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : TcVal F := tcOf (W3 m ρ)

/-- At region 0's exit: its arrays at what the pipeline leaves, every other buffer as entered. -/
def W4 (c : Dev nD) : Valuation τ sig (Elt F) :=
  Pipeline.withArrays spec0 c (W3 m ρ c) fun w => (R0.dat (V3 m ρ) c).arrAt w cfg0.N
theorem W4_arr (c : Dev nD) (w : Fin cfg0.W) :
    W4 m ρ R0 c (Proc.devRef .tc (Pipeline.arrRef spec0 w)) = (R0.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ R0 c (Proc.devRef .tc b) = W3 m ρ c (Proc.devRef .tc b) := by
  unfold W4; exact Pipeline.withArrays_of_ne spec0 c _ _ b hb
/-- The same read at the TensorCore's references (region 0's exit contents). -/
abbrev V4 : TcVal F := tcOf (W4 m ρ R0)
theorem hF0 (c : Dev nD) (w : Fin cfg0.W) : (R0.dat (V3 m ρ) c).arrAt w cfg0.N = V4 m ρ R0 c (Pipeline.arrRef spec0 w) :=
  (W4_arr m ρ R0 c w).symm
theorem hrest0 (c : Dev nD) : ∀ b, b ∉ Finset.univ.image (Pipeline.arrRef spec0) → V4 m ρ R0 c b = V3 m ρ c b :=
  fun b hb => W4_of_ne m ρ R0 c b fun w e => hb (Finset.mem_image.mpr ⟨w, Finset.mem_univ _, e⟩)

/-- After `hostOps1` (region 1's entry). -/
abbrev W5 : Dev nD → Valuation τ sig (Elt F) := fun c => StableHlo.after hostOps1 (W4 m ρ R0 c)
/-- The same read at the TensorCore's references (what region 1's proof data take). -/
abbrev V5 : TcVal F := tcOf (W5 m ρ R0)

/-- At region 1's exit: its arrays at what the pipeline leaves, every other buffer as entered. -/
def W6 (c : Dev nD) : Valuation τ sig (Elt F) :=
  Pipeline.withArrays spec1 c (W5 m ρ R0 c) fun w => (R1.dat (V5 m ρ R0) c).arrAt w cfg1.N
theorem W6_arr (c : Dev nD) (w : Fin cfg1.W) :
    W6 m ρ R0 R1 c (Proc.devRef .tc (Pipeline.arrRef spec1 w)) = (R1.dat (V5 m ρ R0) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ R0 R1 c (Proc.devRef .tc b) = W5 m ρ R0 c (Proc.devRef .tc b) := by
  unfold W6; exact Pipeline.withArrays_of_ne spec1 c _ _ b hb
/-- The same read at the TensorCore's references (region 1's exit contents). -/
abbrev V6 : TcVal F := tcOf (W6 m ρ R0 R1)
theorem hF1 (c : Dev nD) (w : Fin cfg1.W) : (R1.dat (V5 m ρ R0) c).arrAt w cfg1.N = V6 m ρ R0 R1 c (Pipeline.arrRef spec1 w) :=
  (W6_arr m ρ R0 R1 c w).symm
theorem hrest1 (c : Dev nD) : ∀ b, b ∉ Finset.univ.image (Pipeline.arrRef spec1) → V6 m ρ R0 R1 c b = V5 m ρ R0 c b :=
  fun b hb => W6_of_ne m ρ R0 R1 c b fun w e => hb (Finset.mem_image.mpr ⟨w, Finset.mem_univ _, e⟩)

/-- After `hostOps2` (region 2's entry). -/
abbrev W7 : Dev nD → Valuation τ sig (Elt F) := fun c => StableHlo.after hostOps2 (W6 m ρ R0 R1 c)
/-- The same read at the TensorCore's references (what region 2's proof data take). -/
abbrev V7 : TcVal F := tcOf (W7 m ρ R0 R1)

/-- At region 2's exit: its arrays at what the pipeline leaves, every other buffer as entered. -/
def W8 (c : Dev nD) : Valuation τ sig (Elt F) :=
  Pipeline.withArrays spec2 c (W7 m ρ R0 R1 c) fun w => (R2.dat (V7 m ρ R0 R1) c).arrAt w cfg2.N
theorem W8_arr (c : Dev nD) (w : Fin cfg2.W) :
    W8 m ρ R0 R1 R2 c (Proc.devRef .tc (Pipeline.arrRef spec2 w)) = (R2.dat (V7 m ρ R0 R1) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ R0 R1 R2 c (Proc.devRef .tc b) = W7 m ρ R0 R1 c (Proc.devRef .tc b) := by
  unfold W8; exact Pipeline.withArrays_of_ne spec2 c _ _ b hb
/-- The same read at the TensorCore's references (region 2's exit contents). -/
abbrev V8 : TcVal F := tcOf (W8 m ρ R0 R1 R2)
theorem hF2 (c : Dev nD) (w : Fin cfg2.W) : (R2.dat (V7 m ρ R0 R1) c).arrAt w cfg2.N = V8 m ρ R0 R1 R2 c (Pipeline.arrRef spec2 w) :=
  (W8_arr m ρ R0 R1 R2 c w).symm
theorem hrest2 (c : Dev nD) : ∀ b, b ∉ Finset.univ.image (Pipeline.arrRef spec2) → V8 m ρ R0 R1 R2 c b = V7 m ρ R0 R1 c b :=
  fun b hb => W8_of_ne m ρ R0 R1 R2 c b fun w e => hb (Finset.mem_image.mpr ⟨w, Finset.mem_univ _, e⟩)

/-- After `hostOps3` (region 3's entry). -/
abbrev W9 : Dev nD → Valuation τ sig (Elt F) := fun c => StableHlo.after hostOps3 (W8 m ρ R0 R1 R2 c)
/-- The same read at the TensorCore's references (what region 3's proof data take). -/
abbrev V9 : TcVal F := tcOf (W9 m ρ R0 R1 R2)

/-- At region 3's exit: its arrays at what the pipeline leaves, every other buffer as entered. -/
def W10 (c : Dev nD) : Valuation τ sig (Elt F) :=
  Pipeline.withArrays spec3 c (W9 m ρ R0 R1 R2 c) fun w => (R3.dat (V9 m ρ R0 R1 R2) c).arrAt w cfg3.N
theorem W10_arr (c : Dev nD) (w : Fin cfg3.W) :
    W10 m ρ R0 R1 R2 R3 c (Proc.devRef .tc (Pipeline.arrRef spec3 w)) = (R3.dat (V9 m ρ R0 R1 R2) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ R0 R1 R2 R3 c (Proc.devRef .tc b) = W9 m ρ R0 R1 R2 c (Proc.devRef .tc b) := by
  unfold W10; exact Pipeline.withArrays_of_ne spec3 c _ _ b hb
/-- The same read at the TensorCore's references (region 3's exit contents). -/
abbrev V10 : TcVal F := tcOf (W10 m ρ R0 R1 R2 R3)
theorem hF3 (c : Dev nD) (w : Fin cfg3.W) : (R3.dat (V9 m ρ R0 R1 R2) c).arrAt w cfg3.N = V10 m ρ R0 R1 R2 R3 c (Pipeline.arrRef spec3 w) :=
  (W10_arr m ρ R0 R1 R2 R3 c w).symm
theorem hrest3 (c : Dev nD) : ∀ b, b ∉ Finset.univ.image (Pipeline.arrRef spec3) → V10 m ρ R0 R1 R2 R3 c b = V9 m ρ R0 R1 R2 c b :=
  fun b hb => W10_of_ne m ρ R0 R1 R2 R3 c b fun w e => hb (Finset.mem_image.mpr ⟨w, Finset.mem_univ _, e⟩)

/-- After `hostOps4` (region 4's entry). -/
abbrev W11 : Dev nD → Valuation τ sig (Elt F) := fun c => StableHlo.after hostOps4 (W10 m ρ R0 R1 R2 R3 c)
/-- The same read at the TensorCore's references (what region 4's proof data take). -/
abbrev V11 : TcVal F := tcOf (W11 m ρ R0 R1 R2 R3)

/-- At region 4's exit: its arrays at what the pipeline leaves, every other buffer as entered. -/
def W12 (c : Dev nD) : Valuation τ sig (Elt F) :=
  Pipeline.withArrays spec4 c (W11 m ρ R0 R1 R2 R3 c) fun w => (R4.dat (V11 m ρ R0 R1 R2 R3) c).arrAt w cfg4.N
theorem W12_arr (c : Dev nD) (w : Fin cfg4.W) :
    W12 m ρ R0 R1 R2 R3 R4 c (Proc.devRef .tc (Pipeline.arrRef spec4 w)) = (R4.dat (V11 m ρ R0 R1 R2 R3) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ R0 R1 R2 R3 R4 c (Proc.devRef .tc b) = W11 m ρ R0 R1 R2 R3 c (Proc.devRef .tc b) := by
  unfold W12; exact Pipeline.withArrays_of_ne spec4 c _ _ b hb
/-- The same read at the TensorCore's references (region 4's exit contents). -/
abbrev V12 : TcVal F := tcOf (W12 m ρ R0 R1 R2 R3 R4)
theorem hF4 (c : Dev nD) (w : Fin cfg4.W) : (R4.dat (V11 m ρ R0 R1 R2 R3) c).arrAt w cfg4.N = V12 m ρ R0 R1 R2 R3 R4 c (Pipeline.arrRef spec4 w) :=
  (W12_arr m ρ R0 R1 R2 R3 R4 c w).symm
theorem hrest4 (c : Dev nD) : ∀ b, b ∉ Finset.univ.image (Pipeline.arrRef spec4) → V12 m ρ R0 R1 R2 R3 R4 c b = V11 m ρ R0 R1 R2 R3 c b :=
  fun b hb => W12_of_ne m ρ R0 R1 R2 R3 R4 c b fun w e => hb (Finset.mem_image.mpr ⟨w, Finset.mem_univ _, e⟩)

/-- After `hostOps5` (region 5's entry). -/
abbrev W13 : Dev nD → Valuation τ sig (Elt F) := fun c => StableHlo.after hostOps5 (W12 m ρ R0 R1 R2 R3 R4 c)
/-- The same read at the TensorCore's references (what region 5's proof data take). -/
abbrev V13 : TcVal F := tcOf (W13 m ρ R0 R1 R2 R3 R4)

/-- At region 5's exit: the product's array at what the write-backs leave, every other buffer as entered (the region's two
    input windows read one array, which no write-back touches). -/
def W14 (c : Dev nD) : Valuation τ sig (Elt F) :=
  Function.update (W13 m ρ R0 R1 R2 R3 R4 c) main_v69 ((R5.dat (V13 m ρ R0 R1 R2 R3 R4) c).arrAt 2 cfg5.N)
theorem W14_out (c : Dev nD) : W14 m ρ R0 R1 R2 R3 R4 R5 c main_v69 = (R5.dat (V13 m ρ R0 R1 R2 R3 R4) c).arrAt 2 cfg5.N := by
  unfold W14; exact Function.update_self ..
theorem W14_of (c : Dev nD) (r : Ref sig .tc) (h : r ∉ ([main_v69] : List (Ref sig .tc))) : W14 m ρ R0 R1 R2 R3 R4 R5 c r = W13 m ρ R0 R1 R2 R3 R4 c r := by
  unfold W14
  exact Function.update_of_ne (StableHlo.devRef_ne_of_ne (List.ne_of_not_mem_cons h) : (Proc.devRef .tc r : DevRef τ sig) ≠ Proc.devRef .tc main_v69) _ _

/-! ## What each stretch leaves unchanged -/
theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ R0 c r = W4 m ρ R0 c r :=
  StableHlo.after_of_writes_sub hostOps1 _ hostOps1_writes h
theorem W7_of (c : Dev nD) (r : Ref sig .tc) (h : r ∉ hostOps2_W) : W7 m ρ R0 R1 c r = W6 m ρ R0 R1 c r :=
  StableHlo.after_of_writes_sub hostOps2 _ hostOps2_writes h
theorem W9_of (c : Dev nD) (r : Ref sig .tc) (h : r ∉ hostOps3_W) : W9 m ρ R0 R1 R2 c r = W8 m ρ R0 R1 R2 c r :=
  StableHlo.after_of_writes_sub hostOps3 _ hostOps3_writes h
theorem W11_of (c : Dev nD) (r : Ref sig .tc) (h : r ∉ hostOps4_W) : W11 m ρ R0 R1 R2 R3 c r = W10 m ρ R0 R1 R2 R3 c r :=
  StableHlo.after_of_writes_sub hostOps4 _ hostOps4_writes h
theorem W13_of (c : Dev nD) (r : Ref sig .tc) (h : r ∉ hostOps5_W) : W13 m ρ R0 R1 R2 R3 R4 c r = W12 m ρ R0 R1 R2 R3 R4 c r :=
  StableHlo.after_of_writes_sub hostOps5 _ hostOps5_writes h

/-! ## The arguments end as launched: no host operation and no region writes one -/
theorem W14_main_arg0 (c : Dev nD) : W14 m ρ R0 R1 R2 R3 R4 R5 c main_arg0 = m ((c : Thread nD τ).loc main_arg0) :=
  (W14_of m ρ R0 R1 R2 R3 R4 R5 c main_arg0 (by decide)).trans <| (W13_of m ρ R0 R1 R2 R3 R4 c main_arg0 (by decide)).trans <| (W12_of_ne m ρ R0 R1 R2 R3 R4 c main_arg0 (by decide)).trans <| (W11_of m ρ R0 R1 R2 R3 c main_arg0 (by decide)).trans <| (W10_of_ne m ρ R0 R1 R2 R3 c main_arg0 (by decide)).trans <| (W9_of m ρ R0 R1 R2 c main_arg0 (by decide)).trans <| (W8_of_ne m ρ R0 R1 R2 c main_arg0 (by decide)).trans <| (W7_of m ρ R0 R1 c main_arg0 (by decide)).trans <| (W6_of_ne m ρ R0 R1 c main_arg0 (by decide)).trans <| (W5_of m ρ R0 c main_arg0 (by decide)).trans <| (W4_of_ne m ρ R0 c main_arg0 (by decide)).trans <| (W3_of m ρ c main_arg0 (by decide)).trans <| (W2_of m ρ c main_arg0 (by decide)).trans <| (W1_of m ρ c main_arg0 (by decide)).trans rfl
theorem W14_main_arg1 (c : Dev nD) : W14 m ρ R0 R1 R2 R3 R4 R5 c main_arg1 = m ((c : Thread nD τ).loc main_arg1) :=
  (W14_of m ρ R0 R1 R2 R3 R4 R5 c main_arg1 (by decide)).trans <| (W13_of m ρ R0 R1 R2 R3 R4 c main_arg1 (by decide)).trans <| (W12_of_ne m ρ R0 R1 R2 R3 R4 c main_arg1 (by decide)).trans <| (W11_of m ρ R0 R1 R2 R3 c main_arg1 (by decide)).trans <| (W10_of_ne m ρ R0 R1 R2 R3 c main_arg1 (by decide)).trans <| (W9_of m ρ R0 R1 R2 c main_arg1 (by decide)).trans <| (W8_of_ne m ρ R0 R1 R2 c main_arg1 (by decide)).trans <| (W7_of m ρ R0 R1 c main_arg1 (by decide)).trans <| (W6_of_ne m ρ R0 R1 c main_arg1 (by decide)).trans <| (W5_of m ρ R0 c main_arg1 (by decide)).trans <| (W4_of_ne m ρ R0 c main_arg1 (by decide)).trans <| (W3_of m ρ c main_arg1 (by decide)).trans <| (W2_of m ρ c main_arg1 (by decide)).trans <| (W1_of m ρ c main_arg1 (by decide)).trans rfl
theorem W14_main_arg2 (c : Dev nD) : W14 m ρ R0 R1 R2 R3 R4 R5 c main_arg2 = m ((c : Thread nD τ).loc main_arg2) :=
  (W14_of m ρ R0 R1 R2 R3 R4 R5 c main_arg2 (by decide)).trans <| (W13_of m ρ R0 R1 R2 R3 R4 c main_arg2 (by decide)).trans <| (W12_of_ne m ρ R0 R1 R2 R3 R4 c main_arg2 (by decide)).trans <| (W11_of m ρ R0 R1 R2 R3 c main_arg2 (by decide)).trans <| (W10_of_ne m ρ R0 R1 R2 R3 c main_arg2 (by decide)).trans <| (W9_of m ρ R0 R1 R2 c main_arg2 (by decide)).trans <| (W8_of_ne m ρ R0 R1 R2 c main_arg2 (by decide)).trans <| (W7_of m ρ R0 R1 c main_arg2 (by decide)).trans <| (W6_of_ne m ρ R0 R1 c main_arg2 (by decide)).trans <| (W5_of m ρ R0 c main_arg2 (by decide)).trans <| (W4_of_ne m ρ R0 c main_arg2 (by decide)).trans <| (W3_of m ρ c main_arg2 (by decide)).trans <| (W2_of m ρ c main_arg2 (by decide)).trans <| (W1_of m ρ c main_arg2 (by decide)).trans rfl
theorem W14_main_arg3 (c : Dev nD) : W14 m ρ R0 R1 R2 R3 R4 R5 c main_arg3 = m ((c : Thread nD τ).loc main_arg3) :=
  (W14_of m ρ R0 R1 R2 R3 R4 R5 c main_arg3 (by decide)).trans <| (W13_of m ρ R0 R1 R2 R3 R4 c main_arg3 (by decide)).trans <| (W12_of_ne m ρ R0 R1 R2 R3 R4 c main_arg3 (by decide)).trans <| (W11_of m ρ R0 R1 R2 R3 c main_arg3 (by decide)).trans <| (W10_of_ne m ρ R0 R1 R2 R3 c main_arg3 (by decide)).trans <| (W9_of m ρ R0 R1 R2 c main_arg3 (by decide)).trans <| (W8_of_ne m ρ R0 R1 R2 c main_arg3 (by decide)).trans <| (W7_of m ρ R0 R1 c main_arg3 (by decide)).trans <| (W6_of_ne m ρ R0 R1 c main_arg3 (by decide)).trans <| (W5_of m ρ R0 c main_arg3 (by decide)).trans <| (W4_of_ne m ρ R0 c main_arg3 (by decide)).trans <| (W3_of m ρ c main_arg3 (by decide)).trans <| (W2_of m ρ c main_arg3 (by decide)).trans <| (W1_of m ρ c main_arg3 (by decide)).trans rfl
theorem W14_main_arg4 (c : Dev nD) : W14 m ρ R0 R1 R2 R3 R4 R5 c main_arg4 = m ((c : Thread nD τ).loc main_arg4) :=
  (W14_of m ρ R0 R1 R2 R3 R4 R5 c main_arg4 (by decide)).trans <| (W13_of m ρ R0 R1 R2 R3 R4 c main_arg4 (by decide)).trans <| (W12_of_ne m ρ R0 R1 R2 R3 R4 c main_arg4 (by decide)).trans <| (W11_of m ρ R0 R1 R2 R3 c main_arg4 (by decide)).trans <| (W10_of_ne m ρ R0 R1 R2 R3 c main_arg4 (by decide)).trans <| (W9_of m ρ R0 R1 R2 c main_arg4 (by decide)).trans <| (W8_of_ne m ρ R0 R1 R2 c main_arg4 (by decide)).trans <| (W7_of m ρ R0 R1 c main_arg4 (by decide)).trans <| (W6_of_ne m ρ R0 R1 c main_arg4 (by decide)).trans <| (W5_of m ρ R0 c main_arg4 (by decide)).trans <| (W4_of_ne m ρ R0 c main_arg4 (by decide)).trans <| (W3_of m ρ c main_arg4 (by decide)).trans <| (W2_of m ρ c main_arg4 (by decide)).trans <| (W1_of m ρ c main_arg4 (by decide)).trans rfl
theorem W14_main_arg5 (c : Dev nD) : W14 m ρ R0 R1 R2 R3 R4 R5 c main_arg5 = m ((c : Thread nD τ).loc main_arg5) :=
  (W14_of m ρ R0 R1 R2 R3 R4 R5 c main_arg5 (by decide)).trans <| (W13_of m ρ R0 R1 R2 R3 R4 c main_arg5 (by decide)).trans <| (W12_of_ne m ρ R0 R1 R2 R3 R4 c main_arg5 (by decide)).trans <| (W11_of m ρ R0 R1 R2 R3 c main_arg5 (by decide)).trans <| (W10_of_ne m ρ R0 R1 R2 R3 c main_arg5 (by decide)).trans <| (W9_of m ρ R0 R1 R2 c main_arg5 (by decide)).trans <| (W8_of_ne m ρ R0 R1 R2 c main_arg5 (by decide)).trans <| (W7_of m ρ R0 R1 c main_arg5 (by decide)).trans <| (W6_of_ne m ρ R0 R1 c main_arg5 (by decide)).trans <| (W5_of m ρ R0 c main_arg5 (by decide)).trans <| (W4_of_ne m ρ R0 c main_arg5 (by decide)).trans <| (W3_of m ρ c main_arg5 (by decide)).trans <| (W2_of m ρ c main_arg5 (by decide)).trans <| (W1_of m ρ c main_arg5 (by decide)).trans rfl
theorem W14_main_arg6 (c : Dev nD) : W14 m ρ R0 R1 R2 R3 R4 R5 c main_arg6 = m ((c : Thread nD τ).loc main_arg6) :=
  (W14_of m ρ R0 R1 R2 R3 R4 R5 c main_arg6 (by decide)).trans <| (W13_of m ρ R0 R1 R2 R3 R4 c main_arg6 (by decide)).trans <| (W12_of_ne m ρ R0 R1 R2 R3 R4 c main_arg6 (by decide)).trans <| (W11_of m ρ R0 R1 R2 R3 c main_arg6 (by decide)).trans <| (W10_of_ne m ρ R0 R1 R2 R3 c main_arg6 (by decide)).trans <| (W9_of m ρ R0 R1 R2 c main_arg6 (by decide)).trans <| (W8_of_ne m ρ R0 R1 R2 c main_arg6 (by decide)).trans <| (W7_of m ρ R0 R1 c main_arg6 (by decide)).trans <| (W6_of_ne m ρ R0 R1 c main_arg6 (by decide)).trans <| (W5_of m ρ R0 c main_arg6 (by decide)).trans <| (W4_of_ne m ρ R0 c main_arg6 (by decide)).trans <| (W3_of m ρ c main_arg6 (by decide)).trans <| (W2_of m ρ c main_arg6 (by decide)).trans <| (W1_of m ρ c main_arg6 (by decide)).trans rfl
theorem W14_main_arg7 (c : Dev nD) : W14 m ρ R0 R1 R2 R3 R4 R5 c main_arg7 = m ((c : Thread nD τ).loc main_arg7) :=
  (W14_of m ρ R0 R1 R2 R3 R4 R5 c main_arg7 (by decide)).trans <| (W13_of m ρ R0 R1 R2 R3 R4 c main_arg7 (by decide)).trans <| (W12_of_ne m ρ R0 R1 R2 R3 R4 c main_arg7 (by decide)).trans <| (W11_of m ρ R0 R1 R2 R3 c main_arg7 (by decide)).trans <| (W10_of_ne m ρ R0 R1 R2 R3 c main_arg7 (by decide)).trans <| (W9_of m ρ R0 R1 R2 c main_arg7 (by decide)).trans <| (W8_of_ne m ρ R0 R1 R2 c main_arg7 (by decide)).trans <| (W7_of m ρ R0 R1 c main_arg7 (by decide)).trans <| (W6_of_ne m ρ R0 R1 c main_arg7 (by decide)).trans <| (W5_of m ρ R0 c main_arg7 (by decide)).trans <| (W4_of_ne m ρ R0 c main_arg7 (by decide)).trans <| (W3_of m ρ c main_arg7 (by decide)).trans <| (W2_of m ρ c main_arg7 (by decide)).trans <| (W1_of m ρ c main_arg7 (by decide)).trans rfl
theorem W14_main_arg8 (c : Dev nD) : W14 m ρ R0 R1 R2 R3 R4 R5 c main_arg8 = m ((c : Thread nD τ).loc main_arg8) :=
  (W14_of m ρ R0 R1 R2 R3 R4 R5 c main_arg8 (by decide)).trans <| (W13_of m ρ R0 R1 R2 R3 R4 c main_arg8 (by decide)).trans <| (W12_of_ne m ρ R0 R1 R2 R3 R4 c main_arg8 (by decide)).trans <| (W11_of m ρ R0 R1 R2 R3 c main_arg8 (by decide)).trans <| (W10_of_ne m ρ R0 R1 R2 R3 c main_arg8 (by decide)).trans <| (W9_of m ρ R0 R1 R2 c main_arg8 (by decide)).trans <| (W8_of_ne m ρ R0 R1 R2 c main_arg8 (by decide)).trans <| (W7_of m ρ R0 R1 c main_arg8 (by decide)).trans <| (W6_of_ne m ρ R0 R1 c main_arg8 (by decide)).trans <| (W5_of m ρ R0 c main_arg8 (by decide)).trans <| (W4_of_ne m ρ R0 c main_arg8 (by decide)).trans <| (W3_of m ρ c main_arg8 (by decide)).trans <| (W2_of m ρ c main_arg8 (by decide)).trans <| (W1_of m ρ c main_arg8 (by decide)).trans rfl
theorem W14_main_arg9 (c : Dev nD) : W14 m ρ R0 R1 R2 R3 R4 R5 c main_arg9 = m ((c : Thread nD τ).loc main_arg9) :=
  (W14_of m ρ R0 R1 R2 R3 R4 R5 c main_arg9 (by decide)).trans <| (W13_of m ρ R0 R1 R2 R3 R4 c main_arg9 (by decide)).trans <| (W12_of_ne m ρ R0 R1 R2 R3 R4 c main_arg9 (by decide)).trans <| (W11_of m ρ R0 R1 R2 R3 c main_arg9 (by decide)).trans <| (W10_of_ne m ρ R0 R1 R2 R3 c main_arg9 (by decide)).trans <| (W9_of m ρ R0 R1 R2 c main_arg9 (by decide)).trans <| (W8_of_ne m ρ R0 R1 R2 c main_arg9 (by decide)).trans <| (W7_of m ρ R0 R1 c main_arg9 (by decide)).trans <| (W6_of_ne m ρ R0 R1 c main_arg9 (by decide)).trans <| (W5_of m ρ R0 c main_arg9 (by decide)).trans <| (W4_of_ne m ρ R0 c main_arg9 (by decide)).trans <| (W3_of m ρ c main_arg9 (by decide)).trans <| (W2_of m ρ c main_arg9 (by decide)).trans <| (W1_of m ρ c main_arg9 (by decide)).trans rfl
theorem W14_main_arg10 (c : Dev nD) : W14 m ρ R0 R1 R2 R3 R4 R5 c main_arg10 = m ((c : Thread nD τ).loc main_arg10) :=
  (W14_of m ρ R0 R1 R2 R3 R4 R5 c main_arg10 (by decide)).trans <| (W13_of m ρ R0 R1 R2 R3 R4 c main_arg10 (by decide)).trans <| (W12_of_ne m ρ R0 R1 R2 R3 R4 c main_arg10 (by decide)).trans <| (W11_of m ρ R0 R1 R2 R3 c main_arg10 (by decide)).trans <| (W10_of_ne m ρ R0 R1 R2 R3 c main_arg10 (by decide)).trans <| (W9_of m ρ R0 R1 R2 c main_arg10 (by decide)).trans <| (W8_of_ne m ρ R0 R1 R2 c main_arg10 (by decide)).trans <| (W7_of m ρ R0 R1 c main_arg10 (by decide)).trans <| (W6_of_ne m ρ R0 R1 c main_arg10 (by decide)).trans <| (W5_of m ρ R0 c main_arg10 (by decide)).trans <| (W4_of_ne m ρ R0 c main_arg10 (by decide)).trans <| (W3_of m ρ c main_arg10 (by decide)).trans <| (W2_of m ρ c main_arg10 (by decide)).trans <| (W1_of m ρ c main_arg10 (by decide)).trans rfl
theorem W14_main_arg11 (c : Dev nD) : W14 m ρ R0 R1 R2 R3 R4 R5 c main_arg11 = m ((c : Thread nD τ).loc main_arg11) :=
  (W14_of m ρ R0 R1 R2 R3 R4 R5 c main_arg11 (by decide)).trans <| (W13_of m ρ R0 R1 R2 R3 R4 c main_arg11 (by decide)).trans <| (W12_of_ne m ρ R0 R1 R2 R3 R4 c main_arg11 (by decide)).trans <| (W11_of m ρ R0 R1 R2 R3 c main_arg11 (by decide)).trans <| (W10_of_ne m ρ R0 R1 R2 R3 c main_arg11 (by decide)).trans <| (W9_of m ρ R0 R1 R2 c main_arg11 (by decide)).trans <| (W8_of_ne m ρ R0 R1 R2 c main_arg11 (by decide)).trans <| (W7_of m ρ R0 R1 c main_arg11 (by decide)).trans <| (W6_of_ne m ρ R0 R1 c main_arg11 (by decide)).trans <| (W5_of m ρ R0 c main_arg11 (by decide)).trans <| (W4_of_ne m ρ R0 c main_arg11 (by decide)).trans <| (W3_of m ρ c main_arg11 (by decide)).trans <| (W2_of m ρ c main_arg11 (by decide)).trans <| (W1_of m ρ c main_arg11 (by decide)).trans rfl
theorem W14_main_arg12 (c : Dev nD) : W14 m ρ R0 R1 R2 R3 R4 R5 c main_arg12 = m ((c : Thread nD τ).loc main_arg12) :=
  (W14_of m ρ R0 R1 R2 R3 R4 R5 c main_arg12 (by decide)).trans <| (W13_of m ρ R0 R1 R2 R3 R4 c main_arg12 (by decide)).trans <| (W12_of_ne m ρ R0 R1 R2 R3 R4 c main_arg12 (by decide)).trans <| (W11_of m ρ R0 R1 R2 R3 c main_arg12 (by decide)).trans <| (W10_of_ne m ρ R0 R1 R2 R3 c main_arg12 (by decide)).trans <| (W9_of m ρ R0 R1 R2 c main_arg12 (by decide)).trans <| (W8_of_ne m ρ R0 R1 R2 c main_arg12 (by decide)).trans <| (W7_of m ρ R0 R1 c main_arg12 (by decide)).trans <| (W6_of_ne m ρ R0 R1 c main_arg12 (by decide)).trans <| (W5_of m ρ R0 c main_arg12 (by decide)).trans <| (W4_of_ne m ρ R0 c main_arg12 (by decide)).trans <| (W3_of m ρ c main_arg12 (by decide)).trans <| (W2_of m ρ c main_arg12 (by decide)).trans <| (W1_of m ρ c main_arg12 (by decide)).trans rfl

end Cert.KernelIdeal.Hand

end
-- ==== Proof.KI.ChainRegs.lean ====
import proofs.«164907_j26860725469614_1_alg».proof.Proof.KI.ChainFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Reg0 (F := F)) (R1 : Reg1 (F := F)) (R2 : Reg2 (F := F)) (R3 : Reg3 (F := F)) (R4 : Reg4 (F := F)) (R5 : Reg5 (F := F))

/-! # The proof data family and the thread state -/

/-- Every pipeline's proof data, each at its region's entry contents: a literal `match`, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => R0.dat (V3 m ρ) c
  | ⟨1, _⟩ => fun c => R1.dat (V5 m ρ R0) c
  | ⟨2, _⟩ => fun c => R2.dat (V7 m ρ R0 R1) c
  | ⟨3, _⟩ => fun c => R3.dat (V9 m ρ R0 R1 R2) c
  | ⟨4, _⟩ => fun c => R4.dat (V11 m ρ R0 R1 R2 R3) c
  | ⟨5, _⟩ => fun c => R5.dat (V13 m ρ R0 R1 R2 R3 R4) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W14 m ρ R0 R1 R2 R3 R4 R5 c) ∗ ∃ r, prngReg c r)

/-! ## Nothing owed, no bound on the recorded pairs: the proof data family at a numeral -/
theorem owed_eq0 (c : Dev nD) (t : Fin ((Pipeline.pin (pcfgs (F := F)) adm 0).N + 1)) : (pdats m ρ R0 R1 R2 R3 R4 R5 0 c).owed t = 0 :=
  R0.owed_zero (V3 m ρ) c t
theorem recorded_eq0 (c : Dev nD) (t : Fin ((Pipeline.pin (pcfgs (F := F)) adm 0).N + 1)) : (pdats m ρ R0 R1 R2 R3 R4 R5 0 c).recorded t = Set.univ :=
  R0.recorded_univ (V3 m ρ) c t
theorem owed_eq1 (c : Dev nD) (t : Fin ((Pipeline.pin (pcfgs (F := F)) adm 1).N + 1)) : (pdats m ρ R0 R1 R2 R3 R4 R5 1 c).owed t = 0 :=
  R1.owed_zero (V5 m ρ R0) c t
theorem recorded_eq1 (c : Dev nD) (t : Fin ((Pipeline.pin (pcfgs (F := F)) adm 1).N + 1)) : (pdats m ρ R0 R1 R2 R3 R4 R5 1 c).recorded t = Set.univ :=
  R1.recorded_univ (V5 m ρ R0) c t
theorem owed_eq2 (c : Dev nD) (t : Fin ((Pipeline.pin (pcfgs (F := F)) adm 2).N + 1)) : (pdats m ρ R0 R1 R2 R3 R4 R5 2 c).owed t = 0 :=
  R2.owed_zero (V7 m ρ R0 R1) c t
theorem recorded_eq2 (c : Dev nD) (t : Fin ((Pipeline.pin (pcfgs (F := F)) adm 2).N + 1)) : (pdats m ρ R0 R1 R2 R3 R4 R5 2 c).recorded t = Set.univ :=
  R2.recorded_univ (V7 m ρ R0 R1) c t
theorem owed_eq3 (c : Dev nD) (t : Fin ((Pipeline.pin (pcfgs (F := F)) adm 3).N + 1)) : (pdats m ρ R0 R1 R2 R3 R4 R5 3 c).owed t = 0 :=
  R3.owed_zero (V9 m ρ R0 R1 R2) c t
theorem recorded_eq3 (c : Dev nD) (t : Fin ((Pipeline.pin (pcfgs (F := F)) adm 3).N + 1)) : (pdats m ρ R0 R1 R2 R3 R4 R5 3 c).recorded t = Set.univ :=
  R3.recorded_univ (V9 m ρ R0 R1 R2) c t
theorem owed_eq4 (c : Dev nD) (t : Fin ((Pipeline.pin (pcfgs (F := F)) adm 4).N + 1)) : (pdats m ρ R0 R1 R2 R3 R4 R5 4 c).owed t = 0 :=
  R4.owed_zero (V11 m ρ R0 R1 R2 R3) c t
theorem recorded_eq4 (c : Dev nD) (t : Fin ((Pipeline.pin (pcfgs (F := F)) adm 4).N + 1)) : (pdats m ρ R0 R1 R2 R3 R4 R5 4 c).recorded t = Set.univ :=
  R4.recorded_univ (V11 m ρ R0 R1 R2 R3) c t
theorem owed_eq5 (c : Dev nD) (t : Fin ((Pipeline.pin (pcfgs (F := F)) adm 5).N + 1)) : (pdats m ρ R0 R1 R2 R3 R4 R5 5 c).owed t = 0 :=
  R5.owed_zero (V13 m ρ R0 R1 R2 R3 R4) c t
theorem recorded_eq5 (c : Dev nD) (t : Fin ((Pipeline.pin (pcfgs (F := F)) adm 5).N + 1)) : (pdats m ρ R0 R1 R2 R3 R4 R5 5 c).recorded t = Set.univ :=
  R5.recorded_univ (V13 m ρ R0 R1 R2 R3 R4) c t

/-! # The regions as segments -/

set_option backward.isDefEq.respectTransparency.types false in
/-- REGION 0 over the thread state: entered from every unscoped buffer at `W3`, left at `W4`. Its arrays are
    split out of the unscoped buffers and put back at the exit contents; the generator register and the scratch go
    into the invariant at the first point (`hin`) and come back from the one at the last (`hout`); nothing owed. -/
def reg0 : Pipeline.RegionSeg (pcfgs (F := F)) adm (pdats m ρ R0 R1 R2 R3 R4 R5) () defs₀ 𝒱₀ L lv 0 where
  win := launch0.win.to₀
  block_pos := launch0.block_pos
  stage_whole := launch0.stage_whole
  K := PEmpty
  osem k := k.elim
  ho := Pipeline.OwnSemFacts.none _
  hbody c := (R0.body (V3 m ρ) c).loose
  hwaits := Pipeline.hwaits_of_owed_zero _ _ _ _ L lv 0 fun c t => R0.owed_zero (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ R0 c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ R0 R1 R2 R3 R4 R5) launch0.win launch0.arr_whole c
      ((pdats m ρ R0 R1 R2 R3 R4 R5 0 c).share_full fun w => R0.q_full (V3 m ρ) c w) (V3 m ρ c) fun w => R0.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq0 m ρ R0 R1 R2 R3 R4 R5 c 0]
      icases HO with ⟨%W, HO⟩; iexists W; isplitr
      · ipureintro; exact fun x _ => Or.inl (by rw [recorded_eq0 m ρ R0 R1 R2 R3 R4 R5 c 0]; exact Set.mem_univ x)
      iexact HO
    isplitl [Hp]; · iexact Hp
    iexact Hrest
  hin c := by
    refine .trans ?_ (R0.hin (V3 m ρ) c)
    unfold Pipeline.ΦA
    iintro ⟨Hp, -, Hr⟩
    isplitl [Hr]; · iexact Hr
    iexact Hp
  hout c := by
    rw [Pipeline.ownSems0_none]
    refine .trans (R0.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ R0 R1 R2 R3 R4 R5) ((pdats m ρ R0 R1 R2 R3 R4 R5 0 c).share_full fun w => R0.q_full (V3 m ρ) c w)
      (V3 m ρ c) (V4 m ρ R0 c) ((pdats m ρ R0 R1 R2 R3 R4 R5 0 c).arrAt · cfg0.N) (hF0 m ρ R0 c) (hrest0 m ρ R0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq0 m ρ R0 R1 R2 R3 R4 R5 c (Fin.last _)]
    icases HO with ⟨%W, -, HO⟩; iexists W; iexact HO

set_option backward.isDefEq.respectTransparency.types false in
/-- REGION 1 over the thread state: entered from every unscoped buffer at `W5`, left at `W6`. Its arrays are
    split out of the unscoped buffers and put back at the exit contents; the generator register and the scratch go
    into the invariant at the first point (`hin`) and come back from the one at the last (`hout`); nothing owed. -/
def reg1 : Pipeline.RegionSeg (pcfgs (F := F)) adm (pdats m ρ R0 R1 R2 R3 R4 R5) () defs₀ 𝒱₀ L lv 1 where
  win := launch1.win.to₀
  block_pos := launch1.block_pos
  stage_whole := launch1.stage_whole
  K := PEmpty
  osem k := k.elim
  ho := Pipeline.OwnSemFacts.none _
  hbody c := (R1.body (V5 m ρ R0) c).loose
  hwaits := Pipeline.hwaits_of_owed_zero _ _ _ _ L lv 1 fun c t => R1.owed_zero (V5 m ρ R0) c t
  pre c := iprop(StableHlo.held (c : Thread nD τ) (Pipeline.ucRefs τ sig) (W5 m ρ R0 c) ∗ R c)
  post c := iprop(StableHlo.held (c : Thread nD τ) (Pipeline.ucRefs τ sig) (W6 m ρ R0 R1 c) ∗ R c)
  X c := iprop(∃ r, prngReg c r)
  Y c := iprop(∃ r, prngReg c r)
  Z c := Pipeline.unscopedRest (Ix := Unit) (Name := ℕ) (U := UR sig nD τ) (Lvl := ℕ) spec1 c (V5 m ρ R0 c)
  hentry c := by
    rw [Pipeline.ownSems0_none]
    have hsplit := Pipeline.arrays_of_unscopedBufs (p := 1) (pcfgs (F := F)) adm (pdats m ρ R0 R1 R2 R3 R4 R5) launch1.win launch1.arr_whole c
      ((pdats m ρ R0 R1 R2 R3 R4 R5 1 c).share_full fun w => R1.q_full (V5 m ρ R0) c w) (V5 m ρ R0 c) fun w => R1.A_eq (V5 m ρ R0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq1 m ρ R0 R1 R2 R3 R4 R5 c 0]
      icases HO with ⟨%W, HO⟩; iexists W; isplitr
      · ipureintro; exact fun x _ => Or.inl (by rw [recorded_eq1 m ρ R0 R1 R2 R3 R4 R5 c 0]; exact Set.mem_univ x)
      iexact HO
    isplitl [Hp]; · iexact Hp
    iexact Hrest
  hin c := by
    refine .trans ?_ (R1.hin (V5 m ρ R0) c)
    unfold Pipeline.ΦA
    iintro ⟨Hp, -, Hr⟩
    isplitl [Hr]; · iexact Hr
    iexact Hp
  hout c := by
    rw [Pipeline.ownSems0_none]
    refine .trans (R1.hout (V5 m ρ R0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ R0 R1 R2 R3 R4 R5) ((pdats m ρ R0 R1 R2 R3 R4 R5 1 c).share_full fun w => R1.q_full (V5 m ρ R0) c w)
      (V5 m ρ R0 c) (V6 m ρ R0 R1 c) ((pdats m ρ R0 R1 R2 R3 R4 R5 1 c).arrAt · cfg1.N) (hF1 m ρ R0 R1 c) (hrest1 m ρ R0 R1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq1 m ρ R0 R1 R2 R3 R4 R5 c (Fin.last _)]
    icases HO with ⟨%W, -, HO⟩; iexists W; iexact HO

set_option backward.isDefEq.respectTransparency.types false in
/-- REGION 2 over the thread state: entered from every unscoped buffer at `W7`, left at `W8`. Its arrays are
    split out of the unscoped buffers and put back at the exit contents; the generator register and the scratch go
    into the invariant at the first point (`hin`) and come back from the one at the last (`hout`); nothing owed. -/
def reg2 : Pipeline.RegionSeg (pcfgs (F := F)) adm (pdats m ρ R0 R1 R2 R3 R4 R5) () defs₀ 𝒱₀ L lv 2 where
  win := launch2.win.to₀
  block_pos := launch2.block_pos
  stage_whole := launch2.stage_whole
  K := PEmpty
  osem k := k.elim
  ho := Pipeline.OwnSemFacts.none _
  hbody c := (R2.body (V7 m ρ R0 R1) c).loose
  hwaits := Pipeline.hwaits_of_owed_zero _ _ _ _ L lv 2 fun c t => R2.owed_zero (V7 m ρ R0 R1) c t
  pre c := iprop(StableHlo.held (c : Thread nD τ) (Pipeline.ucRefs τ sig) (W7 m ρ R0 R1 c) ∗ R c)
  post c := iprop(StableHlo.held (c : Thread nD τ) (Pipeline.ucRefs τ sig) (W8 m ρ R0 R1 R2 c) ∗ R c)
  X c := iprop(∃ r, prngReg c r)
  Y c := iprop(∃ r, prngReg c r)
  Z c := Pipeline.unscopedRest (Ix := Unit) (Name := ℕ) (U := UR sig nD τ) (Lvl := ℕ) spec2 c (V7 m ρ R0 R1 c)
  hentry c := by
    rw [Pipeline.ownSems0_none]
    have hsplit := Pipeline.arrays_of_unscopedBufs (p := 2) (pcfgs (F := F)) adm (pdats m ρ R0 R1 R2 R3 R4 R5) launch2.win launch2.arr_whole c
      ((pdats m ρ R0 R1 R2 R3 R4 R5 2 c).share_full fun w => R2.q_full (V7 m ρ R0 R1) c w) (V7 m ρ R0 R1 c) fun w => R2.A_eq (V7 m ρ R0 R1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq2 m ρ R0 R1 R2 R3 R4 R5 c 0]
      icases HO with ⟨%W, HO⟩; iexists W; isplitr
      · ipureintro; exact fun x _ => Or.inl (by rw [recorded_eq2 m ρ R0 R1 R2 R3 R4 R5 c 0]; exact Set.mem_univ x)
      iexact HO
    isplitl [Hp]; · iexact Hp
    iexact Hrest
  hin c := by
    refine .trans ?_ (R2.hin (V7 m ρ R0 R1) c)
    unfold Pipeline.ΦA
    iintro ⟨Hp, -, Hr⟩
    isplitl [Hr]; · iexact Hr
    iexact Hp
  hout c := by
    rw [Pipeline.ownSems0_none]
    refine .trans (R2.hout (V7 m ρ R0 R1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ R0 R1 R2 R3 R4 R5) ((pdats m ρ R0 R1 R2 R3 R4 R5 2 c).share_full fun w => R2.q_full (V7 m ρ R0 R1) c w)
      (V7 m ρ R0 R1 c) (V8 m ρ R0 R1 R2 c) ((pdats m ρ R0 R1 R2 R3 R4 R5 2 c).arrAt · cfg2.N) (hF2 m ρ R0 R1 R2 c) (hrest2 m ρ R0 R1 R2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq2 m ρ R0 R1 R2 R3 R4 R5 c (Fin.last _)]
    icases HO with ⟨%W, -, HO⟩; iexists W; iexact HO

set_option backward.isDefEq.respectTransparency.types false in
/-- REGION 3 over the thread state: entered from every unscoped buffer at `W9`, left at `W10`. Its arrays are
    split out of the unscoped buffers and put back at the exit contents; the generator register and the scratch go
    into the invariant at the first point (`hin`) and come back from the one at the last (`hout`); nothing owed. -/
def reg3 : Pipeline.RegionSeg (pcfgs (F := F)) adm (pdats m ρ R0 R1 R2 R3 R4 R5) () defs₀ 𝒱₀ L lv 3 where
  win := launch3.win.to₀
  block_pos := launch3.block_pos
  stage_whole := launch3.stage_whole
  K := PEmpty
  osem k := k.elim
  ho := Pipeline.OwnSemFacts.none _
  hbody c := (R3.body (V9 m ρ R0 R1 R2) c).loose
  hwaits := Pipeline.hwaits_of_owed_zero _ _ _ _ L lv 3 fun c t => R3.owed_zero (V9 m ρ R0 R1 R2) c t
  pre c := iprop(StableHlo.held (c : Thread nD τ) (Pipeline.ucRefs τ sig) (W9 m ρ R0 R1 R2 c) ∗ R c)
  post c := iprop(StableHlo.held (c : Thread nD τ) (Pipeline.ucRefs τ sig) (W10 m ρ R0 R1 R2 R3 c) ∗ R c)
  X c := iprop(∃ r, prngReg c r)
  Y c := iprop(∃ r, prngReg c r)
  Z c := Pipeline.unscopedRest (Ix := Unit) (Name := ℕ) (U := UR sig nD τ) (Lvl := ℕ) spec3 c (V9 m ρ R0 R1 R2 c)
  hentry c := by
    rw [Pipeline.ownSems0_none]
    have hsplit := Pipeline.arrays_of_unscopedBufs (p := 3) (pcfgs (F := F)) adm (pdats m ρ R0 R1 R2 R3 R4 R5) launch3.win launch3.arr_whole c
      ((pdats m ρ R0 R1 R2 R3 R4 R5 3 c).share_full fun w => R3.q_full (V9 m ρ R0 R1 R2) c w) (V9 m ρ R0 R1 R2 c) fun w => R3.A_eq (V9 m ρ R0 R1 R2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq3 m ρ R0 R1 R2 R3 R4 R5 c 0]
      icases HO with ⟨%W, HO⟩; iexists W; isplitr
      · ipureintro; exact fun x _ => Or.inl (by rw [recorded_eq3 m ρ R0 R1 R2 R3 R4 R5 c 0]; exact Set.mem_univ x)
      iexact HO
    isplitl [Hp]; · iexact Hp
    iexact Hrest
  hin c := by
    refine .trans ?_ (R3.hin (V9 m ρ R0 R1 R2) c)
    unfold Pipeline.ΦA
    iintro ⟨Hp, -, Hr⟩
    isplitl [Hr]; · iexact Hr
    iexact Hp
  hout c := by
    rw [Pipeline.ownSems0_none]
    refine .trans (R3.hout (V9 m ρ R0 R1 R2) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ R0 R1 R2 R3 R4 R5) ((pdats m ρ R0 R1 R2 R3 R4 R5 3 c).share_full fun w => R3.q_full (V9 m ρ R0 R1 R2) c w)
      (V9 m ρ R0 R1 R2 c) (V10 m ρ R0 R1 R2 R3 c) ((pdats m ρ R0 R1 R2 R3 R4 R5 3 c).arrAt · cfg3.N) (hF3 m ρ R0 R1 R2 R3 c) (hrest3 m ρ R0 R1 R2 R3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq3 m ρ R0 R1 R2 R3 R4 R5 c (Fin.last _)]
    icases HO with ⟨%W, -, HO⟩; iexists W; iexact HO

set_option backward.isDefEq.respectTransparency.types false in
/-- REGION 4 over the thread state: entered from every unscoped buffer at `W11`, left at `W12`. Its arrays are
    split out of the unscoped buffers and put back at the exit contents; the generator register and the scratch go
    into the invariant at the first point (`hin`) and come back from the one at the last (`hout`); nothing owed. -/
def reg4 : Pipeline.RegionSeg (pcfgs (F := F)) adm (pdats m ρ R0 R1 R2 R3 R4 R5) () defs₀ 𝒱₀ L lv 4 where
  win := launch4.win.to₀
  block_pos := launch4.block_pos
  stage_whole := launch4.stage_whole
  K := PEmpty
  osem k := k.elim
  ho := Pipeline.OwnSemFacts.none _
  hbody c := (R4.body (V11 m ρ R0 R1 R2 R3) c).loose
  hwaits := Pipeline.hwaits_of_owed_zero _ _ _ _ L lv 4 fun c t => R4.owed_zero (V11 m ρ R0 R1 R2 R3) c t
  pre c := iprop(StableHlo.held (c : Thread nD τ) (Pipeline.ucRefs τ sig) (W11 m ρ R0 R1 R2 R3 c) ∗ R c)
  post c := iprop(StableHlo.held (c : Thread nD τ) (Pipeline.ucRefs τ sig) (W12 m ρ R0 R1 R2 R3 R4 c) ∗ R c)
  X c := iprop(∃ r, prngReg c r)
  Y c := iprop(∃ r, prngReg c r)
  Z c := Pipeline.unscopedRest (Ix := Unit) (Name := ℕ) (U := UR sig nD τ) (Lvl := ℕ) spec4 c (V11 m ρ R0 R1 R2 R3 c)
  hentry c := by
    rw [Pipeline.ownSems0_none]
    have hsplit := Pipeline.arrays_of_unscopedBufs (p := 4) (pcfgs (F := F)) adm (pdats m ρ R0 R1 R2 R3 R4 R5) launch4.win launch4.arr_whole c
      ((pdats m ρ R0 R1 R2 R3 R4 R5 4 c).share_full fun w => R4.q_full (V11 m ρ R0 R1 R2 R3) c w) (V11 m ρ R0 R1 R2 R3 c) fun w => R4.A_eq (V11 m ρ R0 R1 R2 R3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq4 m ρ R0 R1 R2 R3 R4 R5 c 0]
      icases HO with ⟨%W, HO⟩; iexists W; isplitr
      · ipureintro; exact fun x _ => Or.inl (by rw [recorded_eq4 m ρ R0 R1 R2 R3 R4 R5 c 0]; exact Set.mem_univ x)
      iexact HO
    isplitl [Hp]; · iexact Hp
    iexact Hrest
  hin c := by
    refine .trans ?_ (R4.hin (V11 m ρ R0 R1 R2 R3) c)
    unfold Pipeline.ΦA
    iintro ⟨Hp, -, Hr⟩
    isplitl [Hr]; · iexact Hr
    iexact Hp
  hout c := by
    rw [Pipeline.ownSems0_none]
    refine .trans (R4.hout (V11 m ρ R0 R1 R2 R3) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ R0 R1 R2 R3 R4 R5) ((pdats m ρ R0 R1 R2 R3 R4 R5 4 c).share_full fun w => R4.q_full (V11 m ρ R0 R1 R2 R3) c w)
      (V11 m ρ R0 R1 R2 R3 c) (V12 m ρ R0 R1 R2 R3 R4 c) ((pdats m ρ R0 R1 R2 R3 R4 R5 4 c).arrAt · cfg4.N) (hF4 m ρ R0 R1 R2 R3 R4 c) (hrest4 m ρ R0 R1 R2 R3 R4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [owed_eq4 m ρ R0 R1 R2 R3 R4 R5 c (Fin.last _)]
    icases HO with ⟨%W, -, HO⟩; iexists W; iexact HO

set_option backward.isDefEq.respectTransparency.types false in
/-- REGION 5 over the thread state: entered from every unscoped buffer at `W13`, left at `W14` (what the launch reads
    at the end). Two of its windows read one array, so its arrays leave and rejoin the unscoped buffers by the region's
    own entailments (`Reg5.hsplit`, `Reg5.hjoin`). -/
def reg5 : Pipeline.RegionSeg (pcfgs (F := F)) adm (pdats m ρ R0 R1 R2 R3 R4 R5) () defs₀ 𝒱₀ L lv 5 where
  win := winFacts₀5
  block_pos := block_pos5
  stage_whole := stage_whole5
  K := PEmpty
  osem k := k.elim
  ho := Pipeline.OwnSemFacts.none _
  hbody c := (R5.body (V13 m ρ R0 R1 R2 R3 R4) c).loose
  hwaits := Pipeline.hwaits_of_owed_zero _ _ _ _ L lv 5 fun c t => R5.owed_zero (V13 m ρ R0 R1 R2 R3 R4) c t
  pre c := iprop(StableHlo.held (c : Thread nD τ) (Pipeline.ucRefs τ sig) (W13 m ρ R0 R1 R2 R3 R4 c) ∗ R c)
  post c := iprop(Tₙ m ρ R0 R1 R2 R3 R4 R5 c ∗ ∃ W, owes (c : Thread nD τ) (0 : CellTallies nD τ sig Unit) W)
  X c := iprop(∃ r, prngReg c r)
  Y c := iprop(∃ r, prngReg c r)
  Z c := R5.Z (W13 m ρ R0 R1 R2 R3 R4) c
  hentry c := by
    rw [Pipeline.ownSems0_none]
    iintro ⟨⟨Hub, Hp, HO⟩, -, -⟩
    imod (R5.hsplit (W13 m ρ R0 R1 R2 R3 R4) c) $$ Hub with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_eq5 m ρ R0 R1 R2 R3 R4 R5 c 0]
      icases HO with ⟨%W, HO⟩; iexists W; isplitr
      · ipureintro; exact fun x _ => Or.inl (by rw [recorded_eq5 m ρ R0 R1 R2 R3 R4 R5 c 0]; exact Set.mem_univ x)
      iexact HO
    isplitl [Hp]; · iexact Hp
    iexact Hrest
  hin c := by
    refine .trans ?_ (R5.hin (V13 m ρ R0 R1 R2 R3 R4) c)
    unfold Pipeline.ΦA
    iintro ⟨Hp, -, Hr⟩
    isplitl [Hr]; · iexact Hr
    iexact Hp
  hout c := by
    rw [Pipeline.ownSems0_none]
    refine .trans (R5.hout (V13 m ρ R0 R1 R2 R3 R4) c) ?_
    unfold Pipeline.ΦA
    iintro ⟨Hr, Hp⟩
    isplitl [Hp]; · iexact Hp
    isplitr; · iempintro
    iexact Hr
  hexit c := by
    iintro ⟨Ha, HO, HY, Hrest⟩
    imod (R5.hjoin (W13 m ρ R0 R1 R2 R3 R4) c) $$ [Ha Hrest] with Hh
    · isplitl [Ha]; · iexact Ha
      iexact Hrest
    imodintro
    isplitl [Hh HY]
    · isplitl [Hh]
      · iexact Hh
      iexact HY
    unfold Pipeline.Dat.owesAt Pipeline.owesWithin
    rw [owed_eq5 m ρ R0 R1 R2 R3 R4 R5 c (Fin.last _)]
    icases HO with ⟨%W, -, HO⟩; iexists W; iexact HO

end Cert.KernelIdeal.Hand

end
-- ==== Proof.KI.Chain.lean ====
import proofs.«164907_j26860725469614_1_alg».proof.Proof.KI.ChainRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Reg0 (F := F)) (R1 : Reg1 (F := F)) (R2 : Reg2 (F := F)) (R3 : Reg3 (F := F)) (R4 : Reg4 (F := F)) (R5 : Reg5 (F := F))

/-! # @main as segments, and the launch -/

/-- @main's 14 segments in order: a host segment per stretch from its boundary's contents, a region per pallas_call. -/
abbrev segs : List (Pipeline.Seg (pcfgs (F := F)) adm (pdats m ρ R0 R1 R2 R3 R4 R5) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ R0 R1 R2 R3 R4 R5),
    .host (hseg hostOps1 hostOps1_sub hostOps1_fresh (W4 m ρ R0)),
    .region (reg1 m ρ R0 R1 R2 R3 R4 R5),
    .host (hseg hostOps2 hostOps2_sub hostOps2_fresh (W6 m ρ R0 R1)),
    .region (reg2 m ρ R0 R1 R2 R3 R4 R5),
    .host (hseg hostOps3 hostOps3_sub hostOps3_fresh (W8 m ρ R0 R1 R2)),
    .region (reg3 m ρ R0 R1 R2 R3 R4 R5),
    .host (hseg hostOps4 hostOps4_sub hostOps4_fresh (W10 m ρ R0 R1 R2 R3)),
    .region (reg4 m ρ R0 R1 R2 R3 R4 R5),
    .host (hseg hostOps5 hostOps5_sub hostOps5_fresh (W12 m ρ R0 R1 R2 R3 R4)),
    .region (reg5 m ρ R0 R1 R2 R3 R4 R5) ]

/-- @main IS the run of the segments: the chain of its items, then the segments' run against that chain. -/
theorem main_run (c : Dev nD) : main (F := F) c = Pipeline.Seg.run (segs m ρ R0 R1 R2 R3 R4 R5) :=
  (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents `W14`: the launch over the segments, the last thread state read against the final state. -/
theorem main_run_all : θ_run defs (onTc (τ := τ) (main (F := F))) ⟨m, fun _ => 0, ρ⟩
    (fun r => ∀ c : Dev nD, ∀ b ∈ Pipeline.ucRefs τ sig, r.2.mem (((c : Thread nD τ)).1, b) = W14 m ρ R0 R1 R2 R3 R4 R5 c b) :=
  Pipeline.θ_run_regions_kit (pcfgs (F := F)) adm (pdats m ρ R0 R1 R2 R3 R4 R5) () cellOf_inj emb₁ defs₀ 𝒱₀ L lv m ρ main (segs m ρ R0 R1 R2 R3 R4 R5)
    (fun c Q => by rw [main_run m ρ R0 R1 R2 R3 R4 R5 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ R0 R1 R2 R3 R4 R5)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ R0 R1 R2 R3 R4 R5 c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ R0 R1 R2 R3 R4 R5 c) s')
      isplitl [Hh] <;> iassumption)
    (hQ := fun s h => h)

end Cert.KernelIdeal.Hand

end
-- ==== Proof.KI.G0Runs.lean ====
/-
  Region 0 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.KernelIdeal.Launch
import proofs.«164907_j26860725469614_1_alg».proof.Proof.Gen.KernelIdeal.Skeleton
import proofs.«164907_j26860725469614_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (when it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions over the grid -/

/-- "this is the first reduction tile" (k = 0), as the body computes it from the grid coordinates. -/
abbrev condF0 (i : grid0.Coords) : Prop := (Scalar.cmpi .ne (Scalar.extui (Scalar.cmpi .eq (BitVec.ofNat 32 (i 1).val) 0#32)) 0#32) = 1#1
theorem hcondF0 : ∀ t : Fin cfg0.N, condF0 (grid0.coords t) ↔ t.val % 12 = 0 :=
  (by decide +kernel : ∀ t : Fin grid0.N, condF0 (grid0.coords t) ↔ t.val % 12 = 0)

/-- "this is the last reduction tile" (k = 11). -/
abbrev condL0 (i : grid0.Coords) : Prop := k0_cond2 i = 1#1
theorem hcondL0 : ∀ t : Fin cfg0.N, condL0 (grid0.coords t) ↔ t.val % 12 = 11 :=
  (by decide +kernel : ∀ t : Fin grid0.N, condL0 (grid0.coords t) ↔ t.val % 12 = 11)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last reduction tile the output window is idle and is not written back. -/
theorem idle0_4 : ∀ t : Fin cfg0.N, ¬condL0 (grid0.coords t) → cfg0.idle 4 (grid0.coords t) = true := by decide +kernel
theorem noFlush0_4 : ∀ t : Fin cfg0.N, ¬condL0 (grid0.coords t) → (cfg0.win 4).flush t = false := by decide +kernel
theorem live0_4 : ∀ t : Fin cfg0.N, condL0 (grid0.coords t) → cfg0.idle 4 (grid0.coords t) = false := by decide +kernel

/-! ## The staging memrefs and the scratch -/

abbrev VO0 : View sig .tc .vmem S1024x128 .f32 := (Memref.whole cc0_stg4_0 : Memref sig .tc .vmem S1024x128 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator scratch, a whole scoped buffer of the kernel's own, and its view. -/
abbrev scM0 : Memref sig .tc .vmem S1024x128 .f32 := Memref.whole cc0_scratch0
abbrev VS0 : View sig .tc .vmem S1024x128 .f32 := scM0.view

/-- The core's other scoped buffers (the other regions' staging buffers and scratch), which this region never opens. -/
abbrev Rest0 (c : Dev nD) : sProp 𝕄 := Pipeline.scopedRestBut (Ix := Unit) (Name := ℕ) (U := UR sig nD τ) (Lvl := ℕ) (Val := Elt F) spec0 c [cc0_scratch0]

/-- The region's resting invariant with the scratch as a memref owned at some contents. -/
theorem PhiA0_eq (c : Dev nD) :
    (Pipeline.ΦA spec0 c : sProp 𝕄)
      = iprop(iprop((∃ d, owns (c : Thread nD τ) scM0 fullShare d) ∗ Rest0 (F := F) c) ∗ (∃ r, prngReg c r)) := by
  unfold Pipeline.ΦA; rw [scopedRest0_split]; simp only [scM0, owns_whole]; try rfl

end Cert.KernelIdeal.Hand

end
-- ==== Proof.KI.G0RunA.lean ====
/-
  Region 0, the first reduction tile (k = 0): the scratch is cleared, then the tile's product is added; the output is left alone.
  The body run on whole staging memrefs: the pieces each written buffer ends with are found by the run.
-/
import proofs.«164907_j26860725469614_1_alg».proof.Proof.KI.G0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G0RunB.lean ====
/-
  Region 0, a middle reduction tile (0 < k < 11): the tile's product is added to the scratch; the output is left alone.
  The body run on whole staging memrefs: the pieces each written buffer ends with are found by the run.
-/
import proofs.«164907_j26860725469614_1_alg».proof.Proof.KI.G0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G0RunC.lean ====
/-
  Region 0, the last reduction tile (k = 11): the tile's product is added to the scratch, then the output tile is stored from it.
  The body run on whole staging memrefs: the pieces each written buffer ends with are found by the run.
-/
import proofs.«164907_j26860725469614_1_alg».proof.Proof.KI.G0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.G0Frame.lean ====
/-
  Region 0: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KI.G0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out0_A_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) : Vec F S1024x128 .f32 :=
  VO0.read (Elt F) (VO0.writes (Elt F) VO0.junk (kernelRun0_A c i arg2 harg2 arg3 harg3 arg4 harg4 arg5 harg5 arg6 harg6 arg7 harg7 hc0 hc1 x0 x1 x2 x3).1)

/-- The case's stores into the accumulator scratch cover it. -/
theorem scover0_A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) (y : S1024x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x128.size (by sl_kernel_rfl) y

/-- What the case leaves in the accumulator scratch. -/
def sout0_A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) : Vec F S1024x128 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out0_B_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VO0.read (Elt F) (VO0.writes (Elt F) VO0.junk (kernelRun0_B c i arg2 harg2 arg3 harg3 arg4 harg4 arg5 harg5 arg6 harg6 arg7 harg7 hc0 hc1 x0 x1 x2 x3 xs0).1)

/-- The case's stores into the accumulator scratch cover it. -/
theorem scover0_B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) (y : S1024x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout0_B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- At the last reduction tile the one store into the output tile covers it. -/
theorem cover0_C_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out0_C_4 (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VO0.read (Elt F) (VO0.writes (Elt F) VO0.junk (kernelRun0_C c i arg2 harg2 arg3 harg3 arg4 harg4 arg5 harg5 arg6 harg6 arg7 harg7 hc0 hc1 x0 x1 x2 x3 xs0).1)

/-- The case's stores into the accumulator scratch cover it. -/
theorem scover0_C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) (y : S1024x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout0_C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt0 (c : Dev nD) : (n : ℕ) → n < cfg0.N → Vec F S1024x128 .f32 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcondF0 ⟨0, hn⟩).mpr (Nat.zero_mod _)) (fun h => (fun h => by (try dsimp only at h); omega) ((hcondL0 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcondF0 ⟨0, hn⟩).mpr (Nat.zero_mod _)) (fun h => (fun h => by (try dsimp only at h); omega) ((hcondL0 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 12 = 0 then
      if h1 : (n + 1) % 12 = 11 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcondF0 ⟨n + 1, hn⟩).mpr h0) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcondF0 ⟨n + 1, hn⟩).mpr h0) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 12 = 11 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) ((hcondL0 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcondF0 ⟨n + 1, hn⟩).mp h)) (fun h => h1 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 12 = 0) (h1 : ¬t.val % 12 = 11) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 12 = 0) (h1 : ¬t.val % 12 = 11) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 12 = 0) (h1 : t.val % 12 = 11) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 144 := lt_of_lt_of_eq t.isLt (show cfg0.N = 144 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases h0 : t.val % 12 = 0
  · by_cases h1 : t.val % 12 = 11
    · exfalso; omega
    ·
      rw [Dat.leavesExact_idle (dat0 V c) 4 t (idle0_4 t ((fun h => h1 ((hcondL0 t).mp h)))) (noFlush0_4 t ((fun h => h1 ((hcondL0 t).mp h))))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat0 V c).leavesExact 4 t = owns (c : Thread nD τ) (ms0_4 t) fullShare ((dat0 V c).after 4 t) from by
        unfold Dat.leavesExact; rw [live0_4 t (((hcondL0 t).mpr h1))], after0_4]
      rw [outsAt0_C V c t h0 h1]
      unfold out0_C_4 sout0_C; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2)
    ·
      rw [Dat.leavesExact_idle (dat0 V c) 4 t (idle0_4 t ((fun h => h1 ((hcondL0 t).mp h)))) (noFlush0_4 t ((fun h => h1 ((hcondL0 t).mp h))))]
      rw [outsAt0_B V c t h0 h1]
      unfold sout0_B; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 144 := N_0; omega)

end Cert.KernelIdeal.Hand

end
-- ==== Proof.KI.G1Runs.lean ====
/-
  Region 1 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.KernelIdeal.Launch
import proofs.«164907_j26860725469614_1_alg».proof.Proof.Gen.KernelIdeal.Skeleton
import proofs.«164907_j26860725469614_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (when it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions over the grid -/

/-- "this is the first reduction tile" (k = 0), as the body computes it from the grid coordinates. -/
abbrev condF1 (i : grid1.Coords) : Prop := (Scalar.cmpi .ne (Scalar.extui (Scalar.cmpi .eq (BitVec.ofNat 32 (i 1).val) 0#32)) 0#32) = 1#1
theorem hcondF1 : ∀ t : Fin cfg1.N, condF1 (grid1.coords t) ↔ t.val % 12 = 0 :=
  (by decide +kernel : ∀ t : Fin grid1.N, condF1 (grid1.coords t) ↔ t.val % 12 = 0)

/-- "this is the last reduction tile" (k = 11). -/
abbrev condL1 (i : grid1.Coords) : Prop := k1_cond2 i = 1#1
theorem hcondL1 : ∀ t : Fin cfg1.N, condL1 (grid1.coords t) ↔ t.val % 12 = 11 :=
  (by decide +kernel : ∀ t : Fin grid1.N, condL1 (grid1.coords t) ↔ t.val % 12 = 11)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last reduction tile the output window is idle and is not written back. -/
theorem idle1_4 : ∀ t : Fin cfg1.N, ¬condL1 (grid1.coords t) → cfg1.idle 4 (grid1.coords t) = true := by decide +kernel
theorem noFlush1_4 : ∀ t : Fin cfg1.N, ¬condL1 (grid1.coords t) → (cfg1.win 4).flush t = false := by decide +kernel
theorem live1_4 : ∀ t : Fin cfg1.N, condL1 (grid1.coords t) → cfg1.idle 4 (grid1.coords t) = false := by decide +kernel

/-! ## The staging memrefs and the scratch -/

abbrev VO1 : View sig .tc .vmem S1024x128 .f32 := (Memref.whole cc1_stg4_0 : Memref sig .tc .vmem S1024x128 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator scratch, a whole scoped buffer of the kernel's own, and its view. -/
abbrev scM1 : Memref sig .tc .vmem S1024x128 .f32 := Memref.whole cc1_scratch0
abbrev VS1 : View sig .tc .vmem S1024x128 .f32 := scM1.view

/-- The core's other scoped buffers (the other regions' staging buffers and scratch), which this region never opens. -/
abbrev Rest1 (c : Dev nD) : sProp 𝕄 := Pipeline.scopedRestBut (Ix := Unit) (Name := ℕ) (U := UR sig nD τ) (Lvl := ℕ) (Val := Elt F) spec1 c [cc1_scratch0]

/-- The region's resting invariant with the scratch as a memref owned at some contents. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA; rw [scopedRest1_split]; simp only [scM1, owns_whole]; try rfl

end Cert.KernelIdeal.Hand

end
-- ==== Proof.KI.G1RunA.lean ====
/-
  Region 1, the first reduction tile (k = 0): the scratch is cleared, then the tile's product is added; the output is left alone.
  The body run on whole staging memrefs: the pieces each written buffer ends with are found by the run.
-/
import proofs.«164907_j26860725469614_1_alg».proof.Proof.KI.G1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G1RunB.lean ====
/-
  Region 1, a middle reduction tile (0 < k < 11): the tile's product is added to the scratch; the output is left alone.
  The body run on whole staging memrefs: the pieces each written buffer ends with are found by the run.
-/
import proofs.«164907_j26860725469614_1_alg».proof.Proof.KI.G1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G1RunC.lean ====
/-
  Region 1, the last reduction tile (k = 11): the tile's product is added to the scratch, then the output tile is stored from it.
  The body run on whole staging memrefs: the pieces each written buffer ends with are found by the run.
-/
import proofs.«164907_j26860725469614_1_alg».proof.Proof.KI.G1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.G1Frame.lean ====
/-
  Region 1: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KI.G1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out1_A_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) : Vec F S1024x128 .f32 :=
  VO1.read (Elt F) (VO1.writes (Elt F) VO1.junk (kernelRun1_A c i arg2 harg2 arg3 harg3 arg4 harg4 arg5 harg5 arg6 harg6 arg7 harg7 hc0 hc1 x0 x1 x2 x3).1)

/-- The case's stores into the accumulator scratch cover it. -/
theorem scover1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What the case leaves in the accumulator scratch. -/
def sout1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) : Vec F S1024x128 .f32 :=
  VS1.read (Elt F) (VS1.writes (Elt F) VS1.junk (kernelRun1_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out1_B_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VO1.read (Elt F) (VO1.writes (Elt F) VO1.junk (kernelRun1_B c i arg2 harg2 arg3 harg3 arg4 harg4 arg5 harg5 arg6 harg6 arg7 harg7 hc0 hc1 x0 x1 x2 x3 xs0).1)

/-- The case's stores into the accumulator scratch cover it. -/
theorem scover1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 hc0 hc1 x0 x1 x2 x3 xs0).2.1)

/-- At the last reduction tile the one store into the output tile covers it. -/
theorem cover1_C_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out1_C_4 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-- The case's stores into the accumulator scratch cover it. -/
theorem scover1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt1 (c : Dev nD) : (n : ℕ) → n < cfg1.N → Vec F S1024x128 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcondF1 ⟨0, hn⟩).mpr (Nat.zero_mod _)) (fun h => (fun h => by (try dsimp only at h); omega) ((hcondL1 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcondF1 ⟨0, hn⟩).mpr (Nat.zero_mod _)) (fun h => (fun h => by (try dsimp only at h); omega) ((hcondL1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 12 = 0 then
      if h1 : (n + 1) % 12 = 11 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcondF1 ⟨n + 1, hn⟩).mpr h0) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcondF1 ⟨n + 1, hn⟩).mpr h0) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 12 = 11 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) ((hcondL1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcondF1 ⟨n + 1, hn⟩).mp h)) (fun h => h1 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 12 = 0) (h1 : ¬t.val % 12 = 11) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 12 = 0) (h1 : ¬t.val % 12 = 11) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 12 = 0) (h1 : t.val % 12 = 11) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 144 := lt_of_lt_of_eq t.isLt (show cfg1.N = 144 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases h0 : t.val % 12 = 0
  · by_cases h1 : t.val % 12 = 11
    · exfalso; omega
    ·
      rw [Dat.leavesExact_idle (dat1 V c) 4 t (idle1_4 t ((fun h => h1 ((hcondL1 t).mp h)))) (noFlush1_4 t ((fun h => h1 ((hcondL1 t).mp h))))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat1 V c).leavesExact 4 t = owns (c : Thread nD τ) (ms1_4 t) fullShare ((dat1 V c).after 4 t) from by
        unfold Dat.leavesExact; rw [live1_4 t (((hcondL1 t).mpr h1))], after1_4]
      rw [outsAt1_C V c t h0 h1]
      unfold out1_C_4 sout1_C; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2)
    ·
      rw [Dat.leavesExact_idle (dat1 V c) 4 t (idle1_4 t ((fun h => h1 ((hcondL1 t).mp h)))) (noFlush1_4 t ((fun h => h1 ((hcondL1 t).mp h))))]
      rw [outsAt1_B V c t h0 h1]
      unfold sout1_B; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 144 := N_1; omega)

end Cert.KernelIdeal.Hand

end
-- ==== Proof.KI.G2Runs.lean ====
/-
  Region 2 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.KernelIdeal.Launch
import proofs.«164907_j26860725469614_1_alg».proof.Proof.Gen.KernelIdeal.Skeleton
import proofs.«164907_j26860725469614_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (when it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions over the grid -/

/-- "this is the first reduction tile" (k = 0), as the body computes it from the grid coordinates. -/
abbrev condF2 (i : grid2.Coords) : Prop := (Scalar.cmpi .ne (Scalar.extui (Scalar.cmpi .eq (BitVec.ofNat 32 (i 1).val) 0#32)) 0#32) = 1#1
theorem hcondF2 : ∀ t : Fin cfg2.N, condF2 (grid2.coords t) ↔ t.val % 12 = 0 :=
  (by decide +kernel : ∀ t : Fin grid2.N, condF2 (grid2.coords t) ↔ t.val % 12 = 0)

/-- "this is the last reduction tile" (k = 11). -/
abbrev condL2 (i : grid2.Coords) : Prop := k2_cond2 i = 1#1
theorem hcondL2 : ∀ t : Fin cfg2.N, condL2 (grid2.coords t) ↔ t.val % 12 = 11 :=
  (by decide +kernel : ∀ t : Fin grid2.N, condL2 (grid2.coords t) ↔ t.val % 12 = 11)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last reduction tile the output window is idle and is not written back. -/
theorem idle2_4 : ∀ t : Fin cfg2.N, ¬condL2 (grid2.coords t) → cfg2.idle 4 (grid2.coords t) = true := by decide +kernel
theorem noFlush2_4 : ∀ t : Fin cfg2.N, ¬condL2 (grid2.coords t) → (cfg2.win 4).flush t = false := by decide +kernel
theorem live2_4 : ∀ t : Fin cfg2.N, condL2 (grid2.coords t) → cfg2.idle 4 (grid2.coords t) = false := by decide +kernel

/-! ## The staging memrefs and the scratch -/

abbrev VO2 : View sig .tc .vmem S1024x128 .f32 := (Memref.whole cc2_stg4_0 : Memref sig .tc .vmem S1024x128 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)
/-- The accumulator scratch, a whole scoped buffer of the kernel's own, and its view. -/
abbrev scM2 : Memref sig .tc .vmem S1024x128 .f32 := Memref.whole cc2_scratch0
abbrev VS2 : View sig .tc .vmem S1024x128 .f32 := scM2.view

/-- The core's other scoped buffers (the other regions' staging buffers and scratch), which this region never opens. -/
abbrev Rest2 (c : Dev nD) : sProp 𝕄 := Pipeline.scopedRestBut (Ix := Unit) (Name := ℕ) (U := UR sig nD τ) (Lvl := ℕ) (Val := Elt F) spec2 c [cc2_scratch0]

/-- The region's resting invariant with the scratch as a memref owned at some contents. -/
theorem PhiA2_eq (c : Dev nD) :
    (Pipeline.ΦA spec2 c : sProp 𝕄)
      = iprop(iprop((∃ d, owns (c : Thread nD τ) scM2 fullShare d) ∗ Rest2 (F := F) c) ∗ (∃ r, prngReg c r)) := by
  unfold Pipeline.ΦA; rw [scopedRest2_split]; simp only [scM2, owns_whole]; try rfl

end Cert.KernelIdeal.Hand

end
-- ==== Proof.KI.G2RunA.lean ====
/-
  Region 2, the first reduction tile (k = 0): the scratch is cleared, then the tile's product is added; the output is left alone.
  The body run on whole staging memrefs: the pieces each written buffer ends with are found by the run.
-/
import proofs.«164907_j26860725469614_1_alg».proof.Proof.KI.G2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun2_A (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G2RunB.lean ====
/-
  Region 2, a middle reduction tile (0 < k < 11): the tile's product is added to the scratch; the output is left alone.
  The body run on whole staging memrefs: the pieces each written buffer ends with are found by the run.
-/
import proofs.«164907_j26860725469614_1_alg».proof.Proof.KI.G2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun2_B (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G2RunC.lean ====
/-
  Region 2, the last reduction tile (k = 11): the tile's product is added to the scratch, then the output tile is stored from it.
  The body run on whole staging memrefs: the pieces each written buffer ends with are found by the run.
-/
import proofs.«164907_j26860725469614_1_alg».proof.Proof.KI.G2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun2_C (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.G2Frame.lean ====
/-
  Region 2: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KI.G2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out2_A_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) : Vec F S1024x128 .f32 :=
  VO2.read (Elt F) (VO2.writes (Elt F) VO2.junk (kernelRun2_A c i arg2 harg2 arg3 harg3 arg4 harg4 arg5 harg5 arg6 harg6 arg7 harg7 hc0 hc1 x0 x1 x2 x3).1)

/-- The case's stores into the accumulator scratch cover it. -/
theorem scover2_A (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) (y : S1024x128.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S1024x128.size (by sl_kernel_rfl) y

/-- What the case leaves in the accumulator scratch. -/
def sout2_A (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) : Vec F S1024x128 .f32 :=
  VS2.read (Elt F) (VS2.writes (Elt F) VS2.junk (kernelRun2_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out2_B_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VO2.read (Elt F) (VO2.writes (Elt F) VO2.junk (kernelRun2_B c i arg2 harg2 arg3 harg3 arg4 harg4 arg5 harg5 arg6 harg6 arg7 harg7 hc0 hc1 x0 x1 x2 x3 xs0).1)

/-- The case's stores into the accumulator scratch cover it. -/
theorem scover2_B (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout2_B (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VS2.read (Elt F) (VS2.writes (Elt F) VS2.junk (kernelRun2_B c i arg2 harg2 arg3 harg3 arg4 harg4 arg5 harg5 arg6 harg6 arg7 harg7 hc0 hc1 x0 x1 x2 x3 xs0).2.1)

/-- At the last reduction tile the one store into the output tile covers it. -/
theorem cover2_C_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out2_C_4 (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VO2.read (Elt F) (VO2.writes (Elt F) VO2.junk (kernelRun2_C c i arg2 harg2 arg3 harg3 arg4 harg4 arg5 harg5 arg6 harg6 arg7 harg7 hc0 hc1 x0 x1 x2 x3 xs0).1)

/-- The case's stores into the accumulator scratch cover it. -/
theorem scover2_C (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout2_C (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) : Vec F S1024x128 .f32 :=
  VS2.read (Elt F) (VS2.writes (Elt F) VS2.junk (kernelRun2_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt2 (c : Dev nD) : (n : ℕ) → n < cfg2.N → Vec F S1024x128 .f32 × Vec F S1024x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcondF2 ⟨0, hn⟩).mpr (Nat.zero_mod _)) (fun h => (fun h => by (try dsimp only at h); omega) ((hcondL2 ⟨0, hn⟩).mp h)) (iblk2 V c 0 ⟨0, hn⟩) (iblk2 V c 1 ⟨0, hn⟩) (iblk2 V c 2 ⟨0, hn⟩) (iblk2 V c 3 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcondF2 ⟨0, hn⟩).mpr (Nat.zero_mod _)) (fun h => (fun h => by (try dsimp only at h); omega) ((hcondL2 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 12 = 0 then
      if h1 : (n + 1) % 12 = 11 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcondF2 ⟨n + 1, hn⟩).mpr h0) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcondF2 ⟨n + 1, hn⟩).mpr h0) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 12 = 11 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) ((hcondL2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) ((hcondL2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcondF2 ⟨n + 1, hn⟩).mp h)) (fun h => h1 ((hcondL2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 12 = 0) (h1 : ¬t.val % 12 = 11) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t), sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 12 = 0) (h1 : ¬t.val % 12 = 11) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 12 = 0) (h1 : t.val % 12 = 11) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 144 := lt_of_lt_of_eq t.isLt (show cfg2.N = 144 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  by_cases h0 : t.val % 12 = 0
  · by_cases h1 : t.val % 12 = 11
    · exfalso; omega
    ·
      rw [Dat.leavesExact_idle (dat2 V c) 4 t (idle2_4 t ((fun h => h1 ((hcondL2 t).mp h)))) (noFlush2_4 t ((fun h => h1 ((hcondL2 t).mp h))))]
      rw [outsAt2_A V c t h0 h1]
      unfold sout2_A; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat2 V c).leavesExact 4 t = owns (c : Thread nD τ) (ms2_4 t) fullShare ((dat2 V c).after 4 t) from by
        unfold Dat.leavesExact; rw [live2_4 t (((hcondL2 t).mpr h1))], after2_4]
      rw [outsAt2_C V c t h0 h1]
      unfold out2_C_4 sout2_C; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2)
    ·
      rw [Dat.leavesExact_idle (dat2 V c) 4 t (idle2_4 t ((fun h => h1 ((hcondL2 t).mp h)))) (noFlush2_4 t ((fun h => h1 ((hcondL2 t).mp h))))]
      rw [outsAt2_B V c t h0 h1]
      unfold sout2_B; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting one back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 144 := N_2; omega)

end Cert.KernelIdeal.Hand

end
-- ==== Proof.KI.G3Runs.lean ====
/-
  Region 3 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.KernelIdeal.Launch
import proofs.«164907_j26860725469614_1_alg».proof.Proof.Gen.KernelIdeal.Skeleton
import proofs.«164907_j26860725469614_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (when it is not
    fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions over the grid -/

/-- "this is the first reduction tile" (k = 0), as the body computes it from the grid coordinates. -/
abbrev condF3 (i : grid3.Coords) : Prop := (Scalar.cmpi .ne (Scalar.extui (Scalar.cmpi .eq (BitVec.ofNat 32 (i 1).val) 0#32)) 0#32) = 1#1
theorem hcondF3 : ∀ t : Fin cfg3.N, condF3 (grid3.coords t) ↔ t.val % 12 = 0 :=
  (by decide +kernel : ∀ t : Fin grid3.N, condF3 (grid3.coords t) ↔ t.val % 12 = 0)

/-- "this is the last reduction tile" (k = 11). -/
abbrev condL3 (i : grid3.Coords) : Prop := k3_cond2 i = 1#1
theorem hcondL3 : ∀ t : Fin cfg3.N, condL3 (grid3.coords t) ↔ t.val % 12 = 11 :=
  (by decide +kernel : ∀ t : Fin grid3.N, condL3 (grid3.coords t) ↔ t.val % 12 = 11)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Away from the last reduction tile the output window is idle and is not written back. -/
theorem idle3_4 : ∀ t : Fin cfg3.N, ¬condL3 (grid3.coords t) → cfg3.idle 4 (grid3.coords t) = true := by decide +kernel
theorem noFlush3_4 : ∀ t : Fin cfg3.N, ¬condL3 (grid3.coords t) → (cfg3.win 4).flush t = false := by decide +kernel
theorem live3_4 : ∀ t : Fin cfg3.N, condL3 (grid3.coords t) → cfg3.idle 4 (grid3.coords t) = false := by decide +kernel

/-! ## The staging memrefs and the scratch -/

abbrev VO3 : View sig .tc .vmem S1024x512 .f32 := (Memref.whole cc3_stg4_0 : Memref sig .tc .vmem S1024x512 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x512 .f32 := win3_4.stage (cfg3.slots t 4)
abbrev hs3_4 (t : Fin cfg3.N) : (ms3_4 t).IsWhole := hstage3_4 ((cfg3.slots t 4).cast nbuf3_4)
/-- The accumulator scratch, a whole scoped buffer of the kernel's own, and its view. -/
abbrev scM3 : Memref sig .tc .vmem S1024x512 .f32 := Memref.whole cc3_scratch0
abbrev VS3 : View sig .tc .vmem S1024x512 .f32 := scM3.view

/-- The core's other scoped buffers (the other regions' staging buffers and scratch), which this region never opens. -/
abbrev Rest3 (c : Dev nD) : sProp 𝕄 := Pipeline.scopedRestBut (Ix := Unit) (Name := ℕ) (U := UR sig nD τ) (Lvl := ℕ) (Val := Elt F) spec3 c [cc3_scratch0]

/-- The region's resting invariant with the scratch as a memref owned at some contents. -/
theorem PhiA3_eq (c : Dev nD) :
    (Pipeline.ΦA spec3 c : sProp 𝕄)
      = iprop(iprop((∃ d, owns (c : Thread nD τ) scM3 fullShare d) ∗ Rest3 (F := F) c) ∗ (∃ r, prngReg c r)) := by
  unfold Pipeline.ΦA; rw [scopedRest3_split]; simp only [scM3, owns_whole]; try rfl

end Cert.KernelIdeal.Hand

end
-- ==== Proof.KI.G3RunA.lean ====
/-
  Region 3, the first reduction tile (k = 0): the scratch is cleared, then the tile's product is added; the output is left alone.
  The body run on whole staging memrefs: the pieces each written buffer ends with are found by the run.
-/
import proofs.«164907_j26860725469614_1_alg».proof.Proof.KI.G3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun3_A (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_layer_kernel i arg2 harg2 arg3 harg3 arg4 harg4 arg5 harg5 arg6 harg6 arg7 harg7) K } := by
  refine ⟨[], ?_, fun xi4 E K => ?run⟩
  case run =>
    simp only [cc3__gcn_layer_kernel_eq_skeleton]; unfold cc3__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G3RunB.lean ====
/-
  Region 3, a middle reduction tile (0 < k < 11): the tile's product is added to the scratch; the output is left alone.
  The body run on whole staging memrefs: the pieces each written buffer ends with are found by the run.
-/
import proofs.«164907_j26860725469614_1_alg».proof.Proof.KI.G3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun3_B (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_layer_kernel i arg2 harg2 arg3 harg3 arg4 harg4 arg5 harg5 arg6 harg6 arg7 harg7) K } := by
  refine ⟨[], ?_, fun xi4 E K => ?run⟩
  case run =>
    simp only [cc3__gcn_layer_kernel_eq_skeleton]; unfold cc3__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G3RunC.lean ====
/-
  Region 3, the last reduction tile (k = 11): the tile's product is added to the scratch, then the output tile is stored from it.
  The body run on whole staging memrefs: the pieces each written buffer ends with are found by the run.
-/
import proofs.«164907_j26860725469614_1_alg».proof.Proof.KI.G3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun3_C (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__gcn_layer_kernel i arg2 harg2 arg3 harg3 arg4 harg4 arg5 harg5 arg6 harg6 arg7 harg7) K } := by
  refine ⟨?_, ?_, fun E K => ?run⟩
  case run =>
    simp only [cc3__gcn_layer_kernel_eq_skeleton]; unfold cc3__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.G3Frame.lean ====
/-
  Region 3: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KI.G3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out3_A_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) : Vec F S1024x512 .f32 :=
  VO3.read (Elt F) (VO3.writes (Elt F) VO3.junk (kernelRun3_A c i arg2 harg2 arg3 harg3 arg4 harg4 arg5 harg5 arg6 harg6 arg7 harg7 hc0 hc1 x0 x1 x2 x3).1)

/-- The case's stores into the accumulator scratch cover it. -/
theorem scover3_A (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) (y : S1024x512.Idx) :
    ∃ pc ∈ (kernelRun3_A c i arg2 harg2 arg3 harg3 arg4 harg4 arg5 harg5 arg6 harg6 arg7 harg7 hc0 hc1 x0 x1 x2 x3).2.1, y ∈ pc.1.set :=
  View.cover_of_tiledL (kernelRun3_A c i arg2 harg2 arg3 harg3 arg4 harg4 arg5 harg5 arg6 harg6 arg7 harg7 hc0 hc1 x0 x1 x2 x3).2.1 S1024x512.size (by sl_kernel_rfl) y

/-- What the case leaves in the accumulator scratch. -/
def sout3_A (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) : Vec F S1024x512 .f32 :=
  VS3.read (Elt F) (VS3.writes (Elt F) VS3.junk (kernelRun3_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out3_B_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VO3.read (Elt F) (VO3.writes (Elt F) VO3.junk (kernelRun3_B c i arg2 harg2 arg3 harg3 arg4 harg4 arg5 harg5 arg6 harg6 arg7 harg7 hc0 hc1 x0 x1 x2 x3 xs0).1)

/-- The case's stores into the accumulator scratch cover it. -/
theorem scover3_B (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) (y : S1024x512.Idx) :
    ∃ pc ∈ (kernelRun3_B c i arg2 harg2 arg3 harg3 arg4 harg4 arg5 harg5 arg6 harg6 arg7 harg7 hc0 hc1 x0 x1 x2 x3 xs0).2.1, y ∈ pc.1.set :=
  View.cover_of_tiledL (kernelRun3_B c i arg2 harg2 arg3 harg3 arg4 harg4 arg5 harg5 arg6 harg6 arg7 harg7 hc0 hc1 x0 x1 x2 x3 xs0).2.1 S1024x512.size (by sl_kernel_rfl) y

/-- What the case leaves in the accumulator scratch. -/
def sout3_B (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VS3.read (Elt F) (VS3.writes (Elt F) VS3.junk (kernelRun3_B c i arg2 harg2 arg3 harg3 arg4 harg4 arg5 harg5 arg6 harg6 arg7 harg7 hc0 hc1 x0 x1 x2 x3 xs0).2.1)

/-- At the last reduction tile the one store into the output tile covers it. -/
theorem cover3_C_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) (y : S1024x512.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S1024x512.size (by sl_kernel_rfl) y

/-- What the case leaves in the output's staging buffer: its pieces read back. -/
def out3_C_4 (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VO3.read (Elt F) (VO3.writes (Elt F) VO3.junk (kernelRun3_C c i arg2 harg2 arg3 harg3 arg4 harg4 arg5 harg5 arg6 harg6 arg7 harg7 hc0 hc1 x0 x1 x2 x3 xs0).1)

/-- The case's stores into the accumulator scratch cover it. -/
theorem scover3_C (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) (y : S1024x512.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S1024x512.size (by sl_kernel_rfl) y

/-- What the case leaves in the accumulator scratch. -/
def sout3_C (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) : Vec F S1024x512 .f32 :=
  VS3.read (Elt F) (VS3.writes (Elt F) VS3.junk (kernelRun3_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt3 (c : Dev nD) : (n : ℕ) → n < cfg3.N → Vec F S1024x512 .f32 × Vec F S1024x512 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcondF3 ⟨0, hn⟩).mpr (Nat.zero_mod _)) (fun h => (fun h => by (try dsimp only at h); omega) ((hcondL3 ⟨0, hn⟩).mp h)) (iblk3 V c 0 ⟨0, hn⟩) (iblk3 V c 1 ⟨0, hn⟩) (iblk3 V c 2 ⟨0, hn⟩) (iblk3 V c 3 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcondF3 ⟨0, hn⟩).mpr (Nat.zero_mod _)) (fun h => (fun h => by (try dsimp only at h); omega) ((hcondL3 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 12 = 0 then
      if h1 : (n + 1) % 12 = 11 then
        False.elim (by omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcondF3 ⟨n + 1, hn⟩).mpr h0) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcondF3 ⟨n + 1, hn⟩).mpr h0) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 12 = 11 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) ((hcondL3 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) ((hcondL3 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcondF3 ⟨n + 1, hn⟩).mp h)) (fun h => h1 ((hcondL3 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

theorem outsAt3_A (c : Dev nD) (t : Fin cfg3.N) (h0 : t.val % 12 = 0) (h1 : ¬t.val % 12 = 11) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t), sout3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

theorem outsAt3_B (c : Dev nD) (t : Fin cfg3.N) (h0 : ¬t.val % 12 = 0) (h1 : ¬t.val % 12 = 11) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 12 = 0) (h1 : t.val % 12 = 11) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Rest3 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 144 := lt_of_lt_of_eq t.isLt (show cfg3.N = 144 from N_3)
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rw [show (dat3 V c).leavesExact 3 t = owns (c : Thread nD τ) (ms3_3 t) fullShare ((dat3 V c).after 3 t) from by
    unfold Dat.leavesExact; rw [live3_3 t], after3_3]
  by_cases h0 : t.val % 12 = 0
  · by_cases h1 : t.val % 12 = 11
    · exfalso; omega
    ·
      rw [Dat.leavesExact_idle (dat3 V c) 4 t (idle3_4 t ((fun h => h1 ((hcondL3 t).mp h)))) (noFlush3_4 t ((fun h => h1 ((hcondL3 t).mp h))))]
      rw [outsAt3_A V c t h0 h1]
      unfold sout3_A; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat3 V c).leavesExact 4 t = owns (c : Thread nD τ) (ms3_4 t) fullShare ((dat3 V c).after 4 t) from by
        unfold Dat.leavesExact; rw [live3_4 t (((hcondL3 t).mpr h1))], after3_4]
      rw [outsAt3_C V c t h0 h1]
      unfold out3_C_4 sout3_C; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover3_C_4 c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2)
    ·
      rw [Dat.leavesExact_idle (dat3 V c) 4 t (idle3_4 t ((fun h => h1 ((hcondL3 t).mp h)))) (noFlush3_4 t ((fun h => h1 ((hcondL3 t).mp h))))]
      rw [outsAt3_B V c t h0 h1]
      unfold sout3_B; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the resting one back: the scratch's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 144 := N_3; omega)

end Cert.KernelIdeal.Hand

end
-- ==== Proof.KI.G4Runs.lean ====
/-
  Region 4 of @main (one propagation layer as a tiled kernel): what the runs of its body share.  The grid is 12 x 12;
  point t = 12 i + k handles row tile i and reduction tile k.  The accumulator scratch is cleared where k = 0 and the
  output tile is written where k = 11, so the body has three cases: first (k = 0), middle, last (k = 11).
-/
import proofs.«164907_j26860725469614_1_alg».proof.Proof.Gen.KernelIdeal.Launch
import proofs.«164907_j26860725469614_1_alg».proof.Proof.Gen.KernelIdeal.Skeleton
import proofs.«164907_j26860725469614_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (when it is not
    fetched its block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions over the grid -/

/-- "this is the first reduction tile" (k = 0), as the body computes it from the grid coordinates. -/
abbrev condF4 (i : grid4.Coords) : Prop := (Scalar.cmpi .ne (Scalar.extui (Scalar.cmpi .eq (BitVec.ofNat 32 (i 1).val) 0#32)) 0#32) = 1#1
theorem hcondF4 : ∀ t : Fin cfg4.N, condF4 (grid4.coords t) ↔ t.val % 12 = 0 :=
  (by decide +kernel : ∀ t : Fin grid4.N, condF4 (grid4.coords t) ↔ t.val % 12 = 0)

/-- "this is the last reduction tile" (k = 11). -/
abbrev condL4 (i : grid4.Coords) : Prop := k4_cond2 i = 1#1
theorem hcondL4 : ∀ t : Fin cfg4.N, condL4 (grid4.coords t) ↔ t.val % 12 = 11 :=
  (by decide +kernel : ∀ t : Fin grid4.N, condL4 (grid4.coords t) ↔ t.val % 12 = 11)

/-! ## Where the windows are idle -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- Away from the last reduction tile the output window is idle and is not written back. -/
theorem idle4_4 : ∀ t : Fin cfg4.N, ¬condL4 (grid4.coords t) → cfg4.idle 4 (grid4.coords t) = true := by decide +kernel
theorem noFlush4_4 : ∀ t : Fin cfg4.N, ¬condL4 (grid4.coords t) → (cfg4.win 4).flush t = false := by decide +kernel
theorem live4_4 : ∀ t : Fin cfg4.N, condL4 (grid4.coords t) → cfg4.idle 4 (grid4.coords t) = false := by decide +kernel

/-! ## The staging memrefs and the scratch -/

abbrev VO4 : View sig .tc .vmem S1024x128 .f32 := (Memref.whole cc4_stg4_0 : Memref sig .tc .vmem S1024x128 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x128 .f32 := win4_4.stage (cfg4.slots t 4)
abbrev hs4_4 (t : Fin cfg4.N) : (ms4_4 t).IsWhole := hstage4_4 ((cfg4.slots t 4).cast nbuf4_4)
/-- The accumulator scratch, a whole scoped buffer of the kernel's own, and its view. -/
abbrev scM4 : Memref sig .tc .vmem S1024x128 .f32 := Memref.whole cc4_scratch0
abbrev VS4 : View sig .tc .vmem S1024x128 .f32 := scM4.view

/-- The core's other scoped buffers (the other regions' staging buffers and scratch), which this region never opens. -/
abbrev Rest4 (c : Dev nD) : sProp 𝕄 := Pipeline.scopedRestBut (Ix := Unit) (Name := ℕ) (U := UR sig nD τ) (Lvl := ℕ) (Val := Elt F) spec4 c [cc4_scratch0]

/-- The region's resting invariant with the scratch as a memref owned at some contents. -/
theorem PhiA4_eq (c : Dev nD) :
    (Pipeline.ΦA spec4 c : sProp 𝕄)
      = iprop(iprop((∃ d, owns (c : Thread nD τ) scM4 fullShare d) ∗ Rest4 (F := F) c) ∗ (∃ r, prngReg c r)) := by
  unfold Pipeline.ΦA; rw [scopedRest4_split]; simp only [scM4, owns_whole]; try rfl

end Cert.KernelIdeal.Hand

end
-- ==== Proof.KI.G4RunA.lean ====
/-
  Region 4, the first reduction tile (k = 0): the scratch is cleared, then the tile's product is added; the output is left alone.
  The body run on whole staging memrefs: the pieces each written buffer ends with are found by the run.
-/
import proofs.«164907_j26860725469614_1_alg».proof.Proof.KI.G4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun4_A (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_layer_kernel i arg2 harg2 arg3 harg3 arg4 harg4 arg5 harg5 arg6 harg6 arg7 harg7) K } := by
  refine ⟨[], ?_, fun xi4 E K => ?run⟩
  case run =>
    simp only [cc4__gcn_layer_kernel_eq_skeleton]; unfold cc4__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G4RunB.lean ====
/-
  Region 4, a middle reduction tile (0 < k < 11): the tile's product is added to the scratch; the output is left alone.
  The body run on whole staging memrefs: the pieces each written buffer ends with are found by the run.
-/
import proofs.«164907_j26860725469614_1_alg».proof.Proof.KI.G4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun4_B (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_layer_kernel i arg2 harg2 arg3 harg3 arg4 harg4 arg5 harg5 arg6 harg6 arg7 harg7) K } := by
  refine ⟨[], ?_, fun xi4 E K => ?run⟩
  case run =>
    simp only [cc4__gcn_layer_kernel_eq_skeleton]; unfold cc4__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.G4RunC.lean ====
/-
  Region 4, the last reduction tile (k = 11): the tile's product is added to the scratch, then the output tile is stored from it.
  The body run on whole staging memrefs: the pieces each written buffer ends with are found by the run.
-/
import proofs.«164907_j26860725469614_1_alg».proof.Proof.KI.G4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun4_C (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__gcn_layer_kernel i arg2 harg2 arg3 harg3 arg4 harg4 arg5 harg5 arg6 harg6 arg7 harg7) K } := by
  refine ⟨?_, ?_, fun E K => ?run⟩
  case run =>
    simp only [cc4__gcn_layer_kernel_eq_skeleton]; unfold cc4__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.G4Frame.lean ====
/-
  Region 4: what the output tile and the accumulator scratch hold after each grid point (by recursion on the point: the
  first reduction tile starts the sum afresh, every later one adds to what the point before left, the last one also
  stores the output tile), the region's proof data, and the body's obligation at every point.
-/
import proofs.«164907_j26860725469614_1_alg».proof.Proof.KI.G4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the case leaves in the output's staging buffer: its pieces read back (none here: a placeholder nothing consults, the window being idle and not written back at these points). -/
def out4_A_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) : Vec F S1024x128 .f32 :=
  VO4.read (Elt F) (VO4.writes (Elt F) VO4.junk (kernelRun4_A c i arg2 harg2 arg3 harg3 arg4 harg4 arg5 harg5 arg6 harg6 arg7 harg7 hc0 hc1 x0 x1 x2 x3).1)

/-- The case's stores into the accumulator scratch cover it. -/
theorem scover4_A (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) (y : S1024x128.Idx) :
    ∃ pc ∈ (kernelRun4_A c i arg2 harg2 arg3 harg3 arg4 harg4 arg5 harg5 arg6 harg6 arg7 harg7 hc0 hc1 x0 x1 x2 x3).2.1, y ∈ pc.1.set :=
  View.cover_of_tiledL (kernelRun4_A c i arg2 harg2 arg3 harg3 arg4 harg4 arg5 harg5 arg6 harg6 arg7 harg7 hc0 hc1 x0 x1 x2 x3).2.1 S1024x128.size (by sl_kernel_rfl) y

/-- What the case leaves in the accumulator scratch. -/
def sout4_A (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) : Vec F S1024x128 .f32 :=
  VS4.read (Elt F) (VS4.writes (Elt F) VS4.junk (kernelRun4_A c i arg2 harg2 arg3 harg3 arg4 harg4 arg5 harg5 arg6 harg6 arg7 harg7 hc0 hc1 x0 x1 x2 x3).2.1)

/-- What the case leaves in the output's staging buffer: its pieces read back (none here: a placeholder nothing consults, the window being idle and not written back at these points). -/
def out4_B_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VO4.read (Elt F) (VO4.writes (Elt F) VO4.junk (kernelRun4_B c i arg2 harg2 arg3 harg3 arg4 harg4 arg5 harg5 arg6 harg6 arg7 harg7 hc0 hc1 x0 x1 x2 x3 xs0).1)

/-- The case's stores into the accumulator scratch cover it. -/
theorem scover4_B (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun4_B c i arg2 harg2 arg3 harg3 arg4 harg4 arg5 harg5 arg6 harg6 arg7 harg7 hc0 hc1 x0 x1 x2 x3 xs0).2.1, y ∈ pc.1.set :=
  View.cover_of_tiledL (kernelRun4_B c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout4_B (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VS4.read (Elt F) (VS4.writes (Elt F) VS4.junk (kernelRun4_B c i arg2 harg2 arg3 harg3 arg4 harg4 arg5 harg5 arg6 harg6 arg7 harg7 hc0 hc1 x0 x1 x2 x3 xs0).2.1)

/-- At the last reduction tile the one store into the output tile covers it. -/
theorem cover4_C_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun4_C c i arg2 harg2 arg3 harg3 arg4 harg4 arg5 harg5 arg6 harg6 arg7 harg7 hc0 hc1 x0 x1 x2 x3 xs0).1, y ∈ pc.1.set :=
  View.cover_of_tiledL (kernelRun4_C c i arg2 harg2 arg3 harg3 arg4 harg4 arg5 harg5 arg6 harg6 arg7 harg7 hc0 hc1 x0 x1 x2 x3 xs0).1 S1024x128.size (by sl_kernel_rfl) y

/-- What the case leaves in the output's staging buffer: its pieces read back. -/
def out4_C_4 (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VO4.read (Elt F) (VO4.writes (Elt F) VO4.junk (kernelRun4_C c i arg2 harg2 arg3 harg3 arg4 harg4 arg5 harg5 arg6 harg6 arg7 harg7 hc0 hc1 x0 x1 x2 x3 xs0).1)

/-- The case's stores into the accumulator scratch cover it. -/
theorem scover4_C (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) (y : S1024x128.Idx) :
    ∃ pc ∈ (kernelRun4_C c i arg2 harg2 arg3 harg3 arg4 harg4 arg5 harg5 arg6 harg6 arg7 harg7 hc0 hc1 x0 x1 x2 x3 xs0).2.1, y ∈ pc.1.set :=
  View.cover_of_tiledL (kernelRun4_C c i arg2 harg2 arg3 harg3 arg4 harg4 arg5 harg5 arg6 harg6 arg7 harg7 hc0 hc1 x0 x1 x2 x3 xs0).2.1 S1024x128.size (by sl_kernel_rfl) y

/-- What the case leaves in the accumulator scratch. -/
def sout4_C (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) : Vec F S1024x128 .f32 :=
  VS4.read (Elt F) (VS4.writes (Elt F) VS4.junk (kernelRun4_C c i arg2 harg2 arg3 harg3 arg4 harg4 arg5 harg5 arg6 harg6 arg7 harg7 hc0 hc1 x0 x1 x2 x3 xs0).2.1)

/-! ## What the buffers hold after each point -/

/-- After the body at position `n`: (the output's staging buffer, the accumulator scratch). -/
def outsAt4 (c : Dev nD) : (n : ℕ) → n < cfg4.N → Vec F S1024x128 .f32 × Vec F S1024x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4 (Memref.isWhole_whole _) ((hcondF4 ⟨0, hn⟩).mpr (Nat.zero_mod _)) (fun h => (fun h => by (try dsimp only at h); omega) ((hcondL4 ⟨0, hn⟩).mp h)) (iblk4 V c 0 ⟨0, hn⟩) (iblk4 V c 1 ⟨0, hn⟩) (iblk4 V c 2 ⟨0, hn⟩) (iblk4 V c 3 ⟨0, hn⟩), sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4 (Memref.isWhole_whole _) ((hcondF4 ⟨0, hn⟩).mpr (Nat.zero_mod _)) (fun h => (fun h => by (try dsimp only at h); omega) ((hcondL4 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h0 : (n + 1) % 12 = 0 then
      if h1 : (n + 1) % 12 = 11 then
        False.elim (by omega)
      else
        (out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) ((hcondF4 ⟨n + 1, hn⟩).mpr h0) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩), sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) ((hcondF4 ⟨n + 1, hn⟩).mpr h0) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩))
    else
      if h1 : (n + 1) % 12 = 11 then
        (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) ((hcondL4 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) ((hcondL4 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)
      else
        (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4 (Memref.isWhole_whole _) (fun h => h0 ((hcondF4 ⟨n + 1, hn⟩).mp h)) (fun h => h1 ((hcondL4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)

theorem outsAt4_A (c : Dev nD) (t : Fin cfg4.N) (h0 : t.val % 12 = 0) (h1 : ¬t.val % 12 = 11) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t), sout4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t)) := by
  obtain ⟨n, hn⟩ := t
  cases n with
  | zero => exact rfl
  | succ n => exact (dif_pos h0).trans ((dif_neg h1).trans rfl)

theorem outsAt4_B (c : Dev nD) (t : Fin cfg4.N) (h0 : ¬t.val % 12 = 0) (h1 : ¬t.val % 12 = 11) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2, sout4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 12 = 0) (h1 : t.val % 12 = 11) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2, sout4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards at what the
    point before left in it; always the core's other scoped buffers and the generator register. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Rest4 (F := F) c) ∗ (∃ r, prngReg c r)) := by
  cases n with
  | zero => exact absurd rfl hz
  | succ n => rfl

/-! ## The region's proof data -/

/-- The arrays as the region finds them; after the body each input's buffer at its block, the output's at `outsAt`;
    the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any point: the inputs' memrefs hold their blocks; the closed forms of the two conditions say which
    case the point is in; the invariant hands the body the scratch at what the point before left (at anything before the
    first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 144 := lt_of_lt_of_eq t.isLt (show cfg4.N = 144 from N_4)
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  by_cases h0 : t.val % 12 = 0
  · by_cases h1 : t.val % 12 = 11
    · exfalso; omega
    ·
      rw [Dat.leavesExact_idle (dat4 V c) 4 t (idle4_4 t ((fun h => h1 ((hcondL4 t).mp h)))) (noFlush4_4 t ((fun h => h1 ((hcondL4 t).mp h))))]
      rw [outsAt4_A V c t h0 h1]
      unfold sout4_A; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t))
            iexact HR
          iexact Hg
        isplitl [Ho]; · iexact Ho
        isplitl [H0]; · iexact H0
        isplitl [H1]; · iexact H1
        isplitl [H2]; · iexact H2
        isplitl [H3]; · iexact H3
        iexists _; iexact H4
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t))
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    ·
      rw [show (dat4 V c).leavesExact 4 t = owns (c : Thread nD τ) (ms4_4 t) fullShare ((dat4 V c).after 4 t) from by
        unfold Dat.leavesExact; rw [live4_4 t (((hcondL4 t).mpr h1))], after4_4]
      rw [outsAt4_C V c t h0 h1]
      unfold out4_C_4 sout4_C; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_C_4 c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2)
    ·
      rw [Dat.leavesExact_idle (dat4 V c) 4 t (idle4_4 t ((fun h => h1 ((hcondL4 t).mp h)))) (noFlush4_4 t ((fun h => h1 ((hcondL4 t).mp h))))]
      rw [outsAt4_B V c t h0 h1]
      unfold sout4_B; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2)
            iexact HR
          iexact Hg
        isplitl [Ho]; · iexact Ho
        isplitl [H0]; · iexact H0
        isplitl [H1]; · iexact H1
        isplitl [H2]; · iexact H2
        isplitl [H3]; · iexact H3
        iexists _; iexact H4

theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the resting one back: the scratch's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 144 := N_4; omega)

end Cert.KernelIdeal.Hand

end
-- ==== Proof.KI.Regs.lean ====
/-
  The five layer regions' ingredients, packed for the run of @main.
-/
import proofs.«164907_j26860725469614_1_alg».proof.Proof.KI.ChainIn
import proofs.«164907_j26860725469614_1_alg».proof.Proof.KI.G0Frame
import proofs.«164907_j26860725469614_1_alg».proof.Proof.KI.G1Frame
import proofs.«164907_j26860725469614_1_alg».proof.Proof.KI.G2Frame
import proofs.«164907_j26860725469614_1_alg».proof.Proof.KI.G3Frame
import proofs.«164907_j26860725469614_1_alg».proof.Proof.KI.G4Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def r0 : Reg0 (F := F) where
  dat := fun V c => dat0 V c
  A_eq := fun V c w => A_eq0 V c w
  q_full := fun _ _ _ => rfl
  owed_zero := fun _ _ _ => rfl
  recorded_univ := fun _ _ _ => rfl
  body := fun V c => body_obligation0 V c
  hin := fun V c => hin0 V c
  hout := fun V c => hout0 V c

def r1 : Reg1 (F := F) where
  dat := fun V c => dat1 V c
  A_eq := fun V c w => A_eq1 V c w
  q_full := fun _ _ _ => rfl
  owed_zero := fun _ _ _ => rfl
  recorded_univ := fun _ _ _ => rfl
  body := fun V c => body_obligation1 V c
  hin := fun V c => hin1 V c
  hout := fun V c => hout1 V c

def r2 : Reg2 (F := F) where
  dat := fun V c => dat2 V c
  A_eq := fun V c w => A_eq2 V c w
  q_full := fun _ _ _ => rfl
  owed_zero := fun _ _ _ => rfl
  recorded_univ := fun _ _ _ => rfl
  body := fun V c => body_obligation2 V c
  hin := fun V c => hin2 V c
  hout := fun V c => hout2 V c

def r3 : Reg3 (F := F) where
  dat := fun V c => dat3 V c
  A_eq := fun V c w => A_eq3 V c w
  q_full := fun _ _ _ => rfl
  owed_zero := fun _ _ _ => rfl
  recorded_univ := fun _ _ _ => rfl
  body := fun V c => body_obligation3 V c
  hin := fun V c => hin3 V c
  hout := fun V c => hout3 V c

def r4 : Reg4 (F := F) where
  dat := fun V c => dat4 V c
  A_eq := fun V c w => A_eq4 V c w
  q_full := fun _ _ _ => rfl
  owed_zero := fun _ _ _ => rfl
  recorded_univ := fun _ _ _ => rfl
  body := fun V c => body_obligation4 V c
  hin := fun V c => hin4 V c
  hout := fun V c => hout4 V c

end Cert.KernelIdeal.Hand

end
-- ==== Proof.KI.Main.lean ====
import proofs.«164907_j26860725469614_1_alg».proof.Proof.KI.Chain
import proofs.«164907_j26860725469614_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (R5 : Reg5 (F := F))

/-! # The run of @main at the five layers' proof data -/

/-- The last boundary's contents, at the layers' proof data. -/
abbrev Wend : Dev nD → Valuation τ sig (Elt F) := W14 m ρ r0 r1 r2 r3 r4 R5

/-- Every weakly fair execution of @main terminates, and every final state has every unscoped buffer at `Wend`. -/
theorem main_run_layers : θ_run defs (onTc (τ := τ) (main (F := F))) ⟨m, fun _ => 0, ρ⟩
    (fun r => ∀ c : Dev nD, ∀ b ∈ Pipeline.ucRefs τ sig, r.2.mem (((c : Thread nD τ)).1, b) = Wend m ρ R5 c b) :=
  main_run_all m ρ r0 r1 r2 r3 r4 R5

end Cert.KernelIdeal.Hand

end
-- ==== Proof.KI.AHat.lean ====
/-
  The last kernel region: the product of the node embedding with its own transpose, tile by tile.

  The grid is 12 x 12; at point (i, j) the body reads the row block i and the row block j of ONE array (two input
  windows on the same buffer) and stores the 1024 x 1024 tile of their product. The body neither accumulates nor
  branches: every point loads both blocks, loads the output tile (unused), and stores the product over the whole tile.
  Everything here is stated at the region-entry contents `V`, a parameter.
-/
import proofs.«164907_j26860725469614_1_alg».proof.Proof.Gen.KernelIdeal.Launch
import proofs.«164907_j26860725469614_1_alg».proof.Proof.Gen.KernelIdeal.Skeleton
import proofs.«164907_j26860725469614_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (the row index has
    not moved where it is not fetched), for any proof data reading `V` whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole input tile. -/
abbrev r5_in : Rect S1024x128 := Rect.unit (s := S1024x128) ![0, 0] S1024x128.size inb_S1024x128_S1024x128_0_0
/-- The whole output tile. -/
abbrev r5_out : Rect S1024x1024 := Rect.unit (s := S1024x1024) ![0, 0] S1024x1024.size inb_S1024x1024_S1024x1024_0_0

/-! ## What the body leaves in the output window's buffer -/

/-- The output tile after the body, from the two input blocks: its one store, the product payload. -/
def out5_2 (x0 : Vec F S1024x128 .bf16) (x1 : Vec F S1024x128 .bf16) : Vec F S1024x1024 .f32 :=
  View.canon [⟨r5_out, k5_pay1 (View.ld x0 r5_in) (View.ld x1 r5_in)⟩]

/-- The one store covers the tile. -/
theorem cover5_2 (p0 : Vec F S1024x1024 .f32) (y : S1024x1024.Idx) :
    ∃ pc ∈ ([⟨r5_out, p0⟩] : List (View.Piece (Elt F) S1024x1024 .f32)), y ∈ pc.1.set :=
  View.cover_of_tiled [⟨r5_out, p0⟩] S1024x1024.size (by rfl) y

/-! ## The body's triple -/

set_option maxHeartbeats 1000000 in
/-- The body on whole staging memrefs, the inputs' at `x0`, `x1` and the output's at anything, runs to the continuation
    holding the inputs as they were and the output at `out5_2 x0 x1`. -/
theorem sound_kernel5 (c : Dev nD) (E : Set ℕ) (i : grid5.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__a_hat_kernel i arg2 harg2 arg3 harg3 arg4 harg4) K := by
  simp only [cc5__a_hat_kernel_eq_skeleton]; unfold cc5__a_hat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region on core `c`: the arrays as the region finds them; after the body at point `t` each
    input's buffer at its block and the output's at `out5_2` of the two blocks; the invariant is the scoped rest and the
    generator register, untouched; nothing owed. The two input windows read one array: each holds HALF of its share
    (the two halves make the full share); the output's array is held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem q5_0 (c : Dev nD) : (dat5 V c).q 0 = fullShare.left := by dsimp only [dat5]
theorem q5_1 (c : Dev nD) : (dat5 V c).q 1 = fullShare.right := by dsimp only [dat5]

theorem owed5 (c : Dev nD) (t : Fin (cfg5.N + 1)) : (dat5 V c).owed t = 0 := rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.AHatShared.lean ====
/-
  The last kernel region among the core's buffers: two windows on ONE array.

  Both input windows of the region read the same buffer (its row block i and its row block j). While the region runs
  each of the two windows holds HALF of that buffer's share, and the two halves make the whole; the output window's
  array is held whole. So at the region's entry the buffer's full share is dealt to the two windows, and at its exit
  the halves — still at the same contents, since an input array is never written — are collected back. The output
  buffer then holds what the write-backs left, and every other buffer what it held at entry.
-/
import proofs.«164907_j26860725469614_1_alg».proof.Proof.KI.AHat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared5

variable (V : (c : Dev nD) → (b : Ref sig .tc) → Buf (Elt F) ((c : Thread nD τ).loc b))

/-- The region's arrays sit in two buffers: the input both input windows read, and the output. -/
theorem arrImage5 : (Finset.univ.image (Pipeline.arrRef spec5) : Finset (Ref sig .tc)) = {main_v68, main_v69} := by decide

theorem share5_0 (c : Dev nD) : (dat5 V c).share 0 = fullShare.left := by
  unfold Dat.share; exact q5_0 V c
theorem share5_1 (c : Dev nD) : (dat5 V c).share 1 = fullShare.right := by
  unfold Dat.share; exact q5_1 V c
theorem share5_2 (c : Dev nD) : (dat5 V c).share 2 = fullShare := by
  unfold Dat.share; rfl

/-- Whole arrays, each at the share its window holds: the windowed arrays of any proof data, array by array. -/
theorem arrays_eq_shares {cfg : Cfg sig Λ₀} {c : Dev nD} (dat : Dat τ (Elt F) Unit ℕ (UR sig nD τ) ℕ cfg c)
    (harr : ∀ w, (cfg.spec w).arr.IsWhole)
    (A : (w : Fin cfg.W) → Buf (Elt F) ((cfg.win w).arr.view.loc (c : Thread nD τ))) :
    (dat.arrays A : sProp 𝕄)
      = bigSep Finset.univ fun w => (((c : Thread nD τ).loc (Pipeline.arrRef cfg.spec w)) ↦{dat.share w} A w : sProp 𝕄) := by
  unfold Dat.arrays
  exact bigSep_congr fun w _ => by rw [(harr w).set_eq_univ]

set_option maxHeartbeats 2000000 in
/-- The region's arrays one by one: the shared input at its two half shares, the output whole. -/
theorem arrays5_eq (c : Dev nD) (A : (w : Fin cfg5.W) → Buf (Elt F) ((cfg5.win w).arr.view.loc (c : Thread nD τ))) :
    ((dat5 V c).arrays A : sProp 𝕄) =
      iprop((((c : Thread nD τ).loc (Pipeline.arrRef spec5 0)) ↦{fullShare.left} A 0)
        ∗ (((c : Thread nD τ).loc (Pipeline.arrRef spec5 1)) ↦{fullShare.right} A 1)
        ∗ (((c : Thread nD τ).loc (Pipeline.arrRef spec5 2)) ↦{fullShare} A 2)) := by
  rw [arrays_eq_shares (dat5 V c) arr_whole5 A, bigSep_W5, share5_0, share5_1, share5_2]

/-- The two buffers behind the arrays, whole. -/
theorem arrBufs5_eq (c : Dev nD) (X : (b : Ref sig .tc) → Buf (Elt F) ((c : Thread nD τ).loc b)) :
    (Pipeline.arrBufs (Ix := Unit) (Name := ℕ) (U := UR sig nD τ) (Lvl := ℕ) spec5 c X : sProp 𝕄)
      = iprop((((c : Thread nD τ).loc main_v68) ↦{fullShare} X main_v68) ∗ (((c : Thread nD τ).loc main_v69) ↦{fullShare} X main_v69)) := by
  unfold Pipeline.arrBufs
  rw [arrImage5, bigSep_insert (by decide), bigSep_singleton]
  rfl

end Shared5

section Shared5b

variable (V : (c : Dev nD) → (b : Ref sig .tc) → Buf (Elt F) ((c : Thread nD τ).loc b))

/-- DEALING the buffers to the windows: the shared input's full share is its two halves, one per input window. -/
theorem arrays_of_arrBufs5 (c : Dev nD) (X : (b : Ref sig .tc) → Buf (Elt F) ((c : Thread nD τ).loc b)) :
    (Pipeline.arrBufs (Ix := Unit) (Name := ℕ) (U := UR sig nD τ) (Lvl := ℕ) spec5 c X : sProp 𝕄)
      ⊢ (dat5 V c).arrays (fun w => X (Pipeline.arrRef spec5 w)) := by
  rw [arrBufs5_eq, arrays5_eq]
  iintro ⟨H68, H69⟩
  ihave H := (pointsTo_share (PosShare.mem_left_op_right fullShare)).1 $$ H68
  icases H with ⟨Hl, Hr⟩
  isplitl [Hl]; · iexact Hl
  isplitl [Hr]; · iexact Hr
  iexact H69

/-- COLLECTING them back: the two halves, at the same contents, are the full share again. -/
theorem arrBufs_of_arrays5 (c : Dev nD) (X : (b : Ref sig .tc) → Buf (Elt F) ((c : Thread nD τ).loc b)) :
    ((dat5 V c).arrays (fun w => X (Pipeline.arrRef spec5 w)) : sProp 𝕄)
      ⊢ Pipeline.arrBufs (Ix := Unit) (Name := ℕ) (U := UR sig nD τ) (Lvl := ℕ) spec5 c X := by
  rw [arrBufs5_eq, arrays5_eq]
  iintro ⟨Hl, Hr, H69⟩
  isplitl [Hl Hr]
  · iapply (pointsTo_share (PosShare.mem_left_op_right fullShare)).2
    isplitl [Hl]; · iexact Hl
    iexact Hr
  iexact H69

end Shared5b

section Shared5c

variable (W : Dev nD → Valuation τ sig (Elt F))

/-- Every device buffer's contents, per core, read at the TensorCore's references. -/
abbrev tcv : (c : Dev nD) → (b : Ref sig .tc) → Buf (Elt F) ((c : Thread nD τ).loc b) := fun c b => W c b

/-- What bypasses the region: every unscoped buffer that is neither the shared input nor the output, as entered. -/
def Z5 (c : Dev nD) : sProp 𝕄 :=
  Pipeline.unscopedRest (Ix := Unit) (Name := ℕ) (U := UR sig nD τ) (Lvl := ℕ) spec5 c (tcv W c)

/-- An input array is never written: at every point it holds what the region found. -/
theorem arrAt5_0 (V : (c : Dev nD) → (b : Ref sig .tc) → Buf (Elt F) ((c : Thread nD τ).loc b)) (c : Dev nD) (n : ℕ) :
    (dat5 V c).arrAt 0 n = V c (Pipeline.arrRef spec5 0) :=
  ((dat5 V c).arrAt_in 0 rfl n).trans (A_eq5 V c 0)
theorem arrAt5_1 (V : (c : Dev nD) → (b : Ref sig .tc) → Buf (Elt F) ((c : Thread nD τ).loc b)) (c : Dev nD) (n : ℕ) :
    (dat5 V c).arrAt 1 n = V c (Pipeline.arrRef spec5 1) :=
  ((dat5 V c).arrAt_in 1 rfl n).trans (A_eq5 V c 1)

set_option maxHeartbeats 2000000 in
/-- ENTRY: every unscoped buffer held at `W c` is the region's arrays at their entry contents — the shared input
    dealt to its two windows — and what bypasses the region. -/
theorem entry5 (c : Dev nD) :
    (StableHlo.held (c : Thread nD τ) (Pipeline.ucRefs τ sig) (W c) : sProp 𝕄)
      ⊢ iprop((dat5 (tcv W) c).arrays ((dat5 (tcv W) c).arrAt · 0) ∗ Z5 W c) := by
  rw [← Pipeline.unscopedBufs_held (Ix := Unit) (Name := ℕ) (U := UR sig nD τ) (Lvl := ℕ) c (W c),
    Pipeline.unscopedBufs_split₀ cfgs 5 winFacts₀5.arr_unscoped c (tcv W c)]
  refine sep_mono ?_ .rfl
  have e : ((dat5 (tcv W) c).arrAt · 0) = fun w => tcv W c (Pipeline.arrRef spec5 w) :=
    funext fun w => (show (dat5 (tcv W) c).arrAt w 0 = (dat5 (tcv W) c).A w from rfl).trans (A_eq5 (tcv W) c w)
  rw [e]
  exact arrays_of_arrBufs5 (tcv W) c (tcv W c)

set_option maxHeartbeats 4000000 in
/-- EXIT: the arrays as the region leaves them — the shared input untouched, the output at what its write-backs
    left — and what bypassed the region are every unscoped buffer held at `W c` updated at the output. -/
theorem exit5 (c : Dev nD) :
    iprop((dat5 (tcv W) c).arrays ((dat5 (tcv W) c).arrAt · cfg5.N) ∗ Z5 W c)
      ⊢ (StableHlo.held (c : Thread nD τ) (Pipeline.ucRefs τ sig)
          (Function.update (W c) main_v69 ((dat5 (tcv W) c).arrAt 2 cfg5.N)) : sProp 𝕄) := by
  generalize hW' : (Function.update (W c) main_v69 ((dat5 (tcv W) c).arrAt 2 cfg5.N) : Valuation τ sig (Elt F)) = W'
  have h2 : W' main_v69 = (dat5 (tcv W) c).arrAt 2 cfg5.N := by rw [← hW']; exact Function.update_self _ _ _
  have hne : ∀ b : Ref sig .tc, b ≠ main_v69 → W' b = W c b := fun b hb => by
    rw [← hW']; exact Function.update_of_ne (StableHlo.devRef_ne_of_ne hb) _ _
  rw [← Pipeline.unscopedBufs_held (Ix := Unit) (Name := ℕ) (U := UR sig nD τ) (Lvl := ℕ) c W',
    Pipeline.unscopedBufs_split₀ cfgs 5 winFacts₀5.arr_unscoped c (fun b => W' b)]
  refine sep_mono ?_ (Entails.of_eq ?_)
  · have e : ((dat5 (tcv W) c).arrAt · cfg5.N) = fun w => (fun b : Ref sig .tc => W' b) (Pipeline.arrRef spec5 w) :=
      funext fun
        | 0 => (arrAt5_0 (tcv W) c _).trans (hne _ (by decide)).symm
        | 1 => (arrAt5_1 (tcv W) c _).trans (hne _ (by decide)).symm
        | 2 => h2.symm
        | ⟨_ + 3, h⟩ => absurd h (Nat.not_lt.2 (Nat.le_add_left _ _))
    rw [e]
    exact arrBufs_of_arrays5 (tcv W) c (fun b => W' b)
  · unfold Z5 Pipeline.unscopedRest
    refine bigSep_congr fun b hb => ?_
    have hb' : b ≠ main_v69 := fun e => (Finset.mem_sdiff.mp hb).2 (e ▸ Finset.mem_image.mpr ⟨2, Finset.mem_univ _, rfl⟩)
    beta_reduce
    rw [hne b hb']

end Shared5c

end Cert.KernelIdeal.Hand

end
-- ==== Proof.KI.AHatReg.lean ====
/-
  The last kernel region's ingredients, bundled in the shape the run takes them.
-/
import proofs.«164907_j26860725469614_1_alg».proof.Proof.KI.ChainIn
import proofs.«164907_j26860725469614_1_alg».proof.Proof.KI.AHatShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The product region: its proof data at any entry contents, the body obligation, the class invariant in and out
    unchanged (the body keeps nothing between points), and the dealing and collecting of the shared input's share. -/
def r5 : Reg5 (F := F) where
  dat := dat5
  A_eq := A_eq5
  owed_zero := owed5
  recorded_univ _ _ _ := rfl
  body := body_obligation5
  hin V c := .rfl
  hout V c := .rfl
  Z := Z5
  hsplit W c := by
    iintro H; imodintro; iapply (entry5 W c); iexact H
  hjoin W c := by
    iintro H; imodintro; iapply (exit5 W c); iexact H

end Cert.KernelIdeal.Hand

end
-- ==== Proof.KI.Frames.lean ====
import proofs.«164907_j26860725469614_1_alg».proof.Proof.KI.Main
import proofs.«164907_j26860725469614_1_alg».proof.Proof.KI.AHatReg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame and the results, read off the run

The run ends with every unscoped buffer at the last boundary's contents; the arguments there are as launched, and the
two results are what the product's and the decoder's write-backs leave. -/

/-- @main runs and its argument arrays end unchanged, at any proof data for the product. -/
theorem frame_of (R5 : Reg5 (F := F)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W14_main_arg0 m ρ r0 r1 r2 r3 r4 R5 c),
     (h c _ (mem_uc main_arg1 (by decide))).trans (W14_main_arg1 m ρ r0 r1 r2 r3 r4 R5 c),
     (h c _ (mem_uc main_arg2 (by decide))).trans (W14_main_arg2 m ρ r0 r1 r2 r3 r4 R5 c),
     (h c _ (mem_uc main_arg3 (by decide))).trans (W14_main_arg3 m ρ r0 r1 r2 r3 r4 R5 c),
     (h c _ (mem_uc main_arg4 (by decide))).trans (W14_main_arg4 m ρ r0 r1 r2 r3 r4 R5 c),
     (h c _ (mem_uc main_arg5 (by decide))).trans (W14_main_arg5 m ρ r0 r1 r2 r3 r4 R5 c),
     (h c _ (mem_uc main_arg6 (by decide))).trans (W14_main_arg6 m ρ r0 r1 r2 r3 r4 R5 c),
     (h c _ (mem_uc main_arg7 (by decide))).trans (W14_main_arg7 m ρ r0 r1 r2 r3 r4 R5 c),
     (h c _ (mem_uc main_arg8 (by decide))).trans (W14_main_arg8 m ρ r0 r1 r2 r3 r4 R5 c),
     (h c _ (mem_uc main_arg9 (by decide))).trans (W14_main_arg9 m ρ r0 r1 r2 r3 r4 R5 c),
     (h c _ (mem_uc main_arg10 (by decide))).trans (W14_main_arg10 m ρ r0 r1 r2 r3 r4 R5 c),
     (h c _ (mem_uc main_arg11 (by decide))).trans (W14_main_arg11 m ρ r0 r1 r2 r3 r4 R5 c),
     (h c _ (mem_uc main_arg12 (by decide))).trans (W14_main_arg12 m ρ r0 r1 r2 r3 r4 R5 c)⟩)
    (main_run_layers m ρ R5)

/-- @main runs, its two results end at what the last boundary holds, and its argument arrays end unchanged. -/
theorem results_of (R5 : Reg5 (F := F)) : θ_run defs (onTc (τ := τ) (main (F := F))) ⟨m, fun _ => 0, ρ⟩ (fun r => ∀ c : Dev nD,
      r.2.mem ((c.tc : Thread nD τ).loc main_v69) = Wend m ρ R5 c main_v69
      ∧ r.2.mem ((c.tc : Thread nD τ).loc main_v63) = Wend m ρ R5 c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v69 (by decide)),
     h c _ (mem_uc main_v63 (by decide)),
     (h c _ (mem_uc main_arg0 (by decide))).trans (W14_main_arg0 m ρ r0 r1 r2 r3 r4 R5 c),
     (h c _ (mem_uc main_arg1 (by decide))).trans (W14_main_arg1 m ρ r0 r1 r2 r3 r4 R5 c),
     (h c _ (mem_uc main_arg2 (by decide))).trans (W14_main_arg2 m ρ r0 r1 r2 r3 r4 R5 c),
     (h c _ (mem_uc main_arg3 (by decide))).trans (W14_main_arg3 m ρ r0 r1 r2 r3 r4 R5 c),
     (h c _ (mem_uc main_arg4 (by decide))).trans (W14_main_arg4 m ρ r0 r1 r2 r3 r4 R5 c),
     (h c _ (mem_uc main_arg5 (by decide))).trans (W14_main_arg5 m ρ r0 r1 r2 r3 r4 R5 c),
     (h c _ (mem_uc main_arg6 (by decide))).trans (W14_main_arg6 m ρ r0 r1 r2 r3 r4 R5 c),
     (h c _ (mem_uc main_arg7 (by decide))).trans (W14_main_arg7 m ρ r0 r1 r2 r3 r4 R5 c),
     (h c _ (mem_uc main_arg8 (by decide))).trans (W14_main_arg8 m ρ r0 r1 r2 r3 r4 R5 c),
     (h c _ (mem_uc main_arg9 (by decide))).trans (W14_main_arg9 m ρ r0 r1 r2 r3 r4 R5 c),
     (h c _ (mem_uc main_arg10 (by decide))).trans (W14_main_arg10 m ρ r0 r1 r2 r3 r4 R5 c),
     (h c _ (mem_uc main_arg11 (by decide))).trans (W14_main_arg11 m ρ r0 r1 r2 r3 r4 R5 c),
     (h c _ (mem_uc main_arg12 (by decide))).trans (W14_main_arg12 m ρ r0 r1 r2 r3 r4 R5 c)⟩)
    (main_run_layers m ρ R5)

/-! # The same at the product's proof data -/

/-- Every weakly fair execution of @main terminates, and every final state has every unscoped buffer at the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wend m ρ r5 c b) :=
  main_run_layers m ρ r5

/-- THE FRAME: @main runs (terminates, no fault) and its argument arrays end unchanged. -/
theorem frame_pi : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ r5

/-- THE RESULTS: @main runs, the product ends at what its write-backs leave and the decoder's result at what its layer
    left, and the argument arrays end unchanged. -/
theorem kernel_run : θ_run defs (onTc (τ := τ) (main (F := F))) ⟨m, fun _ => 0, ρ⟩ (fun r => ∀ c : Dev nD,
      r.2.mem ((c.tc : Thread nD τ).loc main_v69) = Wend m ρ r5 c main_v69
      ∧ r.2.mem ((c.tc : Thread nD τ).loc main_v63) = Wend m ρ r5 c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  results_of m ρ r5

end Cert.KernelIdeal.Hand

end
-- ==== Proof.RefFrame.lean ====
/-
  The reference runs and leaves its arguments unchanged.

  The reference is a list of host operations, so every weakly fair execution terminates with each result at the
  operations' composed term and every argument unchanged; the frame claim keeps the part about the arguments.
-/
import proofs.«164907_j26860725469614_1_alg».proof.Defs
import proofs.«164907_j26860725469614_1_alg».proof.Proof.Gen.ReferenceIdeal.Run
import proofs.«164907_j26860725469614_1_alg».proof.Proof.Gen.Pre_finite_inputs

noncomputable section

namespace Cert.ReferenceIdeal.RefValue

open Idealize.ShloMosaic Idealize.SL.Sem

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

end Cert.ReferenceIdeal.RefValue

end
-- ==== Proof.LibRowIndexing.lean ====
/-
  Row gather and accumulating row scatter read at an index, for the dimension numbers that `x[idx]` and
  `segment_sum` lower to.

  A table `x : [N, F]` (or a flat array `[N]`) is indexed by an integer column `idx : [E, 1]`.
  * GATHER: result row `e` is the table's row at `idx[e, 0]`, the index read as a signed integer and clamped
    into `[0, N − 1]` (every start index of a gather is clamped so that its slice fits).
  * SCATTER with an `add` body, at the ideal instance: element `(r, f)` of the result is the operand's element plus
    the sum of the updates `upd[e, f]` over the edges `e` whose index `idx[e, 0]`, read signed and NOT clamped, is `r`;
    an index outside `[0, N)` lands nowhere and contributes nothing.
  Shapes are parameters, so each statement serves every literal shape of a program; a program's own record of
  dimension numbers is one of the records below by `rfl`.
-/
import Idealize.ShloMosaic.PureOps.Ideal
import Idealize.ShloMosaic.Lib.ValueIdx

noncomputable section

namespace Cert.Gcn

open Idealize.ShloMosaic Idealize.ShloMosaic.ValueIdx

/-! ## Gather -/

section Gather
variable {α : Type}

/-- The dimension numbers of `x[idx]` for a table `[N, F]` and an index column `[E, 1]`: the row axis collapsed
    and indexed, the feature axis kept whole. -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row a gather reads for edge `e`: the index read signed, clamped into `[0, N − 1]`. -/
def clampRow {N w : Nat} (hN : 0 < N) (v : BitVec w) : Fin N := ⟨min v.toInt.toNat (N - 1), by omega⟩

/-- THE ROW GATHER AT `(e, f)`: the table at the clamped row, same feature. -/
theorem rowGather_apply {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f) = x (ix2 (clampRow hN (idx (ix2 e (0 : Fin 1)))) f) := by
  unfold Host.gather
  congr 1
  funext a
  refine Fin.ext ?_
  have hsi : (rowGatherDims N E F wf).siIdx (ix2 e f) ⟨List.idxOf (0 : Fin 2) (rowGatherDims N E F wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGatherDims N E F wf).start (ix2 e f) idx (0 : Fin 2) + (rowGatherDims N E F wf).batchCoord (ix2 e f) (0 : Fin 2)
        + (rowGatherDims N E F wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E F wf).startIndexMap from List.mem_singleton.mpr rfl)]
    rw [hsi]
    rfl
  | ⟨1, _⟩ =>
    show (rowGatherDims N E F wf).start (ix2 e f) idx (1 : Fin 2) + (rowGatherDims N E F wf).batchCoord (ix2 e f) (1 : Fin 2)
        + (rowGatherDims N E F wf).offCoord (ix2 e f) (1 : Fin 2) = _
    rw [GatherDims.batchCoord_eq_zero _ _ _ List.not_mem_nil]
    unfold GatherDims.start
    rw [dif_neg (show (1 : Fin 2) ∉ [(0 : Fin 2)] from by decide)]
    simp only [Nat.zero_add]
    unfold GatherDims.offCoord
    rw [dif_pos (show (1 : Fin 2) ∈ (rowGatherDims N E F wf).sKept from by
      rw [GatherDims.mem_sKept]; exact ⟨(show (1 : Fin 2) ∉ [(0 : Fin 2)] from by decide), List.not_mem_nil⟩)]
    rfl

/-- The dimension numbers of `x[idx]` for a flat array `[N]` and an index column `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the array at the clamped index. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter -/

section Scatter

/-- The dimension numbers of `segment_sum` into a table `[N, F]` from updates `[E, F]` by an index column `[E, 1]`:
    the row axis indexed, the feature axis a window kept whole. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- On the row axis an update starts at its edge's index, read signed. -/
theorem rowScatter_start0 : (rowScatterDims N E F wf).start (ix2 e f) idx (0 : Fin 2) = (idx (ix2 e (0 : Fin 1))).toInt := by
  unfold ScatterDims.start
  rw [dif_pos (show (0 : Fin 2) ∈ (rowScatterDims N E F wf).scatterDimsToOperandDims from List.mem_singleton.mpr rfl)]
  have hsi : (rowScatterDims N E F wf).siIdx (ix2 e f) ⟨List.idxOf (0 : Fin 2) (rowScatterDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis it starts at zero. -/
theorem rowScatter_start1 : (rowScatterDims N E F wf).start (ix2 e f) idx (1 : Fin 2) = 0 := by
  unfold ScatterDims.start
  rw [dif_neg (show (1 : Fin 2) ∉ [(0 : Fin 2)] from by decide)]

/-- The row axis is no window axis. -/
theorem rowScatter_window0 : (rowScatterDims N E F wf).window (ix2 e f) (0 : Fin 2) = 0 := by
  unfold ScatterDims.window
  rw [dif_neg (show (0 : Fin 2) ∉ (rowScatterDims N E F wf).sKept from
    (by decide : (0 : Fin 2) ∉ (List.finRange 2).filter (fun a => a ∉ [(0 : Fin 2)])))]

/-- The feature axis is the window: the update's own feature. -/
theorem rowScatter_window1 : (rowScatterDims N E F wf).window (ix2 e f) (1 : Fin 2) = f.val := by
  unfold ScatterDims.window
  rw [dif_pos (show (1 : Fin 2) ∈ (rowScatterDims N E F wf).sKept from
    (by decide : (1 : Fin 2) ∈ (List.finRange 2).filter (fun a => a ∉ [(0 : Fin 2)])))]
  rfl

/-- WHERE AN UPDATE LANDS: update `(e, f)` lands on `(r, g)` exactly when the edge's index, read signed, is `r`
    and `f = g`; an index outside `[0, N)` lands nowhere. -/
theorem rowScatter_lands (r : Fin N) (g : Fin F) :
    (rowScatterDims N E F wf).resultIdx? (ix2 e f) idx = some (ix2 r g)
      ↔ (idx (ix2 e (0 : Fin 1))).toInt = (r.val : ℤ) ∧ f = g := by
  have h0 := r.isLt
  have h1 := g.isLt
  have hf := f.isLt
  unfold ScatterDims.resultIdx?
  split
  · rename_i h
    rw [Option.some.injEq]
    constructor
    · intro hi
      have e0 : ((rowScatterDims N E F wf).start (ix2 e f) idx (0 : Fin 2)
          + ((rowScatterDims N E F wf).window (ix2 e f) (0 : Fin 2) : ℤ)).toNat = r.val :=
        congrArg (fun j : (⟨2, ![N, F]⟩ : Shape).Idx => (j 0).val) hi
      have e1 : ((rowScatterDims N E F wf).start (ix2 e f) idx (1 : Fin 2)
          + ((rowScatterDims N E F wf).window (ix2 e f) (1 : Fin 2) : ℤ)).toNat = g.val :=
        congrArg (fun j : (⟨2, ![N, F]⟩ : Shape).Idx => (j 1).val) hi
      have k0 := (h (0 : Fin 2)).1
      rw [rowScatter_start0, rowScatter_window0] at e0 k0
      rw [rowScatter_start1, rowScatter_window1] at e1
      exact ⟨by omega, Fin.ext (by omega)⟩
    · rintro ⟨g0, g1⟩
      funext a
      refine Fin.ext ?_
      match a with
      | ⟨0, _⟩ =>
        show ((rowScatterDims N E F wf).start (ix2 e f) idx (0 : Fin 2) + ((rowScatterDims N E F wf).window (ix2 e f) (0 : Fin 2) : ℤ)).toNat = r.val
        rw [rowScatter_start0, rowScatter_window0]; omega
      | ⟨1, _⟩ =>
        show ((rowScatterDims N E F wf).start (ix2 e f) idx (1 : Fin 2) + ((rowScatterDims N E F wf).window (ix2 e f) (1 : Fin 2) : ℤ)).toNat = g.val
        rw [rowScatter_start1, rowScatter_window1, g1]; omega
  · rename_i h
    constructor
    · intro hi; exact absurd hi (by simp)
    · rintro ⟨g0, g1⟩
      exfalso; apply h
      intro a
      match a with
      | ⟨0, _⟩ =>
        show 0 ≤ (rowScatterDims N E F wf).start (ix2 e f) idx (0 : Fin 2) + ((rowScatterDims N E F wf).window (ix2 e f) (0 : Fin 2) : ℤ)
          ∧ (rowScatterDims N E F wf).start (ix2 e f) idx (0 : Fin 2) + ((rowScatterDims N E F wf).window (ix2 e f) (0 : Fin 2) : ℤ) < (N : ℤ)
        rw [rowScatter_start0, rowScatter_window0]; omega
      | ⟨1, _⟩ =>
        show 0 ≤ (rowScatterDims N E F wf).start (ix2 e f) idx (1 : Fin 2) + ((rowScatterDims N E F wf).window (ix2 e f) (1 : Fin 2) : ℤ)
          ∧ (rowScatterDims N E F wf).start (ix2 e f) idx (1 : Fin 2) + ((rowScatterDims N E F wf).window (ix2 e f) (1 : Fin 2) : ℤ) < (F : ℤ)
        rw [rowScatter_start1, rowScatter_window1]; omega

/-- THE ACCUMULATING ROW SCATTER AT `(r, g)`: the operand's element plus the updates `upd[e, g]` of the edges whose
    index is `r`. -/
theorem rowScatterAdd_apply (x : (⟨2, ![N, F]⟩ : Shape).Idx → EReal) (upd : (⟨2, ![E, F]⟩ : Shape).Idx → EReal)
    (r : Fin N) (g : Fin F) :
    Ideal.hostScatterAdd (rowScatterDims N E F wf) x idx upd (ix2 r g)
      = x (ix2 r g) + ∑ e : Fin E, if (idx (ix2 e (0 : Fin 1))).toInt = (r.val : ℤ) then upd (ix2 e g) else 0 := by
  unfold Ideal.hostScatterAdd
  congr 1
  rw [Finset.sum_filter, sum_idx2]
  refine Finset.sum_congr rfl fun e _ => ?_
  simp only [rowScatter_lands]
  by_cases hP : (idx (ix2 e (0 : Fin 1))).toInt = (r.val : ℤ)
  · simp only [hP, true_and, if_true]
    rw [Finset.sum_ite_eq' Finset.univ g (fun f => upd (ix2 e f))]
    exact if_pos (Finset.mem_univ _)
  · simp only [hP, false_and, if_false]
    exact Finset.sum_const_zero

end Scatter

/-! ## Accumulating scatter into a flat array -/

section VecScatter

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `segment_sum` into a flat array `[N]` from updates `[E]` by an index column `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- An update starts at its edge's index, read signed. -/
theorem vecScatter_start0 : (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis. -/
theorem vecScatter_window0 : (vecScatterDims N E wf).window (ix1 e) (0 : Fin 1) = 0 := by
  unfold ScatterDims.window
  rw [dif_neg (show (0 : Fin 1) ∉ (vecScatterDims N E wf).sKept from
    (by decide : (0 : Fin 1) ∉ (List.finRange 1).filter (fun a => a ∉ [(0 : Fin 1)])))]

/-- WHERE AN UPDATE LANDS: update `e` lands on `r` exactly when the edge's index, read signed, is `r`. -/
theorem vecScatter_lands (r : Fin N) :
    (vecScatterDims N E wf).resultIdx? (ix1 e) idx = some (ix1 r) ↔ (idx (ix2 e (0 : Fin 1))).toInt = (r.val : ℤ) := by
  have h0 := r.isLt
  unfold ScatterDims.resultIdx?
  split
  · rename_i h
    rw [Option.some.injEq]
    constructor
    · intro hi
      have e0 : ((vecScatterDims N E wf).start (ix1 e) idx (0 : Fin 1)
          + ((vecScatterDims N E wf).window (ix1 e) (0 : Fin 1) : ℤ)).toNat = r.val :=
        congrArg (fun j : (⟨1, ![N]⟩ : Shape).Idx => (j 0).val) hi
      have k0 := (h (0 : Fin 1)).1
      rw [vecScatter_start0, vecScatter_window0] at e0 k0
      omega
    · intro g0
      funext a
      refine Fin.ext ?_
      match a with
      | ⟨0, _⟩ =>
        show ((vecScatterDims N E wf).start (ix1 e) idx (0 : Fin 1) + ((vecScatterDims N E wf).window (ix1 e) (0 : Fin 1) : ℤ)).toNat = r.val
        rw [vecScatter_start0, vecScatter_window0]; omega
  · rename_i h
    constructor
    · intro hi; exact absurd hi (by simp)
    · intro g0
      exfalso; apply h
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [vecScatter_start0, vecScatter_window0]; omega

/-- THE ACCUMULATING FLAT SCATTER AT `r`: the operand's element plus the updates of the edges whose index is `r`. -/
theorem vecScatterAdd_apply (x : (⟨1, ![N]⟩ : Shape).Idx → EReal) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [vecScatter_lands]

end VecScatter

/-! ## The same four reads, stated for the host operations at a program's own record of dimension numbers

A program names its dimension numbers by a definition; `hd` identifies that record with the one above (by `rfl`), and the
statement is then about the host operation as the program prints it, so that it rewrites without unfolding anything. -/

section Host

theorem rowGather_host {α : Type} {N E F w : Nat} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F]) (hd : d = rowGatherDims N E F wf)
    (x : (⟨2, ![N, F]⟩ : Shape).Idx → α) (idx : IVec ⟨2, ![E, 1]⟩ w) (e : Fin E) (f : Fin F) :
    Host.gather d x idx (ix2 e f) = x (ix2 (clampRow hN (idx (ix2 e (0 : Fin 1)))) f) := by
  subst hd; exact rowGather_apply hN wf x idx e f

theorem vecGather_host {α : Type} {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGatherDims N E wf)
    (x : (⟨1, ![N]⟩ : Shape).Idx → α) (idx : IVec ⟨2, ![E, 1]⟩ w) (e : Fin E) :
    Host.gather d x idx (ix1 e) = x (ix1 (clampRow hN (idx (ix2 e (0 : Fin 1))))) := by
  subst hd; exact vecGather_apply hN wf x idx e

theorem rowScatterAdd_host {N E F w : Nat} {φ : FTy}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatterDims N E F wf)
    (x : FVec Ideal ⟨2, ![N, F]⟩ φ) (idx : IVec ⟨2, ![E, 1]⟩ w) (upd : FVec Ideal ⟨2, ![E, F]⟩ φ) (r : Fin N) (g : Fin F) :
    Host.scatterAdd d x idx upd (ix2 r g)
      = x (ix2 r g) + ∑ e : Fin E, if (idx (ix2 e (0 : Fin 1))).toInt = (r.val : ℤ) then upd (ix2 e g) else 0 := by
  subst hd
  unfold Host.scatterAdd
  rw [Ideal.hostScatterAdd_def]
  exact rowScatterAdd_apply wf idx x upd r g

theorem vecScatterAdd_host {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e : Fin E, if (idx (ix2 e (0 : Fin 1))).toInt = (r.val : ℤ) then upd (ix1 e) else 0 := by
  subst hd
  unfold Host.scatterAdd
  rw [Ideal.hostScatterAdd_def]
  exact vecScatterAdd_apply wf idx x upd r

end Host

end Cert.Gcn

end
-- ==== Proof.LibLayoutReads.lean ====
/-
  Small reads at an index, for the layout operations around a gather and a scatter, and the two facts about
  32-bit index words that the aggregation needs.

  * A flat array broadcast to a column, a scalar broadcast to any shape, a column repeated along the features, a
    bias `[F]` repeated for every node (through `[1, F]`), and the reshapes `[F] → [1, F]`, `[N] → [N, 1]`:
    each read at an index is the operand at the evident index.
  * `x[idx]` wraps a negative index by the table's length once before the gather clamps it. An index word whose
    signed value is a row `c` of the table is read back as `c`: it is not negative, so it is not wrapped, and it is
    inside the table, so the clamp leaves it. The word of a small natural number `i` has signed value `i`.
-/
import Idealize.ShloMosaic.Lib.Pipeline.Value
import Idealize.ShloMosaic.Lib.ValueIdx
import proofs.«164907_j26860725469614_1_alg».proof.Proof.LibRowIndexing

noncomputable section

namespace Cert.Gcn

open Idealize.ShloMosaic Idealize.ShloMosaic.ValueIdx

section Layout
variable {α : Type}

/-- A scalar broadcast holds the scalar everywhere. -/
theorem bcastScalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A flat array as a column: entry `e` of the column is entry `e` of the array. -/
theorem bcastCol_apply {E : ℕ} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) (fun a => match a with
    | ⟨0, _⟩ => by show e.val = if E = 1 then 0 else e.val; rw [if_neg hE])

/-- A column repeated along the features: entry `(e, g)` is the column's entry `e`. -/
theorem bcastAlong_apply {E F : ℕ} (hE : E ≠ 1) (h : (⟨2, ![E, 1]⟩ : Shape).BroadcastsInDim ⟨2, ![E, F]⟩ ![0, 1])
    (x : (⟨2, ![E, 1]⟩ : Shape).Idx → α) (e : Fin E) (g : Fin F) :
    broadcastInDim ⟨2, ![E, F]⟩ ![0, 1] h x (ix2 e g) = x (ix2 e (0 : Fin 1)) :=
  broadcastInDim_apply _ h x _ (ix2 e (0 : Fin 1)) (fun a => match a with
    | ⟨0, _⟩ => by show e.val = if E = 1 then 0 else e.val; rw [if_neg hE]
    | ⟨1, _⟩ => by show 0 = if (1 : ℕ) = 1 then 0 else g.val; rw [if_pos rfl])

/-- A bias `[F]` as a row `[1, F]` repeated for every node: entry `(c, g)` is `b g`. -/
theorem bcastBias_apply {N F : ℕ} (hF : F ≠ 1) (h1 : (⟨1, ![F]⟩ : Shape).BroadcastsInDim ⟨2, ![1, F]⟩ ![1])
    (h2 : (⟨2, ![1, F]⟩ : Shape).BroadcastsInDim ⟨2, ![N, F]⟩ ![0, 1]) (b : (⟨1, ![F]⟩ : Shape).Idx → α) (c : Fin N) (g : Fin F) :
    broadcastInDim ⟨2, ![N, F]⟩ ![0, 1] h2 (broadcastInDim ⟨2, ![1, F]⟩ ![1] h1 b) (ix2 c g) = b (ix1 g) := by
  rw [broadcastInDim_apply _ h2 _ _ (ix2 (0 : Fin 1) g) (fun a => match a with
    | ⟨0, _⟩ => by show 0 = if (1 : ℕ) = 1 then 0 else c.val; rw [if_pos rfl]
    | ⟨1, _⟩ => by show g.val = if F = 1 then 0 else g.val; rw [if_neg hF])]
  exact broadcastInDim_apply _ h1 b _ (ix1 g) (fun a => match a with
    | ⟨0, _⟩ => by show g.val = if F = 1 then 0 else g.val; rw [if_neg hF])

/-- The reshape `[F] → [1, F]`. -/
theorem reshapeRow_apply {F : ℕ} (h : (⟨1, ![F]⟩ : Shape).ShapeCasts ⟨2, ![1, F]⟩) (b : (⟨1, ![F]⟩ : Shape).Idx → α) (g : Fin F) :
    shapeCast ⟨2, ![1, F]⟩ b h (ix2 (0 : Fin 1) g) = b (ix1 g) :=
  shapeCast_apply b h _ (ix1 g) (by
    rw [Shape.rowMajor_val_two, Shape.rowMajor_val_one]; show g.val = 0 * F + g.val; omega)

/-- The reshape `[N] → [N, 1]`. -/
theorem reshapeCol_apply {N : ℕ} (h : (⟨1, ![N]⟩ : Shape).ShapeCasts ⟨2, ![N, 1]⟩) (v : (⟨1, ![N]⟩ : Shape).Idx → α) (r : Fin N) :
    shapeCast ⟨2, ![N, 1]⟩ v h (ix2 r (0 : Fin 1)) = v (ix1 r) :=
  shapeCast_apply v h _ (ix1 r) (by
    rw [Shape.rowMajor_val_two, Shape.rowMajor_val_one]; show r.val = r.val * 1 + 0; omega)

end Layout

/-! ## Index words -/

/-- How `x[idx]` prepares an index word for a table of length `n`: a negative one is wrapped by `n` once. -/
def wrapIdx (n v : BitVec 32) : BitVec 32 := Scalar.select (IntOp.cmpi .slt v 0#32) (IntOp.addi v n) v

/-- A word that is not negative is not wrapped. -/
theorem wrapIdx_of_nonneg (n v : BitVec 32) (h : 0 ≤ v.toInt) : wrapIdx n v = v := by
  unfold wrapIdx IntOp.cmpi
  have hs : v.slt 0#32 = false := by
    rw [BitVec.slt]; simp only [BitVec.toInt_zero]; exact decide_eq_false (by omega)
  simp only [hs, BitVec.ofBool_false]
  exact if_neg (by decide)

/-- A word whose signed value is a row `c` of the table is read back as `c`. -/
theorem clampRow_wrapIdx_of_toInt {N : ℕ} (hN : 0 < N) (n v : BitVec 32) (c : Fin N) (h : v.toInt = (c.val : ℤ)) :
    clampRow hN (wrapIdx n v) = c := by
  rw [wrapIdx_of_nonneg n v (by omega)]
  refine Fin.ext ?_
  show min v.toInt.toNat (N - 1) = c.val
  have := c.isLt
  omega

/-- The word of a natural number below `2 ^ 31` has that number as its signed value. -/
theorem toInt_ofNat_small (i : ℕ) (h : i < 2147483648) : (BitVec.ofNat 32 i).toInt = (i : ℤ) := by
  rw [BitVec.toInt_eq_toNat_cond, BitVec.toNat_ofNat]
  have hm : i % 2 ^ 32 = i := Nat.mod_eq_of_lt (by omega)
  rw [hm]
  split <;> omega

/-- So the word of a row `i` is read back as `i`. -/
theorem clampRow_wrapIdx_ofNat {N : ℕ} (hN : 0 < N) (hN' : N ≤ 2147483648) (n : BitVec 32) (i : Fin N) :
    clampRow hN (wrapIdx n (BitVec.ofNat 32 i.val)) = i :=
  clampRow_wrapIdx_of_toInt hN n _ i (toInt_ofNat_small i.val (by have := i.isLt; omega))

end Cert.Gcn

end
-- ==== Proof.RefTerms.lean ====
/-
  The edge list of the graph and its normalised edge weights, as array terms of the two inputs that carry them.

  The inputs are the index pairs `ei` (row 0 the sources, row 1 the targets of the 393216 given edges) and the edge
  weights `w`.  One self loop per node is appended (source = target = the node, weight 1), which gives 405504 edges.
  The degree of a node is the sum of the weights of the edges that end there; `dinv` is its reciprocal square root
  where the degree is positive and 0 elsewhere; the normalised weight of an edge is
  `dinv (source) * weight * dinv (target)`.  A lookup `dinv[idx]` first adds the number of nodes to a negative
  index.  The terms are generic in the float model; the index words are 32-bit.

  The second half reads the two endpoint arrays back as functions into the node range, for index pairs that lie in
  that range: a given edge's endpoint is the input word, a self loop's is its node.
-/
import Idealize.ShloMosaic.PureOps
import Idealize.ShloMosaic.PureOps.Ideal
import Idealize.ShloMosaic.Lib.ValueIdx
import Idealize.ShloMosaic.Lib.Pipeline.Value
import proofs.«164907_j26860725469614_1_alg».proof.Proof.LibRowIndexing
import proofs.«164907_j26860725469614_1_alg».proof.Proof.LibLayoutReads

noncomputable section

namespace Cert.Terms

open Idealize.ShloMosaic Idealize.ShloMosaic.ValueIdx Cert.Gcn

/-- The shapes: nodes, given edges, all edges, the index pairs, one row of them, an edge column, a scalar. -/
abbrev SN : Shape := ⟨1, ![12288]⟩
abbrev SE0 : Shape := ⟨1, ![393216]⟩
abbrev SE : Shape := ⟨1, ![405504]⟩
abbrev S2E0 : Shape := ⟨2, ![2, 393216]⟩
abbrev S1E0 : Shape := ⟨2, ![1, 393216]⟩
abbrev SEc : Shape := ⟨2, ![405504, 1]⟩
abbrev S0 : Shape := ⟨0, ![]⟩

theorem slices_0 : S2E0.Slices ![0, 0] S1E0 := by decide
theorem slices_1 : S2E0.Slices ![1, 0] S1E0 := by decide
theorem casts_row : S1E0.ShapeCasts SE0 := by decide
theorem concats : Shape.Concatenates [SE0, SN] SE 0 := by decide
theorem bc_N : S0.BroadcastsInDim SN (![] : Fin 0 → Fin SN.rank) := by decide
theorem bc_E : S0.BroadcastsInDim SE (![] : Fin 0 → Fin SE.rank) := by decide
theorem bc_col : SE.BroadcastsInDim SEc (![0] : Fin 1 → Fin SEc.rank) := by decide
theorem wf_scat : ScatterDims.WF SN SEc SE [] [0] [0] 1 := by decide
theorem wf_gath : GatherDims.WF SN SEc SE [] [0] [] [0] [] 1 ![1] := by decide

variable {F : FTy → Type} [FloatOps F]

/-- The sources: row 0 of the index pairs, then the nodes themselves. -/
def srcT (ei : IVec S2E0 32) : IVec SE 32 :=
  concatenate SE 0 [⟨SE0, shapeCast SE0 (extractStridedSlice S1E0 ![0, 0] ei slices_0) casts_row⟩, ⟨SN, iotaInDim SN 32 0⟩] concats

/-- The targets: row 1 of the index pairs, then the nodes themselves. -/
def dstT (ei : IVec S2E0 32) : IVec SE 32 :=
  concatenate SE 0 [⟨SE0, shapeCast SE0 (extractStridedSlice S1E0 ![1, 0] ei slices_1) casts_row⟩, ⟨SN, iotaInDim SN 32 0⟩] concats

/-- The weights: the given ones, then 1 for each self loop. -/
def wcatT (w : FVec F SE0 .f32) : FVec F SE .f32 :=
  concatenate SE 0 [⟨SE0, w⟩, ⟨SN, broadcastInDim SN ![] bc_N (constant S0 .f32 0x3F800000#32)⟩] concats

/-- The degrees: the weights summed into their targets, from zero. -/
def degT (ei : IVec S2E0 32) (w : FVec F SE0 .f32) : FVec F SN .f32 :=
  Host.scatterAdd (vecScatterDims 12288 405504 wf_scat) (broadcastInDim SN ![] bc_N (constant S0 .f32 0x00000000#32))
    (broadcastInDim SEc ![0] bc_col (dstT ei)) (wcatT w)

/-- The reciprocal square root of the degree where it is positive, zero elsewhere. -/
def dinvT (ei : IVec S2E0 32) (w : FVec F SE0 .f32) : FVec F SN .f32 :=
  select (cmpf .ogt (degT ei w) (broadcastInDim SN ![] bc_N (constant S0 .f32 0x00000000#32))) (Host.rsqrt (degT ei w))
    (broadcastInDim SN ![] bc_N (constant S0 .f32 0x00000000#32))

/-- A lookup's index: the number of nodes added to a negative word. -/
def wrapT (idx : IVec SE 32) : IVec SE 32 :=
  select (cmpi .slt idx (broadcastInDim SE ![] bc_E (constantI S0 32 0#32)))
    (addi idx (broadcastInDim SE ![] bc_E (constantI S0 32 12288#32))) idx

/-- The normalised edge weights. -/
def normT (ei : IVec S2E0 32) (w : FVec F SE0 .f32) : FVec F SE .f32 :=
  mulf (mulf (Host.gather (vecGatherDims 12288 405504 wf_gath) (dinvT ei w) (broadcastInDim SEc ![0] bc_col (wrapT (srcT ei)))) (wcatT w))
    (Host.gather (vecGatherDims 12288 405504 wf_gath) (dinvT ei w) (broadcastInDim SEc ![0] bc_col (wrapT (dstT ei))))

/-! ## The endpoints as functions into the node range -/

/-- Every index word is a node: read signed it lies in `[0, 12288)`. -/
def InRange (ei : IVec S2E0 32) : Prop := ∀ i, 0 ≤ (ei i).toInt ∧ (ei i).toInt < 12288

/-- A word read as a node (the word's unsigned value, reduced into the node range so that the function is total). -/
def nodeOf (v : BitVec 32) : Fin 12288 := ⟨v.toNat % 12288, Nat.mod_lt _ (by norm_num)⟩

/-- The source and the target of edge `e`, and its normalised weight at the exact model. -/
def srcF (ei : IVec S2E0 32) (e : Fin 405504) : Fin 12288 := nodeOf (srcT ei (ix1 e))
def dstF (ei : IVec S2E0 32) (e : Fin 405504) : Fin 12288 := nodeOf (dstT ei (ix1 e))
def nrmF (ei : IVec S2E0 32) (w : FVec Ideal SE0 .f32) (e : Fin 405504) : EReal := normT (F := Ideal) ei w (ix1 e)

end Cert.Terms

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.Spec.lean ====
/-
  The network both programs compute, as plain functions of finite indices over the extended reals.

  Nodes are `Fin 12288`, edges (the given ones followed by one self loop per node) `Fin 405504`.  An edge `e`
  goes from `src e` to `dst e` with weight `nrm e` (the symmetric normalisation d^{-1/2} w d^{-1/2}).  One
  propagation layer takes node features `X`, a weight matrix `W` and a bias `b` to

      max ( Σ_{e : dst e = r}  nrm e · (X W)(src e, q)  +  b q ,  0 )            -- the edge list form

  or, with the edge weights first collected into the dense matrix  A(r,s) = Σ_{e : dst e = r, src e = s} nrm e,

      max ( Σ_s A(r,s) · (X W)(s, q)  +  b q ,  0 ).                              -- the dense form

  The network is five such layers and one Gram matrix.
-/
import Mathlib.Data.EReal.Basic
import Mathlib.Algebra.BigOperators.Fin

noncomputable section

namespace Cert.Spec

open scoped BigOperators

/-- The number of nodes and of edges (393216 given edges and 12288 self loops). -/
abbrev NN : ℕ := 12288
abbrev EE : ℕ := 405504

/-- The product of a feature matrix and a weight matrix at an entry. -/
def xw {K H : ℕ} (X : Fin NN → Fin K → EReal) (W : Fin K → Fin H → EReal) (s : Fin NN) (q : Fin H) : EReal :=
  ∑ j : Fin K, X s j * W j q

/-- One layer in the edge list form: the messages into node `r` summed over the edges that end there. -/
def sparseLayer {K H : ℕ} (nrm : Fin EE → EReal) (src dst : Fin EE → Fin NN)
    (X : Fin NN → Fin K → EReal) (W : Fin K → Fin H → EReal) (b : Fin H → EReal) : Fin NN → Fin H → EReal :=
  fun r q => max ((∑ e : Fin EE, if dst e = r then nrm e * xw X W (src e) q else 0) + b q) 0

/-- The dense matrix of edge weights: entry (r, s) collects the edges from `s` to `r`. -/
def adj (nrm : Fin EE → EReal) (src dst : Fin EE → Fin NN) : Fin NN → Fin NN → EReal :=
  fun r s => ∑ e : Fin EE, if dst e = r ∧ src e = s then nrm e else 0

/-- One layer in the dense form. -/
def denseLayer {K H : ℕ} (A : Fin NN → Fin NN → EReal)
    (X : Fin NN → Fin K → EReal) (W : Fin K → Fin H → EReal) (b : Fin H → EReal) : Fin NN → Fin H → EReal :=
  fun r q => max ((∑ s : Fin NN, A r s * xw X W s q) + b q) 0

/-- The Gram matrix of the rows of `S`. -/
def gram {H : ℕ} (S : Fin NN → Fin H → EReal) : Fin NN → Fin NN → EReal :=
  fun r r' => ∑ j : Fin H, S r j * S r' j

/-- The weights and biases of the five layers. -/
structure Params where
  W1 : Fin 512 → Fin 128 → EReal
  b1 : Fin 128 → EReal
  W2 : Fin 128 → Fin 128 → EReal
  b2 : Fin 128 → EReal
  Wa1 : Fin 128 → Fin 128 → EReal
  ba1 : Fin 128 → EReal
  Wa2 : Fin 128 → Fin 512 → EReal
  ba2 : Fin 512 → EReal
  Ws1 : Fin 128 → Fin 128 → EReal
  bs1 : Fin 128 → EReal

/-- The network over a layer function `L` (the edge list form or the dense form): two encoder layers, two
    attribute decoder layers giving the reconstructed features, one structure decoder layer whose Gram matrix is the
    reconstructed adjacency. -/
structure Out where
  ahat : Fin NN → Fin NN → EReal
  xhat : Fin NN → Fin 512 → EReal

def net (L : ∀ {K H : ℕ}, (Fin NN → Fin K → EReal) → (Fin K → Fin H → EReal) → (Fin H → EReal) → Fin NN → Fin H → EReal)
    (X : Fin NN → Fin 512 → EReal) (P : Params) : Out :=
  let h1 := L X P.W1 P.b1
  let h2 := L h1 P.W2 P.b2
  let xh := L h2 P.Wa1 P.ba1
  let s := L h2 P.Ws1 P.bs1
  { ahat := gram s, xhat := L xh P.Wa2 P.ba2 }

/-- The network in the edge list form and in the dense form. -/
def netSparse (nrm : Fin EE → EReal) (src dst : Fin EE → Fin NN) (X : Fin NN → Fin 512 → EReal) (P : Params) : Out :=
  net (fun {K H} X W b => sparseLayer (K := K) (H := H) nrm src dst X W b) X P

def netDense (A : Fin NN → Fin NN → EReal) (X : Fin NN → Fin 512 → EReal) (P : Params) : Out :=
  net (fun {K H} X W b => denseLayer (K := K) (H := H) A X W b) X P

/-- An extended real that is a real number. -/
def IsReal (x : EReal) : Prop := ∃ r : ℝ, x = (r : EReal)

end Cert.Spec

end
-- ==== Proof.RefLayer.lean ====
/-
  One propagation layer in the edge list form, as an array term and read at an entry.

  The term: the features times the weight matrix; the rows of that product looked up at the edges' sources; each looked
  up row scaled by its edge's normalised weight; the scaled rows summed into their targets, from zero; the bias added to
  every row; the maximum with zero.  Read at entry (r, q) on the extended reals, with endpoint words that are nodes, it
  is

      max ( Σ_{e : dst e = r} nrm e · (Σ_j X(src e, j) · W(j, q)) + b q , 0 ),

  the specification's layer.  Nothing is rearranged: a lookup at a node word reads that node's row, an update whose
  target word is a node lands on that node's row, and the sum over the updates that land on row r is the sum over all
  edges of the terms whose target is r.  Generic in the two widths.
-/
import proofs.«164907_j26860725469614_1_alg».proof.Proof.RefTerms
import proofs.«164907_j26860725469614_1_alg».proof.Proof.LibHostReads
import proofs.«164907_j26860725469614_1_alg».proof.Proof.Spec

set_option maxRecDepth 8192

noncomputable section

open scoped BigOperators

namespace Cert.RefLayer

open Idealize.ShloMosaic Idealize.ShloMosaic.ValueIdx Cert.Gcn Cert.Terms

/-- The layer as an array term (generic in the float model). -/
def layerT {F : FTy → Type} [FloatOps F] (K H : Nat)
    (wfG : GatherDims.WF ⟨2, ![12288, H]⟩ ⟨2, ![405504, 1]⟩ ⟨2, ![405504, H]⟩ [1] [0] [] [0] [] 1 ![1, H])
    (wfS : ScatterDims.WF ⟨2, ![12288, H]⟩ ⟨2, ![405504, 1]⟩ ⟨2, ![405504, H]⟩ [1] [0] [0] 1)
    (D : DotDims ⟨2, ![12288, K]⟩ ⟨2, ![K, H]⟩ ⟨2, ![12288, H]⟩)
    (hz : S0.BroadcastsInDim ⟨2, ![12288, H]⟩ (![] : Fin 0 → Fin 2))
    (hn : SEc.BroadcastsInDim ⟨2, ![405504, H]⟩ (![0, 1] : Fin 2 → Fin 2))
    (hb1 : (⟨1, ![H]⟩ : Shape).BroadcastsInDim ⟨2, ![1, H]⟩ (![1] : Fin 1 → Fin 2))
    (hb2 : (⟨2, ![1, H]⟩ : Shape).BroadcastsInDim ⟨2, ![12288, H]⟩ (![0, 1] : Fin 2 → Fin 2))
    (nrm : FVec F SE .f32) (srcv dstv : IVec SE 32)
    (x : FVec F ⟨2, ![12288, K]⟩ .f32) (W : FVec F ⟨2, ![K, H]⟩ .f32) (b : FVec F ⟨1, ![H]⟩ .f32) :
    FVec F ⟨2, ![12288, H]⟩ .f32 :=
  maximumf
    (addf
      (Host.scatterAdd (rowScatterDims 12288 405504 H wfS)
        (broadcastInDim ⟨2, ![12288, H]⟩ ![] hz (constant S0 .f32 0x00000000#32))
        (broadcastInDim SEc ![0] bc_col dstv)
        (mulf (broadcastInDim ⟨2, ![405504, H]⟩ ![0, 1] hn (broadcastInDim SEc ![0] bc_col nrm))
          (Host.gather (rowGatherDims 12288 405504 H wfG) (Host.dotGeneral D none x W)
            (broadcastInDim SEc ![0] bc_col (wrapT srcv)))))
      (broadcastInDim ⟨2, ![12288, H]⟩ ![0, 1] hb2 (broadcastInDim ⟨2, ![1, H]⟩ ![1] hb1 b)))
    (broadcastInDim ⟨2, ![12288, H]⟩ ![] hz (constant S0 .f32 0x00000000#32))

/-- A wrapped index word, at an index. -/
theorem wrapT_eq (idx : IVec SE 32) (i : SE.Idx) : wrapT idx i = wrapIdx 12288#32 (idx i) := rfl

set_option maxRecDepth 8192 in
/-- THE LAYER READ AT AN ENTRY, on the extended reals, for endpoint words that are the nodes `src e`, `dst e`. -/
theorem layerT_apply {K H : Nat} (hH : H ≠ 1)
    (wfG : GatherDims.WF ⟨2, ![12288, H]⟩ ⟨2, ![405504, 1]⟩ ⟨2, ![405504, H]⟩ [1] [0] [] [0] [] 1 ![1, H])
    (wfS : ScatterDims.WF ⟨2, ![12288, H]⟩ ⟨2, ![405504, 1]⟩ ⟨2, ![405504, H]⟩ [1] [0] [0] 1)
    (D : DotDims ⟨2, ![12288, K]⟩ ⟨2, ![K, H]⟩ ⟨2, ![12288, H]⟩) (hD : D = DotDims.plain 12288 K H)
    (hz : S0.BroadcastsInDim ⟨2, ![12288, H]⟩ (![] : Fin 0 → Fin 2))
    (hn : SEc.BroadcastsInDim ⟨2, ![405504, H]⟩ (![0, 1] : Fin 2 → Fin 2))
    (hb1 : (⟨1, ![H]⟩ : Shape).BroadcastsInDim ⟨2, ![1, H]⟩ (![1] : Fin 1 → Fin 2))
    (hb2 : (⟨2, ![1, H]⟩ : Shape).BroadcastsInDim ⟨2, ![12288, H]⟩ (![0, 1] : Fin 2 → Fin 2))
    (nrm : FVec Ideal SE .f32) (srcv dstv : IVec SE 32)
    (x : FVec Ideal ⟨2, ![12288, K]⟩ .f32) (W : FVec Ideal ⟨2, ![K, H]⟩ .f32) (b : FVec Ideal ⟨1, ![H]⟩ .f32)
    (src dst : Fin 405504 → Fin 12288)
    (hsrc : ∀ e, (srcv (ix1 e)).toInt = ((src e).val : ℤ)) (hdst : ∀ e, (dstv (ix1 e)).toInt = ((dst e).val : ℤ))
    (r : Fin 12288) (q : Fin H) :
    layerT (F := Ideal) K H wfG wfS D hz hn hb1 hb2 nrm srcv dstv x W b (ix2 r q)
      = Cert.Spec.sparseLayer (fun e => nrm (ix1 e)) src dst (fun r j => x (ix2 r j)) (fun j q => W (ix2 j q))
          (fun q => b (ix1 q)) r q := by
  have hE : (405504 : ℕ) ≠ 1 := by norm_num
  have hN : 0 < 12288 := by norm_num
  -- the term at the entry, one operation at a time
  have e0 : layerT (F := Ideal) K H wfG wfS D hz hn hb1 hb2 nrm srcv dstv x W b (ix2 r q)
      = max (Host.scatterAdd (rowScatterDims 12288 405504 H wfS)
              (broadcastInDim ⟨2, ![12288, H]⟩ ![] hz (constant (F := Ideal) S0 .f32 0x00000000#32))
              (broadcastInDim SEc ![0] bc_col dstv)
              (mulf (broadcastInDim ⟨2, ![405504, H]⟩ ![0, 1] hn (broadcastInDim SEc ![0] bc_col nrm))
                (Host.gather (rowGatherDims 12288 405504 H wfG) (Host.dotGeneral D none x W)
                  (broadcastInDim SEc ![0] bc_col (wrapT srcv)))) (ix2 r q)
            + broadcastInDim ⟨2, ![12288, H]⟩ ![0, 1] hb2 (broadcastInDim ⟨2, ![1, H]⟩ ![1] hb1 b) (ix2 r q))
          (Ideal.ofBits .f32 0x00000000#32) := rfl
  rw [e0, rowScatterAdd_host _ wfS rfl, bcastBias_apply hH hb1 hb2 b r q, Ideal.ofBits_zero_f32]
  have ez : broadcastInDim ⟨2, ![12288, H]⟩ ![] hz (constant (F := Ideal) S0 .f32 0x00000000#32) (ix2 r q) = 0 :=
    Ideal.ofBits_zero_f32
  rw [ez, zero_add]
  unfold Cert.Spec.sparseLayer Cert.Spec.xw
  refine congrArg (fun z => max (z + b (ix1 q)) 0) ?_
  refine Finset.sum_congr rfl fun e _ => ?_
  rw [bcastCol_apply hE bc_col dstv e, hdst e]
  have ec : (((dst e).val : ℤ) = (r.val : ℤ)) ↔ dst e = r := by
    constructor
    · intro h; exact Fin.ext (by exact_mod_cast h)
    · intro h; rw [h]
  refine if_congr ec ?_ rfl
  show broadcastInDim ⟨2, ![405504, H]⟩ ![0, 1] hn (broadcastInDim SEc ![0] bc_col nrm) (ix2 e q)
      * Host.gather (rowGatherDims 12288 405504 H wfG) (Host.dotGeneral D none x W)
          (broadcastInDim SEc ![0] bc_col (wrapT srcv)) (ix2 e q) = _
  rw [bcastAlong_apply hE hn _ e q, bcastCol_apply hE bc_col nrm e, rowGather_apply hN wfG,
    bcastCol_apply hE bc_col (wrapT srcv) e, wrapT_eq, clampRow_wrapIdx_of_toInt hN _ _ (src e) (hsrc e),
    Cert.LibHostReads.dot_apply D hD x W (src e) q]

/-- The same with the features given entry by entry: the layer applied to an array whose entries are `Ys`. -/
theorem layerT_step {K H : Nat} (hH : H ≠ 1)
    (wfG : GatherDims.WF ⟨2, ![12288, H]⟩ ⟨2, ![405504, 1]⟩ ⟨2, ![405504, H]⟩ [1] [0] [] [0] [] 1 ![1, H])
    (wfS : ScatterDims.WF ⟨2, ![12288, H]⟩ ⟨2, ![405504, 1]⟩ ⟨2, ![405504, H]⟩ [1] [0] [0] 1)
    (D : DotDims ⟨2, ![12288, K]⟩ ⟨2, ![K, H]⟩ ⟨2, ![12288, H]⟩) (hD : D = DotDims.plain 12288 K H)
    (hz : S0.BroadcastsInDim ⟨2, ![12288, H]⟩ (![] : Fin 0 → Fin 2))
    (hn : SEc.BroadcastsInDim ⟨2, ![405504, H]⟩ (![0, 1] : Fin 2 → Fin 2))
    (hb1 : (⟨1, ![H]⟩ : Shape).BroadcastsInDim ⟨2, ![1, H]⟩ (![1] : Fin 1 → Fin 2))
    (hb2 : (⟨2, ![1, H]⟩ : Shape).BroadcastsInDim ⟨2, ![12288, H]⟩ (![0, 1] : Fin 2 → Fin 2))
    (nrm : FVec Ideal SE .f32) (srcv dstv : IVec SE 32)
    (x : FVec Ideal ⟨2, ![12288, K]⟩ .f32) (W : FVec Ideal ⟨2, ![K, H]⟩ .f32) (b : FVec Ideal ⟨1, ![H]⟩ .f32)
    (src dst : Fin 405504 → Fin 12288)
    (hsrc : ∀ e, (srcv (ix1 e)).toInt = ((src e).val : ℤ)) (hdst : ∀ e, (dstv (ix1 e)).toInt = ((dst e).val : ℤ))
    (Ys : Fin 12288 → Fin K → EReal) (hY : ∀ r j, x (ix2 r j) = Ys r j)
    (r : Fin 12288) (q : Fin H) :
    layerT (F := Ideal) K H wfG wfS D hz hn hb1 hb2 nrm srcv dstv x W b (ix2 r q)
      = Cert.Spec.sparseLayer (fun e => nrm (ix1 e)) src dst Ys (fun j q => W (ix2 j q)) (fun q => b (ix1 q)) r q := by
  rw [layerT_apply hH wfG wfS D hD hz hn hb1 hb2 nrm srcv dstv x W b src dst hsrc hdst r q]
  have e : (fun r j => x (ix2 r j)) = Ys := funext fun r => funext fun j => hY r j
  rw [e]

end Cert.RefLayer

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibRealHost.lean ====
/-
  More host operations on arrays of extended reals: the ones that keep every entry a real number, and the ones that make
  every entry a POSITIVE real number.

  A softmax row and a Gaussian overlap are built from exponentials, logarithms of positive numbers, sums along an axis, a
  maximum along an axis, and quotients by a sum of exponentials.  Each keeps the entries real: the exponential of a real
  is a positive real; the logarithm of a positive real is real; a sum along an axis of reals (from a real initial value) is
  real, and of positive reals from zero over a non-empty axis is positive; the maximum along a non-empty axis of reals, taken
  from minus infinity, is one of them; a finite float literal is a dyadic rational; a gather copies entries of its operand;
  a change of float format is the identity.  None of these facts reads an array at a particular index.
-/
import proofs.«164907_j26860725469614_1_alg».proof.Proof.LibRealClosed
import Idealize.ShloMosaic.PureOps.Reduce
import Idealize.ShloMosaic.PureOps.Ideal.Laws

noncomputable section

open scoped BigOperators

namespace Cert.LibRealHost

open Idealize.ShloMosaic Cert.LibRealClosed

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact (ne_of_gt hr) (EReal.coe_eq_zero.mp e)

/-- A real number above zero, as extended reals compare, is a positive real. -/
theorem isPos_of_isReal_of_pos {x : EReal} (h : IsReal x) (hp : 0 < x) : IsPos x := by
  obtain ⟨r, rfl⟩ := h
  exact ⟨r, EReal.coe_pos.mp hp, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A sum of positive reals over a non-empty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The larger of two reals is real. -/
theorem isReal_max {x y : EReal} (hx : IsReal x) (hy : IsReal y) : IsReal (max x y) := by
  rcases le_total x y with h | h
  · rw [max_eq_right h]; exact hy
  · rw [max_eq_left h]; exact hx

/-- The exponential of a real is a positive real. -/
theorem IsPos.exp {x : EReal} (hx : IsReal x) : IsPos (Ideal.exp x) := by
  obtain ⟨r, rfl⟩ := hx
  exact ⟨Real.exp r, Real.exp_pos r, rfl⟩

/-- The logarithm of a positive real is real. -/
theorem isReal_log {x : EReal} (hx : IsPos x) : IsReal (Ideal.log x) := by
  obtain ⟨r, hr, rfl⟩ := hx
  rw [Ideal.log_coe, if_neg (not_le.mpr hr)]
  exact ⟨_, rfl⟩

/-- A maximum from minus infinity over a finite set of reals is minus infinity on the empty set and real otherwise. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, e⟩ | hr
    · rw [e, max_eq_left bot_le]; exact h a (Finset.mem_insert_self a s)
    · exact isReal_max (h a (Finset.mem_insert_self a s)) hr

/-- A float32 pattern whose exponent field is not all ones denotes a real number (a dyadic rational). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- Every entry of the array is a positive real number. -/
def AllPos {S : Shape} {φ : FTy} (v : FVec Ideal S φ) : Prop := ∀ i, IsPos (v i)

variable {s t : Shape} {φ : FTy}

theorem AllPos.allReal {x : FVec Ideal s φ} (h : AllPos x) : AllReal x := fun i => (h i).isReal

/-- An array of reals each above zero is an array of positive reals. -/
theorem AllPos.of_pos {x : FVec Ideal s φ} (h : AllReal x) (hp : ∀ i, (0 : EReal) < x i) : AllPos x :=
  fun i => isPos_of_isReal_of_pos (h i) (hp i)

theorem AllPos.hostExp {x : FVec Ideal s φ} (hx : AllReal x) : AllPos (Host.exp x) := fun i => IsPos.exp (hx i)

theorem AllReal.hostLog {x : FVec Ideal s φ} (hx : AllPos x) : AllReal (Host.log x) := fun i => isReal_log (hx i)

theorem AllReal.maximumf {x y : FVec Ideal s φ} (hx : AllReal x) (hy : AllReal y) : AllReal (maximumf x y) :=
  fun i => isReal_max (hx i) (hy i)

/-- A change to a narrower float format is the identity on the extended reals. -/
theorem AllReal.truncf {ψ : FTy} {x : FVec Ideal s φ} (h : ψ.bits < φ.bits) (hx : AllReal x) :
    AllReal (φ := ψ) (truncf ψ x h) := fun i => hx i

/-- A gathered entry is an entry of the operand, whatever the indices. -/
theorem AllReal.gather {si : Shape} {w : Nat} (d : GatherDims s si t) {x : FVec Ideal s φ} (idx : IVec si w)
    (hx : AllReal x) : AllReal (φ := φ) (Host.gather d x idx) := fun _ => hx _

/-- A finite float32 literal splatted over a shape. -/
theorem AllReal.constant_f32 (b : BitVec 32) (h : (b.extractLsb' 23 8).toNat ≠ 2 ^ 8 - 1) :
    AllReal (constant (F := Ideal) s .f32 b) := fun _ => isReal_ofBits_f32 b h

/-- The host's sum along any axes of an array of reals, from a real initial value, is an array of reals. -/
theorem AllReal.hostReduceAdd {axes : List (Fin s.rank)} {u : Shape} {x : FVec Ideal s φ} {init : u.Idx → Ideal φ}
    (h : s.ReducesTo axes t) (hu : 0 < u.numel) (hx : AllReal x) (hi : ∀ i, IsReal (init i)) :
    AllReal (Host.reduceAdd x init h hu) := by
  intro j
  show IsReal (Ideal.hostReduceAdd h x (init (Shape.Idx.first hu)) j)
  unfold Ideal.hostReduceAdd
  exact (hi _).add (IsReal.sum _ _ fun i _ => hx i)

/-- The host's sum along ONE non-empty axis of an array of positive reals, from zero, is an array of positive reals. -/
theorem AllPos.hostReduceAdd_single {a : Fin s.rank} {u : Shape} {x : FVec Ideal s φ} {init : u.Idx → Ideal φ}
    (h' : s.ReducesTo [a] t) (h : s.Reduces [a] t) (hu : 0 < u.numel) (hn : 0 < s.size a) (hx : AllPos x)
    (hi : ∀ i, init i = 0) : AllPos (Host.reduceAdd x init h' hu) := by
  intro j
  show IsPos (Ideal.hostReduceAdd h' x (init (Shape.Idx.first hu)) j)
  rw [Ideal.hostReduceAdd_single h' h, hi, zero_add]
  haveI : Nonempty (Fin (s.size a)) := ⟨⟨0, hn⟩⟩
  exact IsPos.sum _ Finset.univ_nonempty _ fun k _ => hx _

/-- The host's maximum along ONE non-empty axis of an array of reals, taken from minus infinity, is an array of reals. -/
theorem AllReal.hostReduceMax_single {a : Fin s.rank} {u : Shape} {x : FVec Ideal s φ} {init : u.Idx → Ideal φ}
    (h' : s.ReducesTo [a] t) (h : s.Reduces [a] t) (hu : 0 < u.numel) (hn : 0 < s.size a) (hx : AllReal x)
    (hi : ∀ i, init i = ⊥) : AllReal (Host.reduce FloatOps.maximumf x init h' hu) := by
  intro j
  rw [Host.reduce_eq_fold_single FloatOps.maximumf x init h' h hu j, hi]
  haveI : Nonempty (Fin (s.size a)) := ⟨⟨0, hn⟩⟩
  rcases fold_max_bot (Finset.univ : Finset (Fin (s.size a))) (x ∘ h.lift j) (fun k _ => hx _) with ⟨e, _⟩ | hr
  · exact absurd e Finset.univ_nonempty.ne_empty
  · exact hr

end Cert.LibRealHost

end
-- ==== Proof.LibRealScatter.lean ====
/-
  The host's accumulating scatter keeps an array real.

  On the extended reals the accumulating scatter is exact: an entry of its result is the operand's entry there plus the
  sum of the update entries whose scattered position is that entry, an update that lands outside the operand adding
  nothing. So whatever the indices are, an entry of the result is a real number plus a finite sum of real numbers, hence
  real, as soon as every entry of the operand and of the updates is real. Generic in the shapes, the dimension numbers,
  the index width and the float format; no array is read at a particular index.
-/
import proofs.«164907_j26860725469614_1_alg».proof.Proof.LibRealClosed

noncomputable section

open scoped BigOperators

namespace Cert.LibRealScatter

open Idealize.ShloMosaic Cert.LibRealClosed

/-- An accumulating scatter of real updates into a real operand is real at every entry, whatever the indices. -/
theorem allReal_scatterAdd {s si su : Shape} {φ : FTy} {w : Nat} (d : ScatterDims s si su) {x : FVec Ideal s φ}
    (idx : IVec si w) {upd : FVec Ideal su φ} (hx : AllReal x) (hu : AllReal upd) :
    AllReal (Host.scatterAdd d x idx upd) := by
  intro i
  show IsReal (Ideal.hostScatterAdd d x idx upd i)
  unfold Ideal.hostScatterAdd
  exact (hx i).add (IsReal.sum _ _ fun j _ => hu j)

end Cert.LibRealScatter

end
-- ==== Proof.RefEdges.lean ====
/-
  The edge list read back: endpoints as nodes, normalised weights as real numbers.

  For index pairs that are nodes, the source and the target arrays hold, at a given edge, the input word (a node), and at
  a self loop its node; so each endpoint word read signed is the node that `srcF` / `dstF` name.  The degrees are sums
  of real weights; the reciprocal square root of a positive real is real and the guard puts zero elsewhere; a product of
  reals is real: so every normalised weight is a real number as soon as the given weights are.
-/
import proofs.«164907_j26860725469614_1_alg».proof.Proof.RefTerms
import proofs.«164907_j26860725469614_1_alg».proof.Proof.LibRealClosed
import proofs.«164907_j26860725469614_1_alg».proof.Proof.LibRealHost
import proofs.«164907_j26860725469614_1_alg».proof.Proof.LibRealScatter
import proofs.«164907_j26860725469614_1_alg».proof.Proof.Spec

set_option maxRecDepth 8192

noncomputable section

namespace Cert.Terms

open Idealize.ShloMosaic Idealize.ShloMosaic.ValueIdx Cert.Gcn Cert.LibRealClosed

/-! ## Reading the joined arrays -/

/-- An edge among the given ones reads the first piece. -/
theorem cat_apply_lt {α : Type} (a : SE0.Idx → α) (b : SN.Idx → α) (e : Fin 405504) (h : e.val < 393216) :
    concatenate SE 0 [⟨SE0, a⟩, ⟨SN, b⟩] concats (ix1 e) = a (ix1 ⟨e.val, h⟩) :=
  concatenate_pair_apply_left (0 : Fin SE.rank) a b concats (ix1 e) rfl (ix1 ⟨e.val, h⟩)
    (fun c => match c with | ⟨0, _⟩ => rfl)

/-- A self loop reads the second piece at its node. -/
theorem cat_apply_ge {α : Type} (a : SE0.Idx → α) (b : SN.Idx → α) (e : Fin 405504) (h : 393216 ≤ e.val) :
    concatenate SE 0 [⟨SE0, a⟩, ⟨SN, b⟩] concats (ix1 e) = b (ix1 ⟨e.val - 393216, by have := e.isLt; omega⟩) :=
  concatenate_pair_apply_right (0 : Fin SE.rank) a b concats (ix1 e) rfl rfl (ix1 ⟨e.val - 393216, by have := e.isLt; omega⟩)
    (fun c hc => match c, hc with | ⟨0, _⟩, hc => absurd rfl hc)
    (by show e.val - 393216 + 393216 = e.val; omega)

/-- Row `k` of the index pairs, flattened, at `i`. -/
theorem row0_apply (ei : IVec S2E0 32) (i : Fin 393216) :
    shapeCast SE0 (extractStridedSlice S1E0 ![0, 0] ei slices_0) casts_row (ix1 i) = ei (ix2 (0 : Fin 2) i) := by
  rw [shapeCast_apply _ casts_row (ix1 i) (ix2 (0 : Fin 1) i)
    (by rw [Shape.rowMajor_val_two, Shape.rowMajor_val_one]; show 0 * 393216 + i.val = i.val; omega)]
  exact extractStridedSlice_apply ![0, 0] ei slices_0 _ (ix2 (0 : Fin 2) i) (fun a => match a with
    | ⟨0, _⟩ => by show 0 = 0 + 0; rfl
    | ⟨1, _⟩ => by show i.val = 0 + i.val; omega)

theorem row1_apply (ei : IVec S2E0 32) (i : Fin 393216) :
    shapeCast SE0 (extractStridedSlice S1E0 ![1, 0] ei slices_1) casts_row (ix1 i) = ei (ix2 (1 : Fin 2) i) := by
  rw [shapeCast_apply _ casts_row (ix1 i) (ix2 (0 : Fin 1) i)
    (by rw [Shape.rowMajor_val_two, Shape.rowMajor_val_one]; show 0 * 393216 + i.val = i.val; omega)]
  exact extractStridedSlice_apply ![1, 0] ei slices_1 _ (ix2 (1 : Fin 2) i) (fun a => match a with
    | ⟨0, _⟩ => by show 1 = 1 + 0; rfl
    | ⟨1, _⟩ => by show i.val = 0 + i.val; omega)

theorem srcT_apply_lt (ei : IVec S2E0 32) (e : Fin 405504) (h : e.val < 393216) :
    srcT ei (ix1 e) = ei (ix2 (0 : Fin 2) ⟨e.val, h⟩) := by
  unfold srcT; rw [cat_apply_lt _ _ e h, row0_apply]

theorem dstT_apply_lt (ei : IVec S2E0 32) (e : Fin 405504) (h : e.val < 393216) :
    dstT ei (ix1 e) = ei (ix2 (1 : Fin 2) ⟨e.val, h⟩) := by
  unfold dstT; rw [cat_apply_lt _ _ e h, row1_apply]

theorem srcT_apply_ge (ei : IVec S2E0 32) (e : Fin 405504) (h : 393216 ≤ e.val) :
    srcT ei (ix1 e) = BitVec.ofNat 32 (e.val - 393216) := by
  unfold srcT; rw [cat_apply_ge _ _ e h]; rfl

theorem dstT_apply_ge (ei : IVec S2E0 32) (e : Fin 405504) (h : 393216 ≤ e.val) :
    dstT ei (ix1 e) = BitVec.ofNat 32 (e.val - 393216) := by
  unfold dstT; rw [cat_apply_ge _ _ e h]; rfl

/-! ## The endpoint words are the nodes `srcF`, `dstF` -/

/-- A word that read signed lies in the node range is, read signed, the node it names. -/
theorem toInt_eq_nodeOf (v : BitVec 32) (h0 : 0 ≤ v.toInt) (h1 : v.toInt < 12288) : v.toInt = ((nodeOf v).val : ℤ) := by
  have hv := v.isLt
  show v.toInt = ((v.toNat % 12288 : ℕ) : ℤ)
  rw [BitVec.toInt_eq_toNat_cond] at h0 h1 ⊢
  split at h0 <;> split <;> omega

theorem toInt_ofNat_node (i : ℕ) (h : i < 12288) : (BitVec.ofNat 32 i).toInt = ((nodeOf (BitVec.ofNat 32 i)).val : ℤ) :=
  toInt_eq_nodeOf _ (by rw [toInt_ofNat_small i (by omega)]; omega) (by rw [toInt_ofNat_small i (by omega)]; omega)

theorem srcT_toInt (ei : IVec S2E0 32) (h : InRange ei) (e : Fin 405504) :
    (srcT ei (ix1 e)).toInt = ((srcF ei e).val : ℤ) := by
  unfold srcF
  by_cases he : e.val < 393216
  · rw [srcT_apply_lt ei e he]; exact toInt_eq_nodeOf _ (h _).1 (h _).2
  · rw [srcT_apply_ge ei e (by omega)]; exact toInt_ofNat_node _ (by have := e.isLt; omega)

theorem dstT_toInt (ei : IVec S2E0 32) (h : InRange ei) (e : Fin 405504) :
    (dstT ei (ix1 e)).toInt = ((dstF ei e).val : ℤ) := by
  unfold dstF
  by_cases he : e.val < 393216
  · rw [dstT_apply_lt ei e he]; exact toInt_eq_nodeOf _ (h _).1 (h _).2
  · rw [dstT_apply_ge ei e (by omega)]; exact toInt_ofNat_node _ (by have := e.isLt; omega)

/-- A wrapped endpoint word of an in-range index array is the word itself. -/
theorem wrapT_apply (idx : IVec SE 32) (i : SE.Idx) : wrapT idx i = wrapIdx 12288#32 (idx i) := rfl

/-! ## The normalised weights are real numbers -/

theorem zero_allReal (t : Shape) (hb : S0.BroadcastsInDim t (![] : Fin 0 → Fin t.rank)) :
    AllReal (φ := .f32) (broadcastInDim t ![] hb (constant (F := Ideal) S0 .f32 0x00000000#32)) := by
  intro i
  show IsReal (Ideal.ofBits .f32 0x00000000#32)
  rw [Ideal.ofBits_zero_f32]; exact IsReal.zero

theorem wcatT_real (w : FVec Ideal SE0 .f32) (hw : AllReal w) : AllReal (wcatT (F := Ideal) w) := by
  unfold wcatT
  refine AllReal.concatenate _ _ _ ?_
  intro p hp i
  simp only [List.mem_cons, List.mem_nil_iff, or_false] at hp
  rcases hp with rfl | rfl
  · exact hw i
  · show IsReal (Ideal.ofBits .f32 0x3F800000#32)
    exact Cert.LibRealHost.isReal_ofBits_f32 _ (by decide)

theorem degT_real (ei : IVec S2E0 32) (w : FVec Ideal SE0 .f32) (hw : AllReal w) : AllReal (degT (F := Ideal) ei w) := by
  unfold degT
  apply Cert.LibRealScatter.allReal_scatterAdd
  · exact zero_allReal SN bc_N
  · exact wcatT_real w hw

/-- The guarded reciprocal square root of an array of reals is an array of reals. -/
theorem guarded_rsqrt_real {s : Shape} (deg z : FVec Ideal s .f32) (hdeg : AllReal deg) (hz : ∀ i, z i = 0) :
    AllReal (select (cmpf .ogt deg z) (Host.rsqrt deg) z) := by
  intro i
  obtain ⟨d, hd⟩ := hdeg i
  show IsReal (Scalar.select (Ideal.cmp .ogt (deg i) (z i)) (Ideal.rsqrt (deg i)) (z i))
  rw [hd, hz i]
  unfold Scalar.select
  split_ifs with hc
  · have hpos : (0 : EReal) < (d : EReal) := by
      by_contra hn
      have : Ideal.cmp .ogt (d : EReal) 0 = 0#1 := by
        show BitVec.ofBool (decide ((0 : EReal) < (d : EReal))) = 0#1
        rw [decide_eq_false hn]; rfl
      rw [this] at hc; exact absurd hc (by decide)
    have hd0 : 0 < d := EReal.coe_pos.mp hpos
    rw [Ideal.rsqrt_coe, if_neg (by linarith), if_neg (by linarith)]
    exact ⟨_, rfl⟩
  · exact IsReal.zero

theorem zero_apply (t : Shape) (hb : S0.BroadcastsInDim t (![] : Fin 0 → Fin t.rank)) (i : t.Idx) :
    broadcastInDim t ![] hb (constant (F := Ideal) S0 .f32 0x00000000#32) i = 0 := Ideal.ofBits_zero_f32

theorem dinvT_real (ei : IVec S2E0 32) (w : FVec Ideal SE0 .f32) (hw : AllReal w) : AllReal (dinvT (F := Ideal) ei w) := by
  unfold dinvT
  apply guarded_rsqrt_real
  · exact degT_real ei w hw
  · exact zero_apply SN bc_N

theorem normT_real (ei : IVec S2E0 32) (w : FVec Ideal SE0 .f32) (hw : AllReal w) : AllReal (normT (F := Ideal) ei w) := by
  unfold normT
  apply AllReal.mulf
  · apply AllReal.mulf
    · apply Cert.LibRealHost.AllReal.gather
      exact dinvT_real ei w hw
    · exact wcatT_real w hw
  · apply Cert.LibRealHost.AllReal.gather
    exact dinvT_real ei w hw

/-- Every normalised weight is a real number when the given weights are. -/
theorem nrmF_real (ei : IVec S2E0 32) (w : FVec Ideal SE0 .f32) (hw : ∀ i, Cert.Spec.IsReal (w i)) (e : Fin 405504) :
    Cert.Spec.IsReal (nrmF ei w e) :=
  normT_real ei w hw (ix1 e)

end Cert.Terms

end
-- ==== Proof.RefValue.lean ====
/-
  The reference's two results, entry by entry, are the network in the edge list form.

  The reference's program is a list of host operations; its results are the operations' composed terms of the
  arguments.  The first thirty-two operations compute the edge list and the normalised weights, which are the shared
  terms `srcT`, `dstT`, `normT`; then each of the five layers is, as a term, the layer term of the generic layer
  lemma, applied to the previous layer's array; the last operation is the product of the structure decoder's output
  with its transpose.  Read at an entry, for index pairs that are nodes, the results are the specification's
  `netSparse` at the edge endpoints `srcF`, `dstF` and weights `nrmF`.
-/
import proofs.«164907_j26860725469614_1_alg».proof.Proof.Gen.ReferenceIdeal.Read
import proofs.«164907_j26860725469614_1_alg».proof.Proof.RefLayer
import proofs.«164907_j26860725469614_1_alg».proof.Proof.RefEdges

noncomputable section

open scoped BigOperators

namespace Cert.ReferenceIdeal.RefValue

open Cert.ReferenceIdeal Idealize.ShloMosaic Idealize.ShloMosaic.ValueIdx Cert.Terms Cert.RefLayer

/-! ## The arguments as functions of finite indices -/

/-- A matrix argument and a vector argument read by coordinates. -/
def Mof {a b : Nat} (W : FVec Ideal ⟨2, ![a, b]⟩ .f32) : Fin a → Fin b → EReal := fun j q => W (ix2 j q)
def Vof {a : Nat} (v : FVec Ideal ⟨1, ![a]⟩ .f32) : Fin a → EReal := fun q => v (ix1 q)

/-- The node features. -/
def Xof (x0 : FVec Ideal S12288x512 .f32) : Fin 12288 → Fin 512 → EReal := Mof x0

/-- The ten weight and bias arguments as the specification's parameters. -/
def Pof (x3 : FVec Ideal S512x128 .f32) (x4 : FVec Ideal S128 .f32) (x5 : FVec Ideal S128x128 .f32) (x6 : FVec Ideal S128 .f32) (x7 : FVec Ideal S128x128 .f32) (x8 : FVec Ideal S128 .f32) (x9 : FVec Ideal S128x512 .f32) (x10 : FVec Ideal S512 .f32) (x11 : FVec Ideal S128x128 .f32) (x12 : FVec Ideal S128 .f32) : Cert.Spec.Params :=
  { W1 := Mof x3, b1 := Vof x4, W2 := Mof x5, b2 := Vof x6, Wa1 := Mof x7, ba1 := Vof x8, Wa2 := Mof x9, ba2 := Vof x10,
    Ws1 := Mof x11, bs1 := Vof x12 }

/-! ## The program's stages are the shared terms -/

section Terms
variable {F : FTy → Type} [FloatOps F]

set_option maxRecDepth 8192 in
theorem v3_eq (x1 : IVec S2x393216 32) : Read.val_main_v3 (F := F) x1 = srcT x1 := rfl
set_option maxRecDepth 8192 in
theorem v6_eq (x1 : IVec S2x393216 32) : Read.val_main_v6 (F := F) x1 = dstT x1 := rfl
set_option maxRecDepth 8192 in
theorem v31_eq (x1 : IVec S2x393216 32) (x2 : FVec F S393216 .f32) : Read.val_main_v31 (F := F) x1 x2 = normT x1 x2 := rfl

set_option maxRecDepth 8192 in
/-- The first encoder layer. -/
theorem v49_eq (x0 : FVec F S12288x512 .f32) (x1 : IVec S2x393216 32) (x2 : FVec F S393216 .f32) (x3 : FVec F S512x128 .f32) (x4 : FVec F S128 .f32) :
    Read.val_main_v49 (F := F) x0 x1 x2 x3 x4
      = layerT 512 128 Gen.gather_S12288x128_S405504x1_S405504x128_1_0_n_n_0_1_1128_wf Gen.scatter_S12288x128_S405504x1_S405504x128_1_0_0_1_wf
          dot_S12288x512_S512x128_S12288x128_1_0_0_1_n_n Gen.bcast_S_S12288x128 Gen.bcast_S405504x1_S405504x128_0_1 Gen.bcast_S128_S1x128_1 Gen.bcast_S1x128_S12288x128_0_1
          (normT x1 x2) (srcT x1) (dstT x1) x0 x3 x4 := rfl

set_option maxRecDepth 8192 in
/-- The second encoder layer. -/
theorem v67_eq (x0 : FVec F S12288x512 .f32) (x1 : IVec S2x393216 32) (x2 : FVec F S393216 .f32) (x3 : FVec F S512x128 .f32) (x4 : FVec F S128 .f32) (x5 : FVec F S128x128 .f32) (x6 : FVec F S128 .f32) :
    Read.val_main_v67 (F := F) x0 x1 x2 x3 x4 x5 x6
      = layerT 128 128 Gen.gather_S12288x128_S405504x1_S405504x128_1_0_n_n_0_1_1128_wf Gen.scatter_S12288x128_S405504x1_S405504x128_1_0_0_1_wf
          dot_S12288x128_S128x128_S12288x128_1_0_0_1_n_n Gen.bcast_S_S12288x128 Gen.bcast_S405504x1_S405504x128_0_1 Gen.bcast_S128_S1x128_1 Gen.bcast_S1x128_S12288x128_0_1
          (normT x1 x2) (srcT x1) (dstT x1) (Read.val_main_v49 (F := F) x0 x1 x2 x3 x4) x5 x6 := rfl

set_option maxRecDepth 8192 in
/-- The attribute decoder's first layer. -/
theorem v85_eq (x0 : FVec F S12288x512 .f32) (x1 : IVec S2x393216 32) (x2 : FVec F S393216 .f32) (x3 : FVec F S512x128 .f32) (x4 : FVec F S128 .f32) (x5 : FVec F S128x128 .f32) (x6 : FVec F S128 .f32) (x7 : FVec F S128x128 .f32) (x8 : FVec F S128 .f32) :
    Read.val_main_v85 (F := F) x0 x1 x2 x3 x4 x5 x6 x7 x8
      = layerT 128 128 Gen.gather_S12288x128_S405504x1_S405504x128_1_0_n_n_0_1_1128_wf Gen.scatter_S12288x128_S405504x1_S405504x128_1_0_0_1_wf
          dot_S12288x128_S128x128_S12288x128_1_0_0_1_n_n Gen.bcast_S_S12288x128 Gen.bcast_S405504x1_S405504x128_0_1 Gen.bcast_S128_S1x128_1 Gen.bcast_S1x128_S12288x128_0_1
          (normT x1 x2) (srcT x1) (dstT x1) (Read.val_main_v67 (F := F) x0 x1 x2 x3 x4 x5 x6) x7 x8 := rfl

set_option maxRecDepth 8192 in
/-- The attribute decoder's second layer. -/
theorem v103_eq (x0 : FVec F S12288x512 .f32) (x1 : IVec S2x393216 32) (x2 : FVec F S393216 .f32) (x3 : FVec F S512x128 .f32) (x4 : FVec F S128 .f32) (x5 : FVec F S128x128 .f32) (x6 : FVec F S128 .f32) (x7 : FVec F S128x128 .f32) (x8 : FVec F S128 .f32) (x9 : FVec F S128x512 .f32) (x10 : FVec F S512 .f32) :
    Read.val_main_v103 (F := F) x0 x1 x2 x3 x4 x5 x6 x7 x8 x9 x10
      = layerT 128 512 Gen.gather_S12288x512_S405504x1_S405504x512_1_0_n_n_0_1_1512_wf Gen.scatter_S12288x512_S405504x1_S405504x512_1_0_0_1_wf
          dot_S12288x128_S128x512_S12288x512_1_0_0_1_n_n Gen.bcast_S_S12288x512 Gen.bcast_S405504x1_S405504x512_0_1 Gen.bcast_S512_S1x512_1 Gen.bcast_S1x512_S12288x512_0_1
          (normT x1 x2) (srcT x1) (dstT x1) (Read.val_main_v85 (F := F) x0 x1 x2 x3 x4 x5 x6 x7 x8) x9 x10 := rfl

set_option maxRecDepth 8192 in
/-- The structure decoder's layer. -/
theorem v121_eq (x0 : FVec F S12288x512 .f32) (x1 : IVec S2x393216 32) (x2 : FVec F S393216 .f32) (x3 : FVec F S512x128 .f32) (x4 : FVec F S128 .f32) (x5 : FVec F S128x128 .f32) (x6 : FVec F S128 .f32) (x11 : FVec F S128x128 .f32) (x12 : FVec F S128 .f32) :
    Read.val_main_v121 (F := F) x0 x1 x2 x3 x4 x5 x6 x11 x12
      = layerT 128 128 Gen.gather_S12288x128_S405504x1_S405504x128_1_0_n_n_0_1_1128_wf Gen.scatter_S12288x128_S405504x1_S405504x128_1_0_0_1_wf
          dot_S12288x128_S128x128_S12288x128_1_0_0_1_n_n Gen.bcast_S_S12288x128 Gen.bcast_S405504x1_S405504x128_0_1 Gen.bcast_S128_S1x128_1 Gen.bcast_S1x128_S12288x128_0_1
          (normT x1 x2) (srcT x1) (dstT x1) (Read.val_main_v67 (F := F) x0 x1 x2 x3 x4 x5 x6) x11 x12 := rfl

end Terms

/-! ## The stages read at an entry -/

section Reads
variable (x0 : FVec Ideal S12288x512 .f32) (x1 : IVec S2x393216 32) (x2 : FVec Ideal S393216 .f32) (x3 : FVec Ideal S512x128 .f32) (x4 : FVec Ideal S128 .f32) (x5 : FVec Ideal S128x128 .f32) (x6 : FVec Ideal S128 .f32) (x7 : FVec Ideal S128x128 .f32) (x8 : FVec Ideal S128 .f32) (x9 : FVec Ideal S128x512 .f32) (x10 : FVec Ideal S512 .f32) (x11 : FVec Ideal S128x128 .f32) (x12 : FVec Ideal S128 .f32)
variable (hr : InRange x1)
include hr

/-- The four layers the two results are built from, at the specification's names. -/
theorem h1_apply (r : Fin 12288) (q : Fin 128) :
    Read.val_main_v49 (F := Ideal) x0 x1 x2 x3 x4 (ix2 r q)
      = Cert.Spec.sparseLayer (nrmF x1 x2) (srcF x1) (dstF x1) (Xof x0) (Mof x3) (Vof x4) r q := by
  rw [v49_eq]
  exact layerT_apply (by norm_num) _ _ _ rfl _ _ _ _ _ _ _ _ _ _ _ _ (srcT_toInt x1 hr) (dstT_toInt x1 hr) r q

theorem h2_apply (r : Fin 12288) (q : Fin 128) :
    Read.val_main_v67 (F := Ideal) x0 x1 x2 x3 x4 x5 x6 (ix2 r q)
      = Cert.Spec.sparseLayer (nrmF x1 x2) (srcF x1) (dstF x1)
          (Cert.Spec.sparseLayer (nrmF x1 x2) (srcF x1) (dstF x1) (Xof x0) (Mof x3) (Vof x4)) (Mof x5) (Vof x6) r q := by
  rw [v67_eq]
  exact layerT_step (by norm_num) _ _ _ rfl _ _ _ _ _ _ _ _ _ _ _ _ (srcT_toInt x1 hr) (dstT_toInt x1 hr) _
    (h1_apply x0 x1 x2 x3 x4 hr) r q

theorem xh_apply (r : Fin 12288) (q : Fin 128) :
    Read.val_main_v85 (F := Ideal) x0 x1 x2 x3 x4 x5 x6 x7 x8 (ix2 r q)
      = Cert.Spec.sparseLayer (nrmF x1 x2) (srcF x1) (dstF x1)
          (Cert.Spec.sparseLayer (nrmF x1 x2) (srcF x1) (dstF x1)
            (Cert.Spec.sparseLayer (nrmF x1 x2) (srcF x1) (dstF x1) (Xof x0) (Mof x3) (Vof x4)) (Mof x5) (Vof x6))
          (Mof x7) (Vof x8) r q := by
  rw [v85_eq]
  exact layerT_step (by norm_num) _ _ _ rfl _ _ _ _ _ _ _ _ _ _ _ _ (srcT_toInt x1 hr) (dstT_toInt x1 hr) _
    (h2_apply x0 x1 x2 x3 x4 x5 x6 hr) r q

theorem s_apply (r : Fin 12288) (q : Fin 128) :
    Read.val_main_v121 (F := Ideal) x0 x1 x2 x3 x4 x5 x6 x11 x12 (ix2 r q)
      = Cert.Spec.sparseLayer (nrmF x1 x2) (srcF x1) (dstF x1)
          (Cert.Spec.sparseLayer (nrmF x1 x2) (srcF x1) (dstF x1)
            (Cert.Spec.sparseLayer (nrmF x1 x2) (srcF x1) (dstF x1) (Xof x0) (Mof x3) (Vof x4)) (Mof x5) (Vof x6))
          (Mof x11) (Vof x12) r q := by
  rw [v121_eq]
  exact layerT_step (by norm_num) _ _ _ rfl _ _ _ _ _ _ _ _ _ _ _ _ (srcT_toInt x1 hr) (dstT_toInt x1 hr) _
    (h2_apply x0 x1 x2 x3 x4 x5 x6 hr) r q

/-- THE RECONSTRUCTED FEATURES: the reference's second result at (r, q). -/
theorem val_xhat (r : Fin 12288) (q : Fin 512) :
    Read.val_main_v103 (F := Ideal) x0 x1 x2 x3 x4 x5 x6 x7 x8 x9 x10 (ix2 r q)
      = (Cert.Spec.netSparse (nrmF x1 x2) (srcF x1) (dstF x1) (Xof x0) (Pof x3 x4 x5 x6 x7 x8 x9 x10 x11 x12)).xhat r q := by
  rw [v103_eq]
  exact layerT_step (by norm_num) _ _ _ rfl _ _ _ _ _ _ _ _ _ _ _ _ (srcT_toInt x1 hr) (dstT_toInt x1 hr) _
    (xh_apply x0 x1 x2 x3 x4 x5 x6 x7 x8 hr) r q

/-- THE RECONSTRUCTED ADJACENCY: the reference's first result at (r, r'). -/
theorem val_ahat (r r' : Fin 12288) :
    Read.val_main_v123 (F := Ideal) x0 x1 x2 x3 x4 x5 x6 x11 x12 (ix2 r r')
      = (Cert.Spec.netSparse (nrmF x1 x2) (srcF x1) (dstF x1) (Xof x0) (Pof x3 x4 x5 x6 x7 x8 x9 x10 x11 x12)).ahat r r' := by
  unfold Read.val_main_v123
  rw [Cert.LibHostReads.dot_apply dot_S12288x128_S128x12288_S12288x12288_1_0_0_1_n_n rfl]
  show _ = ∑ j : Fin 128, _ * _
  refine Finset.sum_congr rfl fun c _ => ?_
  rw [Read.val_main_v122_apply, s_apply x0 x1 x2 x3 x4 x5 x6 x11 x12 hr r c]
  have e : Read.idx_main_v122 (ix2 c r') = ix2 r' c := funext fun a => match a with
    | ⟨0, _⟩ => rfl
    | ⟨1, _⟩ => rfl
  rw [e, s_apply x0 x1 x2 x3 x4 x5 x6 x11 x12 hr r' c]
  rfl

end Reads

/-! ## The run's result terms -/

/-- The run's second result at (r, q), for a memory whose index pairs are nodes. -/
theorem ref_xhat (m : (ℓ : Loc nD τ sig) → Buf (Elt Ideal) ℓ) (c : Dev nD)
    (hr : InRange (m ((c.tc : Thread nD τ).loc main_arg1))) (r : Fin 12288) (q : Fin 512) :
    Value.res_out1 (F := Ideal) m c (ix2 r q)
      = (Cert.Spec.netSparse (nrmF (m ((c.tc : Thread nD τ).loc main_arg1)) (m ((c.tc : Thread nD τ).loc main_arg2)))
          (srcF (m ((c.tc : Thread nD τ).loc main_arg1))) (dstF (m ((c.tc : Thread nD τ).loc main_arg1)))
          (Xof (m ((c.tc : Thread nD τ).loc main_arg0)))
          (Pof (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11)) (m ((c.tc : Thread nD τ).loc main_arg12)))).xhat r q := by
  show Value.res_main_v103 (F := Ideal) m c (ix2 r q) = _
  rw [Read.val_main_v103_eq m c]
  exact val_xhat _ _ _ _ _ _ _ _ _ _ _ _ _ hr r q

/-- The run's first result at (r, r'), for a memory whose index pairs are nodes. -/
theorem ref_ahat (m : (ℓ : Loc nD τ sig) → Buf (Elt Ideal) ℓ) (c : Dev nD)
    (hr : InRange (m ((c.tc : Thread nD τ).loc main_arg1))) (r r' : Fin 12288) :
    Value.res_out0 (F := Ideal) m c (ix2 r r')
      = (Cert.Spec.netSparse (nrmF (m ((c.tc : Thread nD τ).loc main_arg1)) (m ((c.tc : Thread nD τ).loc main_arg2)))
          (srcF (m ((c.tc : Thread nD τ).loc main_arg1))) (dstF (m ((c.tc : Thread nD τ).loc main_arg1)))
          (Xof (m ((c.tc : Thread nD τ).loc main_arg0)))
          (Pof (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11)) (m ((c.tc : Thread nD τ).loc main_arg12)))).ahat r r' := by
  show Value.res_main_v123 (F := Ideal) m c (ix2 r r') = _
  rw [Read.val_main_v123_eq m c]
  exact val_ahat _ _ _ _ _ _ _ _ _ _ _ _ _ hr r r'

end Cert.ReferenceIdeal.RefValue

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.RefPre.lean ====
/-
  The precondition read back.

  The precondition is one bit: the conjunction, over the twelve float arguments, of "every entry has absolute value
  below +∞", and of "every index word, read signed, is at least 0 and below the number of nodes".  When the bit is 1
  every float entry is a real number and every index word is a node.
-/
import proofs.«164907_j26860725469614_1_alg».proof.Pre_finite_inputs
import proofs.«164907_j26860725469614_1_alg».proof.Proof.LibFiniteInputs
import proofs.«164907_j26860725469614_1_alg».proof.Proof.RefTerms
import proofs.«164907_j26860725469614_1_alg».proof.Proof.Spec
import Idealize.ShloMosaic.Lib.Affine

noncomputable section

namespace Cert.PreDecode

open Idealize.ShloMosaic Idealize.ShloMosaic.ValueIdx Cert.LibFiniteInputs Cert.Pre_finite_inputs

variable [Cert.Pre_finite_inputs.Facts]

/-- What the precondition says of the thirteen arguments. -/
structure Decoded (a0 : FVec Ideal S12288x512 .f32) (a1 : IVec S2x393216 32) (a2 : FVec Ideal S393216 .f32)
    (a3 : FVec Ideal S512x128 .f32) (a4 : FVec Ideal S128 .f32) (a5 : FVec Ideal S128x128 .f32) (a6 : FVec Ideal S128 .f32)
    (a7 : FVec Ideal S128x128 .f32) (a8 : FVec Ideal S128 .f32) (a9 : FVec Ideal S128x512 .f32) (a10 : FVec Ideal S512 .f32)
    (a11 : FVec Ideal S128x128 .f32) (a12 : FVec Ideal S128 .f32) : Prop where
  r0 : ∀ i, Cert.Spec.IsReal (a0 i)
  r2 : ∀ i, Cert.Spec.IsReal (a2 i)
  r3 : ∀ i, Cert.Spec.IsReal (a3 i)
  r4 : ∀ i, Cert.Spec.IsReal (a4 i)
  r5 : ∀ i, Cert.Spec.IsReal (a5 i)
  r6 : ∀ i, Cert.Spec.IsReal (a6 i)
  r7 : ∀ i, Cert.Spec.IsReal (a7 i)
  r8 : ∀ i, Cert.Spec.IsReal (a8 i)
  r9 : ∀ i, Cert.Spec.IsReal (a9 i)
  r10 : ∀ i, Cert.Spec.IsReal (a10 i)
  r11 : ∀ i, Cert.Spec.IsReal (a11 i)
  r12 : ∀ i, Cert.Spec.IsReal (a12 i)
  inRange : Cert.Terms.InRange a1

/-- The index part: a reduction by "and" of "0 ≤ word and word < 12288" that is 1 bounds every word. -/
theorem inRange_of_all (a1 : IVec S2x393216 32)
    (h : Host.reduce IntOp.andi
          (andi (cmpi .sge a1 (broadcastInDim S2x393216 ![] Facts.bcast_S_S2x393216 (constantI S_ 32 0#32)))
            (cmpi .slt a1 (broadcastInDim S2x393216 ![] Facts.bcast_S_S2x393216 (constantI S_ 32 12288#32))))
          (constantI S_ 1 1#1) Facts.reducesTo_S2x393216_S_d0_1 Facts.h_S_ ix0 = 1#1) :
    Cert.Terms.InRange a1 := by
  intro i
  have e := Host.reduce_andi_all _ _ Facts.reducesTo_S2x393216_S_d0_1 Facts.h_S_ ix0 h i
  have e' : IntOp.andi (IntOp.cmpi .sge (a1 i) 0#32) (IntOp.cmpi .slt (a1 i) 12288#32) = 1#1 := e
  rw [IntOp.andi_eq_one, IntOp.cmpi_sge, IntOp.cmpi_slt] at e'
  obtain ⟨e1, e2⟩ := e'
  exact ⟨by simpa using e1, by have : (12288#32 : BitVec 32).toInt = 12288 := by decide
                               omega⟩

/-- The precondition read back. -/
theorem decode (a0 : FVec Ideal S12288x512 .f32) (a1 : IVec S2x393216 32) (a2 : FVec Ideal S393216 .f32)
    (a3 : FVec Ideal S512x128 .f32) (a4 : FVec Ideal S128 .f32) (a5 : FVec Ideal S128x128 .f32) (a6 : FVec Ideal S128 .f32)
    (a7 : FVec Ideal S128x128 .f32) (a8 : FVec Ideal S128 .f32) (a9 : FVec Ideal S128x512 .f32) (a10 : FVec Ideal S512 .f32)
    (a11 : FVec Ideal S128x128 .f32) (a12 : FVec Ideal S128 .f32)
    (h : Cert.Pre_finite_inputs.fn (F := Ideal) a0 a1 a2 a3 a4 a5 a6 a7 a8 a9 a10 a11 a12 = fun _ => 1#1) :
    Decoded a0 a1 a2 a3 a4 a5 a6 a7 a8 a9 a10 a11 a12 := by
  have h0 := congrFun h ix0
  simp only [fn, fn_part1, fn_part2, fn_part3, andi, IntOp.andi_eq_one] at h0
  obtain ⟨⟨⟨⟨⟨⟨⟨⟨⟨⟨⟨⟨h0, h2⟩, h3⟩, h4⟩, h5⟩, h6⟩, h7⟩, h8⟩, h9⟩, h10⟩, h11⟩, h12⟩, h1⟩ := h0
  exact
    { r0 := real_of_all_finite a0 _ _ _ h0
      r2 := real_of_all_finite a2 _ _ _ h2
      r3 := real_of_all_finite a3 _ _ _ h3
      r4 := real_of_all_finite a4 _ _ _ h4
      r5 := real_of_all_finite a5 _ _ _ h5
      r6 := real_of_all_finite a6 _ _ _ h6
      r7 := real_of_all_finite a7 _ _ _ h7
      r8 := real_of_all_finite a8 _ _ _ h8
      r9 := real_of_all_finite a9 _ _ _ h9
      r10 := real_of_all_finite a10 _ _ _ h10
      r11 := real_of_all_finite a11 _ _ _ h11
      r12 := real_of_all_finite a12 _ _ _ h12
      inRange := inRange_of_all a1 h1 }

end Cert.PreDecode

end
-- ==== Proof.LawReal.lean ====
/-
  Real-valued extended reals.

  Every float of the idealized programs is an extended real; the arithmetic laws that the equivalence of the two
  network forms needs (distributivity, exchanging two finite sums) hold for real numbers only.  This file collects
  what is needed to move between the two: the coercion commutes with finite sums, and "is a real number" is closed
  under the operations the network uses.
-/
import Mathlib.Data.EReal.Basic
import Mathlib.Data.EReal.Operations
import Mathlib.Algebra.BigOperators.Fin
import proofs.«164907_j26860725469614_1_alg».proof.Proof.Spec

noncomputable section

namespace Cert.Law

open Cert.Spec
open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- The coercion commutes with a conditional whose other branch is zero. -/
theorem coe_ite_zero (c : Prop) [Decidable c] (a : ℝ) :
    ((if c then a else 0 : ℝ) : EReal) = if c then (a : EReal) else 0 := by
  split_ifs <;> simp

theorem isReal_coe (r : ℝ) : IsReal (r : EReal) := ⟨r, rfl⟩

theorem isReal_zero : IsReal (0 : EReal) := ⟨0, by simp⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is a real. -/
theorem isReal_max {x y : EReal} (hx : IsReal x) (hy : IsReal y) : IsReal (max x y) := by
  rcases le_total x y with h | h
  · rw [max_eq_right h]; exact hy
  · rw [max_eq_left h]; exact hx

theorem isReal_ite {c : Prop} [Decidable c] {x y : EReal} (hx : IsReal x) (hy : IsReal y) :
    IsReal (if c then x else y) := by
  split_ifs
  · exact hx
  · exact hy

/-- A finite sum of reals is a real. -/
theorem isReal_sum {ι : Type*} (s : Finset ι) (f : ι → EReal) (h : ∀ i ∈ s, IsReal (f i)) :
    IsReal (∑ i ∈ s, f i) := by
  classical
  revert h
  refine Finset.induction_on s ?_ ?_
  · intro _
    simpa using isReal_zero
  · intro a t ha ih h
    rw [Finset.sum_insert ha]
    exact isReal_add (h a (Finset.mem_insert_self a t)) (ih fun i hi => h i (Finset.mem_insert_of_mem hi))

/-- An entry of the product of two real matrices is real. -/
theorem isReal_xw {K H : ℕ} (X : Fin NN → Fin K → EReal) (W : Fin K → Fin H → EReal)
    (hX : ∀ s j, IsReal (X s j)) (hW : ∀ j q, IsReal (W j q)) (s : Fin NN) (q : Fin H) :
    IsReal (xw X W s q) :=
  isReal_sum _ _ fun j _ => isReal_mul (hX s j) (hW j q)

end Cert.Law

end
-- ==== Proof.LawDense.lean ====
/-
  One propagation layer: the dense form equals the edge list form.

  With A(r,s) = Σ_{e : dst e = r, src e = s} nrm e, the claim is

      Σ_s A(r,s) · y s  =  Σ_{e : dst e = r} nrm e · y (src e)

  for real edge weights `nrm` and real node values `y`.  In the reals: distribute `y s` into the inner sum, exchange
  the two sums, and for a fixed edge `e` the sum over `s` of  [dst e = r ∧ src e = s] · nrm e · y s  has the single
  non-zero term at s = src e.  The extended-real statement follows by choosing real witnesses and coercing.
-/
import proofs.«164907_j26860725469614_1_alg».proof.Proof.LawReal

noncomputable section

namespace Cert.Law

open Cert.Spec
open scoped BigOperators

/-- The identity in the reals, for any numbers of nodes and edges. -/
theorem real_dense_eq_sparse {N E : ℕ} (n : Fin E → ℝ) (src dst : Fin E → Fin N) (y : Fin N → ℝ) (r : Fin N) :
    (∑ s : Fin N, (∑ e : Fin E, if dst e = r ∧ src e = s then n e else 0) * y s)
      = ∑ e : Fin E, if dst e = r then n e * y (src e) else 0 := by
  simp_rw [Finset.sum_mul]
  rw [Finset.sum_comm]
  refine Finset.sum_congr rfl fun e _ => ?_
  by_cases h : dst e = r
  · simp only [h, true_and, if_true, ite_mul, zero_mul, Finset.sum_ite_eq, Finset.mem_univ]
  · simp only [h, false_and, if_false, zero_mul, Finset.sum_const_zero]

/-- The identity in the extended reals, for real edge weights and real node values. -/
theorem ereal_dense_eq_sparse {N E : ℕ} (nrm : Fin E → EReal) (src dst : Fin E → Fin N) (y : Fin N → EReal)
    (hn : ∀ e, IsReal (nrm e)) (hy : ∀ s, IsReal (y s)) (r : Fin N) :
    (∑ s : Fin N, (∑ e : Fin E, if dst e = r ∧ src e = s then nrm e else 0) * y s)
      = ∑ e : Fin E, if dst e = r then nrm e * y (src e) else 0 := by
  choose n hn' using hn
  choose yr hy' using hy
  have hA : ∀ s : Fin N, (∑ e : Fin E, if dst e = r ∧ src e = s then nrm e else 0)
      = ((∑ e : Fin E, if dst e = r ∧ src e = s then n e else 0 : ℝ) : EReal) := by
    intro s
    rw [coe_sum]
    refine Finset.sum_congr rfl fun e _ => ?_
    rw [coe_ite_zero, hn' e]
  have hL : (∑ s : Fin N, (∑ e : Fin E, if dst e = r ∧ src e = s then nrm e else 0) * y s)
      = ((∑ s : Fin N, (∑ e : Fin E, if dst e = r ∧ src e = s then n e else 0) * yr s : ℝ) : EReal) := by
    rw [coe_sum]
    refine Finset.sum_congr rfl fun s _ => ?_
    rw [EReal.coe_mul, hA s, hy' s]
  have hR : (∑ e : Fin E, if dst e = r then nrm e * y (src e) else 0)
      = ((∑ e : Fin E, if dst e = r then n e * yr (src e) else 0 : ℝ) : EReal) := by
    rw [coe_sum]
    refine Finset.sum_congr rfl fun e _ => ?_
    rw [coe_ite_zero, EReal.coe_mul, hn' e, hy' (src e)]
  rw [hL, hR, real_dense_eq_sparse]

/-- (L1) One layer: the dense form over the collected edge weights equals the edge list form, for real edge
    weights, real features and real weights; the bias is arbitrary. -/
theorem dense_eq_sparse {K H : ℕ} (nrm : Fin EE → EReal) (src dst : Fin EE → Fin NN)
    (X : Fin NN → Fin K → EReal) (W : Fin K → Fin H → EReal) (b : Fin H → EReal)
    (hn : ∀ e, IsReal (nrm e)) (hX : ∀ s j, IsReal (X s j)) (hW : ∀ j q, IsReal (W j q)) :
    denseLayer (adj nrm src dst) X W b = sparseLayer nrm src dst X W b := by
  funext r q
  unfold denseLayer sparseLayer adj
  rw [ereal_dense_eq_sparse nrm src dst (fun s => xw X W s q) hn (fun s => isReal_xw X W hX hW s q) r]

/-- (L2) Every entry of a layer in the edge list form is real, for real data. -/
theorem sparseLayer_real {K H : ℕ} (nrm : Fin EE → EReal) (src dst : Fin EE → Fin NN)
    (X : Fin NN → Fin K → EReal) (W : Fin K → Fin H → EReal) (b : Fin H → EReal)
    (hn : ∀ e, IsReal (nrm e)) (hX : ∀ s j, IsReal (X s j)) (hW : ∀ j q, IsReal (W j q))
    (hb : ∀ q, IsReal (b q)) (r : Fin NN) (q : Fin H) :
    IsReal (sparseLayer nrm src dst X W b r q) := by
  unfold sparseLayer
  refine isReal_max (isReal_add (isReal_sum _ _ fun e _ => ?_) (hb q)) isReal_zero
  exact isReal_ite (isReal_mul (hn e) (isReal_xw X W hX hW (src e) q)) isReal_zero

/-- (L2) Every entry of a layer in the dense form over the collected edge weights is real, for real data. -/
theorem denseLayer_real {K H : ℕ} (nrm : Fin EE → EReal) (src dst : Fin EE → Fin NN)
    (X : Fin NN → Fin K → EReal) (W : Fin K → Fin H → EReal) (b : Fin H → EReal)
    (hn : ∀ e, IsReal (nrm e)) (hX : ∀ s j, IsReal (X s j)) (hW : ∀ j q, IsReal (W j q))
    (hb : ∀ q, IsReal (b q)) (r : Fin NN) (q : Fin H) :
    IsReal (denseLayer (adj nrm src dst) X W b r q) := by
  rw [dense_eq_sparse nrm src dst X W b hn hX hW]
  exact sparseLayer_real nrm src dst X W b hn hX hW hb r q

/-- Every entry of the collected edge weight matrix is real. -/
theorem adj_real (nrm : Fin EE → EReal) (src dst : Fin EE → Fin NN) (hn : ∀ e, IsReal (nrm e))
    (r s : Fin NN) : IsReal (adj nrm src dst r s) := by
  unfold adj
  exact isReal_sum _ _ fun e _ => isReal_ite (hn e) isReal_zero

end Cert.Law

end
-- ==== Proof.LawNet.lean ====
/-
  The whole network: the dense form equals the edge list form.

  Layer by layer: the two forms of a layer agree on real inputs, and the output of a layer is again real, so the
  next layer receives equal real inputs.  The Gram matrix of equal arguments is equal.
-/
import proofs.«164907_j26860725469614_1_alg».proof.Proof.LawDense

noncomputable section

namespace Cert.Law

open Cert.Spec
open scoped BigOperators

/-- All weights and biases are real numbers. -/
structure ParamsReal (P : Params) : Prop where
  W1 : ∀ j q, IsReal (P.W1 j q)
  b1 : ∀ q, IsReal (P.b1 q)
  W2 : ∀ j q, IsReal (P.W2 j q)
  b2 : ∀ q, IsReal (P.b2 q)
  Wa1 : ∀ j q, IsReal (P.Wa1 j q)
  ba1 : ∀ q, IsReal (P.ba1 q)
  Wa2 : ∀ j q, IsReal (P.Wa2 j q)
  ba2 : ∀ q, IsReal (P.ba2 q)
  Ws1 : ∀ j q, IsReal (P.Ws1 j q)
  bs1 : ∀ q, IsReal (P.bs1 q)

/-- (L3) The network in the dense form over the collected edge weights equals the network in the edge list form,
    for real edge weights, real input features and real parameters. -/
theorem net_eq (nrm : Fin EE → EReal) (src dst : Fin EE → Fin NN) (X : Fin NN → Fin 512 → EReal) (P : Params)
    (hn : ∀ e, IsReal (nrm e)) (hX : ∀ s j, IsReal (X s j)) (hP : ParamsReal P) :
    netDense (adj nrm src dst) X P = netSparse nrm src dst X P := by
  unfold netDense netSparse net
  -- first encoder layer
  have e1 : denseLayer (adj nrm src dst) X P.W1 P.b1 = sparseLayer nrm src dst X P.W1 P.b1 :=
    dense_eq_sparse nrm src dst X P.W1 P.b1 hn hX hP.W1
  have r1 : ∀ s j, IsReal (sparseLayer nrm src dst X P.W1 P.b1 s j) :=
    sparseLayer_real nrm src dst X P.W1 P.b1 hn hX hP.W1 hP.b1
  -- second encoder layer
  have e2 : denseLayer (adj nrm src dst) (sparseLayer nrm src dst X P.W1 P.b1) P.W2 P.b2
      = sparseLayer nrm src dst (sparseLayer nrm src dst X P.W1 P.b1) P.W2 P.b2 :=
    dense_eq_sparse nrm src dst _ P.W2 P.b2 hn r1 hP.W2
  have r2 : ∀ s j, IsReal (sparseLayer nrm src dst (sparseLayer nrm src dst X P.W1 P.b1) P.W2 P.b2 s j) :=
    sparseLayer_real nrm src dst _ P.W2 P.b2 hn r1 hP.W2 hP.b2
  -- first attribute decoder layer
  have e3 : denseLayer (adj nrm src dst)
        (sparseLayer nrm src dst (sparseLayer nrm src dst X P.W1 P.b1) P.W2 P.b2) P.Wa1 P.ba1
      = sparseLayer nrm src dst
        (sparseLayer nrm src dst (sparseLayer nrm src dst X P.W1 P.b1) P.W2 P.b2) P.Wa1 P.ba1 :=
    dense_eq_sparse nrm src dst _ P.Wa1 P.ba1 hn r2 hP.Wa1
  have r3 : ∀ s j, IsReal (sparseLayer nrm src dst
        (sparseLayer nrm src dst (sparseLayer nrm src dst X P.W1 P.b1) P.W2 P.b2) P.Wa1 P.ba1 s j) :=
    sparseLayer_real nrm src dst _ P.Wa1 P.ba1 hn r2 hP.Wa1 hP.ba1
  -- second attribute decoder layer
  have e4 : denseLayer (adj nrm src dst)
        (sparseLayer nrm src dst
          (sparseLayer nrm src dst (sparseLayer nrm src dst X P.W1 P.b1) P.W2 P.b2) P.Wa1 P.ba1) P.Wa2 P.ba2
      = sparseLayer nrm src dst
        (sparseLayer nrm src dst
          (sparseLayer nrm src dst (sparseLayer nrm src dst X P.W1 P.b1) P.W2 P.b2) P.Wa1 P.ba1) P.Wa2 P.ba2 :=
    dense_eq_sparse nrm src dst _ P.Wa2 P.ba2 hn r3 hP.Wa2
  -- structure decoder layer
  have e5 : denseLayer (adj nrm src dst)
        (sparseLayer nrm src dst (sparseLayer nrm src dst X P.W1 P.b1) P.W2 P.b2) P.Ws1 P.bs1
      = sparseLayer nrm src dst
        (sparseLayer nrm src dst (sparseLayer nrm src dst X P.W1 P.b1) P.W2 P.b2) P.Ws1 P.bs1 :=
    dense_eq_sparse nrm src dst _ P.Ws1 P.bs1 hn r2 hP.Ws1
  simp only [e1, e2, e3, e4, e5]

/-- The two results of the network are real matrices. -/
theorem netSparse_xhat_real (nrm : Fin EE → EReal) (src dst : Fin EE → Fin NN) (X : Fin NN → Fin 512 → EReal)
    (P : Params) (hn : ∀ e, IsReal (nrm e)) (hX : ∀ s j, IsReal (X s j)) (hP : ParamsReal P)
    (r : Fin NN) (q : Fin 512) : IsReal ((netSparse nrm src dst X P).xhat r q) := by
  unfold netSparse net
  have r1 : ∀ s j, IsReal (sparseLayer nrm src dst X P.W1 P.b1 s j) :=
    sparseLayer_real nrm src dst X P.W1 P.b1 hn hX hP.W1 hP.b1
  have r2 : ∀ s j, IsReal (sparseLayer nrm src dst (sparseLayer nrm src dst X P.W1 P.b1) P.W2 P.b2 s j) :=
    sparseLayer_real nrm src dst _ P.W2 P.b2 hn r1 hP.W2 hP.b2
  have r3 : ∀ s j, IsReal (sparseLayer nrm src dst
        (sparseLayer nrm src dst (sparseLayer nrm src dst X P.W1 P.b1) P.W2 P.b2) P.Wa1 P.ba1 s j) :=
    sparseLayer_real nrm src dst _ P.Wa1 P.ba1 hn r2 hP.Wa1 hP.ba1
  exact sparseLayer_real nrm src dst _ P.Wa2 P.ba2 hn r3 hP.Wa2 hP.ba2 r q

end Cert.Law

end
-- ==== Proof.NetArgs.lean ====
/-
  The program's arguments as the specification's data: a matrix argument read by its two coordinates, a vector
  argument by its one, the node features, and the ten weight and bias arguments bundled as the parameters of the
  five layers.  Both programs receive the same arguments, so both sides of the claim are stated over these.
-/
import Idealize.ShloMosaic.PureOps.Ideal
import Idealize.ShloMosaic.Lib.ValueIdx
import proofs.«164907_j26860725469614_1_alg».proof.Proof.Spec

noncomputable section

namespace Cert.Args

open Idealize.ShloMosaic Idealize.ShloMosaic.ValueIdx

/-- A matrix argument and a vector argument read by coordinates. -/
def Mof {a b : Nat} (W : FVec Ideal ⟨2, ![a, b]⟩ .f32) : Fin a → Fin b → EReal := fun j q => W (ix2 j q)
def Vof {a : Nat} (v : FVec Ideal ⟨1, ![a]⟩ .f32) : Fin a → EReal := fun q => v (ix1 q)

/-- The node features. -/
def Xof (x0 : FVec Ideal ⟨2, ![12288, 512]⟩ .f32) : Fin 12288 → Fin 512 → EReal := Mof x0

/-- The ten weight and bias arguments as the specification's parameters. -/
def Pof (x3 : FVec Ideal ⟨2, ![512, 128]⟩ .f32) (x4 : FVec Ideal ⟨1, ![128]⟩ .f32)
    (x5 : FVec Ideal ⟨2, ![128, 128]⟩ .f32) (x6 : FVec Ideal ⟨1, ![128]⟩ .f32)
    (x7 : FVec Ideal ⟨2, ![128, 128]⟩ .f32) (x8 : FVec Ideal ⟨1, ![128]⟩ .f32)
    (x9 : FVec Ideal ⟨2, ![128, 512]⟩ .f32) (x10 : FVec Ideal ⟨1, ![512]⟩ .f32)
    (x11 : FVec Ideal ⟨2, ![128, 128]⟩ .f32) (x12 : FVec Ideal ⟨1, ![128]⟩ .f32) : Cert.Spec.Params :=
  { W1 := Mof x3, b1 := Vof x4, W2 := Mof x5, b2 := Vof x6, Wa1 := Mof x7, ba1 := Vof x8, Wa2 := Mof x9, ba2 := Vof x10,
    Ws1 := Mof x11, bs1 := Vof x12 }

end Cert.Args

end
-- ==== Proof.Algebraic.lean ====
/-
  The two programs end with equal results.

  The reference's results are the network in the edge list form (its run's composed terms read at an entry); the
  kernel's results are the network in the dense form over the collected edge weights; for real edge weights, features
  and parameters the two forms are equal.  The precondition makes every float input real and every index word a node,
  which is what the three facts need.  The kernel's run and its two result arrays enter here as hypotheses of the
  shapes the kernel side proves, so that the claim follows by instantiating them.
-/
import proofs.«164907_j26860725469614_1_alg».proof.Defs
import proofs.«164907_j26860725469614_1_alg».proof.Proof.Gen.KernelIdeal
import proofs.«164907_j26860725469614_1_alg».proof.Proof.Gen.Pre_finite_inputs
import proofs.«164907_j26860725469614_1_alg».proof.Proof.RefValue
import proofs.«164907_j26860725469614_1_alg».proof.Proof.RefPre
import proofs.«164907_j26860725469614_1_alg».proof.Proof.LawNet
import proofs.«164907_j26860725469614_1_alg».proof.Proof.NetArgs

noncomputable section

namespace Cert.Proof.Alg

open Idealize.ShloMosaic Idealize.SL.Sem Idealize.ShloMosaic.ValueIdx Cert.Terms Cert.Args

/-- The kernel's memories. -/
abbrev KMem : Type := (ℓ : Loc Cert.KernelIdeal.nD Cert.KernelIdeal.τ Cert.KernelIdeal.sig) → Buf (Elt Ideal) ℓ

/-- The two spellings of the arguments as the specification's data are the same functions. -/
theorem Xof_eq (x0 : FVec Ideal ⟨2, ![12288, 512]⟩ .f32) : Cert.ReferenceIdeal.RefValue.Xof x0 = Xof x0 := rfl
theorem Pof_eq (x3 : FVec Ideal ⟨2, ![512, 128]⟩ .f32) (x4 : FVec Ideal ⟨1, ![128]⟩ .f32)
    (x5 : FVec Ideal ⟨2, ![128, 128]⟩ .f32) (x6 : FVec Ideal ⟨1, ![128]⟩ .f32)
    (x7 : FVec Ideal ⟨2, ![128, 128]⟩ .f32) (x8 : FVec Ideal ⟨1, ![128]⟩ .f32)
    (x9 : FVec Ideal ⟨2, ![128, 512]⟩ .f32) (x10 : FVec Ideal ⟨1, ![512]⟩ .f32)
    (x11 : FVec Ideal ⟨2, ![128, 128]⟩ .f32) (x12 : FVec Ideal ⟨1, ![128]⟩ .f32) :
    Cert.ReferenceIdeal.RefValue.Pof x3 x4 x5 x6 x7 x8 x9 x10 x11 x12 = Pof x3 x4 x5 x6 x7 x8 x9 x10 x11 x12 := rfl

/-- The network in the dense form at the kernel's arguments on core `c`. -/
def netK (m : KMem) (c : Dev Cert.KernelIdeal.nD) : Cert.Spec.Out :=
  (Cert.Spec.netDense
      (Cert.Spec.adj (nrmF (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (srcF (m ((c.tc : Thread Cert.KernelIdeal.nD Cert.KernelIdeal.τ).loc Cert.KernelIdeal.main_arg1))) (dstF (m ((c.tc : Thread Cert.KernelIdeal.nD Cert.KernelIdeal.τ).loc Cert.KernelIdeal.main_arg1))))
      (Xof (m ((c.tc : Thread Cert.KernelIdeal.nD Cert.KernelIdeal.τ).loc Cert.KernelIdeal.main_arg0)))
      (Pof (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))))

/-- The same in the edge list form. -/
def netS (m : KMem) (c : Dev Cert.KernelIdeal.nD) : Cert.Spec.Out :=
  (Cert.Spec.netSparse
      (nrmF (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (srcF (m ((c.tc : Thread Cert.KernelIdeal.nD Cert.KernelIdeal.τ).loc Cert.KernelIdeal.main_arg1))) (dstF (m ((c.tc : Thread Cert.KernelIdeal.nD Cert.KernelIdeal.τ).loc Cert.KernelIdeal.main_arg1)))
      (Xof (m ((c.tc : Thread Cert.KernelIdeal.nD Cert.KernelIdeal.τ).loc Cert.KernelIdeal.main_arg0)))
      (Pof (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))))

/-- Under the precondition the dense form and the edge list form agree, and the index pairs are nodes. -/
theorem netK_eq_netS (m : KMem) (hpre : Cert.Pre_KernelIdeal (hPre_finite_inputs := Cert.Pre_finite_inputs.Gen.facts) m)
    (c : Dev Cert.KernelIdeal.nD) : netK m c = netS m c ∧ InRange (m ((c.tc : Thread Cert.KernelIdeal.nD Cert.KernelIdeal.τ).loc Cert.KernelIdeal.main_arg1)) := by
  have d := Cert.PreDecode.decode _ _ _ _ _ _ _ _ _ _ _ _ _ (hpre c)
  refine ⟨?_, d.inRange⟩
  unfold netK netS
  exact Cert.Law.net_eq _ _ _ _ _ (nrmF_real _ _ d.r2) (fun s j => d.r0 (ix2 s j))
    { W1 := fun j q => d.r3 (ix2 j q), b1 := fun q => d.r4 (ix1 q), W2 := fun j q => d.r5 (ix2 j q), b2 := fun q => d.r6 (ix1 q),
      Wa1 := fun j q => d.r7 (ix2 j q), ba1 := fun q => d.r8 (ix1 q), Wa2 := fun j q => d.r9 (ix2 j q),
      ba2 := fun q => d.r10 (ix1 q), Ws1 := fun j q => d.r11 (ix2 j q), bs1 := fun q => d.r12 (ix1 q) }

/-- THE ALGEBRAIC CLAIM from the kernel side's three facts: its run ends with the result arrays `Kahat`, `Kxhat` and
    unchanged arguments, and the two arrays are, entry by entry, the network in the dense form. -/
theorem algebraic_of
    (Kahat : (m : KMem) → (ρ : Dev Cert.KernelIdeal.nD → PrngReg) → (c : Dev Cert.KernelIdeal.nD) → Buf (Elt Ideal) ((c.tc : Thread Cert.KernelIdeal.nD Cert.KernelIdeal.τ).loc Cert.KernelIdeal.main_v69))
    (Kxhat : (m : KMem) → (ρ : Dev Cert.KernelIdeal.nD → PrngReg) → (c : Dev Cert.KernelIdeal.nD) → Buf (Elt Ideal) ((c.tc : Thread Cert.KernelIdeal.nD Cert.KernelIdeal.τ).loc Cert.KernelIdeal.main_v63))
    (hrun : ∀ (m : KMem) (ρ : Dev Cert.KernelIdeal.nD → PrngReg),
      Cert.Pre_KernelIdeal (hPre_finite_inputs := Cert.Pre_finite_inputs.Gen.facts) m →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v69) = Kahat m ρ c
        ∧ r.2.mem ((c.tc : Thread Cert.KernelIdeal.nD Cert.KernelIdeal.τ).loc Cert.KernelIdeal.main_v63) = Kxhat m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)))
    (hval_a : ∀ (m : KMem) (ρ : Dev Cert.KernelIdeal.nD → PrngReg) (c : Dev Cert.KernelIdeal.nD), InRange (m ((c.tc : Thread Cert.KernelIdeal.nD Cert.KernelIdeal.τ).loc Cert.KernelIdeal.main_arg1)) →
      ∀ r r' : Fin 12288, Kahat m ρ c (ix2 r r') = (netK m c).ahat r r')
    (hval_x : ∀ (m : KMem) (ρ : Dev Cert.KernelIdeal.nD → PrngReg) (c : Dev Cert.KernelIdeal.nD), InRange (m ((c.tc : Thread Cert.KernelIdeal.nD Cert.KernelIdeal.τ).loc Cert.KernelIdeal.main_arg1)) →
      ∀ (r : Fin 12288) (q : Fin 512), Kxhat m ρ c (ix2 r q) = (netK m c).xhat r q) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Kahat m ρ c, fun c => Kxhat m ρ c, hrun m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the reconstructed adjacency
    obtain ⟨e0, e1, e2, e3, e4, e5, e6, e7, e8, e9, e10, e11, e12⟩ := hagree c
    obtain ⟨hnet, hr⟩ := netK_eq_netS m hpre c
    rw [Cert.ReferenceIdeal.Read.val_main_v123_eq m' c, e0, e1, e2, e3, e4, e5, e6, e11, e12]
    funext i
    obtain ⟨r, r', rfl⟩ : ∃ r r' : Fin 12288, i = ix2 r r' := ⟨i 0, i 1, eq_ix2 i⟩
    show _ = Kahat m ρ c (ix2 r r')
    rw [hval_a m ρ c hr r r', hnet]
    have hv := Cert.ReferenceIdeal.RefValue.val_ahat
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) hr r r'
    rw [Xof_eq, Pof_eq] at hv
    exact hv
  · -- the reconstructed features
    obtain ⟨e0, e1, e2, e3, e4, e5, e6, e7, e8, e9, e10, e11, e12⟩ := hagree c
    obtain ⟨hnet, hr⟩ := netK_eq_netS m hpre c
    rw [Cert.ReferenceIdeal.Read.val_main_v103_eq m' c, e0, e1, e2, e3, e4, e5, e6, e7, e8, e9, e10]
    funext i
    obtain ⟨r, q, rfl⟩ : ∃ (r : Fin 12288) (q : Fin 512), i = ix2 r q := ⟨i 0, i 1, eq_ix2 i⟩
    show _ = Kxhat m ρ c (ix2 r q)
    rw [hval_x m ρ c hr r q, hnet]
    have hv := Cert.ReferenceIdeal.RefValue.val_xhat
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) hr r q
    rw [Xof_eq, Pof_eq] at hv
    exact hv

end Cert.Proof.Alg

end
-- ==== Proof.KI.ChainVals.lean ====
import proofs.«164907_j26860725469614_1_alg».proof.Proof.KI.ChainFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Reg0 (F := F)) (R1 : Reg1 (F := F)) (R2 : Reg2 (F := F)) (R3 : Reg3 (F := F)) (R4 : Reg4 (F := F)) (R5 : Reg5 (F := F))

/-! # What the boundaries' contents hold

Each layer's output array at the layer's exit is what its write-backs leave; its input arrays are as entered; a short
stretch's results are its operations applied to what the boundary before it holds. -/

/-! ## A layer's exit: the output as written, the inputs as entered -/

theorem W4_main_v51 (c : Dev nD) : W4 m ρ R0 c main_v51 = (R0.dat (V3 m ρ) c).arrAt 4 cfg0.N :=
  W4_arr m ρ R0 c 4
theorem W4_main_v47 (c : Dev nD) : W4 m ρ R0 c main_v47 = W3 m ρ c main_v47 :=
  (W4_arr m ρ R0 c 0).trans (((R0.dat (V3 m ρ) c).arrAt_in 0 rfl _).trans (R0.A_eq (V3 m ρ) c 0))
theorem W4_main_v48 (c : Dev nD) : W4 m ρ R0 c main_v48 = W3 m ρ c main_v48 :=
  (W4_arr m ρ R0 c 1).trans (((R0.dat (V3 m ρ) c).arrAt_in 1 rfl _).trans (R0.A_eq (V3 m ρ) c 1))
theorem W4_main_v49 (c : Dev nD) : W4 m ρ R0 c main_v49 = W3 m ρ c main_v49 :=
  (W4_arr m ρ R0 c 2).trans (((R0.dat (V3 m ρ) c).arrAt_in 2 rfl _).trans (R0.A_eq (V3 m ρ) c 2))
theorem W4_main_v50 (c : Dev nD) : W4 m ρ R0 c main_v50 = W3 m ρ c main_v50 :=
  (W4_arr m ρ R0 c 3).trans (((R0.dat (V3 m ρ) c).arrAt_in 3 rfl _).trans (R0.A_eq (V3 m ρ) c 3))

theorem W6_main_v55 (c : Dev nD) : W6 m ρ R0 R1 c main_v55 = (R1.dat (V5 m ρ R0) c).arrAt 4 cfg1.N :=
  W6_arr m ρ R0 R1 c 4
theorem W6_main_v47 (c : Dev nD) : W6 m ρ R0 R1 c main_v47 = W5 m ρ R0 c main_v47 :=
  (W6_arr m ρ R0 R1 c 0).trans (((R1.dat (V5 m ρ R0) c).arrAt_in 0 rfl _).trans (R1.A_eq (V5 m ρ R0) c 0))
theorem W6_main_v52 (c : Dev nD) : W6 m ρ R0 R1 c main_v52 = W5 m ρ R0 c main_v52 :=
  (W6_arr m ρ R0 R1 c 1).trans (((R1.dat (V5 m ρ R0) c).arrAt_in 1 rfl _).trans (R1.A_eq (V5 m ρ R0) c 1))
theorem W6_main_v53 (c : Dev nD) : W6 m ρ R0 R1 c main_v53 = W5 m ρ R0 c main_v53 :=
  (W6_arr m ρ R0 R1 c 2).trans (((R1.dat (V5 m ρ R0) c).arrAt_in 2 rfl _).trans (R1.A_eq (V5 m ρ R0) c 2))
theorem W6_main_v54 (c : Dev nD) : W6 m ρ R0 R1 c main_v54 = W5 m ρ R0 c main_v54 :=
  (W6_arr m ρ R0 R1 c 3).trans (((R1.dat (V5 m ρ R0) c).arrAt_in 3 rfl _).trans (R1.A_eq (V5 m ρ R0) c 3))

theorem W8_main_v59 (c : Dev nD) : W8 m ρ R0 R1 R2 c main_v59 = (R2.dat (V7 m ρ R0 R1) c).arrAt 4 cfg2.N :=
  W8_arr m ρ R0 R1 R2 c 4
theorem W8_main_v47 (c : Dev nD) : W8 m ρ R0 R1 R2 c main_v47 = W7 m ρ R0 R1 c main_v47 :=
  (W8_arr m ρ R0 R1 R2 c 0).trans (((R2.dat (V7 m ρ R0 R1) c).arrAt_in 0 rfl _).trans (R2.A_eq (V7 m ρ R0 R1) c 0))
theorem W8_main_v56 (c : Dev nD) : W8 m ρ R0 R1 R2 c main_v56 = W7 m ρ R0 R1 c main_v56 :=
  (W8_arr m ρ R0 R1 R2 c 1).trans (((R2.dat (V7 m ρ R0 R1) c).arrAt_in 1 rfl _).trans (R2.A_eq (V7 m ρ R0 R1) c 1))
theorem W8_main_v57 (c : Dev nD) : W8 m ρ R0 R1 R2 c main_v57 = W7 m ρ R0 R1 c main_v57 :=
  (W8_arr m ρ R0 R1 R2 c 2).trans (((R2.dat (V7 m ρ R0 R1) c).arrAt_in 2 rfl _).trans (R2.A_eq (V7 m ρ R0 R1) c 2))
theorem W8_main_v58 (c : Dev nD) : W8 m ρ R0 R1 R2 c main_v58 = W7 m ρ R0 R1 c main_v58 :=
  (W8_arr m ρ R0 R1 R2 c 3).trans (((R2.dat (V7 m ρ R0 R1) c).arrAt_in 3 rfl _).trans (R2.A_eq (V7 m ρ R0 R1) c 3))

theorem W10_main_v63 (c : Dev nD) : W10 m ρ R0 R1 R2 R3 c main_v63 = (R3.dat (V9 m ρ R0 R1 R2) c).arrAt 4 cfg3.N :=
  W10_arr m ρ R0 R1 R2 R3 c 4
theorem W10_main_v47 (c : Dev nD) : W10 m ρ R0 R1 R2 R3 c main_v47 = W9 m ρ R0 R1 R2 c main_v47 :=
  (W10_arr m ρ R0 R1 R2 R3 c 0).trans (((R3.dat (V9 m ρ R0 R1 R2) c).arrAt_in 0 rfl _).trans (R3.A_eq (V9 m ρ R0 R1 R2) c 0))
theorem W10_main_v60 (c : Dev nD) : W10 m ρ R0 R1 R2 R3 c main_v60 = W9 m ρ R0 R1 R2 c main_v60 :=
  (W10_arr m ρ R0 R1 R2 R3 c 1).trans (((R3.dat (V9 m ρ R0 R1 R2) c).arrAt_in 1 rfl _).trans (R3.A_eq (V9 m ρ R0 R1 R2) c 1))
theorem W10_main_v61 (c : Dev nD) : W10 m ρ R0 R1 R2 R3 c main_v61 = W9 m ρ R0 R1 R2 c main_v61 :=
  (W10_arr m ρ R0 R1 R2 R3 c 2).trans (((R3.dat (V9 m ρ R0 R1 R2) c).arrAt_in 2 rfl _).trans (R3.A_eq (V9 m ρ R0 R1 R2) c 2))
theorem W10_main_v62 (c : Dev nD) : W10 m ρ R0 R1 R2 R3 c main_v62 = W9 m ρ R0 R1 R2 c main_v62 :=
  (W10_arr m ρ R0 R1 R2 R3 c 3).trans (((R3.dat (V9 m ρ R0 R1 R2) c).arrAt_in 3 rfl _).trans (R3.A_eq (V9 m ρ R0 R1 R2) c 3))

theorem W12_main_v67 (c : Dev nD) : W12 m ρ R0 R1 R2 R3 R4 c main_v67 = (R4.dat (V11 m ρ R0 R1 R2 R3) c).arrAt 4 cfg4.N :=
  W12_arr m ρ R0 R1 R2 R3 R4 c 4
theorem W12_main_v47 (c : Dev nD) : W12 m ρ R0 R1 R2 R3 R4 c main_v47 = W11 m ρ R0 R1 R2 R3 c main_v47 :=
  (W12_arr m ρ R0 R1 R2 R3 R4 c 0).trans (((R4.dat (V11 m ρ R0 R1 R2 R3) c).arrAt_in 0 rfl _).trans (R4.A_eq (V11 m ρ R0 R1 R2 R3) c 0))
theorem W12_main_v64 (c : Dev nD) : W12 m ρ R0 R1 R2 R3 R4 c main_v64 = W11 m ρ R0 R1 R2 R3 c main_v64 :=
  (W12_arr m ρ R0 R1 R2 R3 R4 c 1).trans (((R4.dat (V11 m ρ R0 R1 R2 R3) c).arrAt_in 1 rfl _).trans (R4.A_eq (V11 m ρ R0 R1 R2 R3) c 1))
theorem W12_main_v65 (c : Dev nD) : W12 m ρ R0 R1 R2 R3 R4 c main_v65 = W11 m ρ R0 R1 R2 R3 c main_v65 :=
  (W12_arr m ρ R0 R1 R2 R3 R4 c 2).trans (((R4.dat (V11 m ρ R0 R1 R2 R3) c).arrAt_in 2 rfl _).trans (R4.A_eq (V11 m ρ R0 R1 R2 R3) c 2))
theorem W12_main_v66 (c : Dev nD) : W12 m ρ R0 R1 R2 R3 R4 c main_v66 = W11 m ρ R0 R1 R2 R3 c main_v66 :=
  (W12_arr m ρ R0 R1 R2 R3 R4 c 3).trans (((R4.dat (V11 m ρ R0 R1 R2 R3) c).arrAt_in 3 rfl _).trans (R4.A_eq (V11 m ρ R0 R1 R2 R3) c 3))

/-! ## The normalised adjacency matrix, cast once before the first layer, is what every layer reads -/
theorem W5_main_v47 (c : Dev nD) : W5 m ρ R0 c main_v47 = W3 m ρ c main_v47 :=
  (W5_of m ρ R0 c main_v47 (by decide)).trans <| (W4_main_v47 m ρ R0 c)
theorem W7_main_v47 (c : Dev nD) : W7 m ρ R0 R1 c main_v47 = W3 m ρ c main_v47 :=
  (W7_of m ρ R0 R1 c main_v47 (by decide)).trans <| (W6_main_v47 m ρ R0 R1 c).trans (W5_main_v47 m ρ R0 c)
theorem W9_main_v47 (c : Dev nD) : W9 m ρ R0 R1 R2 c main_v47 = W3 m ρ c main_v47 :=
  (W9_of m ρ R0 R1 R2 c main_v47 (by decide)).trans <| (W8_main_v47 m ρ R0 R1 R2 c).trans (W7_main_v47 m ρ R0 R1 c)
theorem W11_main_v47 (c : Dev nD) : W11 m ρ R0 R1 R2 R3 c main_v47 = W3 m ρ c main_v47 :=
  (W11_of m ρ R0 R1 R2 R3 c main_v47 (by decide)).trans <| (W10_main_v47 m ρ R0 R1 R2 R3 c).trans (W9_main_v47 m ρ R0 R1 R2 c)

/-! ## The second layer's result feeds the decoder's first layer and, later, the structure head: untouched in between -/
theorem W10_main_v55 (c : Dev nD) : W10 m ρ R0 R1 R2 R3 c main_v55 = W6 m ρ R0 R1 c main_v55 :=
  (W10_of_ne m ρ R0 R1 R2 R3 c main_v55 (by decide)).trans <| (W9_of m ρ R0 R1 R2 c main_v55 (by decide)).trans <|
  (W8_of_ne m ρ R0 R1 R2 c main_v55 (by decide)).trans <| (W7_of m ρ R0 R1 c main_v55 (by decide))

/-! ## The decoder's result reaches the end as its layer left it -/
theorem W14_main_v63 (c : Dev nD) : W14 m ρ R0 R1 R2 R3 R4 R5 c main_v63 = (R3.dat (V9 m ρ R0 R1 R2) c).arrAt 4 cfg3.N :=
  (W14_of m ρ R0 R1 R2 R3 R4 R5 c main_v63 (by decide)).trans <| (W13_of m ρ R0 R1 R2 R3 R4 c main_v63 (by decide)).trans <|
  (W12_of_ne m ρ R0 R1 R2 R3 R4 c main_v63 (by decide)).trans <| (W11_of m ρ R0 R1 R2 R3 c main_v63 (by decide)).trans <|
  W10_main_v63 m ρ R0 R1 R2 R3 c

/-! ## The arguments at the boundaries the stretches read them from -/
theorem W2_main_arg0 (c : Dev nD) : W2 m ρ c main_arg0 = m ((c : Thread nD τ).loc main_arg0) :=
  (W2_of m ρ c main_arg0 (by decide)).trans <| (W1_of m ρ c main_arg0 (by decide)).trans rfl
theorem W2_main_arg3 (c : Dev nD) : W2 m ρ c main_arg3 = m ((c : Thread nD τ).loc main_arg3) :=
  (W2_of m ρ c main_arg3 (by decide)).trans <| (W1_of m ρ c main_arg3 (by decide)).trans rfl
theorem W2_main_arg4 (c : Dev nD) : W2 m ρ c main_arg4 = m ((c : Thread nD τ).loc main_arg4) :=
  (W2_of m ρ c main_arg4 (by decide)).trans <| (W1_of m ρ c main_arg4 (by decide)).trans rfl
theorem W4_main_arg5 (c : Dev nD) : W4 m ρ R0 c main_arg5 = m ((c : Thread nD τ).loc main_arg5) :=
  (W4_of_ne m ρ R0 c main_arg5 (by decide)).trans <| (W3_of m ρ c main_arg5 (by decide)).trans <| (W2_of m ρ c main_arg5 (by decide)).trans <| (W1_of m ρ c main_arg5 (by decide)).trans rfl
theorem W4_main_arg6 (c : Dev nD) : W4 m ρ R0 c main_arg6 = m ((c : Thread nD τ).loc main_arg6) :=
  (W4_of_ne m ρ R0 c main_arg6 (by decide)).trans <| (W3_of m ρ c main_arg6 (by decide)).trans <| (W2_of m ρ c main_arg6 (by decide)).trans <| (W1_of m ρ c main_arg6 (by decide)).trans rfl
theorem W6_main_arg7 (c : Dev nD) : W6 m ρ R0 R1 c main_arg7 = m ((c : Thread nD τ).loc main_arg7) :=
  (W6_of_ne m ρ R0 R1 c main_arg7 (by decide)).trans <| (W5_of m ρ R0 c main_arg7 (by decide)).trans <| (W4_of_ne m ρ R0 c main_arg7 (by decide)).trans <| (W3_of m ρ c main_arg7 (by decide)).trans <| (W2_of m ρ c main_arg7 (by decide)).trans <| (W1_of m ρ c main_arg7 (by decide)).trans rfl
theorem W6_main_arg8 (c : Dev nD) : W6 m ρ R0 R1 c main_arg8 = m ((c : Thread nD τ).loc main_arg8) :=
  (W6_of_ne m ρ R0 R1 c main_arg8 (by decide)).trans <| (W5_of m ρ R0 c main_arg8 (by decide)).trans <| (W4_of_ne m ρ R0 c main_arg8 (by decide)).trans <| (W3_of m ρ c main_arg8 (by decide)).trans <| (W2_of m ρ c main_arg8 (by decide)).trans <| (W1_of m ρ c main_arg8 (by decide)).trans rfl
theorem W8_main_arg9 (c : Dev nD) : W8 m ρ R0 R1 R2 c main_arg9 = m ((c : Thread nD τ).loc main_arg9) :=
  (W8_of_ne m ρ R0 R1 R2 c main_arg9 (by decide)).trans <| (W7_of m ρ R0 R1 c main_arg9 (by decide)).trans <| (W6_of_ne m ρ R0 R1 c main_arg9 (by decide)).trans <| (W5_of m ρ R0 c main_arg9 (by decide)).trans <| (W4_of_ne m ρ R0 c main_arg9 (by decide)).trans <| (W3_of m ρ c main_arg9 (by decide)).trans <| (W2_of m ρ c main_arg9 (by decide)).trans <| (W1_of m ρ c main_arg9 (by decide)).trans rfl
theorem W8_main_arg10 (c : Dev nD) : W8 m ρ R0 R1 R2 c main_arg10 = m ((c : Thread nD τ).loc main_arg10) :=
  (W8_of_ne m ρ R0 R1 R2 c main_arg10 (by decide)).trans <| (W7_of m ρ R0 R1 c main_arg10 (by decide)).trans <| (W6_of_ne m ρ R0 R1 c main_arg10 (by decide)).trans <| (W5_of m ρ R0 c main_arg10 (by decide)).trans <| (W4_of_ne m ρ R0 c main_arg10 (by decide)).trans <| (W3_of m ρ c main_arg10 (by decide)).trans <| (W2_of m ρ c main_arg10 (by decide)).trans <| (W1_of m ρ c main_arg10 (by decide)).trans rfl
theorem W10_main_arg11 (c : Dev nD) : W10 m ρ R0 R1 R2 R3 c main_arg11 = m ((c : Thread nD τ).loc main_arg11) :=
  (W10_of_ne m ρ R0 R1 R2 R3 c main_arg11 (by decide)).trans <| (W9_of m ρ R0 R1 R2 c main_arg11 (by decide)).trans <| (W8_of_ne m ρ R0 R1 R2 c main_arg11 (by decide)).trans <| (W7_of m ρ R0 R1 c main_arg11 (by decide)).trans <| (W6_of_ne m ρ R0 R1 c main_arg11 (by decide)).trans <| (W5_of m ρ R0 c main_arg11 (by decide)).trans <| (W4_of_ne m ρ R0 c main_arg11 (by decide)).trans <| (W3_of m ρ c main_arg11 (by decide)).trans <| (W2_of m ρ c main_arg11 (by decide)).trans <| (W1_of m ρ c main_arg11 (by decide)).trans rfl
theorem W10_main_arg12 (c : Dev nD) : W10 m ρ R0 R1 R2 R3 c main_arg12 = m ((c : Thread nD τ).loc main_arg12) :=
  (W10_of_ne m ρ R0 R1 R2 R3 c main_arg12 (by decide)).trans <| (W9_of m ρ R0 R1 R2 c main_arg12 (by decide)).trans <| (W8_of_ne m ρ R0 R1 R2 c main_arg12 (by decide)).trans <| (W7_of m ρ R0 R1 c main_arg12 (by decide)).trans <| (W6_of_ne m ρ R0 R1 c main_arg12 (by decide)).trans <| (W5_of m ρ R0 c main_arg12 (by decide)).trans <| (W4_of_ne m ρ R0 c main_arg12 (by decide)).trans <| (W3_of m ρ c main_arg12 (by decide)).trans <| (W2_of m ρ c main_arg12 (by decide)).trans <| (W1_of m ρ c main_arg12 (by decide)).trans rfl

/-! ## The short stretches: the casts of a layer's operands -/
theorem W5_main_v52 (c : Dev nD) : W5 m ρ R0 c main_v52 = truncf .bf16 (W4 m ρ R0 c main_v51 : (⟨S12288x128, .f32⟩ : BufTy).Contents (Elt F)) bitsLt_bf16_f32 := by
  show StableHlo.after hostOps1 (W4 m ρ R0 c) (Proc.devRef .tc main_v52) = _
  after_results
theorem W5_main_v53 (c : Dev nD) : W5 m ρ R0 c main_v53 = truncf .bf16 (W4 m ρ R0 c main_arg5 : (⟨S128x128, .f32⟩ : BufTy).Contents (Elt F)) bitsLt_bf16_f32 := by
  show StableHlo.after hostOps1 (W4 m ρ R0 c) (Proc.devRef .tc main_v53) = _
  after_results
theorem W5_main_v54 (c : Dev nD) : W5 m ρ R0 c main_v54 = fun i => shapeCast _ (W4 m ρ R0 c main_arg6) shapeCasts_S128_S1x128 i := by
  show StableHlo.after hostOps1 (W4 m ρ R0 c) (Proc.devRef .tc main_v54) = _
  after_results
  rfl
theorem W7_main_v56 (c : Dev nD) : W7 m ρ R0 R1 c main_v56 = truncf .bf16 (W6 m ρ R0 R1 c main_v55 : (⟨S12288x128, .f32⟩ : BufTy).Contents (Elt F)) bitsLt_bf16_f32 := by
  show StableHlo.after hostOps2 (W6 m ρ R0 R1 c) (Proc.devRef .tc main_v56) = _
  after_results
theorem W7_main_v57 (c : Dev nD) : W7 m ρ R0 R1 c main_v57 = truncf .bf16 (W6 m ρ R0 R1 c main_arg7 : (⟨S128x128, .f32⟩ : BufTy).Contents (Elt F)) bitsLt_bf16_f32 := by
  show StableHlo.after hostOps2 (W6 m ρ R0 R1 c) (Proc.devRef .tc main_v57) = _
  after_results
theorem W7_main_v58 (c : Dev nD) : W7 m ρ R0 R1 c main_v58 = fun i => shapeCast _ (W6 m ρ R0 R1 c main_arg8) shapeCasts_S128_S1x128 i := by
  show StableHlo.after hostOps2 (W6 m ρ R0 R1 c) (Proc.devRef .tc main_v58) = _
  after_results
  rfl
theorem W9_main_v60 (c : Dev nD) : W9 m ρ R0 R1 R2 c main_v60 = truncf .bf16 (W8 m ρ R0 R1 R2 c main_v59 : (⟨S12288x128, .f32⟩ : BufTy).Contents (Elt F)) bitsLt_bf16_f32 := by
  show StableHlo.after hostOps3 (W8 m ρ R0 R1 R2 c) (Proc.devRef .tc main_v60) = _
  after_results
theorem W9_main_v61 (c : Dev nD) : W9 m ρ R0 R1 R2 c main_v61 = truncf .bf16 (W8 m ρ R0 R1 R2 c main_arg9 : (⟨S128x512, .f32⟩ : BufTy).Contents (Elt F)) bitsLt_bf16_f32 := by
  show StableHlo.after hostOps3 (W8 m ρ R0 R1 R2 c) (Proc.devRef .tc main_v61) = _
  after_results
theorem W9_main_v62 (c : Dev nD) : W9 m ρ R0 R1 R2 c main_v62 = fun i => shapeCast _ (W8 m ρ R0 R1 R2 c main_arg10) shapeCasts_S512_S1x512 i := by
  show StableHlo.after hostOps3 (W8 m ρ R0 R1 R2 c) (Proc.devRef .tc main_v62) = _
  after_results
  rfl
theorem W11_main_v64 (c : Dev nD) : W11 m ρ R0 R1 R2 R3 c main_v64 = truncf .bf16 (W10 m ρ R0 R1 R2 R3 c main_v55 : (⟨S12288x128, .f32⟩ : BufTy).Contents (Elt F)) bitsLt_bf16_f32 := by
  show StableHlo.after hostOps4 (W10 m ρ R0 R1 R2 R3 c) (Proc.devRef .tc main_v64) = _
  after_results
theorem W11_main_v65 (c : Dev nD) : W11 m ρ R0 R1 R2 R3 c main_v65 = truncf .bf16 (W10 m ρ R0 R1 R2 R3 c main_arg11 : (⟨S128x128, .f32⟩ : BufTy).Contents (Elt F)) bitsLt_bf16_f32 := by
  show StableHlo.after hostOps4 (W10 m ρ R0 R1 R2 R3 c) (Proc.devRef .tc main_v65) = _
  after_results
theorem W11_main_v66 (c : Dev nD) : W11 m ρ R0 R1 R2 R3 c main_v66 = fun i => shapeCast _ (W10 m ρ R0 R1 R2 R3 c main_arg12) shapeCasts_S128_S1x128 i := by
  show StableHlo.after hostOps4 (W10 m ρ R0 R1 R2 R3 c) (Proc.devRef .tc main_v66) = _
  after_results
  rfl
theorem W13_main_v68 (c : Dev nD) : W13 m ρ R0 R1 R2 R3 R4 c main_v68 = truncf .bf16 (W12 m ρ R0 R1 R2 R3 R4 c main_v67 : (⟨S12288x128, .f32⟩ : BufTy).Contents (Elt F)) bitsLt_bf16_f32 := by
  show StableHlo.after hostOps5 (W12 m ρ R0 R1 R2 R3 R4 c) (Proc.devRef .tc main_v68) = _
  after_results

end Cert.KernelIdeal.Hand

end
-- ==== Proof.KI.HostPre.lean ====
/-
  What the host program has computed before the dense matrix is assembled: the edge list and the quantities the
  normalised weights are made of, as array terms of the two inputs that carry the graph.

  The operations up to the normalisation run in two stretches.  The first builds the two endpoint arrays (a row of
  the index pairs followed by the nodes themselves, for the self loops), the weights with a 1 appended per self
  loop, the degrees (the weights summed into their targets), and the degree's reciprocal square root together with
  the test "degree positive"; the second stretch selects between that reciprocal square root and zero.  Read at their result
  arrays these are exactly the shared terms `srcT`, `dstT`, `wcatT`, `dinvT` of the index pairs `ei` and the weights `w`
  found in the launch contents.

  Also here: a list of operations run in two halves, which lets a long list be read half by half.
-/
import proofs.«164907_j26860725469614_1_alg».proof.Proof.Gen.KernelIdeal.Launch
import Idealize.ShloMosaic.Lib.ValueIdx
import Idealize.ShloMosaic.Lib.Pipeline.Value
import proofs.«164907_j26860725469614_1_alg».proof.Proof.RefTerms

noncomputable section

namespace Cert.KernelIdeal.HostValue

open Idealize.ShloMosaic Idealize.ShloMosaic.TcCoe Idealize.ShloMosaic.ValueIdx
open Idealize.SL.Sem
open Cert.KernelIdeal Cert.KernelIdeal.Gen

open Idealize.ShloMosaic.StableHlo in
/-- Reads an unfolded chain of operation results at a reference, one operation at a time: at its own result an
    operation gives its function's value, at any other reference what was there before. -/
macro "results_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- Operations run one list after another are the concatenated list run at once. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- A list of operations run as its first `n` operations and then the rest. -/
theorem after_split (n : ℕ) (l : List (HloOp τ sig (Elt Ideal))) (V : Valuation τ sig (Elt Ideal)) :
    StableHlo.after l V = StableHlo.after (l.drop n) (StableHlo.after (l.take n) V) := by
  rw [← after_append, List.take_append_drop]

/-- The launch contents' index pairs and weights. -/
abbrev eiOf (W₀ : Valuation τ sig (Elt Ideal)) : IVec Cert.Terms.S2E0 32 := W₀ (Proc.devRef .tc main_arg1)
abbrev wOf (W₀ : Valuation τ sig (Elt Ideal)) : FVec Ideal Cert.Terms.SE0 .f32 := W₀ (Proc.devRef .tc main_arg2)

/-! ## The first stretch -/

/-- The source endpoints. -/
theorem first_v3 (W₀ : Valuation τ sig (Elt Ideal)) :
    StableHlo.after (hostOps0 (F := Ideal)) W₀ (Proc.devRef .tc main_v3) = Cert.Terms.srcT (eiOf W₀) := by
  dsimp only [hostOps0]
  after_results_simp
  results_rw
  exact rfl

/-- The target endpoints. -/
theorem first_v6 (W₀ : Valuation τ sig (Elt Ideal)) :
    StableHlo.after (hostOps0 (F := Ideal)) W₀ (Proc.devRef .tc main_v6) = Cert.Terms.dstT (eiOf W₀) := by
  dsimp only [hostOps0]
  after_results_simp
  results_rw
  exact rfl

/-- The weights with the self loops' ones. -/
theorem first_v8 (W₀ : Valuation τ sig (Elt Ideal)) :
    StableHlo.after (hostOps0 (F := Ideal)) W₀ (Proc.devRef .tc main_v8) = Cert.Terms.wcatT (F := Ideal) (wOf W₀) := by
  dsimp only [hostOps0]
  after_results_simp
  results_rw
  exact rfl

/-- The degrees. -/
theorem first_v11 (W₀ : Valuation τ sig (Elt Ideal)) :
    StableHlo.after (hostOps0 (F := Ideal)) W₀ (Proc.devRef .tc main_v11)
      = Cert.Terms.degT (F := Ideal) (eiOf W₀) (wOf W₀) := by
  dsimp only [hostOps0]
  after_results_simp
  results_rw
  exact rfl

/-- The test "the degree is positive". -/
theorem first_v13 (W₀ : Valuation τ sig (Elt Ideal)) :
    StableHlo.after (hostOps0 (F := Ideal)) W₀ (Proc.devRef .tc main_v13)
      = cmpf .ogt (Cert.Terms.degT (F := Ideal) (eiOf W₀) (wOf W₀))
          (broadcastInDim Cert.Terms.SN ![] Cert.Terms.bc_N (constant (F := Ideal) Cert.Terms.S0 .f32 0x00000000#32)) := by
  dsimp only [hostOps0]
  after_results_simp
  results_rw
  exact rfl

/-- The reciprocal square root of the degree. -/
theorem first_v14 (W₀ : Valuation τ sig (Elt Ideal)) :
    StableHlo.after (hostOps0 (F := Ideal)) W₀ (Proc.devRef .tc main_v14)
      = Host.rsqrt (Cert.Terms.degT (F := Ideal) (eiOf W₀) (wOf W₀)) := by
  dsimp only [hostOps0]
  after_results_simp
  results_rw
  exact rfl

/-- The zero the selection falls back to. -/
theorem first_cst2 (W₀ : Valuation τ sig (Elt Ideal)) :
    StableHlo.after (hostOps0 (F := Ideal)) W₀ (Proc.devRef .tc main_cst_2)
      = constant (F := Ideal) Cert.Terms.S0 .f32 0x00000000#32 := by
  dsimp only [hostOps0]
  after_results_simp
  try exact rfl

/-! ## The second stretch -/

/-- The selection between the reciprocal square root and zero, for any contents before it. -/
theorem second_v15 (V : Valuation τ sig (Elt Ideal)) :
    StableHlo.after (hostOps0_1 (F := Ideal)) V (Proc.devRef .tc main_v15)
      = (select (V (Proc.devRef .tc main_v13)) (V (Proc.devRef .tc main_v14))
          (broadcastInDim S12288 ![] bcast_S_S12288 (V (Proc.devRef .tc main_cst_2))) : FVec Ideal S12288 .f32) := by
  dsimp only [hostOps0_1]
  after_results
  try exact rfl

/-- The second stretch writes only its own three arrays. -/
theorem second_keep (V : Valuation τ sig (Elt Ideal)) (r : Ref sig .tc)
    (h0 : r ≠ main_call0_v0) (h1 : r ≠ main_call0_v1) (h2 : r ≠ main_v15) :
    StableHlo.after (hostOps0_1 (F := Ideal)) V (Proc.devRef .tc r) = V (Proc.devRef .tc r) := by
  dsimp only [hostOps0_1]
  simp only [StableHlo.after_cons, StableHlo.after_nil]
  rw [StableHlo.ternary_result_ne (h := h2), StableHlo.unary_result_ne (h := h1), StableHlo.unary_result_ne (h := h0)]

/-! ## Both stretches -/

/-- The contents once both stretches have run. -/
abbrev Vpre (W₀ : Valuation τ sig (Elt Ideal)) : Valuation τ sig (Elt Ideal) :=
  StableHlo.after (hostOps0_1 (F := Ideal)) (StableHlo.after (hostOps0 (F := Ideal)) W₀)

theorem pre_v3 (W₀ : Valuation τ sig (Elt Ideal)) : Vpre W₀ (Proc.devRef .tc main_v3) = Cert.Terms.srcT (eiOf W₀) := by
  unfold Vpre
  rw [second_keep _ _ (by decide) (by decide) (by decide), first_v3]

theorem pre_v6 (W₀ : Valuation τ sig (Elt Ideal)) : Vpre W₀ (Proc.devRef .tc main_v6) = Cert.Terms.dstT (eiOf W₀) := by
  unfold Vpre
  rw [second_keep _ _ (by decide) (by decide) (by decide), first_v6]

theorem pre_v8 (W₀ : Valuation τ sig (Elt Ideal)) :
    Vpre W₀ (Proc.devRef .tc main_v8) = Cert.Terms.wcatT (F := Ideal) (wOf W₀) := by
  unfold Vpre
  rw [second_keep _ _ (by decide) (by decide) (by decide), first_v8]

/-- The degree's reciprocal square root where the degree is positive, zero elsewhere. -/
theorem pre_v15 (W₀ : Valuation τ sig (Elt Ideal)) :
    Vpre W₀ (Proc.devRef .tc main_v15) = Cert.Terms.dinvT (F := Ideal) (eiOf W₀) (wOf W₀) := by
  unfold Vpre
  rw [second_v15, first_v13, first_v14, first_cst2]
  exact rfl

/-- The arguments are not written by either stretch. -/
theorem pre_arg (W₀ : Valuation τ sig (Elt Ideal)) (r : Ref sig .tc)
    (hW : r ∉ [main_v0, main_v1, main_v2, main_v3, main_v4, main_v5, main_v6, main_cst, main_v7, main_v8, main_cst_0, main_v9,
      main_v10, main_v11, main_cst_1, main_v12, main_v13, main_v14, main_cst_2, main_call0_v0, main_call0_v1, main_v15]) :
    Vpre W₀ (Proc.devRef .tc r) = W₀ (Proc.devRef .tc r) := by
  have hne : ∀ y ∈ [main_v0, main_v1, main_v2, main_v3, main_v4, main_v5, main_v6, main_cst, main_v7, main_v8, main_cst_0, main_v9,
      main_v10, main_v11, main_cst_1, main_v12, main_v13, main_v14, main_cst_2, main_call0_v0, main_call0_v1, main_v15], r ≠ y :=
    fun y hy e => hW (e ▸ hy)
  unfold Vpre
  rw [second_keep _ _ (hne _ (by decide)) (hne _ (by decide)) (hne _ (by decide))]
  dsimp only [hostOps0]
  simp only [StableHlo.after_cons, StableHlo.after_nil]
  rw [StableHlo.nullary_result_ne (h := hne main_cst_2 (by decide)), StableHlo.unary_result_ne (h := hne main_v14 (by decide)),
    StableHlo.binary_result_ne (h := hne main_v13 (by decide)), StableHlo.unary_result_ne (h := hne main_v12 (by decide)),
    StableHlo.nullary_result_ne (h := hne main_cst_1 (by decide)), StableHlo.ternary_result_ne (h := hne main_v11 (by decide)),
    StableHlo.unary_result_ne (h := hne main_v10 (by decide)), StableHlo.unary_result_ne (h := hne main_v9 (by decide)),
    StableHlo.nullary_result_ne (h := hne main_cst_0 (by decide)), StableHlo.binary_result_ne (h := hne main_v8 (by decide)),
    StableHlo.unary_result_ne (h := hne main_v7 (by decide)), StableHlo.nullary_result_ne (h := hne main_cst (by decide)),
    StableHlo.binary_result_ne (h := hne main_v6 (by decide)), StableHlo.reshape_result_ne (h := hne main_v5 (by decide)),
    StableHlo.unary_result_ne (h := hne main_v4 (by decide)), StableHlo.binary_result_ne (h := hne main_v3 (by decide)),
    StableHlo.reshape_result_ne (h := hne main_v2 (by decide)), StableHlo.unary_result_ne (h := hne main_v1 (by decide)),
    StableHlo.nullary_result_ne (h := hne main_v0 (by decide))]

end Cert.KernelIdeal.HostValue

end
-- ==== Proof.LibScatter2.lean ====
/-
  The accumulating scatter with TWO index components read at an index: the dimension numbers that
  `zeros.at[rows, cols].add(v)` lowers to.

  An operand `x : [N, M]`, an index table `idx : [E, 2]` and updates `upd : [E]`.  Update `e` goes to the operand
  element whose row is `idx[e, 0]` and whose column is `idx[e, 1]`, both read as signed integers and NOT clamped:
  an update one of whose components is outside its axis lands nowhere and contributes nothing.  Both operand axes
  are inserted window axes, so an update is a single element and there is no window coordinate.  At the ideal
  instance the result at `(r, s)` is therefore

      x (r, s) + Σ_e [ idx[e, 0] = r ∧ idx[e, 1] = s ] upd e.

  The extents are parameters, so the statement serves every literal shape of a program; a program's own record
  of dimension numbers is the record below by `rfl`.
-/
import Idealize.ShloMosaic.PureOps.Ideal
import Idealize.ShloMosaic.Lib.ValueIdx

noncomputable section

namespace Cert.Scatter2

open Idealize.ShloMosaic Idealize.ShloMosaic.ValueIdx

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of `x.at[rows, cols].add(v)` for an operand `[N, M]`, an index table `[E, 2]` whose
    last axis holds the (row, column) pair, and updates `[E]`: both operand axes indexed, no window axis. -/
abbrev pairScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section Pair

variable {N M E w : Nat} (wf : ScatterDims.WF ⟨2, ![N, M]⟩ ⟨2, ![E, 2]⟩ ⟨1, ![E]⟩ [] [0, 1] [0, 1] 1)
  (idx : IVec ⟨2, ![E, 2]⟩ w) (e : Fin E)

/-- On the row axis update `e` starts at the first component of its index pair, read signed. -/
theorem pairScatter_start0 :
    (pairScatterDims N M E wf).start (ix1 e) idx (0 : Fin 2) = (idx (ix2 e (0 : Fin 2))).toInt := by
  unfold ScatterDims.start
  rw [dif_pos (show (0 : Fin 2) ∈ (pairScatterDims N M E wf).scatterDimsToOperandDims from
    (by decide : (0 : Fin 2) ∈ [(0 : Fin 2), 1]))]
  have hsi : (pairScatterDims N M E wf).siIdx (ix1 e) ⟨List.idxOf (0 : Fin 2) (pairScatterDims N M E wf).scatterDimsToOperandDims,
      List.idxOf_lt_length_iff.2 (by decide : (0 : Fin 2) ∈ [(0 : Fin 2), 1])⟩ = ix2 e (0 : Fin 2) := by
    funext b; refine Fin.ext ?_
    match b with
    | ⟨0, _⟩ => rfl
    | ⟨1, _⟩ => rfl
  rw [hsi]

/-- On the column axis it starts at the second component. -/
theorem pairScatter_start1 :
    (pairScatterDims N M E wf).start (ix1 e) idx (1 : Fin 2) = (idx (ix2 e (1 : Fin 2))).toInt := by
  unfold ScatterDims.start
  rw [dif_pos (show (1 : Fin 2) ∈ (pairScatterDims N M E wf).scatterDimsToOperandDims from
    (by decide : (1 : Fin 2) ∈ [(0 : Fin 2), 1]))]
  have hsi : (pairScatterDims N M E wf).siIdx (ix1 e) ⟨List.idxOf (1 : Fin 2) (pairScatterDims N M E wf).scatterDimsToOperandDims,
      List.idxOf_lt_length_iff.2 (by decide : (1 : Fin 2) ∈ [(0 : Fin 2), 1])⟩ = ix2 e (1 : Fin 2) := by
    funext b; refine Fin.ext ?_
    match b with
    | ⟨0, _⟩ => rfl
    | ⟨1, _⟩ => rfl
  rw [hsi]

/-- Neither operand axis is a window axis. -/
theorem pairScatter_window (a : Fin 2) : (pairScatterDims N M E wf).window (ix1 e) a = 0 := by
  unfold ScatterDims.window
  rw [dif_neg (show a ∉ (pairScatterDims N M E wf).sKept from
    (by decide : ∀ a : Fin 2, a ∉ (List.finRange 2).filter (fun c => c ∉ [(0 : Fin 2), 1])) a)]

/-- WHERE AN UPDATE LANDS: update `e` lands on `(r, s)` exactly when the two components of its index pair, read
    signed, are `r` and `s`; a pair with a component outside its axis lands nowhere. -/
theorem pairScatter_lands (r : Fin N) (s : Fin M) :
    (pairScatterDims N M E wf).resultIdx? (ix1 e) idx = some (ix2 r s)
      ↔ (idx (ix2 e (0 : Fin 2))).toInt = (r.val : ℤ) ∧ (idx (ix2 e (1 : Fin 2))).toInt = (s.val : ℤ) := by
  have h0 := r.isLt
  have h1 := s.isLt
  unfold ScatterDims.resultIdx?
  split
  · rename_i h
    rw [Option.some.injEq]
    constructor
    · intro hi
      have e0 : ((pairScatterDims N M E wf).start (ix1 e) idx (0 : Fin 2)
          + ((pairScatterDims N M E wf).window (ix1 e) (0 : Fin 2) : ℤ)).toNat = r.val :=
        congrArg (fun j : (⟨2, ![N, M]⟩ : Shape).Idx => (j 0).val) hi
      have e1 : ((pairScatterDims N M E wf).start (ix1 e) idx (1 : Fin 2)
          + ((pairScatterDims N M E wf).window (ix1 e) (1 : Fin 2) : ℤ)).toNat = s.val :=
        congrArg (fun j : (⟨2, ![N, M]⟩ : Shape).Idx => (j 1).val) hi
      have k0 := (h (0 : Fin 2)).1
      have k1 := (h (1 : Fin 2)).1
      rw [pairScatter_start0, pairScatter_window] at e0 k0
      rw [pairScatter_start1, pairScatter_window] at e1 k1
      exact ⟨by omega, by omega⟩
    · rintro ⟨g0, g1⟩
      funext a
      refine Fin.ext ?_
      match a with
      | ⟨0, _⟩ =>
        show ((pairScatterDims N M E wf).start (ix1 e) idx (0 : Fin 2)
          + ((pairScatterDims N M E wf).window (ix1 e) (0 : Fin 2) : ℤ)).toNat = r.val
        rw [pairScatter_start0, pairScatter_window]; omega
      | ⟨1, _⟩ =>
        show ((pairScatterDims N M E wf).start (ix1 e) idx (1 : Fin 2)
          + ((pairScatterDims N M E wf).window (ix1 e) (1 : Fin 2) : ℤ)).toNat = s.val
        rw [pairScatter_start1, pairScatter_window]; omega
  · rename_i h
    constructor
    · intro hi; exact absurd hi (by simp)
    · rintro ⟨g0, g1⟩
      exfalso; apply h
      intro a
      match a with
      | ⟨0, _⟩ =>
        show 0 ≤ (pairScatterDims N M E wf).start (ix1 e) idx (0 : Fin 2)
              + ((pairScatterDims N M E wf).window (ix1 e) (0 : Fin 2) : ℤ)
          ∧ (pairScatterDims N M E wf).start (ix1 e) idx (0 : Fin 2)
              + ((pairScatterDims N M E wf).window (ix1 e) (0 : Fin 2) : ℤ) < (N : ℤ)
        rw [pairScatter_start0, pairScatter_window]; omega
      | ⟨1, _⟩ =>
        show 0 ≤ (pairScatterDims N M E wf).start (ix1 e) idx (1 : Fin 2)
              + ((pairScatterDims N M E wf).window (ix1 e) (1 : Fin 2) : ℤ)
          ∧ (pairScatterDims N M E wf).start (ix1 e) idx (1 : Fin 2)
              + ((pairScatterDims N M E wf).window (ix1 e) (1 : Fin 2) : ℤ) < (M : ℤ)
        rw [pairScatter_start1, pairScatter_window]; omega

/-- THE ACCUMULATING TWO-INDEX SCATTER AT `(r, s)`: the operand's element plus the updates whose index pair is
    `(r, s)`. -/
theorem pairScatterAdd_apply (x : (⟨2, ![N, M]⟩ : Shape).Idx → EReal) (upd : (⟨1, ![E]⟩ : Shape).Idx → EReal)
    (r : Fin N) (s : Fin M) :
    Ideal.hostScatterAdd (pairScatterDims N M E wf) x idx upd (ix2 r s)
      = x (ix2 r s) + ∑ e : Fin E,
          if (idx (ix2 e (0 : Fin 2))).toInt = (r.val : ℤ) ∧ (idx (ix2 e (1 : Fin 2))).toInt = (s.val : ℤ)
          then upd (ix1 e) else 0 := by
  unfold Ideal.hostScatterAdd
  congr 1
  rw [Finset.sum_filter, sum_idx1]
  refine Finset.sum_congr rfl fun e _ => ?_
  simp only [pairScatter_lands]

end Pair

/-- The same read, stated for the host operation at a program's own record of dimension numbers: `hd` identifies
    that record with the one above (by `rfl`), so the statement rewrites the operation as the program prints it. -/
theorem pairScatterAdd_host {N M E w : Nat} {φ : FTy}
    (d : ScatterDims ⟨2, ![N, M]⟩ ⟨2, ![E, 2]⟩ ⟨1, ![E]⟩)
    (wf : ScatterDims.WF ⟨2, ![N, M]⟩ ⟨2, ![E, 2]⟩ ⟨1, ![E]⟩ [] [0, 1] [0, 1] 1) (hd : d = pairScatterDims N M E wf)
    (x : FVec Ideal ⟨2, ![N, M]⟩ φ) (idx : IVec ⟨2, ![E, 2]⟩ w) (upd : FVec Ideal ⟨1, ![E]⟩ φ) (r : Fin N) (s : Fin M) :
    Host.scatterAdd d x idx upd (ix2 r s)
      = x (ix2 r s) + ∑ e : Fin E,
          if (idx (ix2 e (0 : Fin 2))).toInt = (r.val : ℤ) ∧ (idx (ix2 e (1 : Fin 2))).toInt = (s.val : ℤ)
          then upd (ix1 e) else 0 := by
  subst hd
  unfold Host.scatterAdd
  rw [Ideal.hostScatterAdd_def]
  exact pairScatterAdd_apply wf idx x upd r s

end Cert.Scatter2

end
-- ==== Proof.KI.HostAdj.lean ====
/-
  The dense matrix of edge weights as the host program builds it, read at an entry.

  The host program keeps the two endpoint arrays of the edge list as 32-bit words, prepares each as an index the
  way `x[idx]` does (a negative word is wrapped once by the number of nodes), lays the two prepared arrays side by
  side as the columns of an index table (the target node first, the source node second), and adds the edge
  weights into a zero matrix at those (row, column) pairs; the result is then stored in a narrower float format,
  which changes nothing over the extended reals.

  When every endpoint word is, read signed, a node — `dst e` and `src e` in `Fin 12288` — no word is wrapped and
  no pair falls outside the matrix, so entry `(r, s)` of the result is the sum of the weights of the edges from `s`
  to `r`: the specification's `adj`.  Nothing here needs the weights to be finite: the operand is zero and
  `0 + x = x` for every extended real.
-/
import Idealize.ShloMosaic.Lib.Pipeline.Value
import Idealize.ShloMosaic.PureOps.Ideal.Laws
import proofs.«164907_j26860725469614_1_alg».proof.Proof.Spec
import proofs.«164907_j26860725469614_1_alg».proof.Proof.LibScatter2
import proofs.«164907_j26860725469614_1_alg».proof.Proof.LibLayoutReads

noncomputable section

namespace Cert.KernelIdeal.HostValue

open Idealize.ShloMosaic Idealize.ShloMosaic.ValueIdx
open scoped BigOperators

/-- The literal shapes of the edge arrays. -/
abbrev SE : Shape := ⟨1, ![405504]⟩
abbrev SEx1 : Shape := ⟨2, ![405504, 1]⟩
abbrev SEx2 : Shape := ⟨2, ![405504, 2]⟩
abbrev SNxN : Shape := ⟨2, ![12288, 12288]⟩
abbrev S0 : Shape := ⟨0, ![]⟩

/-- An array of index words prepared as `x[idx]` prepares it for a table of 12288 rows: a negative word is wrapped
    once by 12288, the others are kept. -/
def wrapWords (hb : S0.BroadcastsInDim SE (![] : Fin 0 → Fin SE.rank)) (v : IVec SE 32) : IVec SE 32 :=
  select (cmpi .slt v (broadcastInDim SE ![] hb (constantI S0 32 0#32)))
    (addi v (broadcastInDim SE ![] hb (constantI S0 32 12288#32))) v

/-- Entry by entry it is the one-word preparation. -/
theorem wrapWords_apply (hb : S0.BroadcastsInDim SE (![] : Fin 0 → Fin SE.rank)) (v : IVec SE 32) (i : SE.Idx) :
    wrapWords hb v i = Cert.Gcn.wrapIdx 12288#32 (v i) := by
  unfold wrapWords Cert.Gcn.wrapIdx
  rw [select_apply]
  show Scalar.select (IntOp.cmpi .slt (v i) (broadcastInDim SE ![] hb (constantI S0 32 0#32) i))
      (IntOp.addi (v i) (broadcastInDim SE ![] hb (constantI S0 32 12288#32) i)) (v i) = _
  rw [Cert.Gcn.bcastScalar_apply hb, Cert.Gcn.bcastScalar_apply hb]
  rfl

/-- A word that is a node, read signed, is kept. -/
theorem wrapWords_of_node (hb : S0.BroadcastsInDim SE (![] : Fin 0 → Fin SE.rank)) (v : IVec SE 32) (i : SE.Idx)
    (c : Fin 12288) (h : (v i).toInt = (c.val : ℤ)) : (wrapWords hb v i).toInt = (c.val : ℤ) := by
  rw [wrapWords_apply, Cert.Gcn.wrapIdx_of_nonneg _ _ (by omega), h]

/-- The index table: two arrays of words side by side as the two columns. -/
def pairTable (hc : SE.BroadcastsInDim SEx1 (![0] : Fin 1 → Fin SEx1.rank))
    (hcat : Shape.Concatenates [SEx1, SEx1] SEx2 1) (a b : IVec SE 32) : IVec SEx2 32 :=
  concatenate SEx2 1 [⟨SEx1, broadcastInDim SEx1 ![0] hc a⟩, ⟨SEx1, broadcastInDim SEx1 ![0] hc b⟩] hcat

/-- Its first column is the first array … -/
theorem pairTable_fst (hc : SE.BroadcastsInDim SEx1 (![0] : Fin 1 → Fin SEx1.rank))
    (hcat : Shape.Concatenates [SEx1, SEx1] SEx2 1) (a b : IVec SE 32) (e : Fin 405504) :
    pairTable hc hcat a b (ix2 e (0 : Fin 2)) = a (ix1 e) := by
  unfold pairTable
  rw [concatenate_pair_apply_left (s₁ := SEx1) (s₂ := SEx1) (1 : Fin 2) _ _ hcat (ix2 e (0 : Fin 2)) rfl (ix2 e (0 : Fin 1))
    (fun c => match c with
      | ⟨0, _⟩ => rfl
      | ⟨1, _⟩ => rfl)]
  exact Cert.Gcn.bcastCol_apply (by decide) hc a e

/-- … and its second column the second. -/
theorem pairTable_snd (hc : SE.BroadcastsInDim SEx1 (![0] : Fin 1 → Fin SEx1.rank))
    (hcat : Shape.Concatenates [SEx1, SEx1] SEx2 1) (a b : IVec SE 32) (e : Fin 405504) :
    pairTable hc hcat a b (ix2 e (1 : Fin 2)) = b (ix1 e) := by
  unfold pairTable
  rw [concatenate_pair_apply_right (s₁ := SEx1) (s₂ := SEx1) (1 : Fin 2) _ _ hcat (ix2 e (1 : Fin 2)) rfl rfl (ix2 e (0 : Fin 1))
    (fun c hne => match c, hne with
      | ⟨0, _⟩, _ => rfl
      | ⟨1, _⟩, hne => absurd rfl hne)
    rfl]
  exact Cert.Gcn.bcastCol_apply (by decide) hc b e

/-- THE DENSE MATRIX AT AN ENTRY.  `dstW` and `srcW` are the endpoint words, `nrmA` the edge weights; when the words
    are the nodes `dst e`, `src e`, entry `(r, s)` of the scattered and narrowed matrix is `adj` at `(r, s)`. -/
theorem denseAdj_apply
    (d : ScatterDims SNxN SEx2 SE)
    (wf : ScatterDims.WF SNxN SEx2 SE [] [0, 1] [0, 1] 1) (hd : d = Cert.Scatter2.pairScatterDims 12288 12288 405504 wf)
    (hz : S0.BroadcastsInDim SNxN (![] : Fin 0 → Fin SNxN.rank))
    (hb : S0.BroadcastsInDim SE (![] : Fin 0 → Fin SE.rank))
    (hc : SE.BroadcastsInDim SEx1 (![0] : Fin 1 → Fin SEx1.rank))
    (hcat : Shape.Concatenates [SEx1, SEx1] SEx2 1)
    (hlt : FTy.bits .bf16 < FTy.bits .f32)
    (srcW dstW : IVec SE 32) (nrmA : FVec Ideal SE .f32) (src dst : Fin Cert.Spec.EE → Fin Cert.Spec.NN)
    (hs : ∀ e, (srcW (ix1 e)).toInt = ((src e).val : ℤ)) (hdst : ∀ e, (dstW (ix1 e)).toInt = ((dst e).val : ℤ))
    (r s : Fin Cert.Spec.NN) :
    (truncf .bf16 (Host.scatterAdd d (broadcastInDim SNxN ![] hz (constant (F := Ideal) S0 .f32 0x00000000#32))
        (pairTable hc hcat (wrapWords hb dstW) (wrapWords hb srcW)) nrmA) hlt : FVec Ideal SNxN .bf16) (ix2 r s)
      = Cert.Spec.adj (fun e => nrmA (ix1 e)) src dst r s := by
  rw [truncf_apply, Cert.Scatter2.pairScatterAdd_host d wf hd, Cert.Gcn.bcastScalar_apply hz, constant_apply,
    Ideal.ofBits_zero_f32, zero_add]
  unfold Cert.Spec.adj
  refine Finset.sum_congr rfl fun e _ => ?_
  rw [pairTable_fst, pairTable_snd, wrapWords_of_node hb dstW (ix1 e) (dst e) (hdst e),
    wrapWords_of_node hb srcW (ix1 e) (src e) (hs e)]
  have hiff : ((((dst e).val : ℤ) = (r.val : ℤ)) ∧ (((src e).val : ℤ) = (s.val : ℤ))) ↔ (dst e = r ∧ src e = s) := by
    constructor
    · rintro ⟨h0, h1⟩; exact ⟨Fin.ext (by exact_mod_cast h0), Fin.ext (by exact_mod_cast h1)⟩
    · rintro ⟨h0, h1⟩; subst h0; subst h1; exact ⟨rfl, rfl⟩
  by_cases hP : dst e = r ∧ src e = s
  · rw [if_pos (hiff.mpr hP), if_pos hP]
  · rw [if_neg (fun h => hP (hiff.mp h)), if_neg hP]

end Cert.KernelIdeal.HostValue

end
-- ==== Proof.KI.HostValue.lean ====
/-
  The arrays the first layer is launched on, read at an index.

  After the edge list and the normalisation factors, the host program's third stretch of operations computes the
  normalised weight of every edge (the factor of the source, times the weight, times the factor of the target),
  prepares the two endpoint arrays as indices, lays them side by side (target first, source second) and adds the
  normalised weights into a zero matrix at those positions; it then stores that matrix, the node features and the
  first weight matrix in a narrower float format, and views the first bias as a row.

  Read at an entry, for index pairs that lie in the node range:
    * the matrix at `(r, s)` is the specification's `adj` of the shared edge functions — the sum of the normalised
      weights of the edges from `s` to `r`;
    * the stored features and weights are the arguments entry by entry (a change of format is the identity over the
      extended reals), and entry `(0, q)` of the bias row is entry `q` of the bias.

  The third stretch is long, so it is read in two halves: everything up to the two prepared index columns, and
  the last six operations on top of whatever the first half left.
-/
import proofs.«164907_j26860725469614_1_alg».proof.Proof.KI.HostPre
import proofs.«164907_j26860725469614_1_alg».proof.Proof.KI.HostAdj
import proofs.«164907_j26860725469614_1_alg».proof.Proof.RefEdges

noncomputable section

namespace Cert.KernelIdeal.HostValue

open Idealize.ShloMosaic Idealize.ShloMosaic.TcCoe Idealize.ShloMosaic.ValueIdx
open Idealize.SL.Sem
open Cert.KernelIdeal Cert.KernelIdeal.Gen

/-! ## The last six operations of the third stretch, over any contents -/

theorem tail_v47 (V : Valuation τ sig (Elt Ideal)) :
    StableHlo.after ((hostOps0_2 (F := Ideal)).drop 38) V (Proc.devRef .tc main_v47)
      = (truncf .bf16 (Host.scatterAdd scatter_S12288x12288_S405504x2_S405504_n_01_01_1 (V (Proc.devRef .tc main_v32))
          (concatenate S405504x2 1 [⟨S405504x1, V (Proc.devRef .tc main_v43)⟩, ⟨S405504x1, V (Proc.devRef .tc main_v44)⟩]
            concatenates_S405504x1_S405504x1_S405504x2_d1)
          (V (Proc.devRef .tc main_v31))) bitsLt_bf16_f32 : FVec Ideal S12288x12288 .bf16) := by
  simp only [hostOps0_2, List.drop_succ_cons, List.drop_zero]
  after_results
  try rfl

/-! ## The first thirty-eight, over any contents -/

/-- The zero matrix the weights are added into. -/
theorem head_v32 (V : Valuation τ sig (Elt Ideal)) :
    StableHlo.after ((hostOps0_2 (F := Ideal)).take 38) V (Proc.devRef .tc main_v32)
      = (broadcastInDim S12288x12288 ![] bcast_S_S12288x12288 (constant (F := Ideal) S_ .f32 0x00000000#32)
          : FVec Ideal S12288x12288 .f32) := by
  simp only [hostOps0_2, List.take_succ_cons, List.take_zero]
  after_results_simp
  try exact rfl

/-- The target endpoints prepared as an index column. -/
theorem head_v43 (V : Valuation τ sig (Elt Ideal)) :
    StableHlo.after ((hostOps0_2 (F := Ideal)).take 38) V (Proc.devRef .tc main_v43)
      = (broadcastInDim S405504x1 ![0] bcast_S405504_S405504x1_0
          (wrapWords bcast_S_S405504 (V (Proc.devRef .tc main_v6))) : IVec S405504x1 32) := by
  simp only [hostOps0_2, List.take_succ_cons, List.take_zero]
  after_results_simp
  exact rfl

/-- The source endpoints prepared as an index column. -/
theorem head_v44 (V : Valuation τ sig (Elt Ideal)) :
    StableHlo.after ((hostOps0_2 (F := Ideal)).take 38) V (Proc.devRef .tc main_v44)
      = (broadcastInDim S405504x1 ![0] bcast_S405504_S405504x1_0
          (wrapWords bcast_S_S405504 (V (Proc.devRef .tc main_v3))) : IVec S405504x1 32) := by
  simp only [hostOps0_2, List.take_succ_cons, List.take_zero]
  after_results_simp
  exact rfl

/-- The normalised weights: the source's factor, times the weight, times the target's factor. -/
theorem head_v31 (V : Valuation τ sig (Elt Ideal)) :
    StableHlo.after ((hostOps0_2 (F := Ideal)).take 38) V (Proc.devRef .tc main_v31)
      = (mulf
          (mulf
            (Host.gather gather_S12288_S405504x1_S405504_n_0_n_n_0_1_1 (V (Proc.devRef .tc main_v15))
              (broadcastInDim S405504x1 ![0] bcast_S405504_S405504x1_0 (wrapWords bcast_S_S405504 (V (Proc.devRef .tc main_v3)))))
            (V (Proc.devRef .tc main_v8)))
          (Host.gather gather_S12288_S405504x1_S405504_n_0_n_n_0_1_1 (V (Proc.devRef .tc main_v15))
            (broadcastInDim S405504x1 ![0] bcast_S405504_S405504x1_0 (wrapWords bcast_S_S405504 (V (Proc.devRef .tc main_v6)))))
          : FVec Ideal S405504 .f32) := by
  simp only [hostOps0_2, List.take_succ_cons, List.take_zero]
  after_results_simp
  exact rfl

/-! ## The whole third stretch, over any contents -/

/-- The dense matrix as a term of the endpoint arrays, the weights and the factors found before the stretch. -/
theorem third_v47 (V : Valuation τ sig (Elt Ideal)) :
    StableHlo.after (hostOps0_2 (F := Ideal)) V (Proc.devRef .tc main_v47)
      = (truncf .bf16 (Host.scatterAdd scatter_S12288x12288_S405504x2_S405504_n_01_01_1
          (broadcastInDim S12288x12288 ![] bcast_S_S12288x12288 (constant (F := Ideal) S_ .f32 0x00000000#32))
          (pairTable bcast_S405504_S405504x1_0 concatenates_S405504x1_S405504x1_S405504x2_d1
            (wrapWords bcast_S_S405504 (V (Proc.devRef .tc main_v6))) (wrapWords bcast_S_S405504 (V (Proc.devRef .tc main_v3))))
          (mulf
            (mulf
              (Host.gather gather_S12288_S405504x1_S405504_n_0_n_n_0_1_1 (V (Proc.devRef .tc main_v15))
                (broadcastInDim S405504x1 ![0] bcast_S405504_S405504x1_0 (wrapWords bcast_S_S405504 (V (Proc.devRef .tc main_v3)))))
              (V (Proc.devRef .tc main_v8)))
            (Host.gather gather_S12288_S405504x1_S405504_n_0_n_n_0_1_1 (V (Proc.devRef .tc main_v15))
              (broadcastInDim S405504x1 ![0] bcast_S405504_S405504x1_0 (wrapWords bcast_S_S405504 (V (Proc.devRef .tc main_v6)))))))
          bitsLt_bf16_f32 : FVec Ideal S12288x12288 .bf16) := by
  rw [after_split 38, tail_v47, head_v32, head_v43, head_v44, head_v31]
  rfl

/-- The node features in the narrower format. -/
theorem third_v48 (V : Valuation τ sig (Elt Ideal)) :
    StableHlo.after (hostOps0_2 (F := Ideal)) V (Proc.devRef .tc main_v48)
      = (truncf .bf16 (V (Proc.devRef .tc main_arg0)) bitsLt_bf16_f32 : FVec Ideal S12288x512 .bf16) := by
  dsimp only [hostOps0_2]
  after_results_simp
  try exact rfl

/-- The first weight matrix in the narrower format. -/
theorem third_v49 (V : Valuation τ sig (Elt Ideal)) :
    StableHlo.after (hostOps0_2 (F := Ideal)) V (Proc.devRef .tc main_v49)
      = (truncf .bf16 (V (Proc.devRef .tc main_arg3)) bitsLt_bf16_f32 : FVec Ideal S512x128 .bf16) := by
  dsimp only [hostOps0_2]
  after_results_simp
  try exact rfl

/-- The first bias as a row. -/
theorem third_v50 (V : Valuation τ sig (Elt Ideal)) :
    StableHlo.after (hostOps0_2 (F := Ideal)) V (Proc.devRef .tc main_v50)
      = (shapeCast S1x128 (V (Proc.devRef .tc main_arg4)) shapeCasts_S128_S1x128 : FVec Ideal S1x128 .f32) := by
  dsimp only [hostOps0_2]
  after_results_simp
  try exact rfl

/-! ## From the launch contents -/

/-- The contents the first layer is launched on. -/
abbrev V0 (W₀ : Valuation τ sig (Elt Ideal)) : Valuation τ sig (Elt Ideal) :=
  StableHlo.after (hostOps0_2 (F := Ideal)) (Vpre W₀)

/-- The gathers and products of the third stretch are the shared term for the normalised weights. -/
theorem normT_eq (ei : IVec Cert.Terms.S2E0 32) (w : FVec Ideal Cert.Terms.SE0 .f32) :
    (mulf
      (mulf
        (Host.gather gather_S12288_S405504x1_S405504_n_0_n_n_0_1_1 (Cert.Terms.dinvT (F := Ideal) ei w)
          (broadcastInDim S405504x1 ![0] bcast_S405504_S405504x1_0 (wrapWords bcast_S_S405504 (Cert.Terms.srcT ei))))
        (Cert.Terms.wcatT (F := Ideal) w))
      (Host.gather gather_S12288_S405504x1_S405504_n_0_n_n_0_1_1 (Cert.Terms.dinvT (F := Ideal) ei w)
        (broadcastInDim S405504x1 ![0] bcast_S405504_S405504x1_0 (wrapWords bcast_S_S405504 (Cert.Terms.dstT ei))))
      : FVec Ideal S405504 .f32) = Cert.Terms.normT (F := Ideal) ei w := rfl

/-- The dense matrix as a term of the shared edge terms. -/
theorem v47_term (W₀ : Valuation τ sig (Elt Ideal)) :
    V0 W₀ (Proc.devRef .tc main_v47)
      = (truncf .bf16 (Host.scatterAdd scatter_S12288x12288_S405504x2_S405504_n_01_01_1
          (broadcastInDim S12288x12288 ![] bcast_S_S12288x12288 (constant (F := Ideal) S_ .f32 0x00000000#32))
          (pairTable bcast_S405504_S405504x1_0 concatenates_S405504x1_S405504x1_S405504x2_d1
            (wrapWords bcast_S_S405504 (Cert.Terms.dstT (eiOf W₀))) (wrapWords bcast_S_S405504 (Cert.Terms.srcT (eiOf W₀))))
          (Cert.Terms.normT (F := Ideal) (eiOf W₀) (wOf W₀)))
          bitsLt_bf16_f32 : FVec Ideal S12288x12288 .bf16) := by
  unfold V0
  rw [third_v47, pre_v3, pre_v6, pre_v8, pre_v15, normT_eq]

/-- THE DENSE MATRIX AT AN ENTRY: for index pairs in the node range, entry `(r, s)` is the sum of the normalised
    weights of the edges from `s` to `r`. -/
theorem v47_read (W₀ : Valuation τ sig (Elt Ideal)) (h : Cert.Terms.InRange (eiOf W₀)) (r s : Fin Cert.Spec.NN) :
    V0 W₀ (Proc.devRef .tc main_v47) (ix2 r s)
      = Cert.Spec.adj (Cert.Terms.nrmF (eiOf W₀) (wOf W₀)) (Cert.Terms.srcF (eiOf W₀)) (Cert.Terms.dstF (eiOf W₀)) r s := by
  rw [v47_term]
  exact denseAdj_apply scatter_S12288x12288_S405504x2_S405504_n_01_01_1
    scatter_S12288x12288_S405504x2_S405504_n_01_01_1_wf rfl bcast_S_S12288x12288 bcast_S_S405504 bcast_S405504_S405504x1_0
    concatenates_S405504x1_S405504x1_S405504x2_d1 bitsLt_bf16_f32
    (Cert.Terms.srcT (eiOf W₀)) (Cert.Terms.dstT (eiOf W₀)) (Cert.Terms.normT (F := Ideal) (eiOf W₀) (wOf W₀))
    (Cert.Terms.srcF (eiOf W₀)) (Cert.Terms.dstF (eiOf W₀))
    (Cert.Terms.srcT_toInt (eiOf W₀) h) (Cert.Terms.dstT_toInt (eiOf W₀) h) r s

/-- The stored node features are the features. -/
theorem v48_read (W₀ : Valuation τ sig (Elt Ideal)) (i : S12288x512.Idx) :
    V0 W₀ (Proc.devRef .tc main_v48) i = W₀ (Proc.devRef .tc main_arg0) i := by
  unfold V0
  rw [third_v48, pre_arg W₀ main_arg0 (by decide)]
  rfl

/-- The stored first weight matrix is the weight matrix. -/
theorem v49_read (W₀ : Valuation τ sig (Elt Ideal)) (i : S512x128.Idx) :
    V0 W₀ (Proc.devRef .tc main_v49) i = W₀ (Proc.devRef .tc main_arg3) i := by
  unfold V0
  rw [third_v49, pre_arg W₀ main_arg3 (by decide)]
  rfl

/-- Entry `(0, q)` of the first bias row is entry `q` of the bias. -/
theorem v50_read (W₀ : Valuation τ sig (Elt Ideal)) (q : Fin 128) :
    V0 W₀ (Proc.devRef .tc main_v50) (ix2 (0 : Fin 1) q) = W₀ (Proc.devRef .tc main_arg4) (ix1 q) := by
  unfold V0
  rw [third_v50, pre_arg W₀ main_arg4 (by decide)]
  exact Cert.Gcn.reshapeRow_apply _ _ q

/-! ## What the third stretch leaves alone -/

/-- The third stretch writes only its own forty-four arrays: every other array keeps its contents. -/
theorem third_keep (V : Valuation τ sig (Elt Ideal)) (r : Ref sig .tc)
    (hW : r ∉ [main_c, main_v16, main_v17, main_c_3, main_v18, main_v19, main_v20, main_v21, main_v22, main_v23,
      main_c_4, main_v24, main_v25, main_c_5, main_v26, main_v27, main_v28, main_v29, main_v30, main_v31,
      main_cst_6, main_v32, main_c_7, main_v33, main_v34, main_c_8, main_v35, main_v36, main_v37, main_c_9,
      main_v38, main_v39, main_c_10, main_v40, main_v41, main_v42, main_v43, main_v44, main_v45, main_v46,
      main_v47, main_v48, main_v49, main_v50]) :
    StableHlo.after (hostOps0_2 (F := Ideal)) V (Proc.devRef .tc r) = V (Proc.devRef .tc r) := by
  have hne : ∀ y ∈ [main_c, main_v16, main_v17, main_c_3, main_v18, main_v19, main_v20, main_v21, main_v22, main_v23,
      main_c_4, main_v24, main_v25, main_c_5, main_v26, main_v27, main_v28, main_v29, main_v30, main_v31,
      main_cst_6, main_v32, main_c_7, main_v33, main_v34, main_c_8, main_v35, main_v36, main_v37, main_c_9,
      main_v38, main_v39, main_c_10, main_v40, main_v41, main_v42, main_v43, main_v44, main_v45, main_v46,
      main_v47, main_v48, main_v49, main_v50], r ≠ y :=
    fun y hy e => hW (e ▸ hy)
  dsimp only [hostOps0_2]
  simp only [StableHlo.after_cons, StableHlo.after_nil]
  rw [StableHlo.reshape_result_ne (h := hne main_v50 (by decide)), StableHlo.unary_result_ne (h := hne main_v49 (by decide)),
    StableHlo.unary_result_ne (h := hne main_v48 (by decide)), StableHlo.unary_result_ne (h := hne main_v47 (by decide)),
    StableHlo.ternary_result_ne (h := hne main_v46 (by decide)), StableHlo.binary_result_ne (h := hne main_v45 (by decide)),
    StableHlo.unary_result_ne (h := hne main_v44 (by decide)), StableHlo.unary_result_ne (h := hne main_v43 (by decide)),
    StableHlo.ternary_result_ne (h := hne main_v42 (by decide)), StableHlo.binary_result_ne (h := hne main_v41 (by decide)),
    StableHlo.unary_result_ne (h := hne main_v40 (by decide)), StableHlo.nullary_result_ne (h := hne main_c_10 (by decide)),
    StableHlo.binary_result_ne (h := hne main_v39 (by decide)), StableHlo.unary_result_ne (h := hne main_v38 (by decide)),
    StableHlo.nullary_result_ne (h := hne main_c_9 (by decide)), StableHlo.ternary_result_ne (h := hne main_v37 (by decide)),
    StableHlo.binary_result_ne (h := hne main_v36 (by decide)), StableHlo.unary_result_ne (h := hne main_v35 (by decide)),
    StableHlo.nullary_result_ne (h := hne main_c_8 (by decide)), StableHlo.binary_result_ne (h := hne main_v34 (by decide)),
    StableHlo.unary_result_ne (h := hne main_v33 (by decide)), StableHlo.nullary_result_ne (h := hne main_c_7 (by decide)),
    StableHlo.unary_result_ne (h := hne main_v32 (by decide)), StableHlo.nullary_result_ne (h := hne main_cst_6 (by decide)),
    StableHlo.binary_result_ne (h := hne main_v31 (by decide)), StableHlo.binary_result_ne (h := hne main_v30 (by decide)),
    StableHlo.unary_result_ne (h := hne main_v29 (by decide)), StableHlo.ternary_result_ne (h := hne main_v28 (by decide)),
    StableHlo.binary_result_ne (h := hne main_v27 (by decide)), StableHlo.unary_result_ne (h := hne main_v26 (by decide)),
    StableHlo.nullary_result_ne (h := hne main_c_5 (by decide)), StableHlo.binary_result_ne (h := hne main_v25 (by decide)),
    StableHlo.unary_result_ne (h := hne main_v24 (by decide)), StableHlo.nullary_result_ne (h := hne main_c_4 (by decide)),
    StableHlo.binary_result_ne (h := hne main_v23 (by decide)), StableHlo.binary_result_ne (h := hne main_v22 (by decide)),
    StableHlo.unary_result_ne (h := hne main_v21 (by decide)), StableHlo.ternary_result_ne (h := hne main_v20 (by decide)),
    StableHlo.binary_result_ne (h := hne main_v19 (by decide)), StableHlo.unary_result_ne (h := hne main_v18 (by decide)),
    StableHlo.nullary_result_ne (h := hne main_c_3 (by decide)), StableHlo.binary_result_ne (h := hne main_v17 (by decide)),
    StableHlo.unary_result_ne (h := hne main_v16 (by decide)), StableHlo.nullary_result_ne (h := hne main_c (by decide))]

/-- So the launch of the first layer finds every program argument as it was given. -/
theorem V0_arg (W₀ : Valuation τ sig (Elt Ideal)) (r : Ref sig .tc)
    (hr : r ∈ [main_arg0, main_arg1, main_arg2, main_arg3, main_arg4, main_arg5, main_arg6, main_arg7, main_arg8, main_arg9,
      main_arg10, main_arg11, main_arg12]) :
    V0 W₀ (Proc.devRef .tc r) = W₀ (Proc.devRef .tc r) := by
  unfold V0
  simp only [List.mem_cons, List.mem_nil_iff, or_false] at hr
  rcases hr with rfl | rfl | rfl | rfl | rfl | rfl | rfl | rfl | rfl | rfl | rfl | rfl | rfl <;>
    rw [third_keep _ _ (by decide), pre_arg _ _ (by decide)]

end Cert.KernelIdeal.HostValue

end
-- ==== Proof.KI.HostTail.lean ====
/-
  The host operations between the layers, read at an index.

  Between two layers the host program stores the previous layer's output and the next weight matrix in a narrower
  float format — over the extended reals a change of format is the identity, so each such array is entry by entry
  the array it was made from — and views the next bias `[H]` as a row `[1, H]`, whose entry `(0, q)` is the
  bias's entry `q`.  Every other array is left as it was; in particular the dense matrix of edge weights and the
  program's arguments.  All statements are for an arbitrary content of the arrays before the operations.
-/
import proofs.«164907_j26860725469614_1_alg».proof.Proof.Gen.KernelIdeal.Launch
import Idealize.ShloMosaic.Lib.ValueIdx
import Idealize.ShloMosaic.Lib.Pipeline.Value
import proofs.«164907_j26860725469614_1_alg».proof.Proof.LibLayoutReads

noncomputable section

namespace Cert.KernelIdeal.HostValue

open Idealize.ShloMosaic Idealize.ShloMosaic.TcCoe Idealize.ShloMosaic.ValueIdx
open Idealize.SL.Sem
open Cert.KernelIdeal Cert.KernelIdeal.Gen

/-! ## The arrays stored in the narrower format -/

/-- After the operations before layer 2, `main_v52` is `main_v51` entry by entry. -/
theorem hostOps1_v52 (W : Valuation τ sig (Elt Ideal)) (i : S12288x128.Idx) :
    StableHlo.after (hostOps1 (F := Ideal)) W (Proc.devRef .tc main_v52) i = W (Proc.devRef .tc main_v51) i := by
  have e : StableHlo.after (hostOps1 (F := Ideal)) W (Proc.devRef .tc main_v52)
      = (truncf .bf16 (W (Proc.devRef .tc main_v51)) bitsLt_bf16_f32 : FVec Ideal S12288x128 .bf16) := by
    dsimp only [hostOps1]; after_results; try rfl
  rw [e]; rfl

/-- After the operations before layer 2, `main_v53` is `main_arg5` entry by entry. -/
theorem hostOps1_v53 (W : Valuation τ sig (Elt Ideal)) (i : S128x128.Idx) :
    StableHlo.after (hostOps1 (F := Ideal)) W (Proc.devRef .tc main_v53) i = W (Proc.devRef .tc main_arg5) i := by
  have e : StableHlo.after (hostOps1 (F := Ideal)) W (Proc.devRef .tc main_v53)
      = (truncf .bf16 (W (Proc.devRef .tc main_arg5)) bitsLt_bf16_f32 : FVec Ideal S128x128 .bf16) := by
    dsimp only [hostOps1]; after_results; try rfl
  rw [e]; rfl

/-- After the operations before layer 3, `main_v56` is `main_v55` entry by entry. -/
theorem hostOps2_v56 (W : Valuation τ sig (Elt Ideal)) (i : S12288x128.Idx) :
    StableHlo.after (hostOps2 (F := Ideal)) W (Proc.devRef .tc main_v56) i = W (Proc.devRef .tc main_v55) i := by
  have e : StableHlo.after (hostOps2 (F := Ideal)) W (Proc.devRef .tc main_v56)
      = (truncf .bf16 (W (Proc.devRef .tc main_v55)) bitsLt_bf16_f32 : FVec Ideal S12288x128 .bf16) := by
    dsimp only [hostOps2]; after_results; try rfl
  rw [e]; rfl

/-- After the operations before layer 3, `main_v57` is `main_arg7` entry by entry. -/
theorem hostOps2_v57 (W : Valuation τ sig (Elt Ideal)) (i : S128x128.Idx) :
    StableHlo.after (hostOps2 (F := Ideal)) W (Proc.devRef .tc main_v57) i = W (Proc.devRef .tc main_arg7) i := by
  have e : StableHlo.after (hostOps2 (F := Ideal)) W (Proc.devRef .tc main_v57)
      = (truncf .bf16 (W (Proc.devRef .tc main_arg7)) bitsLt_bf16_f32 : FVec Ideal S128x128 .bf16) := by
    dsimp only [hostOps2]; after_results; try rfl
  rw [e]; rfl

/-- After the operations before layer 4, `main_v60` is `main_v59` entry by entry. -/
theorem hostOps3_v60 (W : Valuation τ sig (Elt Ideal)) (i : S12288x128.Idx) :
    StableHlo.after (hostOps3 (F := Ideal)) W (Proc.devRef .tc main_v60) i = W (Proc.devRef .tc main_v59) i := by
  have e : StableHlo.after (hostOps3 (F := Ideal)) W (Proc.devRef .tc main_v60)
      = (truncf .bf16 (W (Proc.devRef .tc main_v59)) bitsLt_bf16_f32 : FVec Ideal S12288x128 .bf16) := by
    dsimp only [hostOps3]; after_results; try rfl
  rw [e]; rfl

/-- After the operations before layer 4, `main_v61` is `main_arg9` entry by entry. -/
theorem hostOps3_v61 (W : Valuation τ sig (Elt Ideal)) (i : S128x512.Idx) :
    StableHlo.after (hostOps3 (F := Ideal)) W (Proc.devRef .tc main_v61) i = W (Proc.devRef .tc main_arg9) i := by
  have e : StableHlo.after (hostOps3 (F := Ideal)) W (Proc.devRef .tc main_v61)
      = (truncf .bf16 (W (Proc.devRef .tc main_arg9)) bitsLt_bf16_f32 : FVec Ideal S128x512 .bf16) := by
    dsimp only [hostOps3]; after_results; try rfl
  rw [e]; rfl

/-- After the operations before layer 5, `main_v64` is `main_v55` entry by entry. -/
theorem hostOps4_v64 (W : Valuation τ sig (Elt Ideal)) (i : S12288x128.Idx) :
    StableHlo.after (hostOps4 (F := Ideal)) W (Proc.devRef .tc main_v64) i = W (Proc.devRef .tc main_v55) i := by
  have e : StableHlo.after (hostOps4 (F := Ideal)) W (Proc.devRef .tc main_v64)
      = (truncf .bf16 (W (Proc.devRef .tc main_v55)) bitsLt_bf16_f32 : FVec Ideal S12288x128 .bf16) := by
    dsimp only [hostOps4]; after_results; try rfl
  rw [e]; rfl

/-- After the operations before layer 5, `main_v65` is `main_arg11` entry by entry. -/
theorem hostOps4_v65 (W : Valuation τ sig (Elt Ideal)) (i : S128x128.Idx) :
    StableHlo.after (hostOps4 (F := Ideal)) W (Proc.devRef .tc main_v65) i = W (Proc.devRef .tc main_arg11) i := by
  have e : StableHlo.after (hostOps4 (F := Ideal)) W (Proc.devRef .tc main_v65)
      = (truncf .bf16 (W (Proc.devRef .tc main_arg11)) bitsLt_bf16_f32 : FVec Ideal S128x128 .bf16) := by
    dsimp only [hostOps4]; after_results; try rfl
  rw [e]; rfl

/-- After the operations before layer six (the Gram matrix), `main_v68` is `main_v67` entry by entry. -/
theorem hostOps5_v68 (W : Valuation τ sig (Elt Ideal)) (i : S12288x128.Idx) :
    StableHlo.after (hostOps5 (F := Ideal)) W (Proc.devRef .tc main_v68) i = W (Proc.devRef .tc main_v67) i := by
  have e : StableHlo.after (hostOps5 (F := Ideal)) W (Proc.devRef .tc main_v68)
      = (truncf .bf16 (W (Proc.devRef .tc main_v67)) bitsLt_bf16_f32 : FVec Ideal S12288x128 .bf16) := by
    dsimp only [hostOps5]; after_results; try rfl
  rw [e]; rfl

/-! ## The biases viewed as rows -/

/-- After the operations before layer 2, entry `(0, q)` of the row `main_v54` is entry `q` of the bias `main_arg6`. -/
theorem hostOps1_v54 (W : Valuation τ sig (Elt Ideal)) (q : Fin 128) :
    StableHlo.after (hostOps1 (F := Ideal)) W (Proc.devRef .tc main_v54) (ix2 (0 : Fin 1) q)
      = W (Proc.devRef .tc main_arg6) (ix1 q) := by
  have e : StableHlo.after (hostOps1 (F := Ideal)) W (Proc.devRef .tc main_v54)
      = (shapeCast S1x128 (W (Proc.devRef .tc main_arg6)) shapeCasts_S128_S1x128 : FVec Ideal S1x128 .f32) := by
    dsimp only [hostOps1]; after_results; try rfl
  rw [e]
  exact Cert.Gcn.reshapeRow_apply _ _ q

/-- After the operations before layer 3, entry `(0, q)` of the row `main_v58` is entry `q` of the bias `main_arg8`. -/
theorem hostOps2_v58 (W : Valuation τ sig (Elt Ideal)) (q : Fin 128) :
    StableHlo.after (hostOps2 (F := Ideal)) W (Proc.devRef .tc main_v58) (ix2 (0 : Fin 1) q)
      = W (Proc.devRef .tc main_arg8) (ix1 q) := by
  have e : StableHlo.after (hostOps2 (F := Ideal)) W (Proc.devRef .tc main_v58)
      = (shapeCast S1x128 (W (Proc.devRef .tc main_arg8)) shapeCasts_S128_S1x128 : FVec Ideal S1x128 .f32) := by
    dsimp only [hostOps2]; after_results; try rfl
  rw [e]
  exact Cert.Gcn.reshapeRow_apply _ _ q

/-- After the operations before layer 4, entry `(0, q)` of the row `main_v62` is entry `q` of the bias `main_arg10`. -/
theorem hostOps3_v62 (W : Valuation τ sig (Elt Ideal)) (q : Fin 512) :
    StableHlo.after (hostOps3 (F := Ideal)) W (Proc.devRef .tc main_v62) (ix2 (0 : Fin 1) q)
      = W (Proc.devRef .tc main_arg10) (ix1 q) := by
  have e : StableHlo.after (hostOps3 (F := Ideal)) W (Proc.devRef .tc main_v62)
      = (shapeCast S1x512 (W (Proc.devRef .tc main_arg10)) shapeCasts_S512_S1x512 : FVec Ideal S1x512 .f32) := by
    dsimp only [hostOps3]; after_results; try rfl
  rw [e]
  exact Cert.Gcn.reshapeRow_apply _ _ q

/-- After the operations before layer 5, entry `(0, q)` of the row `main_v66` is entry `q` of the bias `main_arg12`. -/
theorem hostOps4_v66 (W : Valuation τ sig (Elt Ideal)) (q : Fin 128) :
    StableHlo.after (hostOps4 (F := Ideal)) W (Proc.devRef .tc main_v66) (ix2 (0 : Fin 1) q)
      = W (Proc.devRef .tc main_arg12) (ix1 q) := by
  have e : StableHlo.after (hostOps4 (F := Ideal)) W (Proc.devRef .tc main_v66)
      = (shapeCast S1x128 (W (Proc.devRef .tc main_arg12)) shapeCasts_S128_S1x128 : FVec Ideal S1x128 .f32) := by
    dsimp only [hostOps4]; after_results; try rfl
  rw [e]
  exact Cert.Gcn.reshapeRow_apply _ _ q

/-! ## What the operations leave alone -/

/-- The operations before layer 2 write only `main_v52`, `main_v53`, `main_v54`: every other array keeps its contents. -/
theorem hostOps1_keep (W : Valuation τ sig (Elt Ideal)) (r : Ref sig .tc) (hv52 : r ≠ main_v52) (hv53 : r ≠ main_v53) (hv54 : r ≠ main_v54) :
    StableHlo.after (hostOps1 (F := Ideal)) W (Proc.devRef .tc r) = W (Proc.devRef .tc r) := by
  dsimp only [hostOps1]
  simp only [StableHlo.after_cons, StableHlo.after_nil]
  rw [StableHlo.reshape_result_ne (h := hv54)]
  rw [StableHlo.unary_result_ne (h := hv53)]
  rw [StableHlo.unary_result_ne (h := hv52)]

/-- The operations before layer 3 write only `main_v56`, `main_v57`, `main_v58`: every other array keeps its contents. -/
theorem hostOps2_keep (W : Valuation τ sig (Elt Ideal)) (r : Ref sig .tc) (hv56 : r ≠ main_v56) (hv57 : r ≠ main_v57) (hv58 : r ≠ main_v58) :
    StableHlo.after (hostOps2 (F := Ideal)) W (Proc.devRef .tc r) = W (Proc.devRef .tc r) := by
  dsimp only [hostOps2]
  simp only [StableHlo.after_cons, StableHlo.after_nil]
  rw [StableHlo.reshape_result_ne (h := hv58)]
  rw [StableHlo.unary_result_ne (h := hv57)]
  rw [StableHlo.unary_result_ne (h := hv56)]

/-- The operations before layer 4 write only `main_v60`, `main_v61`, `main_v62`: every other array keeps its contents. -/
theorem hostOps3_keep (W : Valuation τ sig (Elt Ideal)) (r : Ref sig .tc) (hv60 : r ≠ main_v60) (hv61 : r ≠ main_v61) (hv62 : r ≠ main_v62) :
    StableHlo.after (hostOps3 (F := Ideal)) W (Proc.devRef .tc r) = W (Proc.devRef .tc r) := by
  dsimp only [hostOps3]
  simp only [StableHlo.after_cons, StableHlo.after_nil]
  rw [StableHlo.reshape_result_ne (h := hv62)]
  rw [StableHlo.unary_result_ne (h := hv61)]
  rw [StableHlo.unary_result_ne (h := hv60)]

/-- The operations before layer 5 write only `main_v64`, `main_v65`, `main_v66`: every other array keeps its contents. -/
theorem hostOps4_keep (W : Valuation τ sig (Elt Ideal)) (r : Ref sig .tc) (hv64 : r ≠ main_v64) (hv65 : r ≠ main_v65) (hv66 : r ≠ main_v66) :
    StableHlo.after (hostOps4 (F := Ideal)) W (Proc.devRef .tc r) = W (Proc.devRef .tc r) := by
  dsimp only [hostOps4]
  simp only [StableHlo.after_cons, StableHlo.after_nil]
  rw [StableHlo.reshape_result_ne (h := hv66)]
  rw [StableHlo.unary_result_ne (h := hv65)]
  rw [StableHlo.unary_result_ne (h := hv64)]

/-- The operations before layer six write only `main_v68`: every other array keeps its contents. -/
theorem hostOps5_keep (W : Valuation τ sig (Elt Ideal)) (r : Ref sig .tc) (hv68 : r ≠ main_v68) :
    StableHlo.after (hostOps5 (F := Ideal)) W (Proc.devRef .tc r) = W (Proc.devRef .tc r) := by
  dsimp only [hostOps5]
  simp only [StableHlo.after_cons, StableHlo.after_nil]
  rw [StableHlo.unary_result_ne (h := hv68)]

end Cert.KernelIdeal.HostValue

end
-- ==== Proof.KI.NetValue.lean ====
/-
  The kernel program's two results as the network in its dense form.

  The program runs five layers and one Gram product, each as a pipelined region, with a few host operations before
  each.  Every layer region leaves in its output array the dense layer of the four arrays it was launched on (the
  matrix of edge weights, the features, the weights, the bias row); the last region leaves the Gram matrix of the
  array it was launched on.  Following the arrays from one region's exit to the next region's entry — the matrix of
  edge weights is built once and never written again, a layer's output is stored in a narrower format (the identity
  over the extended reals) and fed to the next, the second layer's output also feeds the fifth, the weights and the
  bias rows are the program's arguments — the two results are the reconstructed features and the reconstructed
  adjacency of the specification's network over the dense matrix `adj` of the shared edge functions.

  What each region leaves is taken as a hypothesis here (one statement per region, for any contents at its entry), so
  that this composition stands by itself.
-/
import proofs.«164907_j26860725469614_1_alg».proof.Proof.KI.Main
import proofs.«164907_j26860725469614_1_alg».proof.Proof.KI.ChainVals
import proofs.«164907_j26860725469614_1_alg».proof.Proof.KI.AHatReg
import proofs.«164907_j26860725469614_1_alg».proof.Proof.KI.HostValue
import proofs.«164907_j26860725469614_1_alg».proof.Proof.KI.HostTail
import proofs.«164907_j26860725469614_1_alg».proof.Proof.NetArgs

set_option maxRecDepth 16384

noncomputable section

namespace Cert.KernelIdeal.NetValue

open Cert.KernelIdeal Cert.KernelIdeal.Gen Cert.KernelIdeal.Hand Cert.KernelIdeal.HostValue
open Idealize.ShloMosaic Idealize.ShloMosaic.TcCoe Idealize.ShloMosaic.ValueIdx
open Idealize.SL.Sem
open Cert.Spec Cert.Args

/-! ## What each region leaves, as statements -/

/-- A layer region whose proof data are `dat`, launched on the arrays `a` (edge weights), `x` (features), `wm`
    (weights), `bv` (bias row), leaves the dense layer of those four in its output array. -/
def Layer0Fact : Prop := ∀ (V : TcVal Ideal) (c : Dev nD) (r : Fin NN) (q : Fin 128),
  (((r0 (F := Ideal)).dat V c).arrAt 4 cfg0.N : S12288x128.Idx → EReal) (ix2 r q)
    = denseLayer (fun r s => (V c main_v47 : S12288x12288.Idx → EReal) (ix2 r s))
        (fun s j => (V c main_v48 : S12288x512.Idx → EReal) (ix2 s j))
        (fun j q => (V c main_v49 : S512x128.Idx → EReal) (ix2 j q))
        (fun q => (V c main_v50 : S1x128.Idx → EReal) (ix2 (0 : Fin 1) q)) r q

def Layer1Fact : Prop := ∀ (V : TcVal Ideal) (c : Dev nD) (r : Fin NN) (q : Fin 128),
  (((r1 (F := Ideal)).dat V c).arrAt 4 cfg1.N : S12288x128.Idx → EReal) (ix2 r q)
    = denseLayer (fun r s => (V c main_v47 : S12288x12288.Idx → EReal) (ix2 r s))
        (fun s j => (V c main_v52 : S12288x128.Idx → EReal) (ix2 s j))
        (fun j q => (V c main_v53 : S128x128.Idx → EReal) (ix2 j q))
        (fun q => (V c main_v54 : S1x128.Idx → EReal) (ix2 (0 : Fin 1) q)) r q

def Layer2Fact : Prop := ∀ (V : TcVal Ideal) (c : Dev nD) (r : Fin NN) (q : Fin 128),
  (((r2 (F := Ideal)).dat V c).arrAt 4 cfg2.N : S12288x128.Idx → EReal) (ix2 r q)
    = denseLayer (fun r s => (V c main_v47 : S12288x12288.Idx → EReal) (ix2 r s))
        (fun s j => (V c main_v56 : S12288x128.Idx → EReal) (ix2 s j))
        (fun j q => (V c main_v57 : S128x128.Idx → EReal) (ix2 j q))
        (fun q => (V c main_v58 : S1x128.Idx → EReal) (ix2 (0 : Fin 1) q)) r q

def Layer3Fact : Prop := ∀ (V : TcVal Ideal) (c : Dev nD) (r : Fin NN) (q : Fin 512),
  (((r3 (F := Ideal)).dat V c).arrAt 4 cfg3.N : S12288x512.Idx → EReal) (ix2 r q)
    = denseLayer (fun r s => (V c main_v47 : S12288x12288.Idx → EReal) (ix2 r s))
        (fun s j => (V c main_v60 : S12288x128.Idx → EReal) (ix2 s j))
        (fun j q => (V c main_v61 : S128x512.Idx → EReal) (ix2 j q))
        (fun q => (V c main_v62 : S1x512.Idx → EReal) (ix2 (0 : Fin 1) q)) r q

def Layer4Fact : Prop := ∀ (V : TcVal Ideal) (c : Dev nD) (r : Fin NN) (q : Fin 128),
  (((r4 (F := Ideal)).dat V c).arrAt 4 cfg4.N : S12288x128.Idx → EReal) (ix2 r q)
    = denseLayer (fun r s => (V c main_v47 : S12288x12288.Idx → EReal) (ix2 r s))
        (fun s j => (V c main_v64 : S12288x128.Idx → EReal) (ix2 s j))
        (fun j q => (V c main_v65 : S128x128.Idx → EReal) (ix2 j q))
        (fun q => (V c main_v66 : S1x128.Idx → EReal) (ix2 (0 : Fin 1) q)) r q

/-- The last region leaves the Gram matrix of the array it was launched on. -/
def GramFact : Prop := ∀ (V : TcVal Ideal) (c : Dev nD) (r r' : Fin NN),
  (((r5 (F := Ideal)).dat V c).arrAt 2 cfg5.N : S12288x12288.Idx → EReal) (ix2 r r')
    = gram (fun r j => (V c main_v68 : S12288x128.Idx → EReal) (ix2 r j)) r r'

/-! ## The network's intermediate arrays, as functions of the launch contents -/

section Chain

variable (m : (ℓ : Loc nD τ sig) → Buf (Elt Ideal) ℓ) (ρ : Dev nD → PrngReg) (c : Dev nD)

/-- The index pairs and the edge weights among the program's arguments. -/
abbrev eiA : IVec Cert.Terms.S2E0 32 := m ((c : Thread nD τ).loc main_arg1)
abbrev wA : FVec Ideal Cert.Terms.SE0 .f32 := m ((c : Thread nD τ).loc main_arg2)

/-- The dense matrix of normalised edge weights. -/
def Adj : Fin NN → Fin NN → EReal :=
  adj (Cert.Terms.nrmF (eiA m c) (wA m c)) (Cert.Terms.srcF (eiA m c)) (Cert.Terms.dstF (eiA m c))

/-- The parameters and the features. -/
abbrev PA : Params :=
  Pof (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))
abbrev XA : Fin NN → Fin 512 → EReal := Xof (m ((c : Thread nD τ).loc main_arg0))

/-- The two encoder layers, the attribute decoder's first layer, and the structure decoder's layer. -/
def H1 : Fin NN → Fin 128 → EReal := denseLayer (Adj m c) (XA m c) (PA m c).W1 (PA m c).b1
def H2 : Fin NN → Fin 128 → EReal := denseLayer (Adj m c) (H1 m c) (PA m c).W2 (PA m c).b2
def XH : Fin NN → Fin 128 → EReal := denseLayer (Adj m c) (H2 m c) (PA m c).Wa1 (PA m c).ba1
def SS : Fin NN → Fin 128 → EReal := denseLayer (Adj m c) (H2 m c) (PA m c).Ws1 (PA m c).bs1

/-- The network's two results in terms of them. -/
theorem netDense_xhat : (netDense (Adj m c) (XA m c) (PA m c)).xhat = denseLayer (Adj m c) (XH m c) (PA m c).Wa2 (PA m c).ba2 := rfl
theorem netDense_ahat : (netDense (Adj m c) (XA m c) (PA m c)).ahat = gram (SS m c) := rfl

/-- Dense layers of entrywise equal arrays are equal. -/
theorem denseLayer_congr {K H : ℕ} {A A' : Fin NN → Fin NN → EReal} {X X' : Fin NN → Fin K → EReal}
    {W W' : Fin K → Fin H → EReal} {b b' : Fin H → EReal} (hA : ∀ r s, A r s = A' r s) (hX : ∀ s j, X s j = X' s j)
    (hW : ∀ j q, W j q = W' j q) (hb : ∀ q, b q = b' q) (r : Fin NN) (q : Fin H) :
    denseLayer A X W b r q = denseLayer A' X' W' b' r q := by
  have e1 : A = A' := funext fun r => funext (hA r)
  have e2 : X = X' := funext fun s => funext (hX s)
  have e3 : W = W' := funext fun j => funext (hW j)
  have e4 : b = b' := funext hb
  rw [e1, e2, e3, e4]

/-! ## The launch of the first layer -/

/-- The matrix every layer reads is the dense matrix of normalised edge weights. -/
theorem A_at3 (h : Cert.Terms.InRange (eiA m c)) (r s : Fin NN) :
    (W3 m ρ c main_v47 : S12288x12288.Idx → EReal) (ix2 r s) = Adj m c r s :=
  v47_read (W0 m ρ c) h r s

theorem X_at3 (s : Fin NN) (j : Fin 512) : (W3 m ρ c main_v48 : S12288x512.Idx → EReal) (ix2 s j) = XA m c s j :=
  v48_read (W0 m ρ c) (ix2 s j)

theorem W_at3 (j : Fin 512) (q : Fin 128) : (W3 m ρ c main_v49 : S512x128.Idx → EReal) (ix2 j q) = (PA m c).W1 j q :=
  v49_read (W0 m ρ c) (ix2 j q)

theorem b_at3 (q : Fin 128) : (W3 m ρ c main_v50 : S1x128.Idx → EReal) (ix2 (0 : Fin 1) q) = (PA m c).b1 q :=
  v50_read (W0 m ρ c) q

/-! ## The five layers -/

/-- The first encoder layer's output array. -/
theorem out0 (L0 : Layer0Fact) (h : Cert.Terms.InRange (eiA m c)) (r : Fin NN) (q : Fin 128) :
    (W4 m ρ r0 c main_v51 : S12288x128.Idx → EReal) (ix2 r q) = H1 m c r q := by
  rw [W4_main_v51, L0 (V3 m ρ) c r q]
  exact denseLayer_congr (A_at3 m ρ c h) (X_at3 m ρ c) (W_at3 m ρ c) (b_at3 m ρ c) r q

/-- The second encoder layer's output array. -/
theorem out1 (L0 : Layer0Fact) (L1 : Layer1Fact) (h : Cert.Terms.InRange (eiA m c)) (r : Fin NN) (q : Fin 128) :
    (W6 m ρ r0 r1 c main_v55 : S12288x128.Idx → EReal) (ix2 r q) = H2 m c r q := by
  rw [W6_main_v55, L1 (V5 m ρ r0) c r q]
  refine denseLayer_congr (fun r s => ?_) (fun s j => ?_) (fun j q => ?_) (fun q => ?_) r q
  · exact (congrFun (W5_main_v47 m ρ r0 c) (ix2 r s)).trans (A_at3 m ρ c h r s)
  · exact (hostOps1_v52 (W4 m ρ r0 c) (ix2 s j)).trans (out0 m ρ c L0 h s j)
  · exact (hostOps1_v53 (W4 m ρ r0 c) (ix2 j q)).trans (congrFun (W4_main_arg5 m ρ r0 c) (ix2 j q))
  · exact (hostOps1_v54 (W4 m ρ r0 c) q).trans (congrFun (W4_main_arg6 m ρ r0 c) (ix1 q))

/-- The attribute decoder's first layer's output array. -/
theorem out2 (L0 : Layer0Fact) (L1 : Layer1Fact) (L2 : Layer2Fact) (h : Cert.Terms.InRange (eiA m c)) (r : Fin NN) (q : Fin 128) :
    (W8 m ρ r0 r1 r2 c main_v59 : S12288x128.Idx → EReal) (ix2 r q) = XH m c r q := by
  rw [W8_main_v59, L2 (V7 m ρ r0 r1) c r q]
  refine denseLayer_congr (fun r s => ?_) (fun s j => ?_) (fun j q => ?_) (fun q => ?_) r q
  · exact (congrFun (W7_main_v47 m ρ r0 r1 c) (ix2 r s)).trans (A_at3 m ρ c h r s)
  · exact (hostOps2_v56 (W6 m ρ r0 r1 c) (ix2 s j)).trans (out1 m ρ c L0 L1 h s j)
  · exact (hostOps2_v57 (W6 m ρ r0 r1 c) (ix2 j q)).trans (congrFun (W6_main_arg7 m ρ r0 r1 c) (ix2 j q))
  · exact (hostOps2_v58 (W6 m ρ r0 r1 c) q).trans (congrFun (W6_main_arg8 m ρ r0 r1 c) (ix1 q))

/-- The attribute decoder's second layer's output array: the reconstructed features. -/
theorem out3 (L0 : Layer0Fact) (L1 : Layer1Fact) (L2 : Layer2Fact) (L3 : Layer3Fact) (h : Cert.Terms.InRange (eiA m c)) (r : Fin NN) (q : Fin 512) :
    (W10 m ρ r0 r1 r2 r3 c main_v63 : S12288x512.Idx → EReal) (ix2 r q)
      = denseLayer (Adj m c) (XH m c) (PA m c).Wa2 (PA m c).ba2 r q := by
  rw [W10_main_v63, L3 (V9 m ρ r0 r1 r2) c r q]
  refine denseLayer_congr (fun r s => ?_) (fun s j => ?_) (fun j q => ?_) (fun q => ?_) r q
  · exact (congrFun (W9_main_v47 m ρ r0 r1 r2 c) (ix2 r s)).trans (A_at3 m ρ c h r s)
  · exact (hostOps3_v60 (W8 m ρ r0 r1 r2 c) (ix2 s j)).trans (out2 m ρ c L0 L1 L2 h s j)
  · exact (hostOps3_v61 (W8 m ρ r0 r1 r2 c) (ix2 j q)).trans (congrFun (W8_main_arg9 m ρ r0 r1 r2 c) (ix2 j q))
  · exact (hostOps3_v62 (W8 m ρ r0 r1 r2 c) q).trans (congrFun (W8_main_arg10 m ρ r0 r1 r2 c) (ix1 q))

/-- The structure decoder's layer's output array. -/
theorem out4 (L0 : Layer0Fact) (L1 : Layer1Fact) (L4 : Layer4Fact) (h : Cert.Terms.InRange (eiA m c)) (r : Fin NN) (q : Fin 128) :
    (W12 m ρ r0 r1 r2 r3 r4 c main_v67 : S12288x128.Idx → EReal) (ix2 r q) = SS m c r q := by
  rw [W12_main_v67, L4 (V11 m ρ r0 r1 r2 r3) c r q]
  refine denseLayer_congr (fun r s => ?_) (fun s j => ?_) (fun j q => ?_) (fun q => ?_) r q
  · exact (congrFun (W11_main_v47 m ρ r0 r1 r2 r3 c) (ix2 r s)).trans (A_at3 m ρ c h r s)
  · exact (hostOps4_v64 (W10 m ρ r0 r1 r2 r3 c) (ix2 s j)).trans
      ((congrFun (W10_main_v55 m ρ r0 r1 r2 r3 c) (ix2 s j)).trans (out1 m ρ c L0 L1 h s j))
  · exact (hostOps4_v65 (W10 m ρ r0 r1 r2 r3 c) (ix2 j q)).trans (congrFun (W10_main_arg11 m ρ r0 r1 r2 r3 c) (ix2 j q))
  · exact (hostOps4_v66 (W10 m ρ r0 r1 r2 r3 c) q).trans (congrFun (W10_main_arg12 m ρ r0 r1 r2 r3 c) (ix1 q))

/-! ## The two results -/

/-- THE RECONSTRUCTED FEATURES: the program's first result is the dense network's. -/
theorem net_xhat (L0 : Layer0Fact) (L1 : Layer1Fact) (L2 : Layer2Fact) (L3 : Layer3Fact) (R5 : Reg5 (F := Ideal))
    (h : Cert.Terms.InRange (eiA m c)) (r : Fin NN) (q : Fin 512) :
    (Wend m ρ R5 c main_v63 : S12288x512.Idx → EReal) (ix2 r q) = (netDense (Adj m c) (XA m c) (PA m c)).xhat r q := by
  rw [netDense_xhat]
  refine (congrFun (W14_main_v63 m ρ r0 r1 r2 r3 r4 R5 c) (ix2 r q)).trans ?_
  exact (congrFun (W10_main_v63 m ρ r0 r1 r2 r3 c).symm (ix2 r q)).trans (out3 m ρ c L0 L1 L2 L3 h r q)

/-- THE RECONSTRUCTED ADJACENCY, from the last region's result as the Gram matrix of the structure decoder's output
    array (`hG`): the program's second result is the dense network's. -/
theorem net_ahat_of (L0 : Layer0Fact) (L1 : Layer1Fact) (L4 : Layer4Fact) (R5 : Reg5 (F := Ideal))
    (h : Cert.Terms.InRange (eiA m c))
    (hG : ∀ r r' : Fin NN, (Wend m ρ R5 c main_v69 : S12288x12288.Idx → EReal) (ix2 r r')
      = gram (fun r j => (W12 m ρ r0 r1 r2 r3 r4 c main_v67 : S12288x128.Idx → EReal) (ix2 r j)) r r')
    (r r' : Fin NN) :
    (Wend m ρ R5 c main_v69 : S12288x12288.Idx → EReal) (ix2 r r') = (netDense (Adj m c) (XA m c) (PA m c)).ahat r r' := by
  rw [netDense_ahat, hG r r']
  have e : (fun r j => (W12 m ρ r0 r1 r2 r3 r4 c main_v67 : S12288x128.Idx → EReal) (ix2 r j)) = SS m c :=
    funext fun r => funext fun j => out4 m ρ c L0 L1 L4 h r j
  rw [e]

/-- The same from the last region's statement (`G`), at the product region's proof data `r5`. -/
theorem net_ahat (L0 : Layer0Fact) (L1 : Layer1Fact) (L4 : Layer4Fact) (G : GramFact) (h : Cert.Terms.InRange (eiA m c)) (r r' : Fin NN) :
    (Wend m ρ r5 c main_v69 : S12288x12288.Idx → EReal) (ix2 r r') = (netDense (Adj m c) (XA m c) (PA m c)).ahat r r' := by
  refine net_ahat_of m ρ c L0 L1 L4 r5 h (fun r r' => ?_) r r'
  refine (congrFun (W14_out m ρ r0 r1 r2 r3 r4 r5 c) (ix2 r r')).trans ?_
  rw [G (V13 m ρ r0 r1 r2 r3 r4) c r r']
  refine congrFun (congrFun (congrArg gram (funext fun r => funext fun j => ?_)) r) r'
  exact hostOps5_v68 (W12 m ρ r0 r1 r2 r3 r4 c) (ix2 r j)

end Chain

end Cert.KernelIdeal.NetValue

end
-- ==== Proof.KI.G0Pieces.lean ====
/-
  Region 0: what each case of the body leaves, as the body's arithmetic applied to the blocks it was handed.
  first tile: the scratch ends at  0-block + A_tile (X_tile W);   later tiles: at  what it held + A_tile (X_tile W);
  last tile also: the output tile ends at  max (scratch + bias row, 0).
-/
import proofs.«164907_j26860725469614_1_alg».proof.Proof.KI.G0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

theorem sout0_A_eq (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF0 i) (hc1 : ¬condL0 i)
    (x0 : Vec F S1024x1024 .bf16) (x1 : Vec F S1024x512 .bf16) (x2 : Vec F S512x128 .bf16) (x3 : Vec F S1x128 .f32) :
    sout0_A (F := F) c i arg2 harg2 arg3 harg3 arg4 harg4 arg5 harg5 arg6 harg6 arg7 harg7 hc0 hc1 x0 x1 x2 x3 = k0_pay2 x1 x2 (k0_pay1 (F := F)) x0 := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x128) hz0, View.readCov_unit_zero (S := S1024x128) _ hz0]
  simp only [View.readAt_eq_ld, harg2.read_unread, harg3.read_unread, harg4.read_unread, harg5.read_unread, harg7.read_unread, View.ld_unit_zero (S := S1024x1024) hz0, View.ld_unit_zero (S := S1024x512) hz0, View.ld_unit_zero (S := S512x128) hz0, View.ld_unit_zero (S := S1x128) hz0, View.ld_unit_zero (S := S1024x128) hz0]

theorem sout0_B_eq (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : ¬condL0 i)
    (x0 : Vec F S1024x1024 .bf16) (x1 : Vec F S1024x512 .bf16) (x2 : Vec F S512x128 .bf16) (x3 : Vec F S1x128 .f32) (xs0 : Vec F S1024x128 .f32) :
    sout0_B (F := F) c i arg2 harg2 arg3 harg3 arg4 harg4 arg5 harg5 arg6 harg6 arg7 harg7 hc0 hc1 x0 x1 x2 x3 xs0 = k0_pay2 x1 x2 xs0 x0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero hz0]
  simp only [View.readAt_eq_ld, harg2.read_unread, harg3.read_unread, harg4.read_unread, harg5.read_unread, harg7.read_unread, View.ld_unit_zero (S := S1024x1024) hz0, View.ld_unit_zero (S := S1024x512) hz0, View.ld_unit_zero (S := S512x128) hz0, View.ld_unit_zero (S := S1x128) hz0, View.ld_unit_zero (S := S1024x128) hz0]

theorem sout0_C_eq (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) :
    sout0_C (F := F) c i arg2 harg2 arg3 harg3 arg4 harg4 arg5 harg5 arg6 harg6 arg7 harg7 hc0 hc1 x0 x1 x2 x3 xs0 = k0_pay2 x1 x2 xs0 x0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz0]
  simp only [View.readAt_eq_ld, harg2.read_unread, harg3.read_unread, harg4.read_unread, harg5.read_unread, harg7.read_unread, View.ld_unit_zero (S := S1024x1024) hz0, View.ld_unit_zero (S := S1024x512) hz0, View.ld_unit_zero (S := S512x128) hz0, View.ld_unit_zero (S := S1x128) hz0, View.ld_unit_zero (S := S1024x128) hz0]

theorem out0_C_eq (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF0 i) (hc1 : condL0 i)
    (x0 : Vec F S1024x1024 .bf16) (x1 : Vec F S1024x512 .bf16) (x2 : Vec F S512x128 .bf16) (x3 : Vec F S1x128 .f32) (xs0 : Vec F S1024x128 .f32) :
    out0_C_4 (F := F) c i arg2 harg2 arg3 harg3 arg4 harg4 arg5 harg5 arg6 harg6 arg7 harg7 hc0 hc1 x0 x1 x2 x3 xs0 = k0_pay3 x3 (k0_pay2 x1 x2 xs0 x0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x128) hz0, View.readCov_unit_zero (S := S1024x128) _ hz0]
  simp only [View.readAt_eq_ld, harg2.read_unread, harg3.read_unread, harg4.read_unread, harg5.read_unread, harg7.read_unread, View.ld_unit_zero (S := S1024x1024) hz0, View.ld_unit_zero (S := S1024x512) hz0, View.ld_unit_zero (S := S512x128) hz0, View.ld_unit_zero (S := S1x128) hz0, View.ld_unit_zero (S := S1024x128) hz0]

end Cert.KernelIdeal.Hand

end
-- ==== Proof.KI.G0Chain.lean ====
/-
  Region 0: the accumulator scratch after each grid point in closed form (the ordered running sum over the reduction
  tiles, restarted at each row tile's first reduction tile), and the output tile at a row tile's last point.
-/
import proofs.«164907_j26860725469614_1_alg».proof.Proof.KI.G0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! What one point leaves, by the case it is in. -/

theorem scr0_A (c : Dev nD) (t : Fin cfg0.N) (h0 : t.val % 12 = 0) (h1 : ¬t.val % 12 = 11) :
    (outsAt0 V c t.val t.isLt).2 = k0_pay2 (iblk0 V c 1 t) (iblk0 V c 2 t) (k0_pay1 (F := F)) (iblk0 V c 0 t) := by
  rw [outsAt0_A V c t h0 h1]
  dsimp only
  exact sout0_A_eq c (grid0.coords t) (ms0_0 t) (hs0_0 t) (ms0_1 t) (hs0_1 t) (ms0_2 t) (hs0_2 t) (ms0_3 t) (hs0_3 t) (ms0_4 t) (hs0_4 t) scM0 (Memref.isWhole_whole _) ((hcondF0 t).mpr h0) (fun h => h1 ((hcondL0 t).mp h)) (iblk0 V c 0 t) (iblk0 V c 1 t) (iblk0 V c 2 t) (iblk0 V c 3 t)

theorem scr0_B (c : Dev nD) (t : Fin cfg0.N) (h0 : ¬t.val % 12 = 0) (h1 : ¬t.val % 12 = 11) :
    (outsAt0 V c t.val t.isLt).2 = k0_pay2 (iblk0 V c 1 t) (iblk0 V c 2 t) (outsAt0 V c (t.val - 1) (Nat.lt_of_le_of_lt (Nat.sub_le _ _) t.isLt)).2 (iblk0 V c 0 t) := by
  rw [outsAt0_B V c t h0 h1]
  dsimp only
  exact sout0_B_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) (fun h => h1 ((hcondL0 t).mp h)) (iblk0 V c 0 t) (iblk0 V c 1 t) (iblk0 V c 2 t) (iblk0 V c 3 t) (outsAt0 V c (t.val - 1) (Nat.lt_of_le_of_lt (Nat.sub_le _ _) t.isLt)).2

theorem scr0_C (c : Dev nD) (t : Fin cfg0.N) (h0 : ¬t.val % 12 = 0) (h1 : t.val % 12 = 11) :
    (outsAt0 V c t.val t.isLt).2 = k0_pay2 (iblk0 V c 1 t) (iblk0 V c 2 t) (outsAt0 V c (t.val - 1) (Nat.lt_of_le_of_lt (Nat.sub_le _ _) t.isLt)).2 (iblk0 V c 0 t) := by
  rw [outsAt0_C V c t h0 h1]
  dsimp only
  exact sout0_C_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2

theorem outv0_C (c : Dev nD) (t : Fin cfg0.N) (h0 : ¬t.val % 12 = 0) (h1 : t.val % 12 = 11) :
    (outsAt0 V c t.val t.isLt).1 = k0_pay3 (iblk0 V c 3 t) (k0_pay2 (iblk0 V c 1 t) (iblk0 V c 2 t) (outsAt0 V c (t.val - 1) (Nat.lt_of_le_of_lt (Nat.sub_le _ _) t.isLt)).2 (iblk0 V c 0 t)) := by
  rw [outsAt0_C V c t h0 h1]
  dsimp only
  exact out0_C_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcondF0 t).mp h)) ((hcondL0 t).mpr h1) (iblk0 V c 0 t) (iblk0 V c 1 t) (iblk0 V c 2 t) (iblk0 V c 3 t) (outsAt0 V c (t.val - 1) (Nat.lt_of_le_of_lt (Nat.sub_le _ _) t.isLt)).2

/-- The accumulator after point `n`: at a first reduction tile the cleared block plus the tile's product, otherwise what
    the point before left plus the tile's product. -/
def chain0 (c : Dev nD) : (n : ℕ) → n < cfg0.N → Vec F S1024x128 .f32
  | 0, h => k0_pay2 (iblk0 V c 1 ⟨0, h⟩) (iblk0 V c 2 ⟨0, h⟩) (k0_pay1 (F := F)) (iblk0 V c 0 ⟨0, h⟩)
  | n + 1, h =>
    if (n + 1) % 12 = 0 then k0_pay2 (iblk0 V c 1 ⟨n + 1, h⟩) (iblk0 V c 2 ⟨n + 1, h⟩) (k0_pay1 (F := F)) (iblk0 V c 0 ⟨n + 1, h⟩)
    else k0_pay2 (iblk0 V c 1 ⟨n + 1, h⟩) (iblk0 V c 2 ⟨n + 1, h⟩) (chain0 c n (Nat.lt_of_succ_lt h)) (iblk0 V c 0 ⟨n + 1, h⟩)

theorem chain0_first (c : Dev nD) (n : ℕ) (h : n < cfg0.N) (h0 : n % 12 = 0) :
    chain0 V c n h = k0_pay2 (iblk0 V c 1 ⟨n, h⟩) (iblk0 V c 2 ⟨n, h⟩) (k0_pay1 (F := F)) (iblk0 V c 0 ⟨n, h⟩) := by
  cases n with
  | zero => rfl
  | succ n => exact if_pos h0

theorem chain0_next (c : Dev nD) (n : ℕ) (h : n + 1 < cfg0.N) (h0 : ¬(n + 1) % 12 = 0) :
    chain0 V c (n + 1) h = k0_pay2 (iblk0 V c 1 ⟨n + 1, h⟩) (iblk0 V c 2 ⟨n + 1, h⟩) (chain0 V c n (Nat.lt_of_succ_lt h)) (iblk0 V c 0 ⟨n + 1, h⟩) :=
  if_neg h0

/-- What the recursion over the cases' found pieces leaves in the scratch IS the running sum. -/
theorem scr0_eq (c : Dev nD) : ∀ (n : ℕ) (h : n < cfg0.N), (outsAt0 V c n h).2 = chain0 V c n h
  | 0, h => (scr0_A V c ⟨0, h⟩ (Nat.zero_mod _) (by show ¬(0 % 12 = 11); decide)).trans (chain0_first V c 0 h (Nat.zero_mod _)).symm
  | n + 1, h => by
    by_cases h0 : (n + 1) % 12 = 0
    · have h1 : ¬(n + 1) % 12 = 11 := by omega
      exact (scr0_A V c ⟨n + 1, h⟩ h0 h1).trans (chain0_first V c (n + 1) h h0).symm
    · by_cases h1 : (n + 1) % 12 = 11
      · refine (scr0_C V c ⟨n + 1, h⟩ h0 h1).trans ?_
        rw [chain0_next V c n h h0]
        show k0_pay2 _ _ (outsAt0 V c n _).2 _ = k0_pay2 _ _ (chain0 V c n _) _
        rw [scr0_eq c n]
      · refine (scr0_B V c ⟨n + 1, h⟩ h0 h1).trans ?_
        rw [chain0_next V c n h h0]
        show k0_pay2 _ _ (outsAt0 V c n _).2 _ = k0_pay2 _ _ (chain0 V c n _) _
        rw [scr0_eq c n]

/-- At a row tile's last reduction tile the output tile is the rectified, biased running sum. -/
theorem out0_last (c : Dev nD) (t : Fin cfg0.N) (h1 : t.val % 12 = 11) :
    (outsAt0 V c t.val t.isLt).1 = k0_pay3 (iblk0 V c 3 t) (chain0 V c t.val t.isLt) := by
  have h0 : ¬t.val % 12 = 0 := by omega
  obtain ⟨n, h⟩ := t
  cases n with
  | zero => exact absurd (Nat.zero_mod 12) h0
  | succ n =>
    refine (outv0_C V c ⟨n + 1, h⟩ h0 h1).trans ?_
    rw [chain0_next V c n h h0]
    show k0_pay3 _ (k0_pay2 _ _ (outsAt0 V c n _).2 _) = k0_pay3 _ (k0_pay2 _ _ (chain0 V c n _) _)
    rw [scr0_eq V c n]

end Cert.KernelIdeal.Hand

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.KI.PayGen.lean ====
/-
  The three values a propagation kernel stores, read at an entry, for any tile extents.

  A kernel body of the network stores three values into its accumulator and output tiles:

    * the zero tile (at the first reduction step);
    * the accumulator plus  A_tile · (X_tile · W)  — two matrix products into a zero accumulator, the inner one's
      result changed to the narrower format and back, which on the extended reals changes nothing;
    * the accumulator plus the bias row, cut off below at zero (at the last reduction step).

  Each is read here at the entry (a, b), over arbitrary vectors of the right shapes; reshapes to the same shape are
  the identity.
-/
import Idealize.ShloMosaic.Lib.ValueLayout
import proofs.«164907_j26860725469614_1_alg».proof.Proof.LibPlainMatmul

noncomputable section

namespace Cert.KernelIdeal.PayValue

open Idealize.ShloMosaic Idealize.ShloMosaic.ValueIdx
open scoped BigOperators

/-- The zero tile: the zero word broadcast to the tile, reshaped to the same shape, is 0 at every entry. -/
theorem zero_tile_apply {m n : ℕ} (h : (⟨2, ![m, n]⟩ : Shape).ShapeCasts ⟨2, ![m, n]⟩) (a : Fin m) (b : Fin n) :
    shapeCast (⟨2, ![m, n]⟩ : Shape)
        (broadcast (⟨2, ![m, n]⟩ : Shape) (Scalar.ofBits (F := Ideal) .f32 0x00000000#32)) h (ix2 a b)
      = (0 : EReal) := by
  rw [shapeCast_self]
  exact Ideal.ofBits_zero_f32

/-- One accumulation step.  With an m×c tile `A`, a c×k tile `X`, a k×n matrix `W` and an m×n accumulator:
    the stored value at (a, b) is  acc(a,b) + Σ_s A(a,s) · Σ_j X(s,j) · W(j,b). -/
theorem acc_step_apply {m c k n : ℕ}
    (D1 : DotDims ⟨2, ![c, k]⟩ ⟨2, ![k, n]⟩ ⟨2, ![c, n]⟩) (hD1 : D1 = DotDims.plain c k n)
    (D2 : DotDims ⟨2, ![m, c]⟩ ⟨2, ![c, n]⟩ ⟨2, ![m, n]⟩) (hD2 : D2 = DotDims.plain m c n)
    (hX : (⟨2, ![c, k]⟩ : Shape).ShapeCasts ⟨2, ![c, k]⟩) (hW : (⟨2, ![k, n]⟩ : Shape).ShapeCasts ⟨2, ![k, n]⟩)
    (hA : (⟨2, ![m, c]⟩ : Shape).ShapeCasts ⟨2, ![m, c]⟩) (hO : (⟨2, ![m, n]⟩ : Shape).ShapeCasts ⟨2, ![m, n]⟩)
    (hb : FTy.bf16.bits < FTy.f32.bits)
    (X : FVec Ideal ⟨2, ![c, k]⟩ .bf16) (W : FVec Ideal ⟨2, ![k, n]⟩ .bf16)
    (acc : FVec Ideal ⟨2, ![m, n]⟩ .f32) (A : FVec Ideal ⟨2, ![m, c]⟩ .bf16) (a : Fin m) (b : Fin n) :
    shapeCast (⟨2, ![m, n]⟩ : Shape)
        (addf acc
          (matmul D2 none (shapeCast (⟨2, ![m, c]⟩ : Shape) A hA)
            (truncf .bf16
              (matmul D1 none (shapeCast (⟨2, ![c, k]⟩ : Shape) X hX) (shapeCast (⟨2, ![k, n]⟩ : Shape) W hW)
                (constant (F := Ideal) (⟨2, ![c, n]⟩ : Shape) .f32 0x00000000#32)) hb)
            (constant (F := Ideal) (⟨2, ![m, n]⟩ : Shape) .f32 0x00000000#32))) hO (ix2 a b)
      = acc (ix2 a b) + ∑ s : Fin c, A (ix2 a s) * ∑ j : Fin k, X (ix2 s j) * W (ix2 j b) := by
  subst hD1 hD2
  rw [shapeCast_self, shapeCast_self, shapeCast_self, shapeCast_self, addf_apply,
    Cert.LibPlainMatmul.matmul_plain_zero_apply]
  refine congrArg (acc (ix2 a b) + ·) (Finset.sum_congr rfl fun s _ => ?_)
  rw [truncf_apply, Cert.LibPlainMatmul.matmul_plain_zero_apply]

/-- The last step: the accumulator plus the bias row (one row broadcast over the tile's rows), cut off below at 0. -/
theorem bias_relu_apply {m n : ℕ}
    (h1 h2 : (⟨2, ![1, n]⟩ : Shape).ShapeCasts ⟨2, ![1, n]⟩)
    (hB : (⟨2, ![1, n]⟩ : Shape).Broadcasts ⟨2, ![m, n]⟩)
    (bias : FVec Ideal ⟨2, ![1, n]⟩ .f32) (acc : FVec Ideal ⟨2, ![m, n]⟩ .f32) (a : Fin m) (b : Fin n) :
    maximumf
        (addf acc
          (broadcastTo (⟨2, ![m, n]⟩ : Shape)
            (shapeCast (⟨2, ![1, n]⟩ : Shape) (shapeCast (⟨2, ![1, n]⟩ : Shape) bias h1) h2) hB))
        (broadcast (⟨2, ![m, n]⟩ : Shape) (Scalar.ofBits (F := Ideal) .f32 0x00000000#32)) (ix2 a b)
      = max (acc (ix2 a b) + bias (ix2 (0 : Fin 1) b)) 0 := by
  rw [maximumf_apply, addf_apply, shapeCast_self, shapeCast_self, broadcastTo_1b_ab_apply]
  show max _ (Ideal.ofBits .f32 0x00000000#32) = _
  rw [Ideal.ofBits_zero_f32]

end Cert.KernelIdeal.PayValue

end
-- ==== Proof.KI.Pay.lean ====
/-
  The values the five propagation kernels store, read at an entry.

  For each kernel: the zero tile; the accumulation step  acc + A_tile · (X_tile · W);  and the final
  max (acc + bias, 0).  All five bodies have the same text at different extents, so each statement is the general
  one (PayGen) at the kernel's extents.
-/
import proofs.«164907_j26860725469614_1_alg».proof.Proof.Gen.KernelIdeal.Skeleton
import proofs.«164907_j26860725469614_1_alg».proof.Proof.KI.PayGen

noncomputable section

namespace Cert.KernelIdeal.PayValue

open Cert.KernelIdeal Cert.KernelIdeal.Gen
open Idealize.ShloMosaic Idealize.ShloMosaic.ValueIdx
open scoped BigOperators

/-! ## Kernel 0: a 1024×512 tile of features, a 512×128 weight matrix, 1024×128 tiles of the result -/

/-- The value stored at the first reduction step is the zero tile. -/
theorem k0_pay1_apply (a : Fin 1024) (b : Fin 128) :
    k0_pay1 (F := Ideal) (ix2 a b) = (0 : EReal) := by
  unfold k0_pay1
  exact zero_tile_apply _ a b

/-- The value stored at every reduction step: the accumulator plus the tile of edge weights times the product of the
    tile of features and the weight matrix. -/
theorem k0_pay2_apply (v3 : Vec Ideal S1024x512 .bf16) (v5 : Vec Ideal S512x128 .bf16)
    (v9 : Vec Ideal S1024x128 .f32) (v10 : Vec Ideal S1024x1024 .bf16) (a : Fin 1024) (b : Fin 128) :
    k0_pay2 (F := Ideal) v3 v5 v9 v10 (ix2 a b)
      = v9 (ix2 a b) + ∑ s : Fin 1024, v10 (ix2 a s) * ∑ j : Fin 512, v3 (ix2 s j) * v5 (ix2 j b) := by
  unfold k0_pay2
  exact acc_step_apply _ rfl _ rfl _ _ _ _ _ v3 v5 v9 v10 a b

/-- The value stored at the last reduction step: the accumulator plus the bias row, cut off below at 0. -/
theorem k0_pay3_apply (v20 : Vec Ideal S1x128 .f32) (v24 : Vec Ideal S1024x128 .f32)
    (a : Fin 1024) (b : Fin 128) :
    k0_pay3 (F := Ideal) v20 v24 (ix2 a b) = max (v24 (ix2 a b) + v20 (ix2 (0 : Fin 1) b)) 0 := by
  unfold k0_pay3
  exact bias_relu_apply _ _ _ v20 v24 a b

/-! ## Kernel 1: a 1024×128 tile of features, a 128×128 weight matrix, 1024×128 tiles of the result -/

/-- The value stored at the first reduction step is the zero tile. -/
theorem k1_pay1_apply (a : Fin 1024) (b : Fin 128) :
    k1_pay1 (F := Ideal) (ix2 a b) = (0 : EReal) := by
  unfold k1_pay1
  exact zero_tile_apply _ a b

/-- The value stored at every reduction step: the accumulator plus the tile of edge weights times the product of the
    tile of features and the weight matrix. -/
theorem k1_pay2_apply (v3 : Vec Ideal S1024x128 .bf16) (v5 : Vec Ideal S128x128 .bf16)
    (v9 : Vec Ideal S1024x128 .f32) (v10 : Vec Ideal S1024x1024 .bf16) (a : Fin 1024) (b : Fin 128) :
    k1_pay2 (F := Ideal) v3 v5 v9 v10 (ix2 a b)
      = v9 (ix2 a b) + ∑ s : Fin 1024, v10 (ix2 a s) * ∑ j : Fin 128, v3 (ix2 s j) * v5 (ix2 j b) := by
  unfold k1_pay2
  exact acc_step_apply _ rfl _ rfl _ _ _ _ _ v3 v5 v9 v10 a b

/-- The value stored at the last reduction step: the accumulator plus the bias row, cut off below at 0. -/
theorem k1_pay3_apply (v20 : Vec Ideal S1x128 .f32) (v24 : Vec Ideal S1024x128 .f32)
    (a : Fin 1024) (b : Fin 128) :
    k1_pay3 (F := Ideal) v20 v24 (ix2 a b) = max (v24 (ix2 a b) + v20 (ix2 (0 : Fin 1) b)) 0 := by
  unfold k1_pay3
  exact bias_relu_apply _ _ _ v20 v24 a b

/-! ## Kernel 2: a 1024×128 tile of features, a 128×128 weight matrix, 1024×128 tiles of the result -/

/-- The value stored at the first reduction step is the zero tile. -/
theorem k2_pay1_apply (a : Fin 1024) (b : Fin 128) :
    k2_pay1 (F := Ideal) (ix2 a b) = (0 : EReal) := by
  unfold k2_pay1
  exact zero_tile_apply _ a b

/-- The value stored at every reduction step: the accumulator plus the tile of edge weights times the product of the
    tile of features and the weight matrix. -/
theorem k2_pay2_apply (v3 : Vec Ideal S1024x128 .bf16) (v5 : Vec Ideal S128x128 .bf16)
    (v9 : Vec Ideal S1024x128 .f32) (v10 : Vec Ideal S1024x1024 .bf16) (a : Fin 1024) (b : Fin 128) :
    k2_pay2 (F := Ideal) v3 v5 v9 v10 (ix2 a b)
      = v9 (ix2 a b) + ∑ s : Fin 1024, v10 (ix2 a s) * ∑ j : Fin 128, v3 (ix2 s j) * v5 (ix2 j b) := by
  unfold k2_pay2
  exact acc_step_apply _ rfl _ rfl _ _ _ _ _ v3 v5 v9 v10 a b

/-- The value stored at the last reduction step: the accumulator plus the bias row, cut off below at 0. -/
theorem k2_pay3_apply (v20 : Vec Ideal S1x128 .f32) (v24 : Vec Ideal S1024x128 .f32)
    (a : Fin 1024) (b : Fin 128) :
    k2_pay3 (F := Ideal) v20 v24 (ix2 a b) = max (v24 (ix2 a b) + v20 (ix2 (0 : Fin 1) b)) 0 := by
  unfold k2_pay3
  exact bias_relu_apply _ _ _ v20 v24 a b

/-! ## Kernel 3: a 1024×128 tile of features, a 128×512 weight matrix, 1024×512 tiles of the result -/

/-- The value stored at the first reduction step is the zero tile. -/
theorem k3_pay1_apply (a : Fin 1024) (b : Fin 512) :
    k3_pay1 (F := Ideal) (ix2 a b) = (0 : EReal) := by
  unfold k3_pay1
  exact zero_tile_apply _ a b

/-- The value stored at every reduction step: the accumulator plus the tile of edge weights times the product of the
    tile of features and the weight matrix. -/
theorem k3_pay2_apply (v3 : Vec Ideal S1024x128 .bf16) (v5 : Vec Ideal S128x512 .bf16)
    (v9 : Vec Ideal S1024x512 .f32) (v10 : Vec Ideal S1024x1024 .bf16) (a : Fin 1024) (b : Fin 512) :
    k3_pay2 (F := Ideal) v3 v5 v9 v10 (ix2 a b)
      = v9 (ix2 a b) + ∑ s : Fin 1024, v10 (ix2 a s) * ∑ j : Fin 128, v3 (ix2 s j) * v5 (ix2 j b) := by
  unfold k3_pay2
  exact acc_step_apply _ rfl _ rfl _ _ _ _ _ v3 v5 v9 v10 a b

/-- The value stored at the last reduction step: the accumulator plus the bias row, cut off below at 0. -/
theorem k3_pay3_apply (v20 : Vec Ideal S1x512 .f32) (v24 : Vec Ideal S1024x512 .f32)
    (a : Fin 1024) (b : Fin 512) :
    k3_pay3 (F := Ideal) v20 v24 (ix2 a b) = max (v24 (ix2 a b) + v20 (ix2 (0 : Fin 1) b)) 0 := by
  unfold k3_pay3
  exact bias_relu_apply _ _ _ v20 v24 a b

/-! ## Kernel 4: a 1024×128 tile of features, a 128×128 weight matrix, 1024×128 tiles of the result -/

/-- The value stored at the first reduction step is the zero tile. -/
theorem k4_pay1_apply (a : Fin 1024) (b : Fin 128) :
    k4_pay1 (F := Ideal) (ix2 a b) = (0 : EReal) := by
  unfold k4_pay1
  exact zero_tile_apply _ a b

/-- The value stored at every reduction step: the accumulator plus the tile of edge weights times the product of the
    tile of features and the weight matrix. -/
theorem k4_pay2_apply (v3 : Vec Ideal S1024x128 .bf16) (v5 : Vec Ideal S128x128 .bf16)
    (v9 : Vec Ideal S1024x128 .f32) (v10 : Vec Ideal S1024x1024 .bf16) (a : Fin 1024) (b : Fin 128) :
    k4_pay2 (F := Ideal) v3 v5 v9 v10 (ix2 a b)
      = v9 (ix2 a b) + ∑ s : Fin 1024, v10 (ix2 a s) * ∑ j : Fin 128, v3 (ix2 s j) * v5 (ix2 j b) := by
  unfold k4_pay2
  exact acc_step_apply _ rfl _ rfl _ _ _ _ _ v3 v5 v9 v10 a b

/-- The value stored at the last reduction step: the accumulator plus the bias row, cut off below at 0. -/
theorem k4_pay3_apply (v20 : Vec Ideal S1x128 .f32) (v24 : Vec Ideal S1024x128 .f32)
    (a : Fin 1024) (b : Fin 128) :
    k4_pay3 (F := Ideal) v20 v24 (ix2 a b) = max (v24 (ix2 a b) + v20 (ix2 (0 : Fin 1) b)) 0 := by
  unfold k4_pay3
  exact bias_relu_apply _ _ _ v20 v24 a b

end Cert.KernelIdeal.PayValue

end
-- ==== Proof.LawBlock.lean ====
/-
  Summing a long index range block by block.

  A sum over `nb * kb` indices is the sum, over the `nb` consecutive blocks of `kb` indices, of the block sums;
  and a running total that starts at `0 + (block 0)` and adds one block sum per step holds, after the last step,
  the whole sum.  Everything is stated in a commutative additive monoid, so it applies to the extended reals.
-/
import Mathlib.Algebra.BigOperators.Fin
import Mathlib.Algebra.BigOperators.Group.Finset.Basic

noncomputable section

namespace Cert.Law

open scoped BigOperators

/-- The position `k * kb + t` of entry `t` of block `k` lies below `nb * kb`. -/
theorem block_pos_lt {nb kb N : ℕ} (hN : nb * kb = N) {k : ℕ} (hk : k < nb) (t : Fin kb) :
    k * kb + (t : ℕ) < N := by
  have h1 : k * kb + (t : ℕ) < k * kb + kb := Nat.add_lt_add_left t.isLt _
  have h2 : k * kb + kb = (k + 1) * kb := (Nat.succ_mul k kb).symm
  have h3 : (k + 1) * kb ≤ nb * kb := Nat.mul_le_mul_right kb hk
  omega

/-- A function on `Fin N` continued by zero to all naturals. -/
def extZero {M : Type*} [Zero M] {N : ℕ} (f : Fin N → M) (n : ℕ) : M :=
  if h : n < N then f ⟨n, h⟩ else 0

theorem extZero_of_lt {M : Type*} [Zero M] {N : ℕ} (f : Fin N → M) {n : ℕ} (h : n < N) :
    extZero f n = f ⟨n, h⟩ := dif_pos h

/-- The sum over `Fin N` as a sum over the naturals below `N`. -/
theorem sum_fin_eq_sum_range_extZero {M : Type*} [AddCommMonoid M] {N : ℕ} (f : Fin N → M) :
    ∑ s : Fin N, f s = ∑ n ∈ Finset.range N, extZero f n := by
  rw [Finset.sum_range]
  refine Finset.sum_congr rfl fun i _ => ?_
  rw [extZero_of_lt f i.isLt]

/-- A sum over the naturals below `nb * kb` is the sum of its `nb` consecutive blocks of length `kb`. -/
theorem sum_range_blocks {M : Type*} [AddCommMonoid M] (g : ℕ → M) (nb kb : ℕ) :
    ∑ n ∈ Finset.range (nb * kb), g n
      = ∑ k ∈ Finset.range nb, ∑ t ∈ Finset.range kb, g (k * kb + t) := by
  induction nb with
  | zero => simp
  | succ m ih =>
    rw [Nat.succ_mul, Finset.sum_range_add, ih, Finset.sum_range_succ]

/-- A sum over `Fin N` with `N = nb * kb` is the sum over the blocks of the block sums. -/
theorem sum_fin_blocks {M : Type*} [AddCommMonoid M] {nb kb N : ℕ} (hN : nb * kb = N) (f : Fin N → M) :
    ∑ s : Fin N, f s
      = ∑ k ∈ Finset.range nb,
          if hk : k < nb then ∑ t : Fin kb, f ⟨k * kb + (t : ℕ), block_pos_lt hN hk t⟩ else 0 := by
  subst hN
  rw [sum_fin_eq_sum_range_extZero, sum_range_blocks]
  refine Finset.sum_congr rfl fun k hk => ?_
  have hk' : k < nb := Finset.mem_range.mp hk
  rw [dif_pos hk', Finset.sum_range]
  refine Finset.sum_congr rfl fun t _ => ?_
  rw [extZero_of_lt f (block_pos_lt rfl hk' t)]

/-- A running total over the first `nb` naturals: it starts at `0 + p 0` and adds `p (k+1)` at step `k+1`.
    After step `k` it holds the sum of `p 0 … p k`. -/
theorem running_total {M : Type*} [AddCommMonoid M] (nb : ℕ) (p acc : (k : ℕ) → k < nb → M)
    (h0 : ∀ h : 0 < nb, acc 0 h = 0 + p 0 h)
    (hs : ∀ (k : ℕ) (hk : k + 1 < nb), acc (k + 1) hk = acc k (Nat.lt_of_succ_lt hk) + p (k + 1) hk) :
    ∀ (k : ℕ) (hk : k < nb),
      acc k hk = ∑ j ∈ Finset.range (k + 1), if h : j < nb then p j h else 0 := by
  intro k
  induction k with
  | zero =>
    intro hk
    rw [h0 hk, zero_add, Finset.sum_range_one, dif_pos hk]
  | succ m ih =>
    intro hk
    rw [hs m hk, ih (Nat.lt_of_succ_lt hk), Finset.sum_range_succ _ (m + 1), dif_pos hk]

/-- Block accumulation.  If `p k` is the sum of block `k` of `f`, and `acc` is the running total of the `p k`,
    then after the last block `acc` holds the sum of all of `f`. -/
theorem block_accumulate {M : Type*} [AddCommMonoid M] {nb kb N : ℕ} (hN : nb * kb = N) (f : Fin N → M)
    (p acc : (k : ℕ) → k < nb → M)
    (hp : ∀ (k : ℕ) (hk : k < nb), p k hk = ∑ t : Fin kb, f ⟨k * kb + (t : ℕ), block_pos_lt hN hk t⟩)
    (h0 : ∀ h : 0 < nb, acc 0 h = 0 + p 0 h)
    (hs : ∀ (k : ℕ) (hk : k + 1 < nb), acc (k + 1) hk = acc k (Nat.lt_of_succ_lt hk) + p (k + 1) hk)
    (last : ℕ) (hlast : last + 1 = nb) :
    acc last (by omega) = ∑ s : Fin N, f s := by
  rw [running_total nb p acc h0 hs last (by omega), hlast, sum_fin_blocks hN f]
  refine Finset.sum_congr rfl fun k hk => ?_
  have hk' : k < nb := Finset.mem_range.mp hk
  rw [dif_pos hk', dif_pos hk', hp k hk']

/-- The same with the block sums written out in the recursion: the running total that starts at
    `0 + (sum of block 0)` and adds the sum of block `k+1` at step `k+1`. -/
theorem block_accumulate' {M : Type*} [AddCommMonoid M] {nb kb N : ℕ} (hN : nb * kb = N) (f : Fin N → M)
    (acc : (k : ℕ) → k < nb → M)
    (h0 : ∀ h : 0 < nb, acc 0 h = 0 + ∑ t : Fin kb, f ⟨0 * kb + (t : ℕ), block_pos_lt hN h t⟩)
    (hs : ∀ (k : ℕ) (hk : k + 1 < nb),
      acc (k + 1) hk
        = acc k (Nat.lt_of_succ_lt hk) + ∑ t : Fin kb, f ⟨(k + 1) * kb + (t : ℕ), block_pos_lt hN hk t⟩)
    (last : ℕ) (hlast : last + 1 = nb) :
    acc last (by omega) = ∑ s : Fin N, f s :=
  block_accumulate hN f (fun k hk => ∑ t : Fin kb, f ⟨k * kb + (t : ℕ), block_pos_lt hN hk t⟩) acc
    (fun _ _ => rfl) h0 hs last hlast

/-- Twelve blocks of 1024 make 12288. -/
theorem twelve_blocks : 12 * 1024 = 12288 := by omega

/-- The case of the network: 12 blocks of 1024 columns, 12288 columns in all, over the extended reals or any other
    commutative additive monoid.  `acc 11` is the whole sum. -/
theorem block_accumulate_12_1024 {M : Type*} [AddCommMonoid M] (f : Fin 12288 → M)
    (acc : (k : ℕ) → k < 12 → M)
    (h0 : acc 0 (by omega)
      = 0 + ∑ t : Fin 1024, f ⟨0 * 1024 + (t : ℕ), block_pos_lt twelve_blocks (show 0 < 12 by omega) t⟩)
    (hs : ∀ (k : ℕ) (hk : k + 1 < 12),
      acc (k + 1) hk
        = acc k (Nat.lt_of_succ_lt hk)
            + ∑ t : Fin 1024, f ⟨(k + 1) * 1024 + (t : ℕ), block_pos_lt twelve_blocks hk t⟩) :
    acc 11 (by omega) = ∑ s : Fin 12288, f s :=
  block_accumulate' twelve_blocks f acc (fun _ => h0) hs 11 (by omega)

end Cert.Law

end
-- ==== Proof.KI.G0Value.lean ====
/-
  Region 0: the result array of one propagation layer, in index form.

  The grid is 12 x 12; point t = 12 i + k handles row tile i (1024 rows of the result) and reduction tile k (1024
  columns of the matrix of edge weights).  Window 0 reads block (i, k) of that matrix, window 1 row block k of the
  features, windows 2 and 3 the whole weight matrix and bias row, window 4 writes row block i of the result after
  the last reduction tile.  Read at an entry, the accumulator after point 12 i + k is the running total of the
  twelve block sums of  Σ_s A(r, s) · (X W)(s, q),  so the tile written at k = 11 is the dense form of the layer.
-/
import proofs.«164907_j26860725469614_1_alg».proof.Proof.KI.G0Chain
import proofs.«164907_j26860725469614_1_alg».proof.Proof.KI.Pay
import proofs.«164907_j26860725469614_1_alg».proof.Proof.LawBlock
import proofs.«164907_j26860725469614_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## Where each window's block sits -/

/-- The block indices over the grid: window 0 is at (i, k), window 1 at (k, 0), windows 2 and 3 at (0, 0), the
    output window at (i, 0), for t = 12 i + k. -/
theorem idx0 : ∀ t : Fin cfg0.N,
    (win0_0.index t 0 = t.val / 12 ∧ win0_0.index t 1 = t.val % 12)
    ∧ (win0_1.index t 0 = t.val % 12 ∧ win0_1.index t 1 = 0)
    ∧ (win0_2.index t 0 = 0 ∧ win0_2.index t 1 = 0)
    ∧ (win0_3.index t 0 = 0 ∧ win0_3.index t 1 = 0)
    ∧ (win0_4.index t 0 = t.val / 12 ∧ win0_4.index t 1 = 0) :=
  (by decide +kernel : ∀ t : Fin grid0.N,
    (win0_0.index t 0 = t.val / 12 ∧ win0_0.index t 1 = t.val % 12)
    ∧ (win0_1.index t 0 = t.val % 12 ∧ win0_1.index t 1 = 0)
    ∧ (win0_2.index t 0 = 0 ∧ win0_2.index t 1 = 0)
    ∧ (win0_3.index t 0 = 0 ∧ win0_3.index t 1 = 0)
    ∧ (win0_4.index t 0 = t.val / 12 ∧ win0_4.index t 1 = 0))

theorem N0_eq : cfg0.N = 144 := N_0

/-- Entry `a` of tile `x` (of twelve tiles of 1024) is below 12288. -/
theorem tile0_lt {x : ℕ} (hx : x < 12) (a : Fin 1024) : x * 1024 + a.val < 12288 := by
  have := a.isLt; omega

/-- Point 12 i + k is on the grid. -/
theorem pt0_lt {i k : ℕ} (hi : i < 12) (hk : k < 12) : 12 * i + k < cfg0.N := by
  have := N0_eq; omega

section Blocks

variable {F : FTy → Type} [FloatOps F]
variable (V : (c : Dev nD) → (b : Ref sig .tc) → Buf (Elt F) ((c : Thread nD τ).loc b))

/-- Window 0's block at point t = 12 i + k is rows 1024 i …, columns 1024 k … of the matrix of edge weights. -/
theorem iblk0_0_apply (c : Dev nD) (t : Fin cfg0.N) {i k : ℕ} (hti : t.val / 12 = i) (htk : t.val % 12 = k)
    (hi : i < 12) (hk : k < 12) (a s : Fin 1024) :
    iblk0 V c 0 t (ix2 a s)
      = V c (Pipeline.arrRef spec0 0)
          (ix2 (⟨i * 1024 + a.val, tile0_lt hi a⟩ : Fin 12288) (⟨k * 1024 + s.val, tile0_lt hk s⟩ : Fin 12288)) := by
  unfold iblk0
  rw [View.read_apply]
  show V c (Pipeline.arrRef spec0 0) _ = V c (Pipeline.arrRef spec0 0) _
  refine congrArg (V c (Pipeline.arrRef spec0 0)) (funext fun ax => Fin.ext ?_)
  match ax with
  | ⟨0, _⟩ =>
    show win0_0.index t 0 * 1024 + 1 * a.val = i * 1024 + a.val
    rw [(idx0 t).1.1, hti]; omega
  | ⟨1, _⟩ =>
    show win0_0.index t 1 * 1024 + 1 * s.val = k * 1024 + s.val
    rw [(idx0 t).1.2, htk]; omega

/-- Window 1's block at point t = 12 i + k is rows 1024 k … of the features. -/
theorem iblk0_1_apply (c : Dev nD) (t : Fin cfg0.N) {k : ℕ} (htk : t.val % 12 = k) (hk : k < 12)
    (s : Fin 1024) (j : Fin 512) :
    iblk0 V c 1 t (ix2 s j)
      = V c (Pipeline.arrRef spec0 1) (ix2 (⟨k * 1024 + s.val, tile0_lt hk s⟩ : Fin 12288) j) := by
  unfold iblk0
  rw [View.read_apply]
  show V c (Pipeline.arrRef spec0 1) _ = V c (Pipeline.arrRef spec0 1) _
  refine congrArg (V c (Pipeline.arrRef spec0 1)) (funext fun ax => Fin.ext ?_)
  match ax with
  | ⟨0, _⟩ =>
    show win0_1.index t 0 * 1024 + 1 * s.val = k * 1024 + s.val
    rw [(idx0 t).2.1.1, htk]; omega
  | ⟨1, _⟩ =>
    show win0_1.index t 1 * 512 + 1 * j.val = j.val
    rw [(idx0 t).2.1.2]; omega

/-- Window 2's block is the whole weight matrix. -/
theorem iblk0_2_apply (c : Dev nD) (t : Fin cfg0.N) (j : Fin 512) (q : Fin 128) :
    iblk0 V c 2 t (ix2 j q) = V c (Pipeline.arrRef spec0 2) (ix2 j q) := by
  unfold iblk0
  rw [View.read_apply]
  show V c (Pipeline.arrRef spec0 2) _ = V c (Pipeline.arrRef spec0 2) _
  refine congrArg (V c (Pipeline.arrRef spec0 2)) (funext fun ax => Fin.ext ?_)
  match ax with
  | ⟨0, _⟩ =>
    show win0_2.index t 0 * 512 + 1 * j.val = j.val
    rw [(idx0 t).2.2.1.1]; omega
  | ⟨1, _⟩ =>
    show win0_2.index t 1 * 128 + 1 * q.val = q.val
    rw [(idx0 t).2.2.1.2]; omega

/-- Window 3's block is the whole bias row. -/
theorem iblk0_3_apply (c : Dev nD) (t : Fin cfg0.N) (z : Fin 1) (q : Fin 128) :
    iblk0 V c 3 t (ix2 z q) = V c (Pipeline.arrRef spec0 3) (ix2 z q) := by
  unfold iblk0
  rw [View.read_apply]
  show V c (Pipeline.arrRef spec0 3) _ = V c (Pipeline.arrRef spec0 3) _
  refine congrArg (V c (Pipeline.arrRef spec0 3)) (funext fun ax => Fin.ext ?_)
  match ax with
  | ⟨0, _⟩ =>
    show win0_3.index t 0 * 1 + 1 * z.val = z.val
    rw [(idx0 t).2.2.2.1.1]; omega
  | ⟨1, _⟩ =>
    show win0_3.index t 1 * 128 + 1 * q.val = q.val
    rw [(idx0 t).2.2.2.1.2]; omega

end Blocks

/-! ## The values, over the extended reals -/

section Value

variable (V : (c : Dev nD) → (b : Ref sig .tc) → Buf (Elt Ideal) ((c : Thread nD τ).loc b))

/-- The four arrays the region reads, as functions of their coordinates: the matrix of edge weights, the features,
    the weight matrix, the bias. -/
abbrev A0 (c : Dev nD) : Fin 12288 → Fin 12288 → EReal := fun r s => V c (Pipeline.arrRef spec0 0) (ix2 r s)
abbrev X0 (c : Dev nD) : Fin 12288 → Fin 512 → EReal := fun s j => V c (Pipeline.arrRef spec0 1) (ix2 s j)
abbrev Wm0 (c : Dev nD) : Fin 512 → Fin 128 → EReal := fun j q => V c (Pipeline.arrRef spec0 2) (ix2 j q)
abbrev b0 (c : Dev nD) : Fin 128 → EReal := fun q => V c (Pipeline.arrRef spec0 3) (ix2 (0 : Fin 1) q)

/-- One summand of the layer's row sum:  A(r, s) · (X W)(s, q). -/
abbrev term0 (c : Dev nD) (r : Fin 12288) (q : Fin 128) (s : Fin 12288) : EReal :=
  A0 V c r s * Cert.Spec.xw (X0 V c) (Wm0 V c) s q

/-- What one point adds to the accumulator at (a, b), over the three blocks it reads. -/
abbrev pointSum0 (v10 : Vec Ideal S1024x1024 .bf16) (v3 : Vec Ideal S1024x512 .bf16) (v5 : Vec Ideal S512x128 .bf16)
    (a : Fin 1024) (b : Fin 128) : EReal :=
  ∑ s : Fin 1024, v10 (ix2 a s) * ∑ j : Fin 512, v3 (ix2 s j) * v5 (ix2 j b)

/-- It depends on the blocks through the entries it reads only. -/
theorem pointSum0_congr (v10 : Vec Ideal S1024x1024 .bf16) (v3 : Vec Ideal S1024x512 .bf16) (v5 : Vec Ideal S512x128 .bf16)
    (a : Fin 1024) (b : Fin 128) (Ar Y : Fin 1024 → EReal)
    (h10 : ∀ s, v10 (ix2 a s) = Ar s) (hY : ∀ s, (∑ j : Fin 512, v3 (ix2 s j) * v5 (ix2 j b)) = Y s) :
    pointSum0 v10 v3 v5 a b = ∑ s : Fin 1024, Ar s * Y s :=
  Finset.sum_congr rfl fun s _ => by rw [h10 s, hY s]

/-- What point 12 i + k adds to the accumulator at (a, b): block k of row 1024 i + a's sum. -/
theorem step0_term (c : Dev nD) {i k : ℕ} (hi : i < 12) (hk : k < 12) (a : Fin 1024) (b : Fin 128) :
    pointSum0 (iblk0 V c 0 ⟨12 * i + k, pt0_lt hi hk⟩) (iblk0 V c 1 ⟨12 * i + k, pt0_lt hi hk⟩)
        (iblk0 V c 2 ⟨12 * i + k, pt0_lt hi hk⟩) a b
      = ∑ s : Fin 1024, term0 V c ⟨i * 1024 + a.val, tile0_lt hi a⟩ b ⟨k * 1024 + s.val, tile0_lt hk s⟩ := by
  have hti : (⟨12 * i + k, pt0_lt hi hk⟩ : Fin cfg0.N).val / 12 = i := by show (12 * i + k) / 12 = i; omega
  have htk : (⟨12 * i + k, pt0_lt hi hk⟩ : Fin cfg0.N).val % 12 = k := by show (12 * i + k) % 12 = k; omega
  refine pointSum0_congr _ _ _ a b
    (fun s => A0 V c ⟨i * 1024 + a.val, tile0_lt hi a⟩ ⟨k * 1024 + s.val, tile0_lt hk s⟩)
    (fun s => Cert.Spec.xw (X0 V c) (Wm0 V c) ⟨k * 1024 + s.val, tile0_lt hk s⟩ b)
    (fun s => iblk0_0_apply V c _ hti htk hi hk a s) (fun s => ?_)
  unfold Cert.Spec.xw
  refine Finset.sum_congr rfl fun j _ => ?_
  rw [iblk0_1_apply V c _ htk hk s j, iblk0_2_apply V c _ j b]

/-- The accumulator at (a, b) after the last reduction tile of row tile i is the whole row sum. -/
theorem chain0_apply (c : Dev nD) {i : ℕ} (hi : i < 12) (a : Fin 1024) (b : Fin 128) :
    chain0 V c (12 * i + 11) (pt0_lt hi (by omega)) (ix2 a b)
      = ∑ s : Fin 12288, term0 V c ⟨i * 1024 + a.val, tile0_lt hi a⟩ b s := by
  refine Cert.Law.block_accumulate_12_1024 (term0 V c ⟨i * 1024 + a.val, tile0_lt hi a⟩ b)
    (fun k hk => chain0 V c (12 * i + k) (pt0_lt hi hk) (ix2 a b)) ?_ ?_
  · show chain0 V c (12 * i + 0) (pt0_lt hi (by omega)) (ix2 a b) = 0 + _
    rw [chain0_first V c (12 * i + 0) (pt0_lt hi (by omega)) (by omega)]
    rw [Cert.KernelIdeal.PayValue.k0_pay2_apply, Cert.KernelIdeal.PayValue.k0_pay1_apply]
    exact congrArg (fun z : EReal => (0 : EReal) + z) (step0_term V c hi (by omega) a b)
  · intro k hk
    show chain0 V c (12 * i + k + 1) (pt0_lt hi hk) (ix2 a b)
      = chain0 V c (12 * i + k) (pt0_lt hi (Nat.lt_of_succ_lt hk)) (ix2 a b) + _
    rw [chain0_next V c (12 * i + k) (pt0_lt hi hk) (by omega)]
    rw [Cert.KernelIdeal.PayValue.k0_pay2_apply]
    exact congrArg (fun z : EReal => (chain0 V c (12 * i + k) (pt0_lt hi (Nat.lt_of_succ_lt hk)) (ix2 a b) : EReal) + z)
      (step0_term V c hi hk a b)

/-- The tile written at the last reduction tile of row tile i, at (a, b), is the layer's dense form at row
    1024 i + a. -/
theorem out0_apply (c : Dev nD) {i : ℕ} (hi : i < 12) (a : Fin 1024) (b : Fin 128) :
    (outsAt0 V c (12 * i + 11) (pt0_lt hi (by omega))).1 (ix2 a b)
      = Cert.Spec.denseLayer (A0 V c) (X0 V c) (Wm0 V c) (b0 V c) ⟨i * 1024 + a.val, tile0_lt hi a⟩ b := by
  refine (congrFun (out0_last V c ⟨12 * i + 11, pt0_lt hi (by omega)⟩ (by show (12 * i + 11) % 12 = 11; omega)) (ix2 a b)).trans ?_
  rw [Cert.KernelIdeal.PayValue.k0_pay3_apply]
  show max (chain0 V c (12 * i + 11) (pt0_lt hi (by omega)) (ix2 a b) + _) 0 = _
  rw [chain0_apply V c hi a b, iblk0_3_apply V c _ (0 : Fin 1) b] <;> rfl

/-- The whole result array in index form: the dense form of the layer. -/
abbrev G0 (c : Dev nD) : Buf (Elt Ideal) ((cfg0.win 4).arr.view.loc (c.tc : Thread nD τ)) :=
  fun (j : S12288x128.Idx) => Cert.Spec.denseLayer (A0 V c) (X0 V c) (Wm0 V c) (b0 V c) (j 0) (j 1)

/-- What a write-back writes is the block of the dense form it covers. -/
theorem flushed0_eq (c : Dev nD) (t : Fin cfg0.N) (hf : (cfg0.win 4).flush t = true) :
    (dat0 V c).flushed 4 t = ((cfg0.win 4).blk t).view.read (Elt Ideal) (G0 V c) := by
  have h11 : t.val % 12 = 11 := (flush0_4 t).mp hf
  have hN := N0_eq
  have hlt := t.isLt
  have hi : t.val / 12 < 12 := by omega
  show (cfg0.win 4).cut (grid0.coords t) ((dat0 V c).after 4 t) = _
  rw [after0_4]
  funext j
  obtain ⟨a, b, rfl⟩ : ∃ (a : Fin 1024) (b : Fin 128), j = ix2 a b := ⟨j 0, j 1, eq_ix2 j⟩
  rw [View.read_apply]
  show (outsAt0 V c t.val t.isLt).1 (ix2 a b)
    = Cert.Spec.denseLayer (A0 V c) (X0 V c) (Wm0 V c) (b0 V c)
        ((((cfg0.win 4).blk t).view.emb (ix2 a b)) 0) ((((cfg0.win 4).blk t).view.emb (ix2 a b)) 1)
  have e0 : (((cfg0.win 4).blk t).view.emb (ix2 a b)) 0 = (⟨t.val / 12 * 1024 + a.val, tile0_lt hi a⟩ : Fin 12288) := by
    apply Fin.ext
    show win0_4.index t 0 * 1024 + 1 * a.val = t.val / 12 * 1024 + a.val
    rw [(idx0 t).2.2.2.2.1]; omega
  have e1 : (((cfg0.win 4).blk t).view.emb (ix2 a b)) 1 = b := by
    apply Fin.ext
    show win0_4.index t 1 * 128 + 1 * b.val = b.val
    rw [(idx0 t).2.2.2.2.2]; omega
  rw [e0, e1]
  have key : ∀ (n : ℕ) (hn : n < cfg0.N), n = 12 * (t.val / 12) + 11 →
      (outsAt0 V c n hn).1 (ix2 a b)
        = Cert.Spec.denseLayer (A0 V c) (X0 V c) (Wm0 V c) (b0 V c) ⟨t.val / 12 * 1024 + a.val, tile0_lt hi a⟩ b := by
    intro n hn e
    subst e
    exact out0_apply V c hi a b
  exact key t.val t.isLt (by omega)

/-- Every row of the result is in the block written at its row tile's last reduction tile. -/
theorem cover0 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : ℕ) < 12288 := (i 0).isLt
  have h1 : (i 1 : ℕ) < 128 := (i 1).isLt
  have hr : (i 0 : ℕ) / 1024 < 12 := by omega
  have ht : 12 * ((i 0 : ℕ) / 1024) + 11 < cfg0.N := pt0_lt hr (by omega)
  refine ⟨⟨12 * ((i 0 : ℕ) / 1024) + 11, ht⟩, (flush0_4 _).mpr (by show (12 * ((i 0 : ℕ) / 1024) + 11) % 12 = 11; omega), ?_⟩
  show i ∈ ((View.whole main_v51).slice (win0_4.rect ⟨12 * ((i 0 : ℕ) / 1024) + 11, ht⟩)).set
  rw [View.set_slice_whole, Rect.mem_set_unit]
  intro ax
  match ax with
  | ⟨0, _⟩ =>
    show win0_4.index ⟨12 * ((i 0 : ℕ) / 1024) + 11, ht⟩ 0 * 1024 ≤ (i 0 : ℕ)
      ∧ (i 0 : ℕ) < win0_4.index ⟨12 * ((i 0 : ℕ) / 1024) + 11, ht⟩ 0 * 1024 + 1024
    rw [(idx0 ⟨12 * ((i 0 : ℕ) / 1024) + 11, ht⟩).2.2.2.2.1]
    show (12 * ((i 0 : ℕ) / 1024) + 11) / 12 * 1024 ≤ (i 0 : ℕ) ∧ (i 0 : ℕ) < (12 * ((i 0 : ℕ) / 1024) + 11) / 12 * 1024 + 1024
    omega
  | ⟨1, _⟩ =>
    show win0_4.index ⟨12 * ((i 0 : ℕ) / 1024) + 11, ht⟩ 1 * 128 ≤ (i 1 : ℕ)
      ∧ (i 1 : ℕ) < win0_4.index ⟨12 * ((i 0 : ℕ) / 1024) + 11, ht⟩ 1 * 128 + 128
    rw [(idx0 ⟨12 * ((i 0 : ℕ) / 1024) + 11, ht⟩).2.2.2.2.2]
    omega

/-- The region leaves its result array at the dense form of the layer over the arrays it read. -/
theorem final0_fn (c : Dev nD) : (dat0 V c).arrAt 4 cfg0.N = G0 V c :=
  (dat0 V c).arrAt_eq_of_cover 4 (G0 V c) (flushed0_eq V c) (cover0 c)

theorem final0 (c : Dev nD) (r : Fin 12288) (q : Fin 128) :
    (dat0 V c).arrAt 4 cfg0.N (ix2 r q)
      = Cert.Spec.denseLayer (A0 V c) (X0 V c) (Wm0 V c) (b0 V c) r q :=
  congrFun (final0_fn V c) (ix2 r q)

end Value

end Cert.KernelIdeal.Hand

end
-- ==== Proof.KI.G1Pieces.lean ====
/-
  Region 1: what each case of the body leaves, as the body's arithmetic applied to the blocks it was handed.
  first tile: the scratch ends at  0-block + A_tile (X_tile W);   later tiles: at  what it held + A_tile (X_tile W);
  last tile also: the output tile ends at  max (scratch + bias row, 0).
-/
import proofs.«164907_j26860725469614_1_alg».proof.Proof.KI.G1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

theorem sout1_A_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF1 i) (hc1 : ¬condL1 i)
    (x0 : Vec F S1024x1024 .bf16) (x1 : Vec F S1024x128 .bf16) (x2 : Vec F S128x128 .bf16) (x3 : Vec F S1x128 .f32) :
    sout1_A (F := F) c i arg2 harg2 arg3 harg3 arg4 harg4 arg5 harg5 arg6 harg6 arg7 harg7 hc0 hc1 x0 x1 x2 x3 = k1_pay2 x1 x2 (k1_pay1 (F := F)) x0 := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_words
  rw [View.canon_cons_unit_zero (S := S1024x128) hz1, View.readCov_unit_zero (S := S1024x128) _ hz1]
  simp only [View.readAt_eq_ld, harg2.read_unread, harg3.read_unread, harg4.read_unread, harg5.read_unread, harg7.read_unread, View.ld_unit_zero (S := S1024x1024) hz1, View.ld_unit_zero (S := S1024x128) hz1, View.ld_unit_zero (S := S128x128) hz1, View.ld_unit_zero (S := S1x128) hz1]

theorem sout1_B_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : ¬condL1 i)
    (x0 : Vec F S1024x1024 .bf16) (x1 : Vec F S1024x128 .bf16) (x2 : Vec F S128x128 .bf16) (x3 : Vec F S1x128 .f32) (xs0 : Vec F S1024x128 .f32) :
    sout1_B (F := F) c i arg2 harg2 arg3 harg3 arg4 harg4 arg5 harg5 arg6 harg6 arg7 harg7 hc0 hc1 x0 x1 x2 x3 xs0 = k1_pay2 x1 x2 xs0 x0 := by
  unfold sout1_B
  rw [View.read_writes_eq_canon _ _ _ (scover1_B c i arg2 harg2 arg3 harg3 arg4 harg4 arg5 harg5 arg6 harg6 arg7 harg7 hc0 hc1 x0 x1 x2 x3 xs0)]
  unfold kernelRun1_B
  dsimp only
  sl_unfold_words
  rw [View.canon_unit_zero hz1]
  simp only [View.readAt_eq_ld, harg2.read_unread, harg3.read_unread, harg4.read_unread, harg5.read_unread, harg7.read_unread, View.ld_unit_zero (S := S1024x1024) hz1, View.ld_unit_zero (S := S1024x128) hz1, View.ld_unit_zero (S := S128x128) hz1, View.ld_unit_zero (S := S1x128) hz1]

theorem sout1_C_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) :
    sout1_C (F := F) c i arg2 harg2 arg3 harg3 arg4 harg4 arg5 harg5 arg6 harg6 arg7 harg7 hc0 hc1 x0 x1 x2 x3 xs0 = k1_pay2 x1 x2 xs0 x0 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz1]
  simp only [View.readAt_eq_ld, harg2.read_unread, harg3.read_unread, harg4.read_unread, harg5.read_unread, harg7.read_unread, View.ld_unit_zero (S := S1024x1024) hz1, View.ld_unit_zero (S := S1024x128) hz1, View.ld_unit_zero (S := S128x128) hz1, View.ld_unit_zero (S := S1x128) hz1]

theorem out1_C_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF1 i) (hc1 : condL1 i)
    (x0 : Vec F S1024x1024 .bf16) (x1 : Vec F S1024x128 .bf16) (x2 : Vec F S128x128 .bf16) (x3 : Vec F S1x128 .f32) (xs0 : Vec F S1024x128 .f32) :
    out1_C_4 (F := F) c i arg2 harg2 arg3 harg3 arg4 harg4 arg5 harg5 arg6 harg6 arg7 harg7 hc0 hc1 x0 x1 x2 x3 xs0 = k1_pay3 x3 (k1_pay2 x1 x2 xs0 x0) := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1024x128) hz1, View.readCov_unit_zero (S := S1024x128) _ hz1]
  simp only [View.readAt_eq_ld, harg2.read_unread, harg3.read_unread, harg4.read_unread, harg5.read_unread, harg7.read_unread, View.ld_unit_zero (S := S1024x1024) hz1, View.ld_unit_zero (S := S1024x128) hz1, View.ld_unit_zero (S := S128x128) hz1, View.ld_unit_zero (S := S1x128) hz1]

end Cert.KernelIdeal.Hand

end
-- ==== Proof.KI.G1Chain.lean ====
/-
  Region 1: the accumulator scratch after each grid point in closed form (the ordered running sum over the reduction
  tiles, restarted at each row tile's first reduction tile), and the output tile at a row tile's last point.
-/
import proofs.«164907_j26860725469614_1_alg».proof.Proof.KI.G1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! What one point leaves, by the case it is in. -/

theorem scr1_A (c : Dev nD) (t : Fin cfg1.N) (h0 : t.val % 12 = 0) (h1 : ¬t.val % 12 = 11) :
    (outsAt1 V c t.val t.isLt).2 = k1_pay2 (iblk1 V c 1 t) (iblk1 V c 2 t) (k1_pay1 (F := F)) (iblk1 V c 0 t) := by
  rw [outsAt1_A V c t h0 h1]
  dsimp only
  exact sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcondF1 t).mpr h0) (fun h => h1 ((hcondL1 t).mp h)) (iblk1 V c 0 t) (iblk1 V c 1 t) (iblk1 V c 2 t) (iblk1 V c 3 t)

theorem scr1_B (c : Dev nD) (t : Fin cfg1.N) (h0 : ¬t.val % 12 = 0) (h1 : ¬t.val % 12 = 11) :
    (outsAt1 V c t.val t.isLt).2 = k1_pay2 (iblk1 V c 1 t) (iblk1 V c 2 t) (outsAt1 V c (t.val - 1) (Nat.lt_of_le_of_lt (Nat.sub_le _ _) t.isLt)).2 (iblk1 V c 0 t) := by
  rw [outsAt1_B V c t h0 h1]
  dsimp only
  exact sout1_B_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) (fun h => h1 ((hcondL1 t).mp h)) (iblk1 V c 0 t) (iblk1 V c 1 t) (iblk1 V c 2 t) (iblk1 V c 3 t) (outsAt1 V c (t.val - 1) (Nat.lt_of_le_of_lt (Nat.sub_le _ _) t.isLt)).2

theorem scr1_C (c : Dev nD) (t : Fin cfg1.N) (h0 : ¬t.val % 12 = 0) (h1 : t.val % 12 = 11) :
    (outsAt1 V c t.val t.isLt).2 = k1_pay2 (iblk1 V c 1 t) (iblk1 V c 2 t) (outsAt1 V c (t.val - 1) (Nat.lt_of_le_of_lt (Nat.sub_le _ _) t.isLt)).2 (iblk1 V c 0 t) := by
  rw [outsAt1_C V c t h0 h1]
  dsimp only
  exact sout1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2

theorem outv1_C (c : Dev nD) (t : Fin cfg1.N) (h0 : ¬t.val % 12 = 0) (h1 : t.val % 12 = 11) :
    (outsAt1 V c t.val t.isLt).1 = k1_pay3 (iblk1 V c 3 t) (k1_pay2 (iblk1 V c 1 t) (iblk1 V c 2 t) (outsAt1 V c (t.val - 1) (Nat.lt_of_le_of_lt (Nat.sub_le _ _) t.isLt)).2 (iblk1 V c 0 t)) := by
  rw [outsAt1_C V c t h0 h1]
  dsimp only
  exact out1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcondF1 t).mp h)) ((hcondL1 t).mpr h1) (iblk1 V c 0 t) (iblk1 V c 1 t) (iblk1 V c 2 t) (iblk1 V c 3 t) (outsAt1 V c (t.val - 1) (Nat.lt_of_le_of_lt (Nat.sub_le _ _) t.isLt)).2

/-- The accumulator after point `n`: at a first reduction tile the cleared block plus the tile's product, otherwise what
    the point before left plus the tile's product. -/
def chain1 (c : Dev nD) : (n : ℕ) → n < cfg1.N → Vec F S1024x128 .f32
  | 0, h => k1_pay2 (iblk1 V c 1 ⟨0, h⟩) (iblk1 V c 2 ⟨0, h⟩) (k1_pay1 (F := F)) (iblk1 V c 0 ⟨0, h⟩)
  | n + 1, h =>
    if (n + 1) % 12 = 0 then k1_pay2 (iblk1 V c 1 ⟨n + 1, h⟩) (iblk1 V c 2 ⟨n + 1, h⟩) (k1_pay1 (F := F)) (iblk1 V c 0 ⟨n + 1, h⟩)
    else k1_pay2 (iblk1 V c 1 ⟨n + 1, h⟩) (iblk1 V c 2 ⟨n + 1, h⟩) (chain1 c n (Nat.lt_of_succ_lt h)) (iblk1 V c 0 ⟨n + 1, h⟩)

theorem chain1_first (c : Dev nD) (n : ℕ) (h : n < cfg1.N) (h0 : n % 12 = 0) :
    chain1 V c n h = k1_pay2 (iblk1 V c 1 ⟨n, h⟩) (iblk1 V c 2 ⟨n, h⟩) (k1_pay1 (F := F)) (iblk1 V c 0 ⟨n, h⟩) := by
  cases n with
  | zero => rfl
  | succ n => exact if_pos h0

theorem chain1_next (c : Dev nD) (n : ℕ) (h : n + 1 < cfg1.N) (h0 : ¬(n + 1) % 12 = 0) :
    chain1 V c (n + 1) h = k1_pay2 (iblk1 V c 1 ⟨n + 1, h⟩) (iblk1 V c 2 ⟨n + 1, h⟩) (chain1 V c n (Nat.lt_of_succ_lt h)) (iblk1 V c 0 ⟨n + 1, h⟩) :=
  if_neg h0

/-- What the recursion over the cases' found pieces leaves in the scratch IS the running sum. -/
theorem scr1_eq (c : Dev nD) : ∀ (n : ℕ) (h : n < cfg1.N), (outsAt1 V c n h).2 = chain1 V c n h
  | 0, h => (scr1_A V c ⟨0, h⟩ (Nat.zero_mod _) (by show ¬(0 % 12 = 11); decide)).trans (chain1_first V c 0 h (Nat.zero_mod _)).symm
  | n + 1, h => by
    by_cases h0 : (n + 1) % 12 = 0
    · have h1 : ¬(n + 1) % 12 = 11 := by omega
      exact (scr1_A V c ⟨n + 1, h⟩ h0 h1).trans (chain1_first V c (n + 1) h h0).symm
    · by_cases h1 : (n + 1) % 12 = 11
      · refine (scr1_C V c ⟨n + 1, h⟩ h0 h1).trans ?_
        rw [chain1_next V c n h h0]
        show k1_pay2 _ _ (outsAt1 V c n _).2 _ = k1_pay2 _ _ (chain1 V c n _) _
        rw [scr1_eq c n]
      · refine (scr1_B V c ⟨n + 1, h⟩ h0 h1).trans ?_
        rw [chain1_next V c n h h0]
        show k1_pay2 _ _ (outsAt1 V c n _).2 _ = k1_pay2 _ _ (chain1 V c n _) _
        rw [scr1_eq c n]

/-- At a row tile's last reduction tile the output tile is the rectified, biased running sum. -/
theorem out1_last (c : Dev nD) (t : Fin cfg1.N) (h1 : t.val % 12 = 11) :
    (outsAt1 V c t.val t.isLt).1 = k1_pay3 (iblk1 V c 3 t) (chain1 V c t.val t.isLt) := by
  have h0 : ¬t.val % 12 = 0 := by omega
  obtain ⟨n, h⟩ := t
  cases n with
  | zero => exact absurd (Nat.zero_mod 12) h0
  | succ n =>
    refine (outv1_C V c ⟨n + 1, h⟩ h0 h1).trans ?_
    rw [chain1_next V c n h h0]
    show k1_pay3 _ (k1_pay2 _ _ (outsAt1 V c n _).2 _) = k1_pay3 _ (k1_pay2 _ _ (chain1 V c n _) _)
    rw [scr1_eq V c n]

end Cert.KernelIdeal.Hand

end
-- ==== Proof.KI.G1Value.lean ====
/-
  Region 1: the result array of one propagation layer, in index form.

  The grid is 12 x 12; point t = 12 i + k handles row tile i (1024 rows of the result) and reduction tile k (1024
  columns of the matrix of edge weights).  Window 0 reads block (i, k) of that matrix, window 1 row block k of the
  features, windows 2 and 3 the whole weight matrix and bias row, window 4 writes row block i of the result after
  the last reduction tile.  Read at an entry, the accumulator after point 12 i + k is the running total of the
  twelve block sums of  Σ_s A(r, s) · (X W)(s, q),  so the tile written at k = 11 is the dense form of the layer.
-/
import proofs.«164907_j26860725469614_1_alg».proof.Proof.KI.G1Chain
import proofs.«164907_j26860725469614_1_alg».proof.Proof.KI.Pay
import proofs.«164907_j26860725469614_1_alg».proof.Proof.LawBlock
import proofs.«164907_j26860725469614_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## Where each window's block sits -/

/-- The block indices over the grid: window 0 is at (i, k), window 1 at (k, 0), windows 2 and 3 at (0, 0), the
    output window at (i, 0), for t = 12 i + k. -/
theorem idx1 : ∀ t : Fin cfg1.N,
    (win1_0.index t 0 = t.val / 12 ∧ win1_0.index t 1 = t.val % 12)
    ∧ (win1_1.index t 0 = t.val % 12 ∧ win1_1.index t 1 = 0)
    ∧ (win1_2.index t 0 = 0 ∧ win1_2.index t 1 = 0)
    ∧ (win1_3.index t 0 = 0 ∧ win1_3.index t 1 = 0)
    ∧ (win1_4.index t 0 = t.val / 12 ∧ win1_4.index t 1 = 0) :=
  (by decide +kernel : ∀ t : Fin grid1.N,
    (win1_0.index t 0 = t.val / 12 ∧ win1_0.index t 1 = t.val % 12)
    ∧ (win1_1.index t 0 = t.val % 12 ∧ win1_1.index t 1 = 0)
    ∧ (win1_2.index t 0 = 0 ∧ win1_2.index t 1 = 0)
    ∧ (win1_3.index t 0 = 0 ∧ win1_3.index t 1 = 0)
    ∧ (win1_4.index t 0 = t.val / 12 ∧ win1_4.index t 1 = 0))

theorem N1_eq : cfg1.N = 144 := N_1

/-- Entry `a` of tile `x` (of twelve tiles of 1024) is below 12288. -/
theorem tile1_lt {x : ℕ} (hx : x < 12) (a : Fin 1024) : x * 1024 + a.val < 12288 := by
  have := a.isLt; omega

/-- Point 12 i + k is on the grid. -/
theorem pt1_lt {i k : ℕ} (hi : i < 12) (hk : k < 12) : 12 * i + k < cfg1.N := by
  have := N1_eq; omega

section Blocks

variable {F : FTy → Type} [FloatOps F]
variable (V : (c : Dev nD) → (b : Ref sig .tc) → Buf (Elt F) ((c : Thread nD τ).loc b))

/-- Window 0's block at point t = 12 i + k is rows 1024 i …, columns 1024 k … of the matrix of edge weights. -/
theorem iblk1_0_apply (c : Dev nD) (t : Fin cfg1.N) {i k : ℕ} (hti : t.val / 12 = i) (htk : t.val % 12 = k)
    (hi : i < 12) (hk : k < 12) (a s : Fin 1024) :
    iblk1 V c 0 t (ix2 a s)
      = V c (Pipeline.arrRef spec1 0)
          (ix2 (⟨i * 1024 + a.val, tile1_lt hi a⟩ : Fin 12288) (⟨k * 1024 + s.val, tile1_lt hk s⟩ : Fin 12288)) := by
  unfold iblk1
  rw [View.read_apply]
  show V c (Pipeline.arrRef spec1 0) _ = V c (Pipeline.arrRef spec1 0) _
  refine congrArg (V c (Pipeline.arrRef spec1 0)) (funext fun ax => Fin.ext ?_)
  match ax with
  | ⟨0, _⟩ =>
    show win1_0.index t 0 * 1024 + 1 * a.val = i * 1024 + a.val
    rw [(idx1 t).1.1, hti]; omega
  | ⟨1, _⟩ =>
    show win1_0.index t 1 * 1024 + 1 * s.val = k * 1024 + s.val
    rw [(idx1 t).1.2, htk]; omega

/-- Window 1's block at point t = 12 i + k is rows 1024 k … of the features. -/
theorem iblk1_1_apply (c : Dev nD) (t : Fin cfg1.N) {k : ℕ} (htk : t.val % 12 = k) (hk : k < 12)
    (s : Fin 1024) (j : Fin 128) :
    iblk1 V c 1 t (ix2 s j)
      = V c (Pipeline.arrRef spec1 1) (ix2 (⟨k * 1024 + s.val, tile1_lt hk s⟩ : Fin 12288) j) := by
  unfold iblk1
  rw [View.read_apply]
  show V c (Pipeline.arrRef spec1 1) _ = V c (Pipeline.arrRef spec1 1) _
  refine congrArg (V c (Pipeline.arrRef spec1 1)) (funext fun ax => Fin.ext ?_)
  match ax with
  | ⟨0, _⟩ =>
    show win1_1.index t 0 * 1024 + 1 * s.val = k * 1024 + s.val
    rw [(idx1 t).2.1.1, htk]; omega
  | ⟨1, _⟩ =>
    show win1_1.index t 1 * 128 + 1 * j.val = j.val
    rw [(idx1 t).2.1.2]; omega

/-- Window 2's block is the whole weight matrix. -/
theorem iblk1_2_apply (c : Dev nD) (t : Fin cfg1.N) (j : Fin 128) (q : Fin 128) :
    iblk1 V c 2 t (ix2 j q) = V c (Pipeline.arrRef spec1 2) (ix2 j q) := by
  unfold iblk1
  rw [View.read_apply]
  show V c (Pipeline.arrRef spec1 2) _ = V c (Pipeline.arrRef spec1 2) _
  refine congrArg (V c (Pipeline.arrRef spec1 2)) (funext fun ax => Fin.ext ?_)
  match ax with
  | ⟨0, _⟩ =>
    show win1_2.index t 0 * 128 + 1 * j.val = j.val
    rw [(idx1 t).2.2.1.1]; omega
  | ⟨1, _⟩ =>
    show win1_2.index t 1 * 128 + 1 * q.val = q.val
    rw [(idx1 t).2.2.1.2]; omega

/-- Window 3's block is the whole bias row. -/
theorem iblk1_3_apply (c : Dev nD) (t : Fin cfg1.N) (z : Fin 1) (q : Fin 128) :
    iblk1 V c 3 t (ix2 z q) = V c (Pipeline.arrRef spec1 3) (ix2 z q) := by
  unfold iblk1
  rw [View.read_apply]
  show V c (Pipeline.arrRef spec1 3) _ = V c (Pipeline.arrRef spec1 3) _
  refine congrArg (V c (Pipeline.arrRef spec1 3)) (funext fun ax => Fin.ext ?_)
  match ax with
  | ⟨0, _⟩ =>
    show win1_3.index t 0 * 1 + 1 * z.val = z.val
    rw [(idx1 t).2.2.2.1.1]; omega
  | ⟨1, _⟩ =>
    show win1_3.index t 1 * 128 + 1 * q.val = q.val
    rw [(idx1 t).2.2.2.1.2]; omega

end Blocks

/-! ## The values, over the extended reals -/

section Value

variable (V : (c : Dev nD) → (b : Ref sig .tc) → Buf (Elt Ideal) ((c : Thread nD τ).loc b))

/-- The four arrays the region reads, as functions of their coordinates: the matrix of edge weights, the features,
    the weight matrix, the bias. -/
abbrev A1 (c : Dev nD) : Fin 12288 → Fin 12288 → EReal := fun r s => V c (Pipeline.arrRef spec1 0) (ix2 r s)
abbrev X1 (c : Dev nD) : Fin 12288 → Fin 128 → EReal := fun s j => V c (Pipeline.arrRef spec1 1) (ix2 s j)
abbrev Wm1 (c : Dev nD) : Fin 128 → Fin 128 → EReal := fun j q => V c (Pipeline.arrRef spec1 2) (ix2 j q)
abbrev b1 (c : Dev nD) : Fin 128 → EReal := fun q => V c (Pipeline.arrRef spec1 3) (ix2 (0 : Fin 1) q)

/-- One summand of the layer's row sum:  A(r, s) · (X W)(s, q). -/
abbrev term1 (c : Dev nD) (r : Fin 12288) (q : Fin 128) (s : Fin 12288) : EReal :=
  A1 V c r s * Cert.Spec.xw (X1 V c) (Wm1 V c) s q

/-- What one point adds to the accumulator at (a, b), over the three blocks it reads. -/
abbrev pointSum1 (v10 : Vec Ideal S1024x1024 .bf16) (v3 : Vec Ideal S1024x128 .bf16) (v5 : Vec Ideal S128x128 .bf16)
    (a : Fin 1024) (b : Fin 128) : EReal :=
  ∑ s : Fin 1024, v10 (ix2 a s) * ∑ j : Fin 128, v3 (ix2 s j) * v5 (ix2 j b)

/-- It depends on the blocks through the entries it reads only. -/
theorem pointSum1_congr (v10 : Vec Ideal S1024x1024 .bf16) (v3 : Vec Ideal S1024x128 .bf16) (v5 : Vec Ideal S128x128 .bf16)
    (a : Fin 1024) (b : Fin 128) (Ar Y : Fin 1024 → EReal)
    (h10 : ∀ s, v10 (ix2 a s) = Ar s) (hY : ∀ s, (∑ j : Fin 128, v3 (ix2 s j) * v5 (ix2 j b)) = Y s) :
    pointSum1 v10 v3 v5 a b = ∑ s : Fin 1024, Ar s * Y s :=
  Finset.sum_congr rfl fun s _ => by rw [h10 s, hY s]

/-- What point 12 i + k adds to the accumulator at (a, b): block k of row 1024 i + a's sum. -/
theorem step1_term (c : Dev nD) {i k : ℕ} (hi : i < 12) (hk : k < 12) (a : Fin 1024) (b : Fin 128) :
    pointSum1 (iblk1 V c 0 ⟨12 * i + k, pt1_lt hi hk⟩) (iblk1 V c 1 ⟨12 * i + k, pt1_lt hi hk⟩)
        (iblk1 V c 2 ⟨12 * i + k, pt1_lt hi hk⟩) a b
      = ∑ s : Fin 1024, term1 V c ⟨i * 1024 + a.val, tile1_lt hi a⟩ b ⟨k * 1024 + s.val, tile1_lt hk s⟩ := by
  have hti : (⟨12 * i + k, pt1_lt hi hk⟩ : Fin cfg1.N).val / 12 = i := by show (12 * i + k) / 12 = i; omega
  have htk : (⟨12 * i + k, pt1_lt hi hk⟩ : Fin cfg1.N).val % 12 = k := by show (12 * i + k) % 12 = k; omega
  refine pointSum1_congr _ _ _ a b
    (fun s => A1 V c ⟨i * 1024 + a.val, tile1_lt hi a⟩ ⟨k * 1024 + s.val, tile1_lt hk s⟩)
    (fun s => Cert.Spec.xw (X1 V c) (Wm1 V c) ⟨k * 1024 + s.val, tile1_lt hk s⟩ b)
    (fun s => iblk1_0_apply V c _ hti htk hi hk a s) (fun s => ?_)
  unfold Cert.Spec.xw
  refine Finset.sum_congr rfl fun j _ => ?_
  rw [iblk1_1_apply V c _ htk hk s j, iblk1_2_apply V c _ j b]

/-- The accumulator at (a, b) after the last reduction tile of row tile i is the whole row sum. -/
theorem chain1_apply (c : Dev nD) {i : ℕ} (hi : i < 12) (a : Fin 1024) (b : Fin 128) :
    chain1 V c (12 * i + 11) (pt1_lt hi (by omega)) (ix2 a b)
      = ∑ s : Fin 12288, term1 V c ⟨i * 1024 + a.val, tile1_lt hi a⟩ b s := by
  refine Cert.Law.block_accumulate_12_1024 (term1 V c ⟨i * 1024 + a.val, tile1_lt hi a⟩ b)
    (fun k hk => chain1 V c (12 * i + k) (pt1_lt hi hk) (ix2 a b)) ?_ ?_
  · show chain1 V c (12 * i + 0) (pt1_lt hi (by omega)) (ix2 a b) = 0 + _
    rw [chain1_first V c (12 * i + 0) (pt1_lt hi (by omega)) (by omega)]
    rw [Cert.KernelIdeal.PayValue.k1_pay2_apply, Cert.KernelIdeal.PayValue.k1_pay1_apply]
    exact congrArg (fun z : EReal => (0 : EReal) + z) (step1_term V c hi (by omega) a b)
  · intro k hk
    show chain1 V c (12 * i + k + 1) (pt1_lt hi hk) (ix2 a b)
      = chain1 V c (12 * i + k) (pt1_lt hi (Nat.lt_of_succ_lt hk)) (ix2 a b) + _
    rw [chain1_next V c (12 * i + k) (pt1_lt hi hk) (by omega)]
    rw [Cert.KernelIdeal.PayValue.k1_pay2_apply]
    exact congrArg (fun z : EReal => (chain1 V c (12 * i + k) (pt1_lt hi (Nat.lt_of_succ_lt hk)) (ix2 a b) : EReal) + z)
      (step1_term V c hi hk a b)

/-- The tile written at the last reduction tile of row tile i, at (a, b), is the layer's dense form at row
    1024 i + a. -/
theorem out1_apply (c : Dev nD) {i : ℕ} (hi : i < 12) (a : Fin 1024) (b : Fin 128) :
    (outsAt1 V c (12 * i + 11) (pt1_lt hi (by omega))).1 (ix2 a b)
      = Cert.Spec.denseLayer (A1 V c) (X1 V c) (Wm1 V c) (b1 V c) ⟨i * 1024 + a.val, tile1_lt hi a⟩ b := by
  refine (congrFun (out1_last V c ⟨12 * i + 11, pt1_lt hi (by omega)⟩ (by show (12 * i + 11) % 12 = 11; omega)) (ix2 a b)).trans ?_
  rw [Cert.KernelIdeal.PayValue.k1_pay3_apply]
  show max (chain1 V c (12 * i + 11) (pt1_lt hi (by omega)) (ix2 a b) + _) 0 = _
  rw [chain1_apply V c hi a b, iblk1_3_apply V c _ (0 : Fin 1) b] <;> rfl

/-- The whole result array in index form: the dense form of the layer. -/
abbrev G1 (c : Dev nD) : Buf (Elt Ideal) ((cfg1.win 4).arr.view.loc (c.tc : Thread nD τ)) :=
  fun (j : S12288x128.Idx) => Cert.Spec.denseLayer (A1 V c) (X1 V c) (Wm1 V c) (b1 V c) (j 0) (j 1)

/-- What a write-back writes is the block of the dense form it covers. -/
theorem flushed1_eq (c : Dev nD) (t : Fin cfg1.N) (hf : (cfg1.win 4).flush t = true) :
    (dat1 V c).flushed 4 t = ((cfg1.win 4).blk t).view.read (Elt Ideal) (G1 V c) := by
  have h11 : t.val % 12 = 11 := (flush1_4 t).mp hf
  have hN := N1_eq
  have hlt := t.isLt
  have hi : t.val / 12 < 12 := by omega
  show (cfg1.win 4).cut (grid1.coords t) ((dat1 V c).after 4 t) = _
  rw [after1_4]
  funext j
  obtain ⟨a, b, rfl⟩ : ∃ (a : Fin 1024) (b : Fin 128), j = ix2 a b := ⟨j 0, j 1, eq_ix2 j⟩
  rw [View.read_apply]
  show (outsAt1 V c t.val t.isLt).1 (ix2 a b)
    = Cert.Spec.denseLayer (A1 V c) (X1 V c) (Wm1 V c) (b1 V c)
        ((((cfg1.win 4).blk t).view.emb (ix2 a b)) 0) ((((cfg1.win 4).blk t).view.emb (ix2 a b)) 1)
  have e0 : (((cfg1.win 4).blk t).view.emb (ix2 a b)) 0 = (⟨t.val / 12 * 1024 + a.val, tile1_lt hi a⟩ : Fin 12288) := by
    apply Fin.ext
    show win1_4.index t 0 * 1024 + 1 * a.val = t.val / 12 * 1024 + a.val
    rw [(idx1 t).2.2.2.2.1]; omega
  have e1 : (((cfg1.win 4).blk t).view.emb (ix2 a b)) 1 = b := by
    apply Fin.ext
    show win1_4.index t 1 * 128 + 1 * b.val = b.val
    rw [(idx1 t).2.2.2.2.2]; omega
  rw [e0, e1]
  have key : ∀ (n : ℕ) (hn : n < cfg1.N), n = 12 * (t.val / 12) + 11 →
      (outsAt1 V c n hn).1 (ix2 a b)
        = Cert.Spec.denseLayer (A1 V c) (X1 V c) (Wm1 V c) (b1 V c) ⟨t.val / 12 * 1024 + a.val, tile1_lt hi a⟩ b := by
    intro n hn e
    subst e
    exact out1_apply V c hi a b
  exact key t.val t.isLt (by omega)

/-- Every row of the result is in the block written at its row tile's last reduction tile. -/
theorem cover1 (c : Dev nD) (i : ((cfg1.win 4).arr.view.loc (c.tc : Thread nD τ)).2.ty.Idx) :
    ∃ t : Fin cfg1.N, (cfg1.win 4).flush t = true ∧ i ∈ ((cfg1.win 4).blk t).view.set := by
  have h0 : (i 0 : ℕ) < 12288 := (i 0).isLt
  have h1 : (i 1 : ℕ) < 128 := (i 1).isLt
  have hr : (i 0 : ℕ) / 1024 < 12 := by omega
  have ht : 12 * ((i 0 : ℕ) / 1024) + 11 < cfg1.N := pt1_lt hr (by omega)
  refine ⟨⟨12 * ((i 0 : ℕ) / 1024) + 11, ht⟩, (flush1_4 _).mpr (by show (12 * ((i 0 : ℕ) / 1024) + 11) % 12 = 11; omega), ?_⟩
  show i ∈ ((View.whole main_v55).slice (win1_4.rect ⟨12 * ((i 0 : ℕ) / 1024) + 11, ht⟩)).set
  rw [View.set_slice_whole, Rect.mem_set_unit]
  intro ax
  match ax with
  | ⟨0, _⟩ =>
    show win1_4.index ⟨12 * ((i 0 : ℕ) / 1024) + 11, ht⟩ 0 * 1024 ≤ (i 0 : ℕ)
      ∧ (i 0 : ℕ) < win1_4.index ⟨12 * ((i 0 : ℕ) / 1024) + 11, ht⟩ 0 * 1024 + 1024
    rw [(idx1 ⟨12 * ((i 0 : ℕ) / 1024) + 11, ht⟩).2.2.2.2.1]
    show (12 * ((i 0 : ℕ) / 1024) + 11) / 12 * 1024 ≤ (i 0 : ℕ) ∧ (i 0 : ℕ) < (12 * ((i 0 : ℕ) / 1024) + 11) / 12 * 1024 + 1024
    omega
  | ⟨1, _⟩ =>
    show win1_4.index ⟨12 * ((i 0 : ℕ) / 1024) + 11, ht⟩ 1 * 128 ≤ (i 1 : ℕ)
      ∧ (i 1 : ℕ) < win1_4.index ⟨12 * ((i 0 : ℕ) / 1024) + 11, ht⟩ 1 * 128 + 128
    rw [(idx1 ⟨12 * ((i 0 : ℕ) / 1024) + 11, ht⟩).2.2.2.2.2]
    omega

/-- The region leaves its result array at the dense form of the layer over the arrays it read. -/
theorem final1_fn (c : Dev nD) : (dat1 V c).arrAt 4 cfg1.N = G1 V c :=
  (dat1 V c).arrAt_eq_of_cover 4 (G1 V c) (flushed1_eq V c) (cover1 c)

theorem final1 (c : Dev nD) (r : Fin 12288) (q : Fin 128) :
    (dat1 V c).arrAt 4 cfg1.N (ix2 r q)
      = Cert.Spec.denseLayer (A1 V c) (X1 V c) (Wm1 V c) (b1 V c) r q :=
  congrFun (final1_fn V c) (ix2 r q)

end Value

end Cert.KernelIdeal.Hand

end
-- ==== Proof.KI.G2Pieces.lean ====
/-
  Region 2: what each case of the body leaves, as the body's arithmetic applied to the blocks it was handed.
  first tile: the scratch ends at  0-block + A_tile (X_tile W);   later tiles: at  what it held + A_tile (X_tile W);
  last tile also: the output tile ends at  max (scratch + bias row, 0).
-/
import proofs.«164907_j26860725469614_1_alg».proof.Proof.KI.G2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout2_A_eq (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF2 i) (hc1 : ¬condL2 i)
    (x0 : Vec F S1024x1024 .bf16) (x1 : Vec F S1024x128 .bf16) (x2 : Vec F S128x128 .bf16) (x3 : Vec F S1x128 .f32) :
    sout2_A (F := F) c i arg2 harg2 arg3 harg3 arg4 harg4 arg5 harg5 arg6 harg6 arg7 harg7 hc0 hc1 x0 x1 x2 x3 = k2_pay2 x1 x2 (k2_pay1 (F := F)) x0 := by
  unfold sout2_A
  rw [View.read_writes_eq_canon _ _ _ (scover2_A c i arg2 harg2 arg3 harg3 arg4 harg4 arg5 harg5 arg6 harg6 arg7 harg7 hc0 hc1 x0 x1 x2 x3)]
  unfold kernelRun2_A
  dsimp only
  sl_unfold_words
  rw [View.canon_cons_unit_zero (S := S1024x128) hz2, View.readCov_unit_zero (S := S1024x128) _ hz2]
  simp only [View.readAt_eq_ld, harg2.read_unread, harg3.read_unread, harg4.read_unread, harg5.read_unread, harg7.read_unread, View.ld_unit_zero (S := S1024x1024) hz2, View.ld_unit_zero (S := S1024x128) hz2, View.ld_unit_zero (S := S128x128) hz2, View.ld_unit_zero (S := S1x128) hz2]

theorem sout2_B_eq (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : ¬condL2 i)
    (x0 : Vec F S1024x1024 .bf16) (x1 : Vec F S1024x128 .bf16) (x2 : Vec F S128x128 .bf16) (x3 : Vec F S1x128 .f32) (xs0 : Vec F S1024x128 .f32) :
    sout2_B (F := F) c i arg2 harg2 arg3 harg3 arg4 harg4 arg5 harg5 arg6 harg6 arg7 harg7 hc0 hc1 x0 x1 x2 x3 xs0 = k2_pay2 x1 x2 xs0 x0 := by
  unfold sout2_B
  rw [View.read_writes_eq_canon _ _ _ (scover2_B c i arg2 harg2 arg3 harg3 arg4 harg4 arg5 harg5 arg6 harg6 arg7 harg7 hc0 hc1 x0 x1 x2 x3 xs0)]
  unfold kernelRun2_B
  dsimp only
  sl_unfold_words
  rw [View.canon_unit_zero hz2]
  simp only [View.readAt_eq_ld, harg2.read_unread, harg3.read_unread, harg4.read_unread, harg5.read_unread, harg7.read_unread, View.ld_unit_zero (S := S1024x1024) hz2, View.ld_unit_zero (S := S1024x128) hz2, View.ld_unit_zero (S := S128x128) hz2, View.ld_unit_zero (S := S1x128) hz2]

theorem sout2_C_eq (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) :
    sout2_C (F := F) c i arg2 harg2 arg3 harg3 arg4 harg4 arg5 harg5 arg6 harg6 arg7 harg7 hc0 hc1 x0 x1 x2 x3 xs0 = k2_pay2 x1 x2 xs0 x0 := by
  unfold sout2_C
  rw [View.read_writes_eq_canon _ _ _ (scover2_C c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg7.read_unread, View.ld_unit_zero (S := S1024x1024) hz2, View.ld_unit_zero (S := S1024x128) hz2, View.ld_unit_zero (S := S128x128) hz2, View.ld_unit_zero (S := S1x128) hz2]

theorem out2_C_eq (c : Dev nD) (i : grid2.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF2 i) (hc1 : condL2 i)
    (x0 : Vec F S1024x1024 .bf16) (x1 : Vec F S1024x128 .bf16) (x2 : Vec F S128x128 .bf16) (x3 : Vec F S1x128 .f32) (xs0 : Vec F S1024x128 .f32) :
    out2_C_4 (F := F) c i arg2 harg2 arg3 harg3 arg4 harg4 arg5 harg5 arg6 harg6 arg7 harg7 hc0 hc1 x0 x1 x2 x3 xs0 = k2_pay3 x3 (k2_pay2 x1 x2 xs0 x0) := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero (S := S1024x128) hz2, View.readCov_unit_zero (S := S1024x128) _ hz2]
  simp only [View.readAt_eq_ld, harg2.read_unread, harg3.read_unread, harg4.read_unread, harg5.read_unread, harg7.read_unread, View.ld_unit_zero (S := S1024x1024) hz2, View.ld_unit_zero (S := S1024x128) hz2, View.ld_unit_zero (S := S128x128) hz2, View.ld_unit_zero (S := S1x128) hz2]

end Cert.KernelIdeal.Hand

end
-- ==== Proof.KI.G2Chain.lean ====
/-
  Region 2: the accumulator scratch after each grid point in closed form (the ordered running sum over the reduction
  tiles, restarted at each row tile's first reduction tile), and the output tile at a row tile's last point.
-/
import proofs.«164907_j26860725469614_1_alg».proof.Proof.KI.G2Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! What one point leaves, by the case it is in. -/

theorem scr2_A (c : Dev nD) (t : Fin cfg2.N) (h0 : t.val % 12 = 0) (h1 : ¬t.val % 12 = 11) :
    (outsAt2 V c t.val t.isLt).2 = k2_pay2 (iblk2 V c 1 t) (iblk2 V c 2 t) (k2_pay1 (F := F)) (iblk2 V c 0 t) := by
  rw [outsAt2_A V c t h0 h1]
  dsimp only
  exact sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) ((hcondF2 t).mpr h0) (fun h => h1 ((hcondL2 t).mp h)) (iblk2 V c 0 t) (iblk2 V c 1 t) (iblk2 V c 2 t) (iblk2 V c 3 t)

theorem scr2_B (c : Dev nD) (t : Fin cfg2.N) (h0 : ¬t.val % 12 = 0) (h1 : ¬t.val % 12 = 11) :
    (outsAt2 V c t.val t.isLt).2 = k2_pay2 (iblk2 V c 1 t) (iblk2 V c 2 t) (outsAt2 V c (t.val - 1) (Nat.lt_of_le_of_lt (Nat.sub_le _ _) t.isLt)).2 (iblk2 V c 0 t) := by
  rw [outsAt2_B V c t h0 h1]
  dsimp only
  exact sout2_B_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) (fun h => h1 ((hcondL2 t).mp h)) (iblk2 V c 0 t) (iblk2 V c 1 t) (iblk2 V c 2 t) (iblk2 V c 3 t) (outsAt2 V c (t.val - 1) (Nat.lt_of_le_of_lt (Nat.sub_le _ _) t.isLt)).2

theorem scr2_C (c : Dev nD) (t : Fin cfg2.N) (h0 : ¬t.val % 12 = 0) (h1 : t.val % 12 = 11) :
    (outsAt2 V c t.val t.isLt).2 = k2_pay2 (iblk2 V c 1 t) (iblk2 V c 2 t) (outsAt2 V c (t.val - 1) (Nat.lt_of_le_of_lt (Nat.sub_le _ _) t.isLt)).2 (iblk2 V c 0 t) := by
  rw [outsAt2_C V c t h0 h1]
  dsimp only
  exact sout2_C_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2

theorem outv2_C (c : Dev nD) (t : Fin cfg2.N) (h0 : ¬t.val % 12 = 0) (h1 : t.val % 12 = 11) :
    (outsAt2 V c t.val t.isLt).1 = k2_pay3 (iblk2 V c 3 t) (k2_pay2 (iblk2 V c 1 t) (iblk2 V c 2 t) (outsAt2 V c (t.val - 1) (Nat.lt_of_le_of_lt (Nat.sub_le _ _) t.isLt)).2 (iblk2 V c 0 t)) := by
  rw [outsAt2_C V c t h0 h1]
  dsimp only
  exact out2_C_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcondF2 t).mp h)) ((hcondL2 t).mpr h1) (iblk2 V c 0 t) (iblk2 V c 1 t) (iblk2 V c 2 t) (iblk2 V c 3 t) (outsAt2 V c (t.val - 1) (Nat.lt_of_le_of_lt (Nat.sub_le _ _) t.isLt)).2

/-- The accumulator after point `n`: at a first reduction tile the cleared block plus the tile's product, otherwise what
    the point before left plus the tile's product. -/
def chain2 (c : Dev nD) : (n : ℕ) → n < cfg2.N → Vec F S1024x128 .f32
  | 0, h => k2_pay2 (iblk2 V c 1 ⟨0, h⟩) (iblk2 V c 2 ⟨0, h⟩) (k2_pay1 (F := F)) (iblk2 V c 0 ⟨0, h⟩)
  | n + 1, h =>
    if (n + 1) % 12 = 0 then k2_pay2 (iblk2 V c 1 ⟨n + 1, h⟩) (iblk2 V c 2 ⟨n + 1, h⟩) (k2_pay1 (F := F)) (iblk2 V c 0 ⟨n + 1, h⟩)
    else k2_pay2 (iblk2 V c 1 ⟨n + 1, h⟩) (iblk2 V c 2 ⟨n + 1, h⟩) (chain2 c n (Nat.lt_of_succ_lt h)) (iblk2 V c 0 ⟨n + 1, h⟩)

theorem chain2_first (c : Dev nD) (n : ℕ) (h : n < cfg2.N) (h0 : n % 12 = 0) :
    chain2 V c n h = k2_pay2 (iblk2 V c 1 ⟨n, h⟩) (iblk2 V c 2 ⟨n, h⟩) (k2_pay1 (F := F)) (iblk2 V c 0 ⟨n, h⟩) := by
  cases n with
  | zero => rfl
  | succ n => exact if_pos h0

theorem chain2_next (c : Dev nD) (n : ℕ) (h : n + 1 < cfg2.N) (h0 : ¬(n + 1) % 12 = 0) :
    chain2 V c (n + 1) h = k2_pay2 (iblk2 V c 1 ⟨n + 1, h⟩) (iblk2 V c 2 ⟨n + 1, h⟩) (chain2 V c n (Nat.lt_of_succ_lt h)) (iblk2 V c 0 ⟨n + 1, h⟩) :=
  if_neg h0

/-- What the recursion over the cases' found pieces leaves in the scratch IS the running sum. -/
theorem scr2_eq (c : Dev nD) : ∀ (n : ℕ) (h : n < cfg2.N), (outsAt2 V c n h).2 = chain2 V c n h
  | 0, h => (scr2_A V c ⟨0, h⟩ (Nat.zero_mod _) (by show ¬(0 % 12 = 11); decide)).trans (chain2_first V c 0 h (Nat.zero_mod _)).symm
  | n + 1, h => by
    by_cases h0 : (n + 1) % 12 = 0
    · have h1 : ¬(n + 1) % 12 = 11 := by omega
      exact (scr2_A V c ⟨n + 1, h⟩ h0 h1).trans (chain2_first V c (n + 1) h h0).symm
    · by_cases h1 : (n + 1) % 12 = 11
      · refine (scr2_C V c ⟨n + 1, h⟩ h0 h1).trans ?_
        rw [chain2_next V c n h h0]
        show k2_pay2 _ _ (outsAt2 V c n _).2 _ = k2_pay2 _ _ (chain2 V c n _) _
        rw [scr2_eq c n]
      · refine (scr2_B V c ⟨n + 1, h⟩ h0 h1).trans ?_
        rw [chain2_next V c n h h0]
        show k2_pay2 _ _ (outsAt2 V c n _).2 _ = k2_pay2 _ _ (chain2 V c n _) _
        rw [scr2_eq c n]

/-- At a row tile's last reduction tile the output tile is the rectified, biased running sum. -/
theorem out2_last (c : Dev nD) (t : Fin cfg2.N) (h1 : t.val % 12 = 11) :
    (outsAt2 V c t.val t.isLt).1 = k2_pay3 (iblk2 V c 3 t) (chain2 V c t.val t.isLt) := by
  have h0 : ¬t.val % 12 = 0 := by omega
  obtain ⟨n, h⟩ := t
  cases n with
  | zero => exact absurd (Nat.zero_mod 12) h0
  | succ n =>
    refine (outv2_C V c ⟨n + 1, h⟩ h0 h1).trans ?_
    rw [chain2_next V c n h h0]
    show k2_pay3 _ (k2_pay2 _ _ (outsAt2 V c n _).2 _) = k2_pay3 _ (k2_pay2 _ _ (chain2 V c n _) _)
    rw [scr2_eq V c n]

end Cert.KernelIdeal.Hand

end
-- ==== Proof.KI.G2Value.lean ====
/-
  Region 2: the result array of one propagation layer, in index form.

  The grid is 12 x 12; point t = 12 i + k handles row tile i (1024 rows of the result) and reduction tile k (1024
  columns of the matrix of edge weights).  Window 0 reads block (i, k) of that matrix, window 1 row block k of the
  features, windows 2 and 3 the whole weight matrix and bias row, window 4 writes row block i of the result after
  the last reduction tile.  Read at an entry, the accumulator after point 12 i + k is the running total of the
  twelve block sums of  Σ_s A(r, s) · (X W)(s, q),  so the tile written at k = 11 is the dense form of the layer.
-/
import proofs.«164907_j26860725469614_1_alg».proof.Proof.KI.G2Chain
import proofs.«164907_j26860725469614_1_alg».proof.Proof.KI.Pay
import proofs.«164907_j26860725469614_1_alg».proof.Proof.LawBlock
import proofs.«164907_j26860725469614_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## Where each window's block sits -/

/-- The block indices over the grid: window 0 is at (i, k), window 1 at (k, 0), windows 2 and 3 at (0, 0), the
    output window at (i, 0), for t = 12 i + k. -/
theorem idx2 : ∀ t : Fin cfg2.N,
    (win2_0.index t 0 = t.val / 12 ∧ win2_0.index t 1 = t.val % 12)
    ∧ (win2_1.index t 0 = t.val % 12 ∧ win2_1.index t 1 = 0)
    ∧ (win2_2.index t 0 = 0 ∧ win2_2.index t 1 = 0)
    ∧ (win2_3.index t 0 = 0 ∧ win2_3.index t 1 = 0)
    ∧ (win2_4.index t 0 = t.val / 12 ∧ win2_4.index t 1 = 0) :=
  (by decide +kernel : ∀ t : Fin grid2.N,
    (win2_0.index t 0 = t.val / 12 ∧ win2_0.index t 1 = t.val % 12)
    ∧ (win2_1.index t 0 = t.val % 12 ∧ win2_1.index t 1 = 0)
    ∧ (win2_2.index t 0 = 0 ∧ win2_2.index t 1 = 0)
    ∧ (win2_3.index t 0 = 0 ∧ win2_3.index t 1 = 0)
    ∧ (win2_4.index t 0 = t.val / 12 ∧ win2_4.index t 1 = 0))

theorem N2_eq : cfg2.N = 144 := N_2

/-- Entry `a` of tile `x` (of twelve tiles of 1024) is below 12288. -/
theorem tile2_lt {x : ℕ} (hx : x < 12) (a : Fin 1024) : x * 1024 + a.val < 12288 := by
  have := a.isLt; omega

/-- Point 12 i + k is on the grid. -/
theorem pt2_lt {i k : ℕ} (hi : i < 12) (hk : k < 12) : 12 * i + k < cfg2.N := by
  have := N2_eq; omega

section Blocks

variable {F : FTy → Type} [FloatOps F]
variable (V : (c : Dev nD) → (b : Ref sig .tc) → Buf (Elt F) ((c : Thread nD τ).loc b))

/-- Window 0's block at point t = 12 i + k is rows 1024 i …, columns 1024 k … of the matrix of edge weights. -/
theorem iblk2_0_apply (c : Dev nD) (t : Fin cfg2.N) {i k : ℕ} (hti : t.val / 12 = i) (htk : t.val % 12 = k)
    (hi : i < 12) (hk : k < 12) (a s : Fin 1024) :
    iblk2 V c 0 t (ix2 a s)
      = V c (Pipeline.arrRef spec2 0)
          (ix2 (⟨i * 1024 + a.val, tile2_lt hi a⟩ : Fin 12288) (⟨k * 1024 + s.val, tile2_lt hk s⟩ : Fin 12288)) := by
  unfold iblk2
  rw [View.read_apply]
  show V c (Pipeline.arrRef spec2 0) _ = V c (Pipeline.arrRef spec2 0) _
  refine congrArg (V c (Pipeline.arrRef spec2 0)) (funext fun ax => Fin.ext ?_)
  match ax with
  | ⟨0, _⟩ =>
    show win2_0.index t 0 * 1024 + 1 * a.val = i * 1024 + a.val
    rw [(idx2 t).1.1, hti]; omega
  | ⟨1, _⟩ =>
    show win2_0.index t 1 * 1024 + 1 * s.val = k * 1024 + s.val
    rw [(idx2 t).1.2, htk]; omega

/-- Window 1's block at point t = 12 i + k is rows 1024 k … of the features. -/
theorem iblk2_1_apply (c : Dev nD) (t : Fin cfg2.N) {k : ℕ} (htk : t.val % 12 = k) (hk : k < 12)
    (s : Fin 1024) (j : Fin 128) :
    iblk2 V c 1 t (ix2 s j)
      = V c (Pipeline.arrRef spec2 1) (ix2 (⟨k * 1024 + s.val, tile2_lt hk s⟩ : Fin 12288) j) := by
  unfold iblk2
  rw [View.read_apply]
  show V c (Pipeline.arrRef spec2 1) _ = V c (Pipeline.arrRef spec2 1) _
  refine congrArg (V c (Pipeline.arrRef spec2 1)) (funext fun ax => Fin.ext ?_)
  match ax with
  | ⟨0, _⟩ =>
    show win2_1.index t 0 * 1024 + 1 * s.val = k * 1024 + s.val
    rw [(idx2 t).2.1.1, htk]; omega
  | ⟨1, _⟩ =>
    show win2_1.index t 1 * 128 + 1 * j.val = j.val
    rw [(idx2 t).2.1.2]; omega

/-- Window 2's block is the whole weight matrix. -/
theorem iblk2_2_apply (c : Dev nD) (t : Fin cfg2.N) (j : Fin 128) (q : Fin 128) :
    iblk2 V c 2 t (ix2 j q) = V c (Pipeline.arrRef spec2 2) (ix2 j q) := by
  unfold iblk2
  rw [View.read_apply]
  show V c (Pipeline.arrRef spec2 2) _ = V c (Pipeline.arrRef spec2 2) _
  refine congrArg (V c (Pipeline.arrRef spec2 2)) (funext fun ax => Fin.ext ?_)
  match ax with
  | ⟨0, _⟩ =>
    show win2_2.index t 0 * 128 + 1 * j.val = j.val
    rw [(idx2 t).2.2.1.1]; omega
  | ⟨1, _⟩ =>
    show win2_2.index t 1 * 128 + 1 * q.val = q.val
    rw [(idx2 t).2.2.1.2]; omega

/-- Window 3's block is the whole bias row. -/
theorem iblk2_3_apply (c : Dev nD) (t : Fin cfg2.N) (z : Fin 1) (q : Fin 128) :
    iblk2 V c 3 t (ix2 z q) = V c (Pipeline.arrRef spec2 3) (ix2 z q) := by
  unfold iblk2
  rw [View.read_apply]
  show V c (Pipeline.arrRef spec2 3) _ = V c (Pipeline.arrRef spec2 3) _
  refine congrArg (V c (Pipeline.arrRef spec2 3)) (funext fun ax => Fin.ext ?_)
  match ax with
  | ⟨0, _⟩ =>
    show win2_3.index t 0 * 1 + 1 * z.val = z.val
    rw [(idx2 t).2.2.2.1.1]; omega
  | ⟨1, _⟩ =>
    show win2_3.index t 1 * 128 + 1 * q.val = q.val
    rw [(idx2 t).2.2.2.1.2]; omega

end Blocks

/-! ## The values, over the extended reals -/

section Value

variable (V : (c : Dev nD) → (b : Ref sig .tc) → Buf (Elt Ideal) ((c : Thread nD τ).loc b))

/-- The four arrays the region reads, as functions of their coordinates: the matrix of edge weights, the features,
    the weight matrix, the bias. -/
abbrev A2 (c : Dev nD) : Fin 12288 → Fin 12288 → EReal := fun r s => V c (Pipeline.arrRef spec2 0) (ix2 r s)
abbrev X2 (c : Dev nD) : Fin 12288 → Fin 128 → EReal := fun s j => V c (Pipeline.arrRef spec2 1) (ix2 s j)
abbrev Wm2 (c : Dev nD) : Fin 128 → Fin 128 → EReal := fun j q => V c (Pipeline.arrRef spec2 2) (ix2 j q)
abbrev b2 (c : Dev nD) : Fin 128 → EReal := fun q => V c (Pipeline.arrRef spec2 3) (ix2 (0 : Fin 1) q)

/-- One summand of the layer's row sum:  A(r, s) · (X W)(s, q). -/
abbrev term2 (c : Dev nD) (r : Fin 12288) (q : Fin 128) (s : Fin 12288) : EReal :=
  A2 V c r s * Cert.Spec.xw (X2 V c) (Wm2 V c) s q

/-- What one point adds to the accumulator at (a, b), over the three blocks it reads. -/
abbrev pointSum2 (v10 : Vec Ideal S1024x1024 .bf16) (v3 : Vec Ideal S1024x128 .bf16) (v5 : Vec Ideal S128x128 .bf16)
    (a : Fin 1024) (b : Fin 128) : EReal :=
  ∑ s : Fin 1024, v10 (ix2 a s) * ∑ j : Fin 128, v3 (ix2 s j) * v5 (ix2 j b)

/-- It depends on the blocks through the entries it reads only. -/
theorem pointSum2_congr (v10 : Vec Ideal S1024x1024 .bf16) (v3 : Vec Ideal S1024x128 .bf16) (v5 : Vec Ideal S128x128 .bf16)
    (a : Fin 1024) (b : Fin 128) (Ar Y : Fin 1024 → EReal)
    (h10 : ∀ s, v10 (ix2 a s) = Ar s) (hY : ∀ s, (∑ j : Fin 128, v3 (ix2 s j) * v5 (ix2 j b)) = Y s) :
    pointSum2 v10 v3 v5 a b = ∑ s : Fin 1024, Ar s * Y s :=
  Finset.sum_congr rfl fun s _ => by rw [h10 s, hY s]

/-- What point 12 i + k adds to the accumulator at (a, b): block k of row 1024 i + a's sum. -/
theorem step2_term (c : Dev nD) {i k : ℕ} (hi : i < 12) (hk : k < 12) (a : Fin 1024) (b : Fin 128) :
    pointSum2 (iblk2 V c 0 ⟨12 * i + k, pt2_lt hi hk⟩) (iblk2 V c 1 ⟨12 * i + k, pt2_lt hi hk⟩)
        (iblk2 V c 2 ⟨12 * i + k, pt2_lt hi hk⟩) a b
      = ∑ s : Fin 1024, term2 V c ⟨i * 1024 + a.val, tile2_lt hi a⟩ b ⟨k * 1024 + s.val, tile2_lt hk s⟩ := by
  have hti : (⟨12 * i + k, pt2_lt hi hk⟩ : Fin cfg2.N).val / 12 = i := by show (12 * i + k) / 12 = i; omega
  have htk : (⟨12 * i + k, pt2_lt hi hk⟩ : Fin cfg2.N).val % 12 = k := by show (12 * i + k) % 12 = k; omega
  refine pointSum2_congr _ _ _ a b
    (fun s => A2 V c ⟨i * 1024 + a.val, tile2_lt hi a⟩ ⟨k * 1024 + s.val, tile2_lt hk s⟩)
    (fun s => Cert.Spec.xw (X2 V c) (Wm2 V c) ⟨k * 1024 + s.val, tile2_lt hk s⟩ b)
    (fun s => iblk2_0_apply V c _ hti htk hi hk a s) (fun s => ?_)
  unfold Cert.Spec.xw
  refine Finset.sum_congr rfl fun j _ => ?_
  rw [iblk2_1_apply V c _ htk hk s j, iblk2_2_apply V c _ j b]

/-- The accumulator at (a, b) after the last reduction tile of row tile i is the whole row sum. -/
theorem chain2_apply (c : Dev nD) {i : ℕ} (hi : i < 12) (a : Fin 1024) (b : Fin 128) :
    chain2 V c (12 * i + 11) (pt2_lt hi (by omega)) (ix2 a b)
      = ∑ s : Fin 12288, term2 V c ⟨i * 1024 + a.val, tile2_lt hi a⟩ b s := by
  refine Cert.Law.block_accumulate_12_1024 (term2 V c ⟨i * 1024 + a.val, tile2_lt hi a⟩ b)
    (fun k hk => chain2 V c (12 * i + k) (pt2_lt hi hk) (ix2 a b)) ?_ ?_
  · show chain2 V c (12 * i + 0) (pt2_lt hi (by omega)) (ix2 a b) = 0 + _
    rw [chain2_first V c (12 * i + 0) (pt2_lt hi (by omega)) (by omega)]
    rw [Cert.KernelIdeal.PayValue.k2_pay2_apply, Cert.KernelIdeal.PayValue.k2_pay1_apply]
    exact congrArg (fun z : EReal => (0 : EReal) + z) (step2_term V c hi (by omega) a b)
  · intro k hk
    show chain2 V c (12 * i + k + 1) (pt2_lt hi hk) (ix2 a b)
      = chain2 V c (12 * i + k) (pt2_lt hi (Nat.lt_of_succ_lt hk)) (ix2 a b) + _
    rw [chain2_next V c (12 * i + k) (pt2_lt hi hk) (by omega)]
    rw [Cert.KernelIdeal.PayValue.k2_pay2_apply]
    exact congrArg (fun z : EReal => (chain2 V c (12 * i + k) (pt2_lt hi (Nat.lt_of_succ_lt hk)) (ix2 a b) : EReal) + z)
      (step2_term V c hi hk a b)

/-- The tile written at the last reduction tile of row tile i, at (a, b), is the layer's dense form at row
    1024 i + a. -/
theorem out2_apply (c : Dev nD) {i : ℕ} (hi : i < 12) (a : Fin 1024) (b : Fin 128) :
    (outsAt2 V c (12 * i + 11) (pt2_lt hi (by omega))).1 (ix2 a b)
      = Cert.Spec.denseLayer (A2 V c) (X2 V c) (Wm2 V c) (b2 V c) ⟨i * 1024 + a.val, tile2_lt hi a⟩ b := by
  refine (congrFun (out2_last V c ⟨12 * i + 11, pt2_lt hi (by omega)⟩ (by show (12 * i + 11) % 12 = 11; omega)) (ix2 a b)).trans ?_
  rw [Cert.KernelIdeal.PayValue.k2_pay3_apply]
  show max (chain2 V c (12 * i + 11) (pt2_lt hi (by omega)) (ix2 a b) + _) 0 = _
  rw [chain2_apply V c hi a b, iblk2_3_apply V c _ (0 : Fin 1) b] <;> rfl

/-- The whole result array in index form: the dense form of the layer. -/
abbrev G2 (c : Dev nD) : Buf (Elt Ideal) ((cfg2.win 4).arr.view.loc (c.tc : Thread nD τ)) :=
  fun (j : S12288x128.Idx) => Cert.Spec.denseLayer (A2 V c) (X2 V c) (Wm2 V c) (b2 V c) (j 0) (j 1)

/-- What a write-back writes is the block of the dense form it covers. -/
theorem flushed2_eq (c : Dev nD) (t : Fin cfg2.N) (hf : (cfg2.win 4).flush t = true) :
    (dat2 V c).flushed 4 t = ((cfg2.win 4).blk t).view.read (Elt Ideal) (G2 V c) := by
  have h11 : t.val % 12 = 11 := (flush2_4 t).mp hf
  have hN := N2_eq
  have hlt := t.isLt
  have hi : t.val / 12 < 12 := by omega
  show (cfg2.win 4).cut (grid2.coords t) ((dat2 V c).after 4 t) = _
  rw [after2_4]
  funext j
  obtain ⟨a, b, rfl⟩ : ∃ (a : Fin 1024) (b : Fin 128), j = ix2 a b := ⟨j 0, j 1, eq_ix2 j⟩
  rw [View.read_apply]
  show (outsAt2 V c t.val t.isLt).1 (ix2 a b)
    = Cert.Spec.denseLayer (A2 V c) (X2 V c) (Wm2 V c) (b2 V c)
        ((((cfg2.win 4).blk t).view.emb (ix2 a b)) 0) ((((cfg2.win 4).blk t).view.emb (ix2 a b)) 1)
  have e0 : (((cfg2.win 4).blk t).view.emb (ix2 a b)) 0 = (⟨t.val / 12 * 1024 + a.val, tile2_lt hi a⟩ : Fin 12288) := by
    apply Fin.ext
    show win2_4.index t 0 * 1024 + 1 * a.val = t.val / 12 * 1024 + a.val
    rw [(idx2 t).2.2.2.2.1]; omega
  have e1 : (((cfg2.win 4).blk t).view.emb (ix2 a b)) 1 = b := by
    apply Fin.ext
    show win2_4.index t 1 * 128 + 1 * b.val = b.val
    rw [(idx2 t).2.2.2.2.2]; omega
  rw [e0, e1]
  have key : ∀ (n : ℕ) (hn : n < cfg2.N), n = 12 * (t.val / 12) + 11 →
      (outsAt2 V c n hn).1 (ix2 a b)
        = Cert.Spec.denseLayer (A2 V c) (X2 V c) (Wm2 V c) (b2 V c) ⟨t.val / 12 * 1024 + a.val, tile2_lt hi a⟩ b := by
    intro n hn e
    subst e
    exact out2_apply V c hi a b
  exact key t.val t.isLt (by omega)

/-- Every row of the result is in the block written at its row tile's last reduction tile. -/
theorem cover2 (c : Dev nD) (i : ((cfg2.win 4).arr.view.loc (c.tc : Thread nD τ)).2.ty.Idx) :
    ∃ t : Fin cfg2.N, (cfg2.win 4).flush t = true ∧ i ∈ ((cfg2.win 4).blk t).view.set := by
  have h0 : (i 0 : ℕ) < 12288 := (i 0).isLt
  have h1 : (i 1 : ℕ) < 128 := (i 1).isLt
  have hr : (i 0 : ℕ) / 1024 < 12 := by omega
  have ht : 12 * ((i 0 : ℕ) / 1024) + 11 < cfg2.N := pt2_lt hr (by omega)
  refine ⟨⟨12 * ((i 0 : ℕ) / 1024) + 11, ht⟩, (flush2_4 _).mpr (by show (12 * ((i 0 : ℕ) / 1024) + 11) % 12 = 11; omega), ?_⟩
  show i ∈ ((View.whole main_v59).slice (win2_4.rect ⟨12 * ((i 0 : ℕ) / 1024) + 11, ht⟩)).set
  rw [View.set_slice_whole, Rect.mem_set_unit]
  intro ax
  match ax with
  | ⟨0, _⟩ =>
    show win2_4.index ⟨12 * ((i 0 : ℕ) / 1024) + 11, ht⟩ 0 * 1024 ≤ (i 0 : ℕ)
      ∧ (i 0 : ℕ) < win2_4.index ⟨12 * ((i 0 : ℕ) / 1024) + 11, ht⟩ 0 * 1024 + 1024
    rw [(idx2 ⟨12 * ((i 0 : ℕ) / 1024) + 11, ht⟩).2.2.2.2.1]
    show (12 * ((i 0 : ℕ) / 1024) + 11) / 12 * 1024 ≤ (i 0 : ℕ) ∧ (i 0 : ℕ) < (12 * ((i 0 : ℕ) / 1024) + 11) / 12 * 1024 + 1024
    omega
  | ⟨1, _⟩ =>
    show win2_4.index ⟨12 * ((i 0 : ℕ) / 1024) + 11, ht⟩ 1 * 128 ≤ (i 1 : ℕ)
      ∧ (i 1 : ℕ) < win2_4.index ⟨12 * ((i 0 : ℕ) / 1024) + 11, ht⟩ 1 * 128 + 128
    rw [(idx2 ⟨12 * ((i 0 : ℕ) / 1024) + 11, ht⟩).2.2.2.2.2]
    omega

/-- The region leaves its result array at the dense form of the layer over the arrays it read. -/
theorem final2_fn (c : Dev nD) : (dat2 V c).arrAt 4 cfg2.N = G2 V c :=
  (dat2 V c).arrAt_eq_of_cover 4 (G2 V c) (flushed2_eq V c) (cover2 c)

theorem final2 (c : Dev nD) (r : Fin 12288) (q : Fin 128) :
    (dat2 V c).arrAt 4 cfg2.N (ix2 r q)
      = Cert.Spec.denseLayer (A2 V c) (X2 V c) (Wm2 V c) (b2 V c) r q :=
  congrFun (final2_fn V c) (ix2 r q)

end Value

end Cert.KernelIdeal.Hand

end
-- ==== Proof.KI.G3Pieces.lean ====
/-
  Region 3: what each case of the body leaves, as the body's arithmetic applied to the blocks it was handed.
  first tile: the scratch ends at  0-block + A_tile (X_tile W);   later tiles: at  what it held + A_tile (X_tile W);
  last tile also: the output tile ends at  max (scratch + bias row, 0).
-/
import proofs.«164907_j26860725469614_1_alg».proof.Proof.KI.G3Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

theorem sout3_A_eq (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : condF3 i) (hc1 : ¬condL3 i)
    (x0 : Vec F S1024x1024 .bf16) (x1 : Vec F S1024x128 .bf16) (x2 : Vec F S128x512 .bf16) (x3 : Vec F S1x512 .f32) :
    sout3_A (F := F) c i arg2 harg2 arg3 harg3 arg4 harg4 arg5 harg5 arg6 harg6 arg7 harg7 hc0 hc1 x0 x1 x2 x3 = k3_pay2 x1 x2 (k3_pay1 (F := F)) x0 := by
  unfold sout3_A
  rw [View.read_writes_eq_canon _ _ _ (scover3_A c i arg2 harg2 arg3 harg3 arg4 harg4 arg5 harg5 arg6 harg6 arg7 harg7 hc0 hc1 x0 x1 x2 x3)]
  unfold kernelRun3_A
  dsimp only
  sl_unfold_words
  rw [View.canon_cons_unit_zero (S := S1024x512) hz3, View.readCov_unit_zero (S := S1024x512) _ hz3]
  simp only [View.readAt_eq_ld, harg2.read_unread, harg3.read_unread, harg4.read_unread, harg5.read_unread, harg7.read_unread, View.ld_unit_zero (S := S1024x1024) hz3, View.ld_unit_zero (S := S1024x128) hz3, View.ld_unit_zero (S := S128x512) hz3, View.ld_unit_zero (S := S1x512) hz3, View.ld_unit_zero (S := S1024x512) hz3]

theorem sout3_B_eq (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : ¬condL3 i)
    (x0 : Vec F S1024x1024 .bf16) (x1 : Vec F S1024x128 .bf16) (x2 : Vec F S128x512 .bf16) (x3 : Vec F S1x512 .f32) (xs0 : Vec F S1024x512 .f32) :
    sout3_B (F := F) c i arg2 harg2 arg3 harg3 arg4 harg4 arg5 harg5 arg6 harg6 arg7 harg7 hc0 hc1 x0 x1 x2 x3 xs0 = k3_pay2 x1 x2 xs0 x0 := by
  unfold sout3_B
  rw [View.read_writes_eq_canon _ _ _ (scover3_B c i arg2 harg2 arg3 harg3 arg4 harg4 arg5 harg5 arg6 harg6 arg7 harg7 hc0 hc1 x0 x1 x2 x3 xs0)]
  unfold kernelRun3_B
  dsimp only
  sl_unfold_words
  rw [View.canon_unit_zero hz3]
  simp only [View.readAt_eq_ld, harg2.read_unread, harg3.read_unread, harg4.read_unread, harg5.read_unread, harg7.read_unread, View.ld_unit_zero (S := S1024x1024) hz3, View.ld_unit_zero (S := S1024x128) hz3, View.ld_unit_zero (S := S128x512) hz3, View.ld_unit_zero (S := S1x512) hz3, View.ld_unit_zero (S := S1024x512) hz3]

theorem sout3_C_eq (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) :
    sout3_C (F := F) c i arg2 harg2 arg3 harg3 arg4 harg4 arg5 harg5 arg6 harg6 arg7 harg7 hc0 hc1 x0 x1 x2 x3 xs0 = k3_pay2 x1 x2 xs0 x0 := by
  unfold sout3_C
  rw [View.read_writes_eq_canon _ _ _ (scover3_C c i arg2 harg2 arg3 harg3 arg4 harg4 arg5 harg5 arg6 harg6 arg7 harg7 hc0 hc1 x0 x1 x2 x3 xs0)]
  unfold kernelRun3_C
  dsimp only
  sl_unfold_words
  rw [View.canon_unit_zero hz3]
  simp only [View.readAt_eq_ld, harg2.read_unread, harg3.read_unread, harg4.read_unread, harg5.read_unread, harg7.read_unread, View.ld_unit_zero (S := S1024x1024) hz3, View.ld_unit_zero (S := S1024x128) hz3, View.ld_unit_zero (S := S128x512) hz3, View.ld_unit_zero (S := S1x512) hz3, View.ld_unit_zero (S := S1024x512) hz3]

theorem out3_C_eq (c : Dev nD) (i : grid3.Coords) (arg2 : Memref sig .tc .vmem S1024x1024 .bf16) (harg2 : arg2.IsWhole) (arg3 : Memref sig .tc .vmem S1024x128 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬condF3 i) (hc1 : condL3 i)
    (x0 : Vec F S1024x1024 .bf16) (x1 : Vec F S1024x128 .bf16) (x2 : Vec F S128x512 .bf16) (x3 : Vec F S1x512 .f32) (xs0 : Vec F S1024x512 .f32) :
    out3_C_4 (F := F) c i arg2 harg2 arg3 harg3 arg4 harg4 arg5 harg5 arg6 harg6 arg7 harg7 hc0 hc1 x0 x1 x2 x3 xs0 = k3_pay3 x3 (k3_pay2 x1 x2 xs0 x0) := by
  unfold out3_C_4
  rw [View.read_writes_eq_canon _ _ _ (cover3_C_4 c i arg2 harg2 arg3 harg3 arg4 harg4 arg5 harg5 arg6 harg6 arg7 harg7 hc0 hc1 x0 x1 x2 x3 xs0)]
  unfold kernelRun3_C
  dsimp only
  sl_unfold_words
  rw [View.canon_unit_zero (S := S1024x512) hz3, View.readCov_unit_zero (S := S1024x512) _ hz3]
  simp only [View.readAt_eq_ld, harg2.read_unread, harg3.read_unread, harg4.read_unread, harg5.read_unread, harg7.read_unread, View.ld_unit_zero (S := S1024x1024) hz3, View.ld_unit_zero (S := S1024x128) hz3, View.ld_unit_zero (S := S128x512) hz3, View.ld_unit_zero (S := S1x512) hz3, View.ld_unit_zero (S := S1024x512) hz3]

end Cert.KernelIdeal.Hand

end
-- ==== Proof.KI.G3Chain.lean ====
/-
  Region 3: the accumulator scratch after each grid point in closed form (the ordered running sum over the reduction
  tiles, restarted at each row tile's first reduction tile), and the output tile at a row tile's last point.
-/
import proofs.«164907_j26860725469614_1_alg».proof.Proof.KI.G3Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! What one point leaves, by the case it is in. -/

theorem scr3_A (c : Dev nD) (t : Fin cfg3.N) (h0 : t.val % 12 = 0) (h1 : ¬t.val % 12 = 11) :
    (outsAt3 V c t.val t.isLt).2 = k3_pay2 (iblk3 V c 1 t) (iblk3 V c 2 t) (k3_pay1 (F := F)) (iblk3 V c 0 t) := by
  rw [outsAt3_A V c t h0 h1]
  dsimp only
  exact sout3_A_eq c (grid3.coords t) (ms3_0 t) (hs3_0 t) (ms3_1 t) (hs3_1 t) (ms3_2 t) (hs3_2 t) (ms3_3 t) (hs3_3 t) (ms3_4 t) (hs3_4 t) scM3 (Memref.isWhole_whole _) ((hcondF3 t).mpr h0) (fun h => h1 ((hcondL3 t).mp h)) (iblk3 V c 0 t) (iblk3 V c 1 t) (iblk3 V c 2 t) (iblk3 V c 3 t)

theorem scr3_B (c : Dev nD) (t : Fin cfg3.N) (h0 : ¬t.val % 12 = 0) (h1 : ¬t.val % 12 = 11) :
    (outsAt3 V c t.val t.isLt).2 = k3_pay2 (iblk3 V c 1 t) (iblk3 V c 2 t) (outsAt3 V c (t.val - 1) (Nat.lt_of_le_of_lt (Nat.sub_le _ _) t.isLt)).2 (iblk3 V c 0 t) := by
  rw [outsAt3_B V c t h0 h1]
  dsimp only
  exact sout3_B_eq c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) (fun h => h1 ((hcondL3 t).mp h)) (iblk3 V c 0 t) (iblk3 V c 1 t) (iblk3 V c 2 t) (iblk3 V c 3 t) (outsAt3 V c (t.val - 1) (Nat.lt_of_le_of_lt (Nat.sub_le _ _) t.isLt)).2

theorem scr3_C (c : Dev nD) (t : Fin cfg3.N) (h0 : ¬t.val % 12 = 0) (h1 : t.val % 12 = 11) :
    (outsAt3 V c t.val t.isLt).2 = k3_pay2 (iblk3 V c 1 t) (iblk3 V c 2 t) (outsAt3 V c (t.val - 1) (Nat.lt_of_le_of_lt (Nat.sub_le _ _) t.isLt)).2 (iblk3 V c 0 t) := by
  rw [outsAt3_C V c t h0 h1]
  dsimp only
  exact sout3_C_eq c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2

theorem outv3_C (c : Dev nD) (t : Fin cfg3.N) (h0 : ¬t.val % 12 = 0) (h1 : t.val % 12 = 11) :
    (outsAt3 V c t.val t.isLt).1 = k3_pay3 (iblk3 V c 3 t) (k3_pay2 (iblk3 V c 1 t) (iblk3 V c 2 t) (outsAt3 V c (t.val - 1) (Nat.lt_of_le_of_lt (Nat.sub_le _ _) t.isLt)).2 (iblk3 V c 0 t)) := by
  rw [outsAt3_C V c t h0 h1]
  dsimp only
  exact out3_C_eq c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcondF3 t).mp h)) ((hcondL3 t).mpr h1) (iblk3 V c 0 t) (iblk3 V c 1 t) (iblk3 V c 2 t) (iblk3 V c 3 t) (outsAt3 V c (t.val - 1) (Nat.lt_of_le_of_lt (Nat.sub_le _ _) t.isLt)).2

/-- The accumulator after point `n`: at a first reduction tile the cleared block plus the tile's product, otherwise what
    the point before left plus the tile's product. -/
def chain3 (c : Dev nD) : (n : ℕ) → n < cfg3.N → Vec F S1024x512 .f32
  | 0, h => k3_pay2 (iblk3 V c 1 ⟨0, h⟩) (iblk3 V c 2 ⟨0, h⟩) (k3_pay1 (F := F)) (iblk3 V c 0 ⟨0, h⟩)
  | n + 1, h =>
    if (n + 1) % 12 = 0 then k3_pay2 (iblk3 V c 1 ⟨n + 1, h⟩) (iblk3 V c 2 ⟨n + 1, h⟩) (k3_pay1 (F := F)) (iblk3 V c 0 ⟨n + 1, h⟩)
    else k3_pay2 (iblk3 V c 1 ⟨n + 1, h⟩) (iblk3 V c 2 ⟨n + 1, h⟩) (chain3 c n (Nat.lt_of_succ_lt h)) (iblk3 V c 0 ⟨n + 1, h⟩)

theorem chain3_first (c : Dev nD) (n : ℕ) (h : n < cfg3.N) (h0 : n % 12 = 0) :
    chain3 V c n h = k3_pay2 (iblk3 V c 1 ⟨n, h⟩) (iblk3 V c 2 ⟨n, h⟩) (k3_pay1 (F := F)) (iblk3 V c 0 ⟨n, h⟩) := by
  cases n with
  | zero => rfl
  | succ n => exact if_pos h0

theorem chain3_next (c : Dev nD) (n : ℕ) (h : n + 1 < cfg3.N) (h0 : ¬(n + 1) % 12 = 0) :
    chain3 V c (n + 1) h = k3_pay2 (iblk3 V c 1 ⟨n + 1, h⟩) (iblk3 V c 2 ⟨n + 1, h⟩) (chain3 V c n (Nat.lt_of_succ_lt h)) (iblk3 V c 0 ⟨n + 1, h⟩) :=
  if_neg h0

/-- What the recursion over the cases' found pieces leaves in the scratch IS the running sum. -/
theorem scr3_eq (c : Dev nD) : ∀ (n : ℕ) (h : n < cfg3.N), (outsAt3 V c n h).2 = chain3 V c n h
  | 0, h => (scr3_A V c ⟨0, h⟩ (Nat.zero_mod _) (by show ¬(0 % 12 = 11); decide)).trans (chain3_first V c 0 h (Nat.zero_mod _)).symm
  | n + 1, h => by
    by_cases h0 : (n + 1) % 12 = 0
    · have h1 : ¬(n + 1) % 12 = 11 := by omega
      exact (scr3_A V c ⟨n + 1, h⟩ h0 h1).trans (chain3_first V c (n + 1) h h0).symm
    · by_cases h1 : (n + 1) % 12 = 11
      · refine (scr3_C V c ⟨n + 1, h⟩ h0 h1).trans ?_
        rw [chain3_next V c n h h0]
        show k3_pay2 _ _ (outsAt3 V c n _).2 _ = k3_pay2 _ _ (chain3 V c n _) _
        rw [scr3_eq c n]
      · refine (scr3_B V c ⟨n + 1, h⟩ h0 h1).trans ?_
        rw [chain3_next V c n h h0]
        show k3_pay2 _ _ (outsAt3 V c n _).2 _ = k3_pay2 _ _ (chain3 V c n _) _
        rw [scr3_eq c n]

/-- At a row tile's last reduction tile the output tile is the rectified, biased running sum. -/
theorem out3_last (c : Dev nD) (t : Fin cfg3.N) (h1 : t.val % 12 = 11) :
    (outsAt3 V c t.val t.isLt).1 = k3_pay3 (iblk3 V c 3 t) (chain3 V c t.val t.isLt) := by
  have h0 : ¬t.val % 12 = 0 := by omega
  obtain ⟨n, h⟩ := t
  cases n with
  | zero => exact absurd (Nat.zero_mod 12) h0
  | succ n =>
    refine (outv3_C V c ⟨n + 1, h⟩ h0 h1).trans ?_
    rw [chain3_next V c n h h0]
    show k3_pay3 _ (k3_pay2 _ _ (outsAt3 V c n _).2 _) = k3_pay3 _ (k3_pay2 _ _ (chain3 V c n _) _)
    rw [scr3_eq V c n]

end Cert.KernelIdeal.Hand

end
-- ==== Proof.KI.G3Value.lean ====
/-
  Region 3: the result array of one propagation layer, in index form.

  The grid is 12 x 12; point t = 12 i + k handles row tile i (1024 rows of the result) and reduction tile k (1024
  columns of the matrix of edge weights).  Window 0 reads block (i, k) of that matrix, window 1 row block k of the
  features, windows 2 and 3 the whole weight matrix and bias row, window 4 writes row block i of the result after
  the last reduction tile.  Read at an entry, the accumulator after point 12 i + k is the running total of the
  twelve block sums of  Σ_s A(r, s) · (X W)(s, q),  so the tile written at k = 11 is the dense form of the layer.
-/
import proofs.«164907_j26860725469614_1_alg».proof.Proof.KI.G3Chain
import proofs.«164907_j26860725469614_1_alg».proof.Proof.KI.Pay
import proofs.«164907_j26860725469614_1_alg».proof.Proof.LawBlock
import proofs.«164907_j26860725469614_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## Where each window's block sits -/

/-- The block indices over the grid: window 0 is at (i, k), window 1 at (k, 0), windows 2 and 3 at (0, 0), the
    output window at (i, 0), for t = 12 i + k. -/
theorem idx3 : ∀ t : Fin cfg3.N,
    (win3_0.index t 0 = t.val / 12 ∧ win3_0.index t 1 = t.val % 12)
    ∧ (win3_1.index t 0 = t.val % 12 ∧ win3_1.index t 1 = 0)
    ∧ (win3_2.index t 0 = 0 ∧ win3_2.index t 1 = 0)
    ∧ (win3_3.index t 0 = 0 ∧ win3_3.index t 1 = 0)
    ∧ (win3_4.index t 0 = t.val / 12 ∧ win3_4.index t 1 = 0) :=
  (by decide +kernel : ∀ t : Fin grid3.N,
    (win3_0.index t 0 = t.val / 12 ∧ win3_0.index t 1 = t.val % 12)
    ∧ (win3_1.index t 0 = t.val % 12 ∧ win3_1.index t 1 = 0)
    ∧ (win3_2.index t 0 = 0 ∧ win3_2.index t 1 = 0)
    ∧ (win3_3.index t 0 = 0 ∧ win3_3.index t 1 = 0)
    ∧ (win3_4.index t 0 = t.val / 12 ∧ win3_4.index t 1 = 0))

theorem N3_eq : cfg3.N = 144 := N_3

/-- Entry `a` of tile `x` (of twelve tiles of 1024) is below 12288. -/
theorem tile3_lt {x : ℕ} (hx : x < 12) (a : Fin 1024) : x * 1024 + a.val < 12288 := by
  have := a.isLt; omega

/-- Point 12 i + k is on the grid. -/
theorem pt3_lt {i k : ℕ} (hi : i < 12) (hk : k < 12) : 12 * i + k < cfg3.N := by
  have := N3_eq; omega

section Blocks

variable {F : FTy → Type} [FloatOps F]
variable (V : (c : Dev nD) → (b : Ref sig .tc) → Buf (Elt F) ((c : Thread nD τ).loc b))

/-- Window 0's block at point t = 12 i + k is rows 1024 i …, columns 1024 k … of the matrix of edge weights. -/
theorem iblk3_0_apply (c : Dev nD) (t : Fin cfg3.N) {i k : ℕ} (hti : t.val / 12 = i) (htk : t.val % 12 = k)
    (hi : i < 12) (hk : k < 12) (a s : Fin 1024) :
    iblk3 V c 0 t (ix2 a s)
      = V c (Pipeline.arrRef spec3 0)
          (ix2 (⟨i * 1024 + a.val, tile3_lt hi a⟩ : Fin 12288) (⟨k * 1024 + s.val, tile3_lt hk s⟩ : Fin 12288)) := by
  unfold iblk3
  rw [View.read_apply]
  show V c (Pipeline.arrRef spec3 0) _ = V c (Pipeline.arrRef spec3 0) _
  refine congrArg (V c (Pipeline.arrRef spec3 0)) (funext fun ax => Fin.ext ?_)
  match ax with
  | ⟨0, _⟩ =>
    show win3_0.index t 0 * 1024 + 1 * a.val = i * 1024 + a.val
    rw [(idx3 t).1.1, hti]; omega
  | ⟨1, _⟩ =>
    show win3_0.index t 1 * 1024 + 1 * s.val = k * 1024 + s.val
    rw [(idx3 t).1.2, htk]; omega

/-- Window 1's block at point t = 12 i + k is rows 1024 k … of the features. -/
theorem iblk3_1_apply (c : Dev nD) (t : Fin cfg3.N) {k : ℕ} (htk : t.val % 12 = k) (hk : k < 12)
    (s : Fin 1024) (j : Fin 128) :
    iblk3 V c 1 t (ix2 s j)
      = V c (Pipeline.arrRef spec3 1) (ix2 (⟨k * 1024 + s.val, tile3_lt hk s⟩ : Fin 12288) j) := by
  unfold iblk3
  rw [View.read_apply]
  show V c (Pipeline.arrRef spec3 1) _ = V c (Pipeline.arrRef spec3 1) _
  refine congrArg (V c (Pipeline.arrRef spec3 1)) (funext fun ax => Fin.ext ?_)
  match ax with
  | ⟨0, _⟩ =>
    show win3_1.index t 0 * 1024 + 1 * s.val = k * 1024 + s.val
    rw [(idx3 t).2.1.1, htk]; omega
  | ⟨1, _⟩ =>
    show win3_1.index t 1 * 128 + 1 * j.val = j.val
    rw [(idx3 t).2.1.2]; omega

/-- Window 2's block is the whole weight matrix. -/
theorem iblk3_2_apply (c : Dev nD) (t : Fin cfg3.N) (j : Fin 128) (q : Fin 512) :
    iblk3 V c 2 t (ix2 j q) = V c (Pipeline.arrRef spec3 2) (ix2 j q) := by
  unfold iblk3
  rw [View.read_apply]
  show V c (Pipeline.arrRef spec3 2) _ = V c (Pipeline.arrRef spec3 2) _
  refine congrArg (V c (Pipeline.arrRef spec3 2)) (funext fun ax => Fin.ext ?_)
  match ax with
  | ⟨0, _⟩ =>
    show win3_2.index t 0 * 128 + 1 * j.val = j.val
    rw [(idx3 t).2.2.1.1]; omega
  | ⟨1, _⟩ =>
    show win3_2.index t 1 * 512 + 1 * q.val = q.val
    rw [(idx3 t).2.2.1.2]; omega

/-- Window 3's block is the whole bias row. -/
theorem iblk3_3_apply (c : Dev nD) (t : Fin cfg3.N) (z : Fin 1) (q : Fin 512) :
    iblk3 V c 3 t (ix2 z q) = V c (Pipeline.arrRef spec3 3) (ix2 z q) := by
  unfold iblk3
  rw [View.read_apply]
  show V c (Pipeline.arrRef spec3 3) _ = V c (Pipeline.arrRef spec3 3) _
  refine congrArg (V c (Pipeline.arrRef spec3 3)) (funext fun ax => Fin.ext ?_)
  match ax with
  | ⟨0, _⟩ =>
    show win3_3.index t 0 * 1 + 1 * z.val = z.val
    rw [(idx3 t).2.2.2.1.1]; omega
  | ⟨1, _⟩ =>
    show win3_3.index t 1 * 512 + 1 * q.val = q.val
    rw [(idx3 t).2.2.2.1.2]; omega

end Blocks

/-! ## The values, over the extended reals -/

section Value

variable (V : (c : Dev nD) → (b : Ref sig .tc) → Buf (Elt Ideal) ((c : Thread nD τ).loc b))

/-- The four arrays the region reads, as functions of their coordinates: the matrix of edge weights, the features,
    the weight matrix, the bias. -/
abbrev A3 (c : Dev nD) : Fin 12288 → Fin 12288 → EReal := fun r s => V c (Pipeline.arrRef spec3 0) (ix2 r s)
abbrev X3 (c : Dev nD) : Fin 12288 → Fin 128 → EReal := fun s j => V c (Pipeline.arrRef spec3 1) (ix2 s j)
abbrev Wm3 (c : Dev nD) : Fin 128 → Fin 512 → EReal := fun j q => V c (Pipeline.arrRef spec3 2) (ix2 j q)
abbrev b3 (c : Dev nD) : Fin 512 → EReal := fun q => V c (Pipeline.arrRef spec3 3) (ix2 (0 : Fin 1) q)

/-- One summand of the layer's row sum:  A(r, s) · (X W)(s, q). -/
abbrev term3 (c : Dev nD) (r : Fin 12288) (q : Fin 512) (s : Fin 12288) : EReal :=
  A3 V c r s * Cert.Spec.xw (X3 V c) (Wm3 V c) s q

/-- What one point adds to the accumulator at (a, b), over the three blocks it reads. -/
abbrev pointSum3 (v10 : Vec Ideal S1024x1024 .bf16) (v3 : Vec Ideal S1024x128 .bf16) (v5 : Vec Ideal S128x512 .bf16)
    (a : Fin 1024) (b : Fin 512) : EReal :=
  ∑ s : Fin 1024, v10 (ix2 a s) * ∑ j : Fin 128, v3 (ix2 s j) * v5 (ix2 j b)

/-- It depends on the blocks through the entries it reads only. -/
theorem pointSum3_congr (v10 : Vec Ideal S1024x1024 .bf16) (v3 : Vec Ideal S1024x128 .bf16) (v5 : Vec Ideal S128x512 .bf16)
    (a : Fin 1024) (b : Fin 512) (Ar Y : Fin 1024 → EReal)
    (h10 : ∀ s, v10 (ix2 a s) = Ar s) (hY : ∀ s, (∑ j : Fin 128, v3 (ix2 s j) * v5 (ix2 j b)) = Y s) :
    pointSum3 v10 v3 v5 a b = ∑ s : Fin 1024, Ar s * Y s :=
  Finset.sum_congr rfl fun s _ => by rw [h10 s, hY s]

/-- What point 12 i + k adds to the accumulator at (a, b): block k of row 1024 i + a's sum. -/
theorem step3_term (c : Dev nD) {i k : ℕ} (hi : i < 12) (hk : k < 12) (a : Fin 1024) (b : Fin 512) :
    pointSum3 (iblk3 V c 0 ⟨12 * i + k, pt3_lt hi hk⟩) (iblk3 V c 1 ⟨12 * i + k, pt3_lt hi hk⟩)
        (iblk3 V c 2 ⟨12 * i + k, pt3_lt hi hk⟩) a b
      = ∑ s : Fin 1024, term3 V c ⟨i * 1024 + a.val, tile3_lt hi a⟩ b ⟨k * 1024 + s.val, tile3_lt hk s⟩ := by
  have hti : (⟨12 * i + k, pt3_lt hi hk⟩ : Fin cfg3.N).val / 12 = i := by show (12 * i + k) / 12 = i; omega
  have htk : (⟨12 * i + k, pt3_lt hi hk⟩ : Fin cfg3.N).val % 12 = k := by show (12 * i + k) % 12 = k; omega
  refine pointSum3_congr _ _ _ a b
    (fun s => A3 V c ⟨i * 1024 + a.val, tile3_lt hi a⟩ ⟨k * 1024 + s.val, tile3_lt hk s⟩)
    (fun s => Cert.Spec.xw (X3 V c) (Wm3 V c) ⟨k * 1024 + s.val, tile3_lt hk s⟩ b)
    (fun s => iblk3_0_apply V c _ hti htk hi hk a s) (fun s => ?_)
  unfold Cert.Spec.xw
  refine Finset.sum_congr rfl fun j _ => ?_
  rw [iblk3_1_apply V c _ htk hk s j, iblk3_2_apply V c _ j b]

/-- The accumulator at (a, b) after the last reduction tile of row tile i is the whole row sum. -/
theorem chain3_apply (c : Dev nD) {i : ℕ} (hi : i < 12) (a : Fin 1024) (b : Fin 512) :
    chain3 V c (12 * i + 11) (pt3_lt hi (by omega)) (ix2 a b)
      = ∑ s : Fin 12288, term3 V c ⟨i * 1024 + a.val, tile3_lt hi a⟩ b s := by
  refine Cert.Law.block_accumulate_12_1024 (term3 V c ⟨i * 1024 + a.val, tile3_lt hi a⟩ b)
    (fun k hk => chain3 V c (12 * i + k) (pt3_lt hi hk) (ix2 a b)) ?_ ?_
  · show chain3 V c (12 * i + 0) (pt3_lt hi (by omega)) (ix2 a b) = 0 + _
    rw [chain3_first V c (12 * i + 0) (pt3_lt hi (by omega)) (by omega)]
    rw [Cert.KernelIdeal.PayValue.k3_pay2_apply, Cert.KernelIdeal.PayValue.k3_pay1_apply]
    exact congrArg (fun z : EReal => (0 : EReal) + z) (step3_term V c hi (by omega) a b)
  · intro k hk
    show chain3 V c (12 * i + k + 1) (pt3_lt hi hk) (ix2 a b)
      = chain3 V c (12 * i + k) (pt3_lt hi (Nat.lt_of_succ_lt hk)) (ix2 a b) + _
    rw [chain3_next V c (12 * i + k) (pt3_lt hi hk) (by omega)]
    rw [Cert.KernelIdeal.PayValue.k3_pay2_apply]
    exact congrArg (fun z : EReal => (chain3 V c (12 * i + k) (pt3_lt hi (Nat.lt_of_succ_lt hk)) (ix2 a b) : EReal) + z)
      (step3_term V c hi hk a b)

/-- The tile written at the last reduction tile of row tile i, at (a, b), is the layer's dense form at row
    1024 i + a. -/
theorem out3_apply (c : Dev nD) {i : ℕ} (hi : i < 12) (a : Fin 1024) (b : Fin 512) :
    (outsAt3 V c (12 * i + 11) (pt3_lt hi (by omega))).1 (ix2 a b)
      = Cert.Spec.denseLayer (A3 V c) (X3 V c) (Wm3 V c) (b3 V c) ⟨i * 1024 + a.val, tile3_lt hi a⟩ b := by
  refine (congrFun (out3_last V c ⟨12 * i + 11, pt3_lt hi (by omega)⟩ (by show (12 * i + 11) % 12 = 11; omega)) (ix2 a b)).trans ?_
  rw [Cert.KernelIdeal.PayValue.k3_pay3_apply]
  show max (chain3 V c (12 * i + 11) (pt3_lt hi (by omega)) (ix2 a b) + _) 0 = _
  rw [chain3_apply V c hi a b, iblk3_3_apply V c _ (0 : Fin 1) b] <;> rfl

/-- The whole result array in index form: the dense form of the layer. -/
abbrev G3 (c : Dev nD) : Buf (Elt Ideal) ((cfg3.win 4).arr.view.loc (c.tc : Thread nD τ)) :=
  fun (j : S12288x512.Idx) => Cert.Spec.denseLayer (A3 V c) (X3 V c) (Wm3 V c) (b3 V c) (j 0) (j 1)

/-- What a write-back writes is the block of the dense form it covers. -/
theorem flushed3_eq (c : Dev nD) (t : Fin cfg3.N) (hf : (cfg3.win 4).flush t = true) :
    (dat3 V c).flushed 4 t = ((cfg3.win 4).blk t).view.read (Elt Ideal) (G3 V c) := by
  have h11 : t.val % 12 = 11 := (flush3_4 t).mp hf
  have hN := N3_eq
  have hlt := t.isLt
  have hi : t.val / 12 < 12 := by omega
  show (cfg3.win 4).cut (grid3.coords t) ((dat3 V c).after 4 t) = _
  rw [after3_4]
  funext j
  obtain ⟨a, b, rfl⟩ : ∃ (a : Fin 1024) (b : Fin 512), j = ix2 a b := ⟨j 0, j 1, eq_ix2 j⟩
  rw [View.read_apply]
  show (outsAt3 V c t.val t.isLt).1 (ix2 a b)
    = Cert.Spec.denseLayer (A3 V c) (X3 V c) (Wm3 V c) (b3 V c)
        ((((cfg3.win 4).blk t).view.emb (ix2 a b)) 0) ((((cfg3.win 4).blk t).view.emb (ix2 a b)) 1)
  have e0 : (((cfg3.win 4).blk t).view.emb (ix2 a b)) 0 = (⟨t.val / 12 * 1024 + a.val, tile3_lt hi a⟩ : Fin 12288) := by
    apply Fin.ext
    show win3_4.index t 0 * 1024 + 1 * a.val = t.val / 12 * 1024 + a.val
    rw [(idx3 t).2.2.2.2.1]; omega
  have e1 : (((cfg3.win 4).blk t).view.emb (ix2 a b)) 1 = b := by
    apply Fin.ext
    show win3_4.index t 1 * 512 + 1 * b.val = b.val
    rw [(idx3 t).2.2.2.2.2]; omega
  rw [e0, e1]
  have key : ∀ (n : ℕ) (hn : n < cfg3.N), n = 12 * (t.val / 12) + 11 →
      (outsAt3 V c n hn).1 (ix2 a b)
        = Cert.Spec.denseLayer (A3 V c) (X3 V c) (Wm3 V c) (b3 V c) ⟨t.val / 12 * 1024 + a.val, tile3_lt hi a⟩ b := by
    intro n hn e
    subst e
    exact out3_apply V c hi a b
  exact key t.val t.isLt (by omega)

/-- Every row of the result is in the block written at its row tile's last reduction tile. -/
theorem cover3 (c : Dev nD) (i : ((cfg3.win 4).arr.view.loc (c.tc : Thread nD τ)).2.ty.Idx) :
    ∃ t : Fin cfg3.N, (cfg3.win 4).flush t = true ∧ i ∈ ((cfg3.win 4).blk t).view.set := by
  have h0 : (i 0 : ℕ) < 12288 := (i 0).isLt
  have h1 : (i 1 : ℕ) < 512 := (i 1).isLt
  have hr : (i 0 : ℕ) / 1024 < 12 := by omega
  have ht : 12 * ((i 0 : ℕ) / 1024) + 11 < cfg3.N := pt3_lt hr (by omega)
  refine ⟨⟨12 * ((i 0 : ℕ) / 1024) + 11, ht⟩, (flush3_4 _).mpr (by show (12 * ((i 0 : ℕ) / 1024) + 11) % 12 = 11; omega), ?_⟩
  show i ∈ ((View.whole main_v63).slice (win3_4.rect ⟨12 * ((i 0 : ℕ) / 1024) + 11, ht⟩)).set
  rw [View.set_slice_whole, Rect.mem_set_unit]
  intro ax
  match ax with
  | ⟨0, _⟩ =>
    show win3_4.index ⟨12 * ((i 0 : ℕ) / 1024) + 11, ht⟩ 0 * 1024 ≤ (i 0 : ℕ)
      ∧ (i 0 : ℕ) < win3_4.index ⟨12 * ((i 0 : ℕ) / 1024) + 11, ht⟩ 0 * 1024 + 1024
    rw [(idx3 ⟨12 * ((i 0 : ℕ) / 1024) + 11, ht⟩).2.2.2.2.1]
    show (12 * ((i 0 : ℕ) / 1024) + 11) / 12 * 1024 ≤ (i 0 : ℕ) ∧ (i 0 : ℕ) < (12 * ((i 0 : ℕ) / 1024) + 11) / 12 * 1024 + 1024
    omega
  | ⟨1, _⟩ =>
    show win3_4.index ⟨12 * ((i 0 : ℕ) / 1024) + 11, ht⟩ 1 * 512 ≤ (i 1 : ℕ)
      ∧ (i 1 : ℕ) < win3_4.index ⟨12 * ((i 0 : ℕ) / 1024) + 11, ht⟩ 1 * 512 + 512
    rw [(idx3 ⟨12 * ((i 0 : ℕ) / 1024) + 11, ht⟩).2.2.2.2.2]
    omega

/-- The region leaves its result array at the dense form of the layer over the arrays it read. -/
theorem final3_fn (c : Dev nD) : (dat3 V c).arrAt 4 cfg3.N = G3 V c :=
  (dat3 V c).arrAt_eq_of_cover 4 (G3 V c) (flushed3_eq V c) (cover3 c)

theorem final3 (c : Dev nD) (r : Fin 12288) (q : Fin 512) :
    (dat3 V c).arrAt 4 cfg3.N (ix2 r q)
      = Cert.Spec.denseLayer (A3 V c) (X3 V c) (Wm3 V c) (b3 V c) r q :=
  congrFun (final3_fn V c) (ix2 r q)

end Value

end Cert.KernelIdeal.Hand

end
-- ==== Proof.KI.G4Pieces.lean ====
/-
  Region 4: what each case of the body leaves, as the body's arithmetic applied to the blocks it was handed.
  first tile: the scratch ends at  0-block + A_tile (X_tile W);   later tiles: at  what it held + A_tile (X_tile W);
  last tile also: the output tile ends at  max (scratch + bias row, 0).
-/
import proofs.«164907_j26860725469614_1_alg».proof.Proof.KI.G4Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

theorem sout4_A_eq (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : condF4 i) (hc1 : ¬condL4 i)
    (x0 : Vec F S1024x1024 .bf16) (x1 : Vec F S1024x128 .bf16) (x2 : Vec F S128x128 .bf16) (x3 : Vec F S1x128 .f32) :
    sout4_A (F := F) c i arg2 harg2 arg3 harg3 arg4 harg4 arg5 harg5 arg6 harg6 arg7 harg7 hc0 hc1 x0 x1 x2 x3 = k4_pay2 x1 x2 (k4_pay1 (F := F)) x0 := by
  unfold sout4_A
  rw [View.read_writes_eq_canon _ _ _ (scover4_A c i arg2 harg2 arg3 harg3 arg4 harg4 arg5 harg5 arg6 harg6 arg7 harg7 hc0 hc1 x0 x1 x2 x3)]
  unfold kernelRun4_A
  dsimp only
  sl_unfold_words
  rw [View.canon_cons_unit_zero (S := S1024x128) hz4, View.readCov_unit_zero (S := S1024x128) _ hz4]
  simp only [View.readAt_eq_ld, harg2.read_unread, harg3.read_unread, harg4.read_unread, harg5.read_unread, harg7.read_unread, View.ld_unit_zero (S := S1024x1024) hz4, View.ld_unit_zero (S := S1024x128) hz4, View.ld_unit_zero (S := S128x128) hz4, View.ld_unit_zero (S := S1x128) hz4]

theorem sout4_B_eq (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : ¬condL4 i)
    (x0 : Vec F S1024x1024 .bf16) (x1 : Vec F S1024x128 .bf16) (x2 : Vec F S128x128 .bf16) (x3 : Vec F S1x128 .f32) (xs0 : Vec F S1024x128 .f32) :
    sout4_B (F := F) c i arg2 harg2 arg3 harg3 arg4 harg4 arg5 harg5 arg6 harg6 arg7 harg7 hc0 hc1 x0 x1 x2 x3 xs0 = k4_pay2 x1 x2 xs0 x0 := by
  unfold sout4_B
  rw [View.read_writes_eq_canon _ _ _ (scover4_B c i arg2 harg2 arg3 harg3 arg4 harg4 arg5 harg5 arg6 harg6 arg7 harg7 hc0 hc1 x0 x1 x2 x3 xs0)]
  unfold kernelRun4_B
  dsimp only
  sl_unfold_words
  rw [View.canon_unit_zero hz4]
  simp only [View.readAt_eq_ld, harg2.read_unread, harg3.read_unread, harg4.read_unread, harg5.read_unread, harg7.read_unread, View.ld_unit_zero (S := S1024x1024) hz4, View.ld_unit_zero (S := S1024x128) hz4, View.ld_unit_zero (S := S128x128) hz4, View.ld_unit_zero (S := S1x128) hz4]

theorem sout4_C_eq (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) :
    sout4_C (F := F) c i arg2 harg2 arg3 harg3 arg4 harg4 arg5 harg5 arg6 harg6 arg7 harg7 hc0 hc1 x0 x1 x2 x3 xs0 = k4_pay2 x1 x2 xs0 x0 := by
  unfold sout4_C
  rw [View.read_writes_eq_canon _ _ _ (scover4_C c i arg2 harg2 arg3 harg3 arg4 harg4 arg5 harg5 arg6 harg6 arg7 harg7 hc0 hc1 x0 x1 x2 x3 xs0)]
  unfold kernelRun4_C
  dsimp only
  sl_unfold_words
  rw [View.canon_unit_zero hz4]
  simp only [View.readAt_eq_ld, harg2.read_unread, harg3.read_unread, harg4.read_unread, harg5.read_unread, harg7.read_unread, View.ld_unit_zero (S := S1024x1024) hz4, View.ld_unit_zero (S := S1024x128) hz4, View.ld_unit_zero (S := S128x128) hz4, View.ld_unit_zero (S := S1x128) hz4]

theorem out4_C_eq (c : Dev nD) (i : grid4.Coords) (arg2 : Memref sig .tc .vmem S1024x1024 .bf16) (harg2 : arg2.IsWhole) (arg3 : Memref sig .tc .vmem S1024x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬condF4 i) (hc1 : condL4 i)
    (x0 : Vec F S1024x1024 .bf16) (x1 : Vec F S1024x128 .bf16) (x2 : Vec F S128x128 .bf16) (x3 : Vec F S1x128 .f32) (xs0 : Vec F S1024x128 .f32) :
    out4_C_4 (F := F) c i arg2 harg2 arg3 harg3 arg4 harg4 arg5 harg5 arg6 harg6 arg7 harg7 hc0 hc1 x0 x1 x2 x3 xs0 = k4_pay3 x3 (k4_pay2 x1 x2 xs0 x0) := by
  unfold out4_C_4
  rw [View.read_writes_eq_canon _ _ _ (cover4_C_4 c i arg2 harg2 arg3 harg3 arg4 harg4 arg5 harg5 arg6 harg6 arg7 harg7 hc0 hc1 x0 x1 x2 x3 xs0)]
  unfold kernelRun4_C
  dsimp only
  sl_unfold_words
  rw [View.canon_unit_zero (S := S1024x128) hz4, View.readCov_unit_zero (S := S1024x128) _ hz4]
  simp only [View.readAt_eq_ld, harg2.read_unread, harg3.read_unread, harg4.read_unread, harg5.read_unread, harg7.read_unread, View.ld_unit_zero (S := S1024x1024) hz4, View.ld_unit_zero (S := S1024x128) hz4, View.ld_unit_zero (S := S128x128) hz4, View.ld_unit_zero (S := S1x128) hz4]

end Cert.KernelIdeal.Hand

end
-- ==== Proof.KI.G4Chain.lean ====
/-
  Region 4: the accumulator scratch after each grid point in closed form (the ordered running sum over the reduction
  tiles, restarted at each row tile's first reduction tile), and the output tile at a row tile's last point.
-/
import proofs.«164907_j26860725469614_1_alg».proof.Proof.KI.G4Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! What one point leaves, by the case it is in. -/

theorem scr4_A (c : Dev nD) (t : Fin cfg4.N) (h0 : t.val % 12 = 0) (h1 : ¬t.val % 12 = 11) :
    (outsAt4 V c t.val t.isLt).2 = k4_pay2 (iblk4 V c 1 t) (iblk4 V c 2 t) (k4_pay1 (F := F)) (iblk4 V c 0 t) := by
  rw [outsAt4_A V c t h0 h1]
  dsimp only
  exact sout4_A_eq c (grid4.coords t) (ms4_0 t) (hs4_0 t) (ms4_1 t) (hs4_1 t) (ms4_2 t) (hs4_2 t) (ms4_3 t) (hs4_3 t) (ms4_4 t) (hs4_4 t) scM4 (Memref.isWhole_whole _) ((hcondF4 t).mpr h0) (fun h => h1 ((hcondL4 t).mp h)) (iblk4 V c 0 t) (iblk4 V c 1 t) (iblk4 V c 2 t) (iblk4 V c 3 t)

theorem scr4_B (c : Dev nD) (t : Fin cfg4.N) (h0 : ¬t.val % 12 = 0) (h1 : ¬t.val % 12 = 11) :
    (outsAt4 V c t.val t.isLt).2 = k4_pay2 (iblk4 V c 1 t) (iblk4 V c 2 t) (outsAt4 V c (t.val - 1) (Nat.lt_of_le_of_lt (Nat.sub_le _ _) t.isLt)).2 (iblk4 V c 0 t) := by
  rw [outsAt4_B V c t h0 h1]
  dsimp only
  exact sout4_B_eq c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) (fun h => h1 ((hcondL4 t).mp h)) (iblk4 V c 0 t) (iblk4 V c 1 t) (iblk4 V c 2 t) (iblk4 V c 3 t) (outsAt4 V c (t.val - 1) (Nat.lt_of_le_of_lt (Nat.sub_le _ _) t.isLt)).2

theorem scr4_C (c : Dev nD) (t : Fin cfg4.N) (h0 : ¬t.val % 12 = 0) (h1 : t.val % 12 = 11) :
    (outsAt4 V c t.val t.isLt).2 = k4_pay2 (iblk4 V c 1 t) (iblk4 V c 2 t) (outsAt4 V c (t.val - 1) (Nat.lt_of_le_of_lt (Nat.sub_le _ _) t.isLt)).2 (iblk4 V c 0 t) := by
  rw [outsAt4_C V c t h0 h1]
  dsimp only
  exact sout4_C_eq c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2

theorem outv4_C (c : Dev nD) (t : Fin cfg4.N) (h0 : ¬t.val % 12 = 0) (h1 : t.val % 12 = 11) :
    (outsAt4 V c t.val t.isLt).1 = k4_pay3 (iblk4 V c 3 t) (k4_pay2 (iblk4 V c 1 t) (iblk4 V c 2 t) (outsAt4 V c (t.val - 1) (Nat.lt_of_le_of_lt (Nat.sub_le _ _) t.isLt)).2 (iblk4 V c 0 t)) := by
  rw [outsAt4_C V c t h0 h1]
  dsimp only
  exact out4_C_eq c (grid4.coords t) (ms4_0 t) (hs4_0 t) (ms4_1 t) (hs4_1 t) (ms4_2 t) (hs4_2 t) (ms4_3 t) (hs4_3 t) (ms4_4 t) (hs4_4 t) scM4 (Memref.isWhole_whole _) (fun h => h0 ((hcondF4 t).mp h)) ((hcondL4 t).mpr h1) (iblk4 V c 0 t) (iblk4 V c 1 t) (iblk4 V c 2 t) (iblk4 V c 3 t) (outsAt4 V c (t.val - 1) (Nat.lt_of_le_of_lt (Nat.sub_le _ _) t.isLt)).2

/-- The accumulator after point `n`: at a first reduction tile the cleared block plus the tile's product, otherwise what
    the point before left plus the tile's product. -/
def chain4 (c : Dev nD) : (n : ℕ) → n < cfg4.N → Vec F S1024x128 .f32
  | 0, h => k4_pay2 (iblk4 V c 1 ⟨0, h⟩) (iblk4 V c 2 ⟨0, h⟩) (k4_pay1 (F := F)) (iblk4 V c 0 ⟨0, h⟩)
  | n + 1, h =>
    if (n + 1) % 12 = 0 then k4_pay2 (iblk4 V c 1 ⟨n + 1, h⟩) (iblk4 V c 2 ⟨n + 1, h⟩) (k4_pay1 (F := F)) (iblk4 V c 0 ⟨n + 1, h⟩)
    else k4_pay2 (iblk4 V c 1 ⟨n + 1, h⟩) (iblk4 V c 2 ⟨n + 1, h⟩) (chain4 c n (Nat.lt_of_succ_lt h)) (iblk4 V c 0 ⟨n + 1, h⟩)

theorem chain4_first (c : Dev nD) (n : ℕ) (h : n < cfg4.N) (h0 : n % 12 = 0) :
    chain4 V c n h = k4_pay2 (iblk4 V c 1 ⟨n, h⟩) (iblk4 V c 2 ⟨n, h⟩) (k4_pay1 (F := F)) (iblk4 V c 0 ⟨n, h⟩) := by
  cases n with
  | zero => rfl
  | succ n => exact if_pos h0

theorem chain4_next (c : Dev nD) (n : ℕ) (h : n + 1 < cfg4.N) (h0 : ¬(n + 1) % 12 = 0) :
    chain4 V c (n + 1) h = k4_pay2 (iblk4 V c 1 ⟨n + 1, h⟩) (iblk4 V c 2 ⟨n + 1, h⟩) (chain4 V c n (Nat.lt_of_succ_lt h)) (iblk4 V c 0 ⟨n + 1, h⟩) :=
  if_neg h0

/-- What the recursion over the cases' found pieces leaves in the scratch IS the running sum. -/
theorem scr4_eq (c : Dev nD) : ∀ (n : ℕ) (h : n < cfg4.N), (outsAt4 V c n h).2 = chain4 V c n h
  | 0, h => (scr4_A V c ⟨0, h⟩ (Nat.zero_mod _) (by show ¬(0 % 12 = 11); decide)).trans (chain4_first V c 0 h (Nat.zero_mod _)).symm
  | n + 1, h => by
    by_cases h0 : (n + 1) % 12 = 0
    · have h1 : ¬(n + 1) % 12 = 11 := by omega
      exact (scr4_A V c ⟨n + 1, h⟩ h0 h1).trans (chain4_first V c (n + 1) h h0).symm
    · by_cases h1 : (n + 1) % 12 = 11
      · refine (scr4_C V c ⟨n + 1, h⟩ h0 h1).trans ?_
        rw [chain4_next V c n h h0]
        show k4_pay2 _ _ (outsAt4 V c n _).2 _ = k4_pay2 _ _ (chain4 V c n _) _
        rw [scr4_eq c n]
      · refine (scr4_B V c ⟨n + 1, h⟩ h0 h1).trans ?_
        rw [chain4_next V c n h h0]
        show k4_pay2 _ _ (outsAt4 V c n _).2 _ = k4_pay2 _ _ (chain4 V c n _) _
        rw [scr4_eq c n]

/-- At a row tile's last reduction tile the output tile is the rectified, biased running sum. -/
theorem out4_last (c : Dev nD) (t : Fin cfg4.N) (h1 : t.val % 12 = 11) :
    (outsAt4 V c t.val t.isLt).1 = k4_pay3 (iblk4 V c 3 t) (chain4 V c t.val t.isLt) := by
  have h0 : ¬t.val % 12 = 0 := by omega
  obtain ⟨n, h⟩ := t
  cases n with
  | zero => exact absurd (Nat.zero_mod 12) h0
  | succ n =>
    refine (outv4_C V c ⟨n + 1, h⟩ h0 h1).trans ?_
    rw [chain4_next V c n h h0]
    show k4_pay3 _ (k4_pay2 _ _ (outsAt4 V c n _).2 _) = k4_pay3 _ (k4_pay2 _ _ (chain4 V c n _) _)
    rw [scr4_eq V c n]

end Cert.KernelIdeal.Hand

end
-- ==== Proof.KI.G4Value.lean ====
/-
  Region 4: the result array of one propagation layer, in index form.

  The grid is 12 x 12; point t = 12 i + k handles row tile i (1024 rows of the result) and reduction tile k (1024
  columns of the matrix of edge weights).  Window 0 reads block (i, k) of that matrix, window 1 row block k of the
  features, windows 2 and 3 the whole weight matrix and bias row, window 4 writes row block i of the result after
  the last reduction tile.  Read at an entry, the accumulator after point 12 i + k is the running total of the
  twelve block sums of  Σ_s A(r, s) · (X W)(s, q),  so the tile written at k = 11 is the dense form of the layer.
-/
import proofs.«164907_j26860725469614_1_alg».proof.Proof.KI.G4Chain
import proofs.«164907_j26860725469614_1_alg».proof.Proof.KI.Pay
import proofs.«164907_j26860725469614_1_alg».proof.Proof.LawBlock
import proofs.«164907_j26860725469614_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## Where each window's block sits -/

/-- The block indices over the grid: window 0 is at (i, k), window 1 at (k, 0), windows 2 and 3 at (0, 0), the
    output window at (i, 0), for t = 12 i + k. -/
theorem idx4 : ∀ t : Fin cfg4.N,
    (win4_0.index t 0 = t.val / 12 ∧ win4_0.index t 1 = t.val % 12)
    ∧ (win4_1.index t 0 = t.val % 12 ∧ win4_1.index t 1 = 0)
    ∧ (win4_2.index t 0 = 0 ∧ win4_2.index t 1 = 0)
    ∧ (win4_3.index t 0 = 0 ∧ win4_3.index t 1 = 0)
    ∧ (win4_4.index t 0 = t.val / 12 ∧ win4_4.index t 1 = 0) :=
  (by decide +kernel : ∀ t : Fin grid4.N,
    (win4_0.index t 0 = t.val / 12 ∧ win4_0.index t 1 = t.val % 12)
    ∧ (win4_1.index t 0 = t.val % 12 ∧ win4_1.index t 1 = 0)
    ∧ (win4_2.index t 0 = 0 ∧ win4_2.index t 1 = 0)
    ∧ (win4_3.index t 0 = 0 ∧ win4_3.index t 1 = 0)
    ∧ (win4_4.index t 0 = t.val / 12 ∧ win4_4.index t 1 = 0))

theorem N4_eq : cfg4.N = 144 := N_4

/-- Entry `a` of tile `x` (of twelve tiles of 1024) is below 12288. -/
theorem tile4_lt {x : ℕ} (hx : x < 12) (a : Fin 1024) : x * 1024 + a.val < 12288 := by
  have := a.isLt; omega

/-- Point 12 i + k is on the grid. -/
theorem pt4_lt {i k : ℕ} (hi : i < 12) (hk : k < 12) : 12 * i + k < cfg4.N := by
  have := N4_eq; omega

section Blocks

variable {F : FTy → Type} [FloatOps F]
variable (V : (c : Dev nD) → (b : Ref sig .tc) → Buf (Elt F) ((c : Thread nD τ).loc b))

/-- Window 0's block at point t = 12 i + k is rows 1024 i …, columns 1024 k … of the matrix of edge weights. -/
theorem iblk4_0_apply (c : Dev nD) (t : Fin cfg4.N) {i k : ℕ} (hti : t.val / 12 = i) (htk : t.val % 12 = k)
    (hi : i < 12) (hk : k < 12) (a s : Fin 1024) :
    iblk4 V c 0 t (ix2 a s)
      = V c (Pipeline.arrRef spec4 0)
          (ix2 (⟨i * 1024 + a.val, tile4_lt hi a⟩ : Fin 12288) (⟨k * 1024 + s.val, tile4_lt hk s⟩ : Fin 12288)) := by
  unfold iblk4
  rw [View.read_apply]
  show V c (Pipeline.arrRef spec4 0) _ = V c (Pipeline.arrRef spec4 0) _
  refine congrArg (V c (Pipeline.arrRef spec4 0)) (funext fun ax => Fin.ext ?_)
  match ax with
  | ⟨0, _⟩ =>
    show win4_0.index t 0 * 1024 + 1 * a.val = i * 1024 + a.val
    rw [(idx4 t).1.1, hti]; omega
  | ⟨1, _⟩ =>
    show win4_0.index t 1 * 1024 + 1 * s.val = k * 1024 + s.val
    rw [(idx4 t).1.2, htk]; omega

/-- Window 1's block at point t = 12 i + k is rows 1024 k … of the features. -/
theorem iblk4_1_apply (c : Dev nD) (t : Fin cfg4.N) {k : ℕ} (htk : t.val % 12 = k) (hk : k < 12)
    (s : Fin 1024) (j : Fin 128) :
    iblk4 V c 1 t (ix2 s j)
      = V c (Pipeline.arrRef spec4 1) (ix2 (⟨k * 1024 + s.val, tile4_lt hk s⟩ : Fin 12288) j) := by
  unfold iblk4
  rw [View.read_apply]
  show V c (Pipeline.arrRef spec4 1) _ = V c (Pipeline.arrRef spec4 1) _
  refine congrArg (V c (Pipeline.arrRef spec4 1)) (funext fun ax => Fin.ext ?_)
  match ax with
  | ⟨0, _⟩ =>
    show win4_1.index t 0 * 1024 + 1 * s.val = k * 1024 + s.val
    rw [(idx4 t).2.1.1, htk]; omega
  | ⟨1, _⟩ =>
    show win4_1.index t 1 * 128 + 1 * j.val = j.val
    rw [(idx4 t).2.1.2]; omega

/-- Window 2's block is the whole weight matrix. -/
theorem iblk4_2_apply (c : Dev nD) (t : Fin cfg4.N) (j : Fin 128) (q : Fin 128) :
    iblk4 V c 2 t (ix2 j q) = V c (Pipeline.arrRef spec4 2) (ix2 j q) := by
  unfold iblk4
  rw [View.read_apply]
  show V c (Pipeline.arrRef spec4 2) _ = V c (Pipeline.arrRef spec4 2) _
  refine congrArg (V c (Pipeline.arrRef spec4 2)) (funext fun ax => Fin.ext ?_)
  match ax with
  | ⟨0, _⟩ =>
    show win4_2.index t 0 * 128 + 1 * j.val = j.val
    rw [(idx4 t).2.2.1.1]; omega
  | ⟨1, _⟩ =>
    show win4_2.index t 1 * 128 + 1 * q.val = q.val
    rw [(idx4 t).2.2.1.2]; omega

/-- Window 3's block is the whole bias row. -/
theorem iblk4_3_apply (c : Dev nD) (t : Fin cfg4.N) (z : Fin 1) (q : Fin 128) :
    iblk4 V c 3 t (ix2 z q) = V c (Pipeline.arrRef spec4 3) (ix2 z q) := by
  unfold iblk4
  rw [View.read_apply]
  show V c (Pipeline.arrRef spec4 3) _ = V c (Pipeline.arrRef spec4 3) _
  refine congrArg (V c (Pipeline.arrRef spec4 3)) (funext fun ax => Fin.ext ?_)
  match ax with
  | ⟨0, _⟩ =>
    show win4_3.index t 0 * 1 + 1 * z.val = z.val
    rw [(idx4 t).2.2.2.1.1]; omega
  | ⟨1, _⟩ =>
    show win4_3.index t 1 * 128 + 1 * q.val = q.val
    rw [(idx4 t).2.2.2.1.2]; omega

end Blocks

/-! ## The values, over the extended reals -/

section Value

variable (V : (c : Dev nD) → (b : Ref sig .tc) → Buf (Elt Ideal) ((c : Thread nD τ).loc b))

/-- The four arrays the region reads, as functions of their coordinates: the matrix of edge weights, the features,
    the weight matrix, the bias. -/
abbrev A4 (c : Dev nD) : Fin 12288 → Fin 12288 → EReal := fun r s => V c (Pipeline.arrRef spec4 0) (ix2 r s)
abbrev X4 (c : Dev nD) : Fin 12288 → Fin 128 → EReal := fun s j => V c (Pipeline.arrRef spec4 1) (ix2 s j)
abbrev Wm4 (c : Dev nD) : Fin 128 → Fin 128 → EReal := fun j q => V c (Pipeline.arrRef spec4 2) (ix2 j q)
abbrev b4 (c : Dev nD) : Fin 128 → EReal := fun q => V c (Pipeline.arrRef spec4 3) (ix2 (0 : Fin 1) q)

/-- One summand of the layer's row sum:  A(r, s) · (X W)(s, q). -/
abbrev term4 (c : Dev nD) (r : Fin 12288) (q : Fin 128) (s : Fin 12288) : EReal :=
  A4 V c r s * Cert.Spec.xw (X4 V c) (Wm4 V c) s q

/-- What one point adds to the accumulator at (a, b), over the three blocks it reads. -/
abbrev pointSum4 (v10 : Vec Ideal S1024x1024 .bf16) (v3 : Vec Ideal S1024x128 .bf16) (v5 : Vec Ideal S128x128 .bf16)
    (a : Fin 1024) (b : Fin 128) : EReal :=
  ∑ s : Fin 1024, v10 (ix2 a s) * ∑ j : Fin 128, v3 (ix2 s j) * v5 (ix2 j b)

/-- It depends on the blocks through the entries it reads only. -/
theorem pointSum4_congr (v10 : Vec Ideal S1024x1024 .bf16) (v3 : Vec Ideal S1024x128 .bf16) (v5 : Vec Ideal S128x128 .bf16)
    (a : Fin 1024) (b : Fin 128) (Ar Y : Fin 1024 → EReal)
    (h10 : ∀ s, v10 (ix2 a s) = Ar s) (hY : ∀ s, (∑ j : Fin 128, v3 (ix2 s j) * v5 (ix2 j b)) = Y s) :
    pointSum4 v10 v3 v5 a b = ∑ s : Fin 1024, Ar s * Y s :=
  Finset.sum_congr rfl fun s _ => by rw [h10 s, hY s]

/-- What point 12 i + k adds to the accumulator at (a, b): block k of row 1024 i + a's sum. -/
theorem step4_term (c : Dev nD) {i k : ℕ} (hi : i < 12) (hk : k < 12) (a : Fin 1024) (b : Fin 128) :
    pointSum4 (iblk4 V c 0 ⟨12 * i + k, pt4_lt hi hk⟩) (iblk4 V c 1 ⟨12 * i + k, pt4_lt hi hk⟩)
        (iblk4 V c 2 ⟨12 * i + k, pt4_lt hi hk⟩) a b
      = ∑ s : Fin 1024, term4 V c ⟨i * 1024 + a.val, tile4_lt hi a⟩ b ⟨k * 1024 + s.val, tile4_lt hk s⟩ := by
  have hti : (⟨12 * i + k, pt4_lt hi hk⟩ : Fin cfg4.N).val / 12 = i := by show (12 * i + k) / 12 = i; omega
  have htk : (⟨12 * i + k, pt4_lt hi hk⟩ : Fin cfg4.N).val % 12 = k := by show (12 * i + k) % 12 = k; omega
  refine pointSum4_congr _ _ _ a b
    (fun s => A4 V c ⟨i * 1024 + a.val, tile4_lt hi a⟩ ⟨k * 1024 + s.val, tile4_lt hk s⟩)
    (fun s => Cert.Spec.xw (X4 V c) (Wm4 V c) ⟨k * 1024 + s.val, tile4_lt hk s⟩ b)
    (fun s => iblk4_0_apply V c _ hti htk hi hk a s) (fun s => ?_)
  unfold Cert.Spec.xw
  refine Finset.sum_congr rfl fun j _ => ?_
  rw [iblk4_1_apply V c _ htk hk s j, iblk4_2_apply V c _ j b]

/-- The accumulator at (a, b) after the last reduction tile of row tile i is the whole row sum. -/
theorem chain4_apply (c : Dev nD) {i : ℕ} (hi : i < 12) (a : Fin 1024) (b : Fin 128) :
    chain4 V c (12 * i + 11) (pt4_lt hi (by omega)) (ix2 a b)
      = ∑ s : Fin 12288, term4 V c ⟨i * 1024 + a.val, tile4_lt hi a⟩ b s := by
  refine Cert.Law.block_accumulate_12_1024 (term4 V c ⟨i * 1024 + a.val, tile4_lt hi a⟩ b)
    (fun k hk => chain4 V c (12 * i + k) (pt4_lt hi hk) (ix2 a b)) ?_ ?_
  · show chain4 V c (12 * i + 0) (pt4_lt hi (by omega)) (ix2 a b) = 0 + _
    rw [chain4_first V c (12 * i + 0) (pt4_lt hi (by omega)) (by omega)]
    rw [Cert.KernelIdeal.PayValue.k4_pay2_apply, Cert.KernelIdeal.PayValue.k4_pay1_apply]
    exact congrArg (fun z : EReal => (0 : EReal) + z) (step4_term V c hi (by omega) a b)
  · intro k hk
    show chain4 V c (12 * i + k + 1) (pt4_lt hi hk) (ix2 a b)
      = chain4 V c (12 * i + k) (pt4_lt hi (Nat.lt_of_succ_lt hk)) (ix2 a b) + _
    rw [chain4_next V c (12 * i + k) (pt4_lt hi hk) (by omega)]
    rw [Cert.KernelIdeal.PayValue.k4_pay2_apply]
    exact congrArg (fun z : EReal => (chain4 V c (12 * i + k) (pt4_lt hi (Nat.lt_of_succ_lt hk)) (ix2 a b) : EReal) + z)
      (step4_term V c hi hk a b)

/-- The tile written at the last reduction tile of row tile i, at (a, b), is the layer's dense form at row
    1024 i + a. -/
theorem out4_apply (c : Dev nD) {i : ℕ} (hi : i < 12) (a : Fin 1024) (b : Fin 128) :
    (outsAt4 V c (12 * i + 11) (pt4_lt hi (by omega))).1 (ix2 a b)
      = Cert.Spec.denseLayer (A4 V c) (X4 V c) (Wm4 V c) (b4 V c) ⟨i * 1024 + a.val, tile4_lt hi a⟩ b := by
  refine (congrFun (out4_last V c ⟨12 * i + 11, pt4_lt hi (by omega)⟩ (by show (12 * i + 11) % 12 = 11; omega)) (ix2 a b)).trans ?_
  rw [Cert.KernelIdeal.PayValue.k4_pay3_apply]
  show max (chain4 V c (12 * i + 11) (pt4_lt hi (by omega)) (ix2 a b) + _) 0 = _
  rw [chain4_apply V c hi a b, iblk4_3_apply V c _ (0 : Fin 1) b] <;> rfl

/-- The whole result array in index form: the dense form of the layer. -/
abbrev G4 (c : Dev nD) : Buf (Elt Ideal) ((cfg4.win 4).arr.view.loc (c.tc : Thread nD τ)) :=
  fun (j : S12288x128.Idx) => Cert.Spec.denseLayer (A4 V c) (X4 V c) (Wm4 V c) (b4 V c) (j 0) (j 1)

/-- What a write-back writes is the block of the dense form it covers. -/
theorem flushed4_eq (c : Dev nD) (t : Fin cfg4.N) (hf : (cfg4.win 4).flush t = true) :
    (dat4 V c).flushed 4 t = ((cfg4.win 4).blk t).view.read (Elt Ideal) (G4 V c) := by
  have h11 : t.val % 12 = 11 := (flush4_4 t).mp hf
  have hN := N4_eq
  have hlt := t.isLt
  have hi : t.val / 12 < 12 := by omega
  show (cfg4.win 4).cut (grid4.coords t) ((dat4 V c).after 4 t) = _
  rw [after4_4]
  funext j
  obtain ⟨a, b, rfl⟩ : ∃ (a : Fin 1024) (b : Fin 128), j = ix2 a b := ⟨j 0, j 1, eq_ix2 j⟩
  rw [View.read_apply]
  show (outsAt4 V c t.val t.isLt).1 (ix2 a b)
    = Cert.Spec.denseLayer (A4 V c) (X4 V c) (Wm4 V c) (b4 V c)
        ((((cfg4.win 4).blk t).view.emb (ix2 a b)) 0) ((((cfg4.win 4).blk t).view.emb (ix2 a b)) 1)
  have e0 : (((cfg4.win 4).blk t).view.emb (ix2 a b)) 0 = (⟨t.val / 12 * 1024 + a.val, tile4_lt hi a⟩ : Fin 12288) := by
    apply Fin.ext
    show win4_4.index t 0 * 1024 + 1 * a.val = t.val / 12 * 1024 + a.val
    rw [(idx4 t).2.2.2.2.1]; omega
  have e1 : (((cfg4.win 4).blk t).view.emb (ix2 a b)) 1 = b := by
    apply Fin.ext
    show win4_4.index t 1 * 128 + 1 * b.val = b.val
    rw [(idx4 t).2.2.2.2.2]; omega
  rw [e0, e1]
  have key : ∀ (n : ℕ) (hn : n < cfg4.N), n = 12 * (t.val / 12) + 11 →
      (outsAt4 V c n hn).1 (ix2 a b)
        = Cert.Spec.denseLayer (A4 V c) (X4 V c) (Wm4 V c) (b4 V c) ⟨t.val / 12 * 1024 + a.val, tile4_lt hi a⟩ b := by
    intro n hn e
    subst e
    exact out4_apply V c hi a b
  exact key t.val t.isLt (by omega)

/-- Every row of the result is in the block written at its row tile's last reduction tile. -/
theorem cover4 (c : Dev nD) (i : ((cfg4.win 4).arr.view.loc (c.tc : Thread nD τ)).2.ty.Idx) :
    ∃ t : Fin cfg4.N, (cfg4.win 4).flush t = true ∧ i ∈ ((cfg4.win 4).blk t).view.set := by
  have h0 : (i 0 : ℕ) < 12288 := (i 0).isLt
  have h1 : (i 1 : ℕ) < 128 := (i 1).isLt
  have hr : (i 0 : ℕ) / 1024 < 12 := by omega
  have ht : 12 * ((i 0 : ℕ) / 1024) + 11 < cfg4.N := pt4_lt hr (by omega)
  refine ⟨⟨12 * ((i 0 : ℕ) / 1024) + 11, ht⟩, (flush4_4 _).mpr (by show (12 * ((i 0 : ℕ) / 1024) + 11) % 12 = 11; omega), ?_⟩
  show i ∈ ((View.whole main_v67).slice (win4_4.rect ⟨12 * ((i 0 : ℕ) / 1024) + 11, ht⟩)).set
  rw [View.set_slice_whole, Rect.mem_set_unit]
  intro ax
  match ax with
  | ⟨0, _⟩ =>
    show win4_4.index ⟨12 * ((i 0 : ℕ) / 1024) + 11, ht⟩ 0 * 1024 ≤ (i 0 : ℕ)
      ∧ (i 0 : ℕ) < win4_4.index ⟨12 * ((i 0 : ℕ) / 1024) + 11, ht⟩ 0 * 1024 + 1024
    rw [(idx4 ⟨12 * ((i 0 : ℕ) / 1024) + 11, ht⟩).2.2.2.2.1]
    show (12 * ((i 0 : ℕ) / 1024) + 11) / 12 * 1024 ≤ (i 0 : ℕ) ∧ (i 0 : ℕ) < (12 * ((i 0 : ℕ) / 1024) + 11) / 12 * 1024 + 1024
    omega
  | ⟨1, _⟩ =>
    show win4_4.index ⟨12 * ((i 0 : ℕ) / 1024) + 11, ht⟩ 1 * 128 ≤ (i 1 : ℕ)
      ∧ (i 1 : ℕ) < win4_4.index ⟨12 * ((i 0 : ℕ) / 1024) + 11, ht⟩ 1 * 128 + 128
    rw [(idx4 ⟨12 * ((i 0 : ℕ) / 1024) + 11, ht⟩).2.2.2.2.2]
    omega

/-- The region leaves its result array at the dense form of the layer over the arrays it read. -/
theorem final4_fn (c : Dev nD) : (dat4 V c).arrAt 4 cfg4.N = G4 V c :=
  (dat4 V c).arrAt_eq_of_cover 4 (G4 V c) (flushed4_eq V c) (cover4 c)

theorem final4 (c : Dev nD) (r : Fin 12288) (q : Fin 128) :
    (dat4 V c).arrAt 4 cfg4.N (ix2 r q)
      = Cert.Spec.denseLayer (A4 V c) (X4 V c) (Wm4 V c) (b4 V c) r q :=
  congrFun (final4_fn V c) (ix2 r q)

end Value

end Cert.KernelIdeal.Hand

end
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.KI.AHatValue.lean ====
/-
  The last kernel region's result, entry by entry, at the extended reals.

  At grid point (i, j) the body stores the product of row block i with the transpose of row block j of the input.
  Entry (a, b) of that tile is the sum over the 128 columns of the products of the two rows' entries; the tiles
  cover the 12288 x 12288 output, so after the region the output holds, at (r, r'), the sum over the columns of
  the products of row r and row r' of the input as the region found it.
-/
import proofs.«164907_j26860725469614_1_alg».proof.Proof.KI.AHat
import proofs.«164907_j26860725469614_1_alg».proof.Proof.LibNtMatmul
import proofs.«164907_j26860725469614_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz5 : (![0, 0] : Fin 2 → Nat) = fun _ => 0 := funext fun a => by fin_cases a <;> rfl

/-- The printed contraction is the product against a transposed right operand. -/
theorem dot5_eq : dot_S1024x128_S1024x128_S1024x1024_1_1_0_0_n_n = DotDims.transposedRhs 1024 128 1024 := rfl

/-- The stored tile at an entry: the sum over the columns of the products of the two rows' entries. -/
theorem pay5_apply (x0 x1 : Vec Ideal S1024x128 .bf16) (a b : Fin 1024) :
    k5_pay1 (F := Ideal) x0 x1 (ix2 a b) = ∑ j : Fin 128, x0 (ix2 a j) * x1 (ix2 b j) := by
  unfold k5_pay1
  simp only [shapeCast_self]
  rw [dot5_eq]
  exact Cert.LibNtMatmul.matmul_nt_zero_apply none x0 x1 a b

/-- The input times its own transpose, entry by entry. -/
def gram (S : S12288x128.Idx → Elt Ideal .bf16) : S12288x12288.Idx → Elt Ideal .f32 :=
  fun i => ∑ j : Fin 128, S (ix2 (i 0) j) * S (ix2 (i 1) j)

section Value5

variable (V : (c : Dev nD) → (b : Ref sig .tc) → Buf (Elt Ideal) ((c : Thread nD τ).loc b))

/-- The printed index maps, decided over the grid: the first input window sits on the output tile's row block, the
    second on its column block, both at column block 0; the output's block indices stay below 12. -/
theorem idx_facts5 : ∀ t : Fin cfg5.N,
    win5_0.index t (0 : Fin 2) = win5_2.index t (0 : Fin 2) ∧ win5_0.index t (1 : Fin 2) = 0
    ∧ win5_1.index t (0 : Fin 2) = win5_2.index t (1 : Fin 2) ∧ win5_1.index t (1 : Fin 2) = 0
    ∧ win5_2.index t (0 : Fin 2) ≤ 11 ∧ win5_2.index t (1 : Fin 2) ≤ 11 :=
  (by decide +kernel : ∀ t : Fin grid5.N, _)

/-- Every tile of the output is some point's. -/
theorem idx_onto5 : ∀ (q0 q1 : Fin 12), ∃ t : Fin cfg5.N, win5_2.index t = ![q0.val, q1.val] :=
  (by decide +kernel : ∀ (q0 q1 : Fin 12), ∃ t : Fin grid5.N, win5_2.index t = ![q0.val, q1.val])

/-- What point `t` writes back is tile `t` of the product of the input, as the region found it, with its transpose. -/
theorem flushed5_eq (c : Dev nD) (t : Fin cfg5.N) :
    (dat5 V c).flushed 2 t = ((cfg5.win 2).blk t).view.read (Elt Ideal) (gram (V c main_v68)) := by
  show (cfg5.win 2).cut (grid5.coords t) ((dat5 V c).after 2 t) = _
  rw [after5_2]
  unfold out5_2
  rw [View.canon_unit_zero hz5]
  simp only [View.ld_unit_zero (S := S1024x128) hz5]
  obtain ⟨e0, e1, e2, e3, -, -⟩ := idx_facts5 t
  funext y
  obtain ⟨a, b, rfl⟩ : ∃ (a : Fin 1024) (b : Fin 1024), y = ix2 a b := ⟨y 0, y 1, eq_ix2 y⟩
  show k5_pay1 (F := Ideal) (iblk5 V c 0 t) (iblk5 V c 1 t) (ix2 a b) = gram (V c main_v68) (((cfg5.win 2).blk t).view.emb (ix2 a b))
  refine (pay5_apply (iblk5 V c 0 t) (iblk5 V c 1 t) a b).trans ?_
  unfold gram
  refine Finset.sum_congr rfl fun j _ => ?_
  have h0 : iblk5 V c 0 t (ix2 a j) = V c main_v68 (ix2 ((((cfg5.win 2).blk t).view.emb (ix2 a b)) 0) j) := by
    show V c main_v68 (((cfg5.win 0).blk t).view.emb (ix2 a j)) = _
    refine congrArg (V c main_v68) (funext fun ax => Fin.ext ?_)
    match ax with
    | ⟨0, _⟩ => show win5_0.index t (0 : Fin 2) * 1024 + 1 * a.val = win5_2.index t (0 : Fin 2) * 1024 + 1 * a.val; omega
    | ⟨1, _⟩ => show win5_0.index t (1 : Fin 2) * 128 + 1 * j.val = j.val; omega
  have h1 : iblk5 V c 1 t (ix2 b j) = V c main_v68 (ix2 ((((cfg5.win 2).blk t).view.emb (ix2 a b)) 1) j) := by
    show V c main_v68 (((cfg5.win 1).blk t).view.emb (ix2 b j)) = _
    refine congrArg (V c main_v68) (funext fun ax => Fin.ext ?_)
    match ax with
    | ⟨0, _⟩ => show win5_1.index t (0 : Fin 2) * 1024 + 1 * b.val = win5_2.index t (1 : Fin 2) * 1024 + 1 * b.val; omega
    | ⟨1, _⟩ => show win5_1.index t (1 : Fin 2) * 128 + 1 * j.val = j.val; omega
  rw [h0, h1]

/-- An index of the output is in point `t`'s tile iff each coordinate is in the tile's range on its axis. -/
theorem mem_blk5 (t : Fin cfg5.N) (i : S12288x12288.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole main_v69).slice (win5_2.rect t)).set ↔ _
  rw [View.set_slice_whole, Rect.mem_set_unit]
  exact Iff.rfl

/-- The tiles cover the output: entry (r, r') is in the tile of the point at row block r / 1024, column block r' / 1024. -/
theorem cover5 (i : S12288x12288.Idx) : ∃ t : Fin cfg5.N, (cfg5.win 2).flush t = true ∧ i ∈ ((cfg5.win 2).blk t).view.set := by
  have hi0 : (i 0).val < 12288 := (i 0).isLt
  have hi1 : (i 1).val < 12288 := (i 1).isLt
  obtain ⟨t, ht⟩ := idx_onto5 ⟨(i 0).val / 1024, by omega⟩ ⟨(i 1).val / 1024, by omega⟩
  have q0 : win5_2.index t (0 : Fin 2) = (i 0).val / 1024 := congrFun ht 0
  have q1 : win5_2.index t (1 : Fin 2) = (i 1).val / 1024 := congrFun ht 1
  refine ⟨t, flush5_2 t, ?_⟩
  rw [mem_blk5]
  intro a
  match a with
  | ⟨0, _⟩ => show win5_2.index t (0 : Fin 2) * 1024 ≤ (i 0).val ∧ (i 0).val < win5_2.index t (0 : Fin 2) * 1024 + 1024; omega
  | ⟨1, _⟩ => show win5_2.index t (1 : Fin 2) * 1024 ≤ (i 1).val ∧ (i 1).val < win5_2.index t (1 : Fin 2) * 1024 + 1024; omega

/-- THE OUTPUT after the region: the input, as the region found it, times its own transpose. -/
theorem final5 (c : Dev nD) : (dat5 V c).arrAt 2 cfg5.N = gram (V c main_v68) :=
  (dat5 V c).arrAt_eq_of_cover 2 (gram (V c main_v68)) (fun t _ => flushed5_eq V c t) cover5

/-- The input, as the region finds it, read as a matrix of extended reals: one row per node. -/
def rows5 (c : Dev nD) : Fin 12288 → Fin 128 → EReal :=
  fun r j => (V c main_v68 : S12288x128.Idx → EReal) (ix2 r j)

/-- The same, entry by entry: the Gram matrix of the input's rows. -/
theorem final5_apply (c : Dev nD) (r r' : Fin 12288) :
    ((dat5 V c).arrAt 2 cfg5.N : S12288x12288.Idx → EReal) (ix2 r r') = Cert.Spec.gram (rows5 V c) r r' := by
  rw [final5]; rfl

end Value5

end Cert.KernelIdeal.Hand

end
-- ==== Proof.KI.NetAHat.lean ====
/-
  The first result of the kernel program, entry by entry, at the extended reals: the Gram matrix of the rows of the
  last layer's output.

  The product region reads the last layer's output after a cast to the narrower float format, which at the extended
  reals changes nothing; its result array is untouched by anything after it.
-/
import proofs.«164907_j26860725469614_1_alg».proof.Proof.KI.Main
import proofs.«164907_j26860725469614_1_alg».proof.Proof.KI.ChainVals
import proofs.«164907_j26860725469614_1_alg».proof.Proof.KI.AHatReg
import proofs.«164907_j26860725469614_1_alg».proof.Proof.KI.AHatValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The last layer's output array, as the product region's entry finds it, read as a matrix: one row per node. -/
def srows (c : Dev nD) : Fin 12288 → Fin 128 → EReal :=
  fun r j => (W12 m ρ r0 r1 r2 r3 r4 c main_v67 : S12288x128.Idx → EReal) (ix2 r j)

/-- What the product region reads is that matrix: the cast in between is the identity at the extended reals. -/
theorem rows5_eq_srows (c : Dev nD) : rows5 (V13 m ρ r0 r1 r2 r3 r4) c = srows m ρ c := by
  funext r j
  show (W13 m ρ r0 r1 r2 r3 r4 c main_v68 : S12288x128.Idx → EReal) (ix2 r j) = _
  exact congrFun (W13_main_v68 m ρ r0 r1 r2 r3 r4 c) (ix2 r j)

/-- THE FIRST RESULT: at the end of @main the product's array holds, at (r, r'), the sum over the columns of the
    products of rows r and r' of the last layer's output. -/
theorem ahat_value (c : Dev nD) (r r' : Fin 12288) :
    (Wend m ρ r5 c main_v69 : S12288x12288.Idx → EReal) (ix2 r r') = Cert.Spec.gram (srows m ρ c) r r' :=
  (congrFun (W14_out m ρ r0 r1 r2 r3 r4 r5 c) (ix2 r r')).trans
    ((final5_apply (V13 m ρ r0 r1 r2 r3 r4) c r r').trans (by rw [rows5_eq_srows]))

end Cert.KernelIdeal.Hand

end
-- ==== Proof.KI.NetFinal.lean ====
/-
  The kernel program's two results as the network in its dense form, with every region's value in place.

  Each layer region leaves the dense layer of the arrays it was launched on, and the last region the Gram matrix of
  the structure decoder's output; with these the composition along the program gives, for index pairs in the node
  range, the reconstructed features and the reconstructed adjacency of the specification's network over the dense
  matrix of normalised edge weights.
-/
import proofs.«164907_j26860725469614_1_alg».proof.Proof.KI.NetValue
import proofs.«164907_j26860725469614_1_alg».proof.Proof.KI.G0Value
import proofs.«164907_j26860725469614_1_alg».proof.Proof.KI.G1Value
import proofs.«164907_j26860725469614_1_alg».proof.Proof.KI.G2Value
import proofs.«164907_j26860725469614_1_alg».proof.Proof.KI.G3Value
import proofs.«164907_j26860725469614_1_alg».proof.Proof.KI.G4Value
import proofs.«164907_j26860725469614_1_alg».proof.Proof.KI.NetAHat

set_option maxRecDepth 16384

noncomputable section

namespace Cert.KernelIdeal.NetValue

open Cert.KernelIdeal Cert.KernelIdeal.Gen Cert.KernelIdeal.Hand Cert.KernelIdeal.HostValue
open Idealize.ShloMosaic Idealize.ShloMosaic.TcCoe Idealize.ShloMosaic.ValueIdx
open Idealize.SL.Sem
open Cert.Spec Cert.Args

/-- What each layer region leaves. -/
theorem layer0 : Layer0Fact := fun V c r q => final0 V c r q
theorem layer1 : Layer1Fact := fun V c r q => final1 V c r q
theorem layer2 : Layer2Fact := fun V c r q => final2 V c r q
theorem layer3 : Layer3Fact := fun V c r q => final3 V c r q
theorem layer4 : Layer4Fact := fun V c r q => final4 V c r q

variable (m : (ℓ : Loc nD τ sig) → Buf (Elt Ideal) ℓ) (ρ : Dev nD → PrngReg) (c : Dev nD)

/-- THE RECONSTRUCTED FEATURES. -/
theorem xhat_value (h : Cert.Terms.InRange (eiA m c)) (r : Fin NN) (q : Fin 512) :
    (Wend m ρ r5 c main_v63 : S12288x512.Idx → EReal) (ix2 r q) = (netDense (Adj m c) (XA m c) (PA m c)).xhat r q :=
  net_xhat m ρ c layer0 layer1 layer2 layer3 r5 h r q

/-- THE RECONSTRUCTED ADJACENCY. -/
theorem ahat_value_net (h : Cert.Terms.InRange (eiA m c)) (r r' : Fin NN) :
    (Wend m ρ r5 c main_v69 : S12288x12288.Idx → EReal) (ix2 r r') = (netDense (Adj m c) (XA m c) (PA m c)).ahat r r' :=
  net_ahat_of m ρ c layer0 layer1 layer4 r5 h (fun r r' => ahat_value m ρ c r r') r r'

end Cert.KernelIdeal.NetValue

end
-- ==== Proof.AlgebraicFinal.lean ====
/-
  The algebraic claim, with the kernel side put in.

  The kernel's run ends with its two result arrays at the last boundary's contents and its arguments unchanged; those
  contents are, entry by entry, the network in the dense form, given what each of the six regions leaves in its output
  array (one statement per region).  With the reference's results and the equality of the two forms this is the claim.
-/
import proofs.«164907_j26860725469614_1_alg».proof.Proof.Algebraic
import proofs.«164907_j26860725469614_1_alg».proof.Proof.KI.Frames
import proofs.«164907_j26860725469614_1_alg».proof.Proof.KI.NetValue
import proofs.«164907_j26860725469614_1_alg».proof.Proof.KI.NetFinal

set_option maxRecDepth 16384

noncomputable section

namespace Cert.Proof.Alg

open Idealize.ShloMosaic Idealize.ShloMosaic.TcCoe Idealize.SL.Sem Idealize.ShloMosaic.ValueIdx
open Cert.KernelIdeal.Hand Cert.KernelIdeal.NetValue

/-- The claim from the six regions' statements. -/
theorem algebraic_of_facts (L0 : Layer0Fact) (L1 : Layer1Fact) (L2 : Layer2Fact) (L3 : Layer3Fact) (L4 : Layer4Fact)
    (G : GramFact) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  algebraic_of
    (fun m ρ c => Wend m ρ r5 c Cert.KernelIdeal.main_v69)
    (fun m ρ c => Wend m ρ r5 c Cert.KernelIdeal.main_v63)
    (fun m ρ _ => kernel_run (F := Ideal) m ρ)
    (fun m ρ c hr r r' => net_ahat m ρ c L0 L1 L4 G hr r r')
    (fun m ρ c hr r q => net_xhat m ρ c L0 L1 L2 L3 r5 hr r q)

/-- THE ALGEBRAIC CLAIM: from memories that agree on the arguments and satisfy the precondition, both programs run,
    end with equal results, and leave their arguments unchanged. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  algebraic_of
    (fun m ρ c => Wend m ρ r5 c Cert.KernelIdeal.main_v69)
    (fun m ρ c => Wend m ρ r5 c Cert.KernelIdeal.main_v63)
    (fun m ρ _ => kernel_run (F := Ideal) m ρ)
    (fun m ρ c hr r r' => ahat_value_net m ρ c hr r r')
    (fun m ρ c hr r q => xhat_value m ρ c hr r q)

end Cert.Proof.Alg

end
-- ==== Proof.lean ====
/-
  The kernel computes a five-layer graph network and a Gram matrix through six tiled kernel regions; the reference
  computes the same network from the edge list.  Writing an edge e as (src e → dst e) with the symmetric weight
  nrm e = d^{-1/2}(src e) · w e · d^{-1/2}(dst e), one layer of the reference is

      max ( Σ_{e : dst e = r} nrm e · (X W)(src e, q) + b q , 0 ),

  while the kernel first collects the weights into the dense matrix A(r, s) = Σ_{e : dst e = r, src e = s} nrm e and
  computes  max ( Σ_s A(r, s) · (X W)(s, q) + b q , 0 )  tile by tile: for each tile of 1024 rows it sums the products
  of the twelve column tiles of A with the matching row tiles of X W in a running accumulator and adds the bias and
  rectifies after the last one.  On real numbers the two agree by distributing each A(r, s) over its edges and
  exchanging the two sums; the inputs are finite by the precondition, every edge weight is then a real number
  (a degree is a finite sum of real weights and its inverse square root is taken only where it is positive), and so
  is every layer's output, which carries the argument through the five layers.  The node indices are assumed to lie in
  [0, 12288): outside that range the reference's own indexing is out of range.

  The three frames: the reference is a straight-line host program; each kernel program runs its fourteen segments
  (host operations and six kernel regions) in order, each region's body at every grid point keeping the invariant
  "the accumulator holds the running sum of the tiles seen so far in this row tile".
-/
import proofs.«164907_j26860725469614_1_alg».proof.Defs
import proofs.«164907_j26860725469614_1_alg».proof.Proof.Gen.Kernel
import proofs.«164907_j26860725469614_1_alg».proof.Proof.Gen.KernelIdeal
import proofs.«164907_j26860725469614_1_alg».proof.Proof.Gen.ReferenceIdeal
import proofs.«164907_j26860725469614_1_alg».proof.Proof.Gen.Pre_finite_inputs
import proofs.«164907_j26860725469614_1_alg».proof.Proof.KW.Frames
import proofs.«164907_j26860725469614_1_alg».proof.Proof.KI.Frames
import proofs.«164907_j26860725469614_1_alg».proof.Proof.RefFrame
import proofs.«164907_j26860725469614_1_alg».proof.Proof.AlgebraicFinal
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_p (F := Bits) m ρ,
    fun m ρ _ => Cert.KernelIdeal.Hand.frame_pi (F := Ideal) m ρ,
    Cert.ReferenceIdeal.RefValue.frame_ri,
    trivial,
    Cert.Proof.Alg.algebraic⟩

end Cert.Proof

end
